-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_inputs_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S256x512 .f32) (main_arg1 : FVec F S512x8192 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x8192 : Shape := ⟨2, ![256, 8192]⟩
abbrev S8x256x512 : Shape := ⟨3, ![8, 256, 512]⟩
abbrev S256x1 : Shape := ⟨2, ![256, 1]⟩
abbrev S8 : Shape := ⟨1, ![8]⟩
abbrev S_ : Shape := ⟨0, ![]⟩
abbrev S512x512 : Shape := ⟨2, ![512, 512]⟩
abbrev S256 : Shape := ⟨1, ![256]⟩
abbrev S1x256x512 : Shape := ⟨3, ![1, 256, 512]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .bf16⟩
  | .local _ .vmem, ⟨0, _⟩ => ⟨S256x512, .f32⟩
  | .local _ .vmem, ⟨1, _⟩ => ⟨S512x4096, .f32⟩
  | .local _ .vmem, ⟨2, _⟩ => ⟨S256x8192, .bf16⟩
  | .local _ .vmem, ⟨3, _⟩ => ⟨S8x256x512, .bf16⟩
  | .local _ .vmem, ⟨4, _⟩ => ⟨S8x256x512, .bf16⟩
  | .local _ .vmem, ⟨5, _⟩ => ⟨S256x1, .bf16⟩
  | .local _ .vmem, ⟨6, _⟩ => ⟨S256x1, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  { ofTc nBuf bufTy 1 21 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_21 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_20 : BitVec 32 := 16#32
  let v33 : BitVec 32 := Scalar.muli v9 c16_i32_20
  let v34 : BitVec 32 := Scalar.addi c0_i32_21 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v35 : BitVec 32 := Scalar.muli v5 c4_i32_22
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v37 : BitVec 32 := Scalar.muli v8 c1_i32_23
  let v38 : BitVec 32 := Scalar.addi v36 v37
  v38.toNat
def k0_dev3 (d0 : Dev nD) : Nat :=
  let c0_i32_38 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_37 : BitVec 32 := 16#32
  let v59 : BitVec 32 := Scalar.muli v9 c16_i32_37
  let v60 : BitVec 32 := Scalar.addi c0_i32_38 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v61 : BitVec 32 := Scalar.muli v5 c4_i32_39
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v63 : BitVec 32 := Scalar.muli v8 c1_i32_40
  let v64 : BitVec 32 := Scalar.addi v62 v63
  v64.toNat
def k0_dev4 (d0 : Dev nD) : Nat :=
  let c0_i32_55 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_54 : BitVec 32 := 16#32
  let v85 : BitVec 32 := Scalar.muli v9 c16_i32_54
  let v86 : BitVec 32 := Scalar.addi c0_i32_55 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v87 : BitVec 32 := Scalar.muli v5 c4_i32_56
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v89 : BitVec 32 := Scalar.muli v8 c1_i32_57
  let v90 : BitVec 32 := Scalar.addi v88 v89
  v90.toNat
def k0_dev5 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v111 : BitVec 32 := Scalar.muli v9 c16_i32_70
  let v112 : BitVec 32 := Scalar.addi c0_i32_71 v111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v113 : BitVec 32 := Scalar.muli v5 c4_i32_72
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v115 : BitVec 32 := Scalar.muli v8 c1_i32_73
  let v116 : BitVec 32 := Scalar.addi v114 v115
  v116.toNat
def k0_dev6 (d0 : Dev nD) : Nat :=
  let c0_i32_88 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_87 : BitVec 32 := 16#32
  let v137 : BitVec 32 := Scalar.muli v9 c16_i32_87
  let v138 : BitVec 32 := Scalar.addi c0_i32_88 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v139 : BitVec 32 := Scalar.muli v5 c4_i32_89
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v141 : BitVec 32 := Scalar.muli v8 c1_i32_90
  let v142 : BitVec 32 := Scalar.addi v140 v141
  v142.toNat
def k0_dev7 (d0 : Dev nD) : Nat :=
  let c0_i32_104 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_103 : BitVec 32 := 16#32
  let v163 : BitVec 32 := Scalar.muli v9 c16_i32_103
  let v164 : BitVec 32 := Scalar.addi c0_i32_104 v163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_105 : BitVec 32 := 4#32
  let v165 : BitVec 32 := Scalar.muli v5 c4_i32_105
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v167 : BitVec 32 := Scalar.muli v8 c1_i32_106
  let v168 : BitVec 32 := Scalar.addi v166 v167
  v168.toNat
def k0_dev8 (d0 : Dev nD) : Nat :=
  let c0_i32_124 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_123 : BitVec 32 := 16#32
  let v205 : BitVec 32 := Scalar.muli v9 c16_i32_123
  let v206 : BitVec 32 := Scalar.addi c0_i32_124 v205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_125 : BitVec 32 := 4#32
  let v207 : BitVec 32 := Scalar.muli v5 c4_i32_125
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v209 : BitVec 32 := Scalar.muli v8 c1_i32_126
  let v210 : BitVec 32 := Scalar.addi v208 v209
  v210.toNat
def k0_dev9 (d0 : Dev nD) : Nat :=
  let c0_i32_131 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_130 : BitVec 32 := 16#32
  let v211 : BitVec 32 := Scalar.muli v9 c16_i32_130
  let v212 : BitVec 32 := Scalar.addi c0_i32_131 v211
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_132 : BitVec 32 := 4#32
  let v213 : BitVec 32 := Scalar.muli v5 c4_i32_132
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v215 : BitVec 32 := Scalar.muli v8 c1_i32_133
  let v216 : BitVec 32 := Scalar.addi v214 v215
  v216.toNat
def k0_dev10 (d0 : Dev nD) : Nat :=
  let c0_i32_142 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_141 : BitVec 32 := 16#32
  let v225 : BitVec 32 := Scalar.muli v9 c16_i32_141
  let v226 : BitVec 32 := Scalar.addi c0_i32_142 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_143 : BitVec 32 := 4#32
  let v227 : BitVec 32 := Scalar.muli v5 c4_i32_143
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v229 : BitVec 32 := Scalar.muli v8 c1_i32_144
  let v230 : BitVec 32 := Scalar.addi v228 v229
  v230.toNat
def k0_off1 (d0 : Dev nD) (c0_i32_161 : BitVec 32) : Fin 2 → Nat :=
  let c0_162 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v250 : BitVec 32 := Scalar.muli v2 c4096_i32
  let v259 : BitVec 32 := Scalar.addi v250 c0_i32_161
  let v260 : Index := Scalar.indexCast v259
  ![0, v260.toNat]
def k0_off2 (d0 : Dev nD) (c0_i32_206 : BitVec 32) : Fin 2 → Nat :=
  let c0_207 : Index := 0#32
  let c1_i32_156 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v251 : BitVec 32 := Scalar.subi c1_i32_156 v2
  let c4096_i32_157 : BitVec 32 := 4096#32
  let v252 : BitVec 32 := Scalar.muli v251 c4096_i32_157
  let v343 : BitVec 32 := Scalar.addi v252 c0_i32_206
  let v344 : Index := Scalar.indexCast v343
  ![0, v344.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x4096_S512x512_0_0 : ∀ a, (![0, 0] : Fin 2 → Nat) a + S512x512.size a ≤ S512x4096.size a
  h_S512x512 : 0 < S512x512.numel
  shapeCasts_S512x512_S512x512 : S512x512.ShapeCasts S512x512
  reduces_S256x512_S256 : S256x512.Reduces [1] S256
  shapeCasts_S256_S256x1 : S256.ShapeCasts S256x1
  inb_S8x256x512_S1x256x512_0_0_0 : ∀ a, (![0, 0, 0] : Fin 3 → Nat) a + S1x256x512.size a ≤ S8x256x512.size a
  h_S1x256x512 : 0 < S1x256x512.numel
  shapeCasts_S1x256x512_S256x512 : S1x256x512.ShapeCasts S256x512
  shapeCasts_S256x512_S1x256x512 : S256x512.ShapeCasts S1x256x512
  packedbf16_S8x256x512_S1x256x512_0_0_0 : (Rect.unit (s := S8x256x512) ![0, 0, 0] S1x256x512.size inb_S8x256x512_S1x256x512_0_0_0).PackedRows (EltTy.packing .bf16)
  inb_S8_S1_0 : ∀ a, (![0] : Fin 1 → Nat) a + S1.size a ≤ S8.size a
  squeezes_S1_S_ : S1.Squeezes S_
  squeezes_S1x256x512_S256x512 : S1x256x512.Squeezes S256x512
  wordsbf16_S8x256x512_S1x256x512_0_0_0 : (Rect.unit (s := S8x256x512) ![0, 0, 0] S1x256x512.size inb_S8x256x512_S1x256x512_0_0_0).WholeWords (EltTy.packing .bf16)
  inb_S512x4096_S512x512_0_512 : ∀ a, (![0, 512] : Fin 2 → Nat) a + S512x512.size a ≤ S512x4096.size a
  inb_S8x256x512_S1x256x512_1_0_0 : ∀ a, (![1, 0, 0] : Fin 3 → Nat) a + S1x256x512.size a ≤ S8x256x512.size a
  packedbf16_S8x256x512_S1x256x512_1_0_0 : (Rect.unit (s := S8x256x512) ![1, 0, 0] S1x256x512.size inb_S8x256x512_S1x256x512_1_0_0).PackedRows (EltTy.packing .bf16)
  inb_S8_S1_1 : ∀ a, (![1] : Fin 1 → Nat) a + S1.size a ≤ S8.size a
  wordsbf16_S8x256x512_S1x256x512_1_0_0 : (Rect.unit (s := S8x256x512) ![1, 0, 0] S1x256x512.size inb_S8x256x512_S1x256x512_1_0_0).WholeWords (EltTy.packing .bf16)
  inb_S512x4096_S512x512_0_1024 : ∀ a, (![0, 1024] : Fin 2 → Nat) a + S512x512.size a ≤ S512x4096.size a
  inb_S8x256x512_S1x256x512_2_0_0 : ∀ a, (![2, 0, 0] : Fin 3 → Nat) a + S1x256x512.size a ≤ S8x256x512.size a
  packedbf16_S8x256x512_S1x256x512_2_0_0 : (Rect.unit (s := S8x256x512) ![2, 0, 0] S1x256x512.size inb_S8x256x512_S1x256x512_2_0_0).PackedRows (EltTy.packing .bf16)
  inb_S8_S1_2 : ∀ a, (![2] : Fin 1 → Nat) a + S1.size a ≤ S8.size a
  wordsbf16_S8x256x512_S1x256x512_2_0_0 : (Rect.unit (s := S8x256x512) ![2, 0, 0] S1x256x512.size inb_S8x256x512_S1x256x512_2_0_0).WholeWords (EltTy.packing .bf16)
  inb_S512x4096_S512x512_0_1536 : ∀ a, (![0, 1536] : Fin 2 → Nat) a + S512x512.size a ≤ S512x4096.size a
  inb_S8x256x512_S1x256x512_3_0_0 : ∀ a, (![3, 0, 0] : Fin 3 → Nat) a + S1x256x512.size a ≤ S8x256x512.size a
  packedbf16_S8x256x512_S1x256x512_3_0_0 : (Rect.unit (s := S8x256x512) ![3, 0, 0] S1x256x512.size inb_S8x256x512_S1x256x512_3_0_0).PackedRows (EltTy.packing .bf16)
  inb_S8_S1_3 : ∀ a, (![3] : Fin 1 → Nat) a + S1.size a ≤ S8.size a
  wordsbf16_S8x256x512_S1x256x512_3_0_0 : (Rect.unit (s := S8x256x512) ![3, 0, 0] S1x256x512.size inb_S8x256x512_S1x256x512_3_0_0).WholeWords (EltTy.packing .bf16)
  inb_S512x4096_S512x512_0_2048 : ∀ a, (![0, 2048] : Fin 2 → Nat) a + S512x512.size a ≤ S512x4096.size a
  inb_S8x256x512_S1x256x512_4_0_0 : ∀ a, (![4, 0, 0] : Fin 3 → Nat) a + S1x256x512.size a ≤ S8x256x512.size a
  packedbf16_S8x256x512_S1x256x512_4_0_0 : (Rect.unit (s := S8x256x512) ![4, 0, 0] S1x256x512.size inb_S8x256x512_S1x256x512_4_0_0).PackedRows (EltTy.packing .bf16)
  inb_S8_S1_4 : ∀ a, (![4] : Fin 1 → Nat) a + S1.size a ≤ S8.size a
  wordsbf16_S8x256x512_S1x256x512_4_0_0 : (Rect.unit (s := S8x256x512) ![4, 0, 0] S1x256x512.size inb_S8x256x512_S1x256x512_4_0_0).WholeWords (EltTy.packing .bf16)
  inb_S512x4096_S512x512_0_2560 : ∀ a, (![0, 2560] : Fin 2 → Nat) a + S512x512.size a ≤ S512x4096.size a
  inb_S8x256x512_S1x256x512_5_0_0 : ∀ a, (![5, 0, 0] : Fin 3 → Nat) a + S1x256x512.size a ≤ S8x256x512.size a
  packedbf16_S8x256x512_S1x256x512_5_0_0 : (Rect.unit (s := S8x256x512) ![5, 0, 0] S1x256x512.size inb_S8x256x512_S1x256x512_5_0_0).PackedRows (EltTy.packing .bf16)
  inb_S8_S1_5 : ∀ a, (![5] : Fin 1 → Nat) a + S1.size a ≤ S8.size a
  wordsbf16_S8x256x512_S1x256x512_5_0_0 : (Rect.unit (s := S8x256x512) ![5, 0, 0] S1x256x512.size inb_S8x256x512_S1x256x512_5_0_0).WholeWords (EltTy.packing .bf16)
  inb_S512x4096_S512x512_0_3072 : ∀ a, (![0, 3072] : Fin 2 → Nat) a + S512x512.size a ≤ S512x4096.size a
  inb_S8x256x512_S1x256x512_6_0_0 : ∀ a, (![6, 0, 0] : Fin 3 → Nat) a + S1x256x512.size a ≤ S8x256x512.size a
  packedbf16_S8x256x512_S1x256x512_6_0_0 : (Rect.unit (s := S8x256x512) ![6, 0, 0] S1x256x512.size inb_S8x256x512_S1x256x512_6_0_0).PackedRows (EltTy.packing .bf16)
  inb_S512x4096_S512x512_0_3584 : ∀ a, (![0, 3584] : Fin 2 → Nat) a + S512x512.size a ≤ S512x4096.size a
  inb_S8x256x512_S1x256x512_7_0_0 : ∀ a, (![7, 0, 0] : Fin 3 → Nat) a + S1x256x512.size a ≤ S8x256x512.size a
  packedbf16_S8x256x512_S1x256x512_7_0_0 : (Rect.unit (s := S8x256x512) ![7, 0, 0] S1x256x512.size inb_S8x256x512_S1x256x512_7_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  packedbf16_S256x1_S256x1_0_0 : (Rect.unit (s := S256x1) ![0, 0] S256x1.size inb_S256x1_S256x1_0_0).PackedRows (EltTy.packing .bf16)
  inb_S8_S1_6 : ∀ a, (![6] : Fin 1 → Nat) a + S1.size a ≤ S8.size a
  wordsbf16_S8x256x512_S1x256x512_6_0_0 : (Rect.unit (s := S8x256x512) ![6, 0, 0] S1x256x512.size inb_S8x256x512_S1x256x512_6_0_0).WholeWords (EltTy.packing .bf16)
  inb_S8_S1_7 : ∀ a, (![7] : Fin 1 → Nat) a + S1.size a ≤ S8.size a
  wordsbf16_S8x256x512_S1x256x512_7_0_0 : (Rect.unit (s := S8x256x512) ![7, 0, 0] S1x256x512.size inb_S8x256x512_S1x256x512_7_0_0).WholeWords (EltTy.packing .bf16)
  broadcasts_S256x1_S256x512 : S256x1.Broadcasts S256x512
  dot_S256x512_S512x512_S256x512_1_0_0_1_n_n_wf : DotDims.WF S256x512 S512x512 S256x512 [1] [0] [0] [1] [] []
  hcc0_scratch4 : 3 + S8.numel ≤ 21
  hcc0_scratch5 : 11 + S8.numel ≤ 21
  hcc0_scratch6 : 19 + S_.numel ≤ 21
  hcc0_scratch7 : 20 + S_.numel ≤ 21
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off1_inb : ∀ d0 : Dev nD, ∀ (r : Fin 8), ∀ a, (k0_off1 d0 (BitVec.ofNat 32 (512 * r.val))) a + S256x512.size a ≤ S256x8192.size a
  k0_off1_packedbf16 : ∀ d0 : Dev nD, ∀ (r : Fin 8), (Rect.unit (s := S256x8192) (k0_off1 d0 (BitVec.ofNat 32 (512 * r.val))) S256x512.size (k0_off1_inb d0 r)).PackedRows (EltTy.packing .bf16)
  k0_off2_inb : ∀ d0 : Dev nD, ∀ (r : Fin 8), ∀ a, (k0_off2 d0 (BitVec.ofNat 32 (512 * r.val))) a + S256x512.size a ≤ S256x8192.size a
  k0_off2_packedbf16 : ∀ d0 : Dev nD, ∀ (r : Fin 8), (Rect.unit (s := S256x8192) (k0_off2 d0 (BitVec.ofNat 32 (512 * r.val))) S256x512.size (k0_off2_inb d0 r)).PackedRows (EltTy.packing .bf16)
  hstage0_0 : ∀ j, (stage0_0 j).IsWhole
  hstage0_1 : ∀ j, (stage0_1 j).IsWhole
  hstage0_2 : ∀ j, (stage0_2 j).IsWhole

variable [Facts₀]

abbrev cc0_scratch4 : DmaSems sig S8 := SemArray.consecutive 3 S8 hcc0_scratch4
abbrev cc0_scratch5 : DmaSems sig S8 := SemArray.consecutive 11 S8 hcc0_scratch5
abbrev cc0_scratch6 : DmaSems sig S_ := SemArray.consecutive 19 S_ hcc0_scratch6
abbrev cc0_scratch7 : DmaSems sig S_ := SemArray.consecutive 20 S_ hcc0_scratch7
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 15
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | .hbm, ⟨14, _⟩ => ⟨S256x8192, .bf16⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  reducesTo_S256x8192_S256_d1 : S256x8192.ReducesTo [1] S256
  h_S_ : 0 < S_.numel
  bcast_S256_S256x1_0 : S256.BroadcastsInDim S256x1 (![0] : Fin 1 → Fin S256x1.rank)
  bcast_S256x1_S256x8192_0_1 : S256x1.BroadcastsInDim S256x8192 (![0, 1] : Fin 2 → Fin S256x8192.rank)
  bitsLt_bf16_f32 : FTy.bits .bf16 < FTy.bits .f32
  dot_S256x512_S512x8192_S256x8192_1_0_0_1_n_n_wf : DotDims.WF S256x512 S512x8192 S256x8192 [1] [0] [0] [1] [] []

variable [Facts₀]

def dot_S256x512_S512x8192_S256x8192_1_0_0_1_n_n : DotDims S256x512 S512x8192 S256x8192 where
  lhsContracting := [1]
  rhsContracting := [0]
  lhsNonContracting := [0]
  rhsNonContracting := [1]
  lhsBatch := []
  rhsBatch := []
  wf := dot_S256x512_S512x8192_S256x8192_1_0_0_1_n_n_wf

class Facts : Prop extends Facts₀ where

variable [Facts]
-- ==== Proof.Proto.lean ====
/-
  A two-device exchange, repeated on sixteen disjoint pairs of a mesh of thirty-two: device `c` and its partner
  `peer c` (the device whose first mesh coordinate is flipped: `c ± 16`) each compute eight column chunks of
  `exp (x · W_c)` and the row sums of all of them, send every chunk and the row sums to the partner, and divide
  both their own chunks and the received ones by the sum of the two row-sum vectors.

  This module fixes the vocabulary of that exchange: the partner map, the nineteen semaphore cells of a device
  (the entry handshake, eight send cells, eight receive cells, the row-sum send and receive cells), and the
  one-round schedule that says who pays which cell and what the payment hands the cell's owner.
-/
import proofs.«900347_g7700000000000348_dist_arsfmx_v7x_xyz2x4x4_x_t256_d512_v4096_bf16_1_alg».proof.Proof.Gen.KernelIdeal
import proofs.«900347_g7700000000000348_dist_arsfmx_v7x_xyz2x4x4_x_t256_d512_v4096_bf16_1_alg».proof.Proof.Gen.KernelIdeal.Skeleton
import proofs.«900347_g7700000000000348_dist_arsfmx_v7x_xyz2x4x4_x_t256_d512_v4096_bf16_1_alg».proof.Proof.Gen.KernelIdeal.Launch
import proofs.«900347_g7700000000000348_dist_arsfmx_v7x_xyz2x4x4_x_t256_d512_v4096_bf16_1_alg».proof.Proof.Gen.KernelIdeal.Points
import proofs.«900347_g7700000000000348_dist_arsfmx_v7x_xyz2x4x4_x_t256_d512_v4096_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside one for the exchange's cells (one duty a cell) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

/-- The partner of device `c`: the same second and third mesh coordinates, the first one flipped. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- Flipping the first coordinate is an involution of the mesh. -/
def flip : Dev nD ≃ Dev nD := ⟨peer, peer, peer_peer, peer_peer⟩

theorem dev_closed : ∀ c : Dev nD, (4 * ((c.val / 4) % 4) + (c.val % 4) + 16) - 16 * (c.val / 16) = (peer c).val := by decide

/-- Every device-id chain of the body names the partner. -/
theorem dev1_eq (c : Dev nD) : (⟨k0_dev1 c, k0_dev1_lt c⟩ : Dev nD) = peer c := Fin.ext ((k0_dev1_eq c).trans (dev_closed c))
theorem dev2_eq (c : Dev nD) : (⟨k0_dev2 c, k0_dev2_lt c⟩ : Dev nD) = peer c := Fin.ext ((k0_dev2_eq c).trans (dev_closed c))
theorem dev3_eq (c : Dev nD) : (⟨k0_dev3 c, k0_dev3_lt c⟩ : Dev nD) = peer c := Fin.ext ((k0_dev3_eq c).trans (dev_closed c))
theorem dev4_eq (c : Dev nD) : (⟨k0_dev4 c, k0_dev4_lt c⟩ : Dev nD) = peer c := Fin.ext ((k0_dev4_eq c).trans (dev_closed c))
theorem dev5_eq (c : Dev nD) : (⟨k0_dev5 c, k0_dev5_lt c⟩ : Dev nD) = peer c := Fin.ext ((k0_dev5_eq c).trans (dev_closed c))
theorem dev6_eq (c : Dev nD) : (⟨k0_dev6 c, k0_dev6_lt c⟩ : Dev nD) = peer c := Fin.ext ((k0_dev6_eq c).trans (dev_closed c))
theorem dev7_eq (c : Dev nD) : (⟨k0_dev7 c, k0_dev7_lt c⟩ : Dev nD) = peer c := Fin.ext ((k0_dev7_eq c).trans (dev_closed c))
theorem dev8_eq (c : Dev nD) : (⟨k0_dev8 c, k0_dev8_lt c⟩ : Dev nD) = peer c := Fin.ext ((k0_dev8_eq c).trans (dev_closed c))
theorem dev9_eq (c : Dev nD) : (⟨k0_dev9 c, k0_dev9_lt c⟩ : Dev nD) = peer c := Fin.ext ((k0_dev9_eq c).trans (dev_closed c))
theorem dev10_eq (c : Dev nD) : (⟨k0_dev10 c, k0_dev10_lt c⟩ : Dev nD) = peer c := Fin.ext ((k0_dev10_eq c).trans (dev_closed c))

/-! ## The buffers -/

abbrev xM : Memref sig .tc .vmem S256x512 .f32 := Memref.whole cc0_stg0_0
abbrev wM : Memref sig .tc .vmem S512x4096 .f32 := Memref.whole cc0_stg1_0
abbrev oM : Memref sig .tc .vmem S256x8192 .bf16 := Memref.whole cc0_stg2_0
/-- The eight chunks a device sends, -/
abbrev sbM : Memref sig .tc .vmem S8x256x512 .bf16 := Memref.whole cc0_scratch0
/-- the eight it receives, -/
abbrev rbM : Memref sig .tc .vmem S8x256x512 .bf16 := Memref.whole cc0_scratch1
/-- its own row sums as sent, and its partner's as received. -/
abbrev ssM : Memref sig .tc .vmem S256x1 .bf16 := Memref.whole cc0_scratch2
abbrev srM : Memref sig .tc .vmem S256x1 .bf16 := Memref.whole cc0_scratch3

theorem inbC : ∀ k : Fin 8, ∀ a, (![k.val, 0, 0] : Fin 3 → Nat) a + S1x256x512.size a ≤ S8x256x512.size a := by decide
theorem inbS : ∀ k : Fin 8, ∀ a, (![k.val] : Fin 1 → Nat) a + S1.size a ≤ S8.size a := by decide

/-- Chunk number `k` of a buffer of eight chunks, as the body's copies name it. -/
abbrev chunkN (M : Memref sig .tc .vmem S8x256x512 .bf16) (k : ℕ) (h : ∀ a, (![k, 0, 0] : Fin 3 → Nat) a + S1x256x512.size a ≤ S8x256x512.size a) :
    Memref sig .tc .vmem S256x512 .bf16 :=
  (M.slice (Rect.unit (s := S8x256x512) ![k, 0, 0] S1x256x512.size h) (fun _ => rfl)).squeeze S256x512 squeezes_S1x256x512_S256x512

/-- Chunk `k` of a buffer of eight chunks, as the body's copies name it. -/
abbrev chunk (M : Memref sig .tc .vmem S8x256x512 .bf16) (k : Fin 8) : Memref sig .tc .vmem S256x512 .bf16 :=
  (M.slice (Rect.unit (s := S8x256x512) ![k.val, 0, 0] S1x256x512.size (inbC k)) (fun _ => rfl)).squeeze S256x512 squeezes_S1x256x512_S256x512

/-! ## The cells -/

abbrev barS : Sem sig := (SemArray.scalar (sig.barrier 0 rfl) : Sems sig S_).sem
abbrev sendS (k : Fin 8) : DmaSem sig := ((cc0_scratch4.slice (Rect.unit (s := S8) ![k.val] S1.size (inbS k))).squeeze S_ squeezes_S1_S_).sem
abbrev recvS (k : Fin 8) : DmaSem sig := ((cc0_scratch5.slice (Rect.unit (s := S8) ![k.val] S1.size (inbS k))).squeeze S_ squeezes_S1_S_).sem
abbrev ssendS : DmaSem sig := cc0_scratch6.sem
abbrev srecvS : DmaSem sig := cc0_scratch7.sem

/-- What a cell is for. -/
inductive Kind where
  | bar | send (k : Fin 8) | recv (k : Fin 8) | ssend | srecv
  deriving DecidableEq

def Kind.sem : Kind → SemLoc sig
  | .bar => .reg barS | .send k => .dma (sendS k) | .recv k => .dma (recvS k) | .ssend => .dma ssendS | .srecv => .dma srecvS

def allKinds : List Kind := [.bar] ++ (List.finRange 8).map .send ++ (List.finRange 8).map .recv ++ [.ssend, .srecv]

/-- The kind of the cell on semaphore `s`, if the exchange uses `s` at all. -/
def kindOf (s : SemLoc sig) : Option Kind := allKinds.find? fun κ => κ.sem = s

theorem kindOf_sem : ∀ κ ∈ allKinds, kindOf κ.sem = some κ := by decide

abbrev cell (c : Dev nD) (κ : Kind) : GSem nD τ sig := ((c : Thread nD τ), κ.sem)

end Cert.KernelIdeal.Dist

end
-- ==== Proof.Sched.lean ====
/-
  The one-round schedule of the exchange. Every cell has exactly one duty, in round 0:
  * a device's handshake cell is paid one unit by its partner's signal, which hands over the partner's eight
    receive chunks and its row-sum receive buffer (at whatever they hold) and the fact that the partner has
    reached round 0 of the nine cells those buffers complete on — what the nine copies into them need;
  * send cell `k` is paid by the device's own copy of chunk `k`, which hands back the half share of the chunk
    the copy was reading (the other half stays with the device, which goes on reading the chunk);
  * receive cell `k` is paid by the partner's copy, which hands over the chunk holding what the partner sent;
  * likewise the row-sum send and receive cells (the send cell again hands back a half share).
  The contents are parameters here: `SB c`, `SS c` what device `c`'s send buffers hold when it copies them,
  `RB c`, `SR c` what its receive buffers hold once everything has landed.
-/
import proofs.«900347_g7700000000000348_dist_arsfmx_v7x_xyz2x4x4_x_t256_d512_v4096_bf16_1_alg».proof.Proof.Proto

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What the four exchanged buffers of each device hold. -/
structure Held (F : FTy → Type) where
  SB : Dev nD → (cc0_scratch0 : Ref sig .tc).ty.Contents (Elt F)
  RB : Dev nD → (cc0_scratch1 : Ref sig .tc).ty.Contents (Elt F)
  SS : Dev nD → (cc0_scratch2 : Ref sig .tc).ty.Contents (Elt F)
  SR : Dev nD → (cc0_scratch3 : Ref sig .tc).ty.Contents (Elt F)
  /-- and what the result's staging buffer holds when the body ends. -/
  OUT : Dev nD → (cc0_stg2_0 : Ref sig .tc).ty.Contents (Elt F)

variable (H : Held F)

/-! ## Amounts -/

/-- The credit of a chunk's copy and of the row sums' copy, in the semaphores' units. -/
abbrev NC : ℕ := 8192
abbrev NR : ℕ := 2048
theorem NC_pos : 0 < NC := by decide
theorem NC_eq (k : ℕ) (h : ∀ a, (![k, 0, 0] : Fin 3 → Nat) a + S1x256x512.size a ≤ S8x256x512.size a) : (chunkN rbM k h).view.dmaCredit = NC := rfl
theorem NR_pos : 0 < NR := by decide
theorem NR_eq : (Memref.whole cc0_scratch3 : Memref sig .tc .vmem S256x1 .bf16).view.dmaCredit = NR := rfl

def Kind.amt : Kind → ℕ
  | .bar => 1 | .send _ => NC | .recv _ => NC | .ssend => NR | .srecv => NR

theorem Kind.amt_pos (κ : Kind) : 0 < κ.amt := by
  cases κ <;> first | exact Nat.one_pos | exact NC_pos | exact NR_pos

/-! ## Payloads -/

/-- Chunk `k` of the send buffer on `c`, at share `q`. -/
abbrev sbPts (c : Dev nD) (k : Fin 8) (q : PosShare TreeShare) (f : (cc0_scratch0 : Ref sig .tc).ty.Contents (Elt F)) : sProp 𝕄 :=
  (chunk sbM k).view.loc (c : Thread nD τ) ↦[(chunk sbM k).view.set]{q} f
/-- Chunk `k` of the receive buffer on `c`. -/
abbrev rbPts (c : Dev nD) (k : Fin 8) (f : (cc0_scratch1 : Ref sig .tc).ty.Contents (Elt F)) : sProp 𝕄 :=
  (chunk rbM k).view.loc (c : Thread nD τ) ↦[(chunk rbM k).view.set]{fullShare} f
/-- The same two, with the chunk named by its number. -/
abbrev sbP (c : Dev nD) (k : ℕ) (h : ∀ a, (![k, 0, 0] : Fin 3 → Nat) a + S1x256x512.size a ≤ S8x256x512.size a) (q : PosShare TreeShare)
    (f : (cc0_scratch0 : Ref sig .tc).ty.Contents (Elt F)) : sProp 𝕄 :=
  (chunkN sbM k h).view.loc (c : Thread nD τ) ↦[(chunkN sbM k h).view.set]{q} f
abbrev rbP (c : Dev nD) (k : ℕ) (h : ∀ a, (![k, 0, 0] : Fin 3 → Nat) a + S1x256x512.size a ≤ S8x256x512.size a)
    (f : (cc0_scratch1 : Ref sig .tc).ty.Contents (Elt F)) : sProp 𝕄 :=
  (chunkN rbM k h).view.loc (c : Thread nD τ) ↦[(chunkN rbM k h).view.set]{fullShare} f
abbrev ssPts (c : Dev nD) (q : PosShare TreeShare) (f : (cc0_scratch2 : Ref sig .tc).ty.Contents (Elt F)) : sProp 𝕄 :=
  (Memref.whole cc0_scratch2 : Memref sig .tc .vmem S256x1 .bf16).view.loc (c : Thread nD τ) ↦[(Memref.whole cc0_scratch2 : Memref sig .tc .vmem S256x1 .bf16).view.set]{q} f
abbrev srPts (c : Dev nD) (f : (cc0_scratch3 : Ref sig .tc).ty.Contents (Elt F)) : sProp 𝕄 :=
  (Memref.whole cc0_scratch3 : Memref sig .tc .vmem S256x1 .bf16).view.loc (c : Thread nD τ) ↦[(Memref.whole cc0_scratch3 : Memref sig .tc .vmem S256x1 .bf16).view.set]{fullShare} f

/-- What device `p`'s handshake signal hands its partner: `p`'s nine landing buffers and that `p` is at round 0 of
    the nine cells they complete on. -/
def barPay (p : Dev nD) : sProp 𝕄 :=
  iprop((∃ f, ((chunkN rbM 0 (inbC 0)).view.loc ((p : Dev nD) : Thread nD τ) ↦[(chunkN rbM 0 (inbC 0)).view.set]{fullShare} f)) ∗ (∃ f, ((chunkN rbM 1 (inbC 1)).view.loc ((p : Dev nD) : Thread nD τ) ↦[(chunkN rbM 1 (inbC 1)).view.set]{fullShare} f)) ∗ (∃ f, ((chunkN rbM 2 (inbC 2)).view.loc ((p : Dev nD) : Thread nD τ) ↦[(chunkN rbM 2 (inbC 2)).view.set]{fullShare} f)) ∗ (∃ f, ((chunkN rbM 3 (inbC 3)).view.loc ((p : Dev nD) : Thread nD τ) ↦[(chunkN rbM 3 (inbC 3)).view.set]{fullShare} f)) ∗ (∃ f, ((chunkN rbM 4 (inbC 4)).view.loc ((p : Dev nD) : Thread nD τ) ↦[(chunkN rbM 4 (inbC 4)).view.set]{fullShare} f)) ∗ (∃ f, ((chunkN rbM 5 (inbC 5)).view.loc ((p : Dev nD) : Thread nD τ) ↦[(chunkN rbM 5 (inbC 5)).view.set]{fullShare} f)) ∗ (∃ f, ((chunkN rbM 6 (inbC 6)).view.loc ((p : Dev nD) : Thread nD τ) ↦[(chunkN rbM 6 (inbC 6)).view.set]{fullShare} f)) ∗ (∃ f, ((chunkN rbM 7 (inbC 7)).view.loc ((p : Dev nD) : Thread nD τ) ↦[(chunkN rbM 7 (inbC 7)).view.set]{fullShare} f)) ∗ (∃ f, ((Memref.whole cc0_scratch3 : Memref sig .tc .vmem S256x1 .bf16).view.loc ((p : Dev nD) : Thread nD τ) ↦[(Memref.whole cc0_scratch3 : Memref sig .tc .vmem S256x1 .bf16).view.set]{fullShare} f)) ∗ reached ER (((p : Dev nD) : Thread nD τ), SemLoc.dma (recvS 0)) 0 ∗ reached ER (((p : Dev nD) : Thread nD τ), SemLoc.dma (recvS 1)) 0 ∗ reached ER (((p : Dev nD) : Thread nD τ), SemLoc.dma (recvS 2)) 0 ∗ reached ER (((p : Dev nD) : Thread nD τ), SemLoc.dma (recvS 3)) 0 ∗ reached ER (((p : Dev nD) : Thread nD τ), SemLoc.dma (recvS 4)) 0 ∗ reached ER (((p : Dev nD) : Thread nD τ), SemLoc.dma (recvS 5)) 0 ∗ reached ER (((p : Dev nD) : Thread nD τ), SemLoc.dma (recvS 6)) 0 ∗ reached ER (((p : Dev nD) : Thread nD τ), SemLoc.dma (recvS 7)) 0 ∗ reached ER (((p : Dev nD) : Thread nD τ), SemLoc.dma srecvS) 0)

def Kind.pay (c : Dev nD) : Kind → sProp 𝕄
  | .bar => barPay (F := F) (peer c)
  | .send k => sbPts c k fullShare.left (H.SB c)
  | .recv k => rbPts c k (H.RB c)
  | .ssend => ssPts c fullShare.left (H.SS c)
  | .srecv => srPts c (H.SR c)

/-! ## The schedule -/

def sched : Rounds.Schedule (GSem nD τ sig) Unit 𝕄 where
  duties g r := if r = 0 ∧ g.1.2 = .tc ∧ (kindOf g.2).isSome then {()} else ∅
  amount g _ _ := match kindOf g.2 with | some κ => κ.amt | none => 1
  payload g _ _ := match kindOf g.2 with | some κ => κ.pay H g.1.1 | none => iprop(emp)
  amount_pos g _ _ _ := by
    cases h : kindOf g.2 with
    | none => simp only [h]; exact Nat.one_pos
    | some κ => simp only [h]; exact κ.amt_pos

set_option synthInstance.maxHeartbeats 2000000 in
set_option maxHeartbeats 2000000 in
instance barPay_storable (p : Dev nD) : BI.Storable (upEmb : UEmb _ 𝕄) (barPay (F := F) p) := by unfold barPay; infer_instance

instance pay_storable (c : Dev nD) (κ : Kind) : BI.Storable (upEmb : UEmb _ 𝕄) (κ.pay H c) := by
  cases κ <;> (unfold Kind.pay; infer_instance)

instance sched_payload_storable (g : GSem nD τ sig) (r : ℕ) (d : Unit) : BI.Storable (upEmb : UEmb _ 𝕄) ((sched H).payload g r d) := by
  show BI.Storable upEmb (match kindOf g.2 with | some κ => κ.pay H g.1.1 | none => iprop(emp))
  cases kindOf g.2 <;> infer_instance

/-! ## The tables -/

section Tables
variable (c : Dev nD) (κ : Kind) (hκ : κ ∈ allKinds)

theorem duties_cell (hκ : κ ∈ allKinds) : (sched H).duties (cell c κ) 0 = {()} := by
  dsimp only [sched]; rw [if_pos ⟨rfl, rfl, by rw [kindOf_sem κ hκ]; rfl⟩]
theorem duties_later (g : GSem nD τ sig) : ∀ r, 1 ≤ r → (sched H).duties g r = ∅ :=
  fun r hr => by dsimp only [sched]; rw [if_neg fun h => by omega]
theorem amount_cell (hκ : κ ∈ allKinds) (d : Unit) : (sched H).amount (cell c κ) 0 d = κ.amt := by
  dsimp only [sched]; rw [kindOf_sem κ hκ]
theorem payload_cell (hκ : κ ∈ allKinds) (d : Unit) : (sched H).payload (cell c κ) 0 d = κ.pay H c := by
  dsimp only [sched]; rw [kindOf_sem κ hκ]
theorem expect_cell (hκ : κ ∈ allKinds) : (sched H).expect (cell c κ) 0 = κ.amt := by
  unfold Schedule.expect Schedule.amountOf; rw [duties_cell H c κ hκ, Finset.sum_singleton, amount_cell H c κ hκ]
theorem rest_cell (hκ : κ ∈ allKinds) :
    bigSep ((sched H).duties (cell c κ) 0 \ ∅) (fun d => (sched H).payload (cell c κ) 0 d) = κ.pay H c := by
  rw [Finset.sdiff_empty, duties_cell H c κ hκ, bigSep_singleton, payload_cell H c κ hκ]

end Tables

theorem mem_all : ∀ κ : Kind, κ ∈ allKinds := by
  intro κ; cases κ with
  | bar => decide
  | ssend => decide
  | srecv => decide
  | send k => revert k; decide
  | recv k => revert k; decide

instance : Fintype Kind := ⟨allKinds.toFinset, fun κ => List.mem_toFinset.mpr (mem_all κ)⟩

end Cert.KernelIdeal.Dist

end
-- ==== Proof.Tables.lean ====
/-
  The schedule's tables in the spelling the body's steps meet them in, what each device owes at launch, the levels
  of the cells, and the evidence that a device may wait where it waits.

  Levels: the staging cells and the send cells lie at 0, the handshake cells at 1, the receive cells at 2. A device
  owes only its partner's handshake cell and its partner's nine receive cells; it waits for its staging copies while
  owing all ten (0 < 1, 2), for its handshake while owing the nine copies (1 < 2), and for everything else owing
  nothing. So every wait is below what the waiter owes, and no cycle of waits can form.
-/
import proofs.«900347_g7700000000000348_dist_arsfmx_v7x_xyz2x4x4_x_t256_d512_v4096_bf16_1_alg».proof.Proof.Sched

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (H : Held F)

/-! ## The handshake's payload, piece by piece -/

theorem barPay_eq (p : Dev nD) : (barPay (F := F) p) = iprop((∃ f, ((chunkN rbM 0 (inbC 0)).view.loc ((p : Dev nD) : Thread nD τ) ↦[(chunkN rbM 0 (inbC 0)).view.set]{fullShare} f)) ∗ (∃ f, ((chunkN rbM 1 (inbC 1)).view.loc ((p : Dev nD) : Thread nD τ) ↦[(chunkN rbM 1 (inbC 1)).view.set]{fullShare} f)) ∗ (∃ f, ((chunkN rbM 2 (inbC 2)).view.loc ((p : Dev nD) : Thread nD τ) ↦[(chunkN rbM 2 (inbC 2)).view.set]{fullShare} f)) ∗ (∃ f, ((chunkN rbM 3 (inbC 3)).view.loc ((p : Dev nD) : Thread nD τ) ↦[(chunkN rbM 3 (inbC 3)).view.set]{fullShare} f)) ∗ (∃ f, ((chunkN rbM 4 (inbC 4)).view.loc ((p : Dev nD) : Thread nD τ) ↦[(chunkN rbM 4 (inbC 4)).view.set]{fullShare} f)) ∗ (∃ f, ((chunkN rbM 5 (inbC 5)).view.loc ((p : Dev nD) : Thread nD τ) ↦[(chunkN rbM 5 (inbC 5)).view.set]{fullShare} f)) ∗ (∃ f, ((chunkN rbM 6 (inbC 6)).view.loc ((p : Dev nD) : Thread nD τ) ↦[(chunkN rbM 6 (inbC 6)).view.set]{fullShare} f)) ∗ (∃ f, ((chunkN rbM 7 (inbC 7)).view.loc ((p : Dev nD) : Thread nD τ) ↦[(chunkN rbM 7 (inbC 7)).view.set]{fullShare} f)) ∗ (∃ f, ((Memref.whole cc0_scratch3 : Memref sig .tc .vmem S256x1 .bf16).view.loc ((p : Dev nD) : Thread nD τ) ↦[(Memref.whole cc0_scratch3 : Memref sig .tc .vmem S256x1 .bf16).view.set]{fullShare} f)) ∗ reached ER (((p : Dev nD) : Thread nD τ), SemLoc.dma (recvS 0)) 0 ∗ reached ER (((p : Dev nD) : Thread nD τ), SemLoc.dma (recvS 1)) 0 ∗ reached ER (((p : Dev nD) : Thread nD τ), SemLoc.dma (recvS 2)) 0 ∗ reached ER (((p : Dev nD) : Thread nD τ), SemLoc.dma (recvS 3)) 0 ∗ reached ER (((p : Dev nD) : Thread nD τ), SemLoc.dma (recvS 4)) 0 ∗ reached ER (((p : Dev nD) : Thread nD τ), SemLoc.dma (recvS 5)) 0 ∗ reached ER (((p : Dev nD) : Thread nD τ), SemLoc.dma (recvS 6)) 0 ∗ reached ER (((p : Dev nD) : Thread nD τ), SemLoc.dma (recvS 7)) 0 ∗ reached ER (((p : Dev nD) : Thread nD τ), SemLoc.dma srecvS) 0) := by
  unfold barPay; rfl

/-! ## The tables -/

section Tables
variable (c : Dev nD) (k : Fin 8) (d : Unit)

theorem duties_bar : (sched H).duties (((c : Dev nD) : Thread nD τ), SemLoc.reg barS) 0 = {()} := duties_cell H c .bar (mem_all _)
theorem duties_send : (sched H).duties (((c : Dev nD) : Thread nD τ), SemLoc.dma (sendS k)) 0 = {()} := duties_cell H c (.send k) (mem_all _)
theorem duties_recv : (sched H).duties (((c : Dev nD) : Thread nD τ), SemLoc.dma (recvS k)) 0 = {()} := duties_cell H c (.recv k) (mem_all _)
theorem duties_ssend : (sched H).duties (((c : Dev nD) : Thread nD τ), SemLoc.dma ssendS) 0 = {()} := duties_cell H c .ssend (mem_all _)
theorem duties_srecv : (sched H).duties (((c : Dev nD) : Thread nD τ), SemLoc.dma srecvS) 0 = {()} := duties_cell H c .srecv (mem_all _)

theorem amount_bar : (sched H).amount (((c : Dev nD) : Thread nD τ), SemLoc.reg barS) 0 d = 1 := amount_cell H c .bar (mem_all _) d
theorem amount_send : (sched H).amount (((c : Dev nD) : Thread nD τ), SemLoc.dma (sendS k)) 0 d = NC := amount_cell H c (.send k) (mem_all _) d
theorem amount_recv : (sched H).amount (((c : Dev nD) : Thread nD τ), SemLoc.dma (recvS k)) 0 d = NC := amount_cell H c (.recv k) (mem_all _) d
theorem amount_ssend : (sched H).amount (((c : Dev nD) : Thread nD τ), SemLoc.dma ssendS) 0 d = NR := amount_cell H c .ssend (mem_all _) d
theorem amount_srecv : (sched H).amount (((c : Dev nD) : Thread nD τ), SemLoc.dma srecvS) 0 d = NR := amount_cell H c .srecv (mem_all _) d

theorem expect_bar : (sched H).expect (((c : Dev nD) : Thread nD τ), SemLoc.reg barS) 0 = 1 := expect_cell H c .bar (mem_all _)
theorem expect_send : (sched H).expect (((c : Dev nD) : Thread nD τ), SemLoc.dma (sendS k)) 0 = NC := expect_cell H c (.send k) (mem_all _)
theorem expect_recv : (sched H).expect (((c : Dev nD) : Thread nD τ), SemLoc.dma (recvS k)) 0 = NC := expect_cell H c (.recv k) (mem_all _)
theorem expect_ssend : (sched H).expect (((c : Dev nD) : Thread nD τ), SemLoc.dma ssendS) 0 = NR := expect_cell H c .ssend (mem_all _)
theorem expect_srecv : (sched H).expect (((c : Dev nD) : Thread nD τ), SemLoc.dma srecvS) 0 = NR := expect_cell H c .srecv (mem_all _)

/-- A device's handshake cell is paid with its partner's landing buffers; -/
theorem payload_bar : (sched H).payload (((c : Dev nD) : Thread nD τ), SemLoc.reg barS) 0 d = iprop((∃ f, ((chunkN rbM 0 (inbC 0)).view.loc (((peer c) : Dev nD) : Thread nD τ) ↦[(chunkN rbM 0 (inbC 0)).view.set]{fullShare} f)) ∗ (∃ f, ((chunkN rbM 1 (inbC 1)).view.loc (((peer c) : Dev nD) : Thread nD τ) ↦[(chunkN rbM 1 (inbC 1)).view.set]{fullShare} f)) ∗ (∃ f, ((chunkN rbM 2 (inbC 2)).view.loc (((peer c) : Dev nD) : Thread nD τ) ↦[(chunkN rbM 2 (inbC 2)).view.set]{fullShare} f)) ∗ (∃ f, ((chunkN rbM 3 (inbC 3)).view.loc (((peer c) : Dev nD) : Thread nD τ) ↦[(chunkN rbM 3 (inbC 3)).view.set]{fullShare} f)) ∗ (∃ f, ((chunkN rbM 4 (inbC 4)).view.loc (((peer c) : Dev nD) : Thread nD τ) ↦[(chunkN rbM 4 (inbC 4)).view.set]{fullShare} f)) ∗ (∃ f, ((chunkN rbM 5 (inbC 5)).view.loc (((peer c) : Dev nD) : Thread nD τ) ↦[(chunkN rbM 5 (inbC 5)).view.set]{fullShare} f)) ∗ (∃ f, ((chunkN rbM 6 (inbC 6)).view.loc (((peer c) : Dev nD) : Thread nD τ) ↦[(chunkN rbM 6 (inbC 6)).view.set]{fullShare} f)) ∗ (∃ f, ((chunkN rbM 7 (inbC 7)).view.loc (((peer c) : Dev nD) : Thread nD τ) ↦[(chunkN rbM 7 (inbC 7)).view.set]{fullShare} f)) ∗ (∃ f, ((Memref.whole cc0_scratch3 : Memref sig .tc .vmem S256x1 .bf16).view.loc (((peer c) : Dev nD) : Thread nD τ) ↦[(Memref.whole cc0_scratch3 : Memref sig .tc .vmem S256x1 .bf16).view.set]{fullShare} f)) ∗ reached ER ((((peer c) : Dev nD) : Thread nD τ), SemLoc.dma (recvS 0)) 0 ∗ reached ER ((((peer c) : Dev nD) : Thread nD τ), SemLoc.dma (recvS 1)) 0 ∗ reached ER ((((peer c) : Dev nD) : Thread nD τ), SemLoc.dma (recvS 2)) 0 ∗ reached ER ((((peer c) : Dev nD) : Thread nD τ), SemLoc.dma (recvS 3)) 0 ∗ reached ER ((((peer c) : Dev nD) : Thread nD τ), SemLoc.dma (recvS 4)) 0 ∗ reached ER ((((peer c) : Dev nD) : Thread nD τ), SemLoc.dma (recvS 5)) 0 ∗ reached ER ((((peer c) : Dev nD) : Thread nD τ), SemLoc.dma (recvS 6)) 0 ∗ reached ER ((((peer c) : Dev nD) : Thread nD τ), SemLoc.dma (recvS 7)) 0 ∗ reached ER ((((peer c) : Dev nD) : Thread nD τ), SemLoc.dma srecvS) 0) :=
  (payload_cell H c .bar (mem_all _) d).trans (barPay_eq (peer c))
/-- so the partner's is paid with the device's own. -/
theorem payload_bar_peer : (sched H).payload (((peer c : Dev nD) : Thread nD τ), SemLoc.reg barS) 0 d = iprop((∃ f, ((chunkN rbM 0 (inbC 0)).view.loc ((c : Dev nD) : Thread nD τ) ↦[(chunkN rbM 0 (inbC 0)).view.set]{fullShare} f)) ∗ (∃ f, ((chunkN rbM 1 (inbC 1)).view.loc ((c : Dev nD) : Thread nD τ) ↦[(chunkN rbM 1 (inbC 1)).view.set]{fullShare} f)) ∗ (∃ f, ((chunkN rbM 2 (inbC 2)).view.loc ((c : Dev nD) : Thread nD τ) ↦[(chunkN rbM 2 (inbC 2)).view.set]{fullShare} f)) ∗ (∃ f, ((chunkN rbM 3 (inbC 3)).view.loc ((c : Dev nD) : Thread nD τ) ↦[(chunkN rbM 3 (inbC 3)).view.set]{fullShare} f)) ∗ (∃ f, ((chunkN rbM 4 (inbC 4)).view.loc ((c : Dev nD) : Thread nD τ) ↦[(chunkN rbM 4 (inbC 4)).view.set]{fullShare} f)) ∗ (∃ f, ((chunkN rbM 5 (inbC 5)).view.loc ((c : Dev nD) : Thread nD τ) ↦[(chunkN rbM 5 (inbC 5)).view.set]{fullShare} f)) ∗ (∃ f, ((chunkN rbM 6 (inbC 6)).view.loc ((c : Dev nD) : Thread nD τ) ↦[(chunkN rbM 6 (inbC 6)).view.set]{fullShare} f)) ∗ (∃ f, ((chunkN rbM 7 (inbC 7)).view.loc ((c : Dev nD) : Thread nD τ) ↦[(chunkN rbM 7 (inbC 7)).view.set]{fullShare} f)) ∗ (∃ f, ((Memref.whole cc0_scratch3 : Memref sig .tc .vmem S256x1 .bf16).view.loc ((c : Dev nD) : Thread nD τ) ↦[(Memref.whole cc0_scratch3 : Memref sig .tc .vmem S256x1 .bf16).view.set]{fullShare} f)) ∗ reached ER (((c : Dev nD) : Thread nD τ), SemLoc.dma (recvS 0)) 0 ∗ reached ER (((c : Dev nD) : Thread nD τ), SemLoc.dma (recvS 1)) 0 ∗ reached ER (((c : Dev nD) : Thread nD τ), SemLoc.dma (recvS 2)) 0 ∗ reached ER (((c : Dev nD) : Thread nD τ), SemLoc.dma (recvS 3)) 0 ∗ reached ER (((c : Dev nD) : Thread nD τ), SemLoc.dma (recvS 4)) 0 ∗ reached ER (((c : Dev nD) : Thread nD τ), SemLoc.dma (recvS 5)) 0 ∗ reached ER (((c : Dev nD) : Thread nD τ), SemLoc.dma (recvS 6)) 0 ∗ reached ER (((c : Dev nD) : Thread nD τ), SemLoc.dma (recvS 7)) 0 ∗ reached ER (((c : Dev nD) : Thread nD τ), SemLoc.dma srecvS) 0) := by
  rw [payload_bar, peer_peer]
theorem payload_send0 : (sched H).payload (((c : Dev nD) : Thread nD τ), SemLoc.dma (sendS 0)) 0 d = ((chunkN sbM 0 (inbC 0)).view.loc ((c : Dev nD) : Thread nD τ) ↦[(chunkN sbM 0 (inbC 0)).view.set]{fullShare.left} H.SB c) := payload_cell H c (.send 0) (mem_all _) d
theorem payload_recv0 : (sched H).payload (((c : Dev nD) : Thread nD τ), SemLoc.dma (recvS 0)) 0 d = ((chunkN rbM 0 (inbC 0)).view.loc ((c : Dev nD) : Thread nD τ) ↦[(chunkN rbM 0 (inbC 0)).view.set]{fullShare} H.RB c) := payload_cell H c (.recv 0) (mem_all _) d
theorem payload_send1 : (sched H).payload (((c : Dev nD) : Thread nD τ), SemLoc.dma (sendS 1)) 0 d = ((chunkN sbM 1 (inbC 1)).view.loc ((c : Dev nD) : Thread nD τ) ↦[(chunkN sbM 1 (inbC 1)).view.set]{fullShare.left} H.SB c) := payload_cell H c (.send 1) (mem_all _) d
theorem payload_recv1 : (sched H).payload (((c : Dev nD) : Thread nD τ), SemLoc.dma (recvS 1)) 0 d = ((chunkN rbM 1 (inbC 1)).view.loc ((c : Dev nD) : Thread nD τ) ↦[(chunkN rbM 1 (inbC 1)).view.set]{fullShare} H.RB c) := payload_cell H c (.recv 1) (mem_all _) d
theorem payload_send2 : (sched H).payload (((c : Dev nD) : Thread nD τ), SemLoc.dma (sendS 2)) 0 d = ((chunkN sbM 2 (inbC 2)).view.loc ((c : Dev nD) : Thread nD τ) ↦[(chunkN sbM 2 (inbC 2)).view.set]{fullShare.left} H.SB c) := payload_cell H c (.send 2) (mem_all _) d
theorem payload_recv2 : (sched H).payload (((c : Dev nD) : Thread nD τ), SemLoc.dma (recvS 2)) 0 d = ((chunkN rbM 2 (inbC 2)).view.loc ((c : Dev nD) : Thread nD τ) ↦[(chunkN rbM 2 (inbC 2)).view.set]{fullShare} H.RB c) := payload_cell H c (.recv 2) (mem_all _) d
theorem payload_send3 : (sched H).payload (((c : Dev nD) : Thread nD τ), SemLoc.dma (sendS 3)) 0 d = ((chunkN sbM 3 (inbC 3)).view.loc ((c : Dev nD) : Thread nD τ) ↦[(chunkN sbM 3 (inbC 3)).view.set]{fullShare.left} H.SB c) := payload_cell H c (.send 3) (mem_all _) d
theorem payload_recv3 : (sched H).payload (((c : Dev nD) : Thread nD τ), SemLoc.dma (recvS 3)) 0 d = ((chunkN rbM 3 (inbC 3)).view.loc ((c : Dev nD) : Thread nD τ) ↦[(chunkN rbM 3 (inbC 3)).view.set]{fullShare} H.RB c) := payload_cell H c (.recv 3) (mem_all _) d
theorem payload_send4 : (sched H).payload (((c : Dev nD) : Thread nD τ), SemLoc.dma (sendS 4)) 0 d = ((chunkN sbM 4 (inbC 4)).view.loc ((c : Dev nD) : Thread nD τ) ↦[(chunkN sbM 4 (inbC 4)).view.set]{fullShare.left} H.SB c) := payload_cell H c (.send 4) (mem_all _) d
theorem payload_recv4 : (sched H).payload (((c : Dev nD) : Thread nD τ), SemLoc.dma (recvS 4)) 0 d = ((chunkN rbM 4 (inbC 4)).view.loc ((c : Dev nD) : Thread nD τ) ↦[(chunkN rbM 4 (inbC 4)).view.set]{fullShare} H.RB c) := payload_cell H c (.recv 4) (mem_all _) d
theorem payload_send5 : (sched H).payload (((c : Dev nD) : Thread nD τ), SemLoc.dma (sendS 5)) 0 d = ((chunkN sbM 5 (inbC 5)).view.loc ((c : Dev nD) : Thread nD τ) ↦[(chunkN sbM 5 (inbC 5)).view.set]{fullShare.left} H.SB c) := payload_cell H c (.send 5) (mem_all _) d
theorem payload_recv5 : (sched H).payload (((c : Dev nD) : Thread nD τ), SemLoc.dma (recvS 5)) 0 d = ((chunkN rbM 5 (inbC 5)).view.loc ((c : Dev nD) : Thread nD τ) ↦[(chunkN rbM 5 (inbC 5)).view.set]{fullShare} H.RB c) := payload_cell H c (.recv 5) (mem_all _) d
theorem payload_send6 : (sched H).payload (((c : Dev nD) : Thread nD τ), SemLoc.dma (sendS 6)) 0 d = ((chunkN sbM 6 (inbC 6)).view.loc ((c : Dev nD) : Thread nD τ) ↦[(chunkN sbM 6 (inbC 6)).view.set]{fullShare.left} H.SB c) := payload_cell H c (.send 6) (mem_all _) d
theorem payload_recv6 : (sched H).payload (((c : Dev nD) : Thread nD τ), SemLoc.dma (recvS 6)) 0 d = ((chunkN rbM 6 (inbC 6)).view.loc ((c : Dev nD) : Thread nD τ) ↦[(chunkN rbM 6 (inbC 6)).view.set]{fullShare} H.RB c) := payload_cell H c (.recv 6) (mem_all _) d
theorem payload_send7 : (sched H).payload (((c : Dev nD) : Thread nD τ), SemLoc.dma (sendS 7)) 0 d = ((chunkN sbM 7 (inbC 7)).view.loc ((c : Dev nD) : Thread nD τ) ↦[(chunkN sbM 7 (inbC 7)).view.set]{fullShare.left} H.SB c) := payload_cell H c (.send 7) (mem_all _) d
theorem payload_recv7 : (sched H).payload (((c : Dev nD) : Thread nD τ), SemLoc.dma (recvS 7)) 0 d = ((chunkN rbM 7 (inbC 7)).view.loc ((c : Dev nD) : Thread nD τ) ↦[(chunkN rbM 7 (inbC 7)).view.set]{fullShare} H.RB c) := payload_cell H c (.recv 7) (mem_all _) d
theorem payload_ssend : (sched H).payload (((c : Dev nD) : Thread nD τ), SemLoc.dma ssendS) 0 d = ((Memref.whole cc0_scratch2 : Memref sig .tc .vmem S256x1 .bf16).view.loc ((c : Dev nD) : Thread nD τ) ↦[(Memref.whole cc0_scratch2 : Memref sig .tc .vmem S256x1 .bf16).view.set]{fullShare.left} H.SS c) := payload_cell H c .ssend (mem_all _) d
theorem payload_srecv : (sched H).payload (((c : Dev nD) : Thread nD τ), SemLoc.dma srecvS) 0 d = ((Memref.whole cc0_scratch3 : Memref sig .tc .vmem S256x1 .bf16).view.loc ((c : Dev nD) : Thread nD τ) ↦[(Memref.whole cc0_scratch3 : Memref sig .tc .vmem S256x1 .bf16).view.set]{fullShare} H.SR c) := payload_cell H c .srecv (mem_all _) d

end Tables

/-! ## What a device owes at launch -/

/-- Device `c` owes its partner's handshake cell a unit and its partner's nine receive cells their copies' credit,
    summed so that each payment, in the body's order, takes the last summand left. -/
def O₀ (c : Dev nD) : CellTallies nD τ sig Unit := tallyAt (((peer c : Dev nD) : Thread nD τ), SemLoc.dma (recvS 7)) () NC + tallyAt (((peer c : Dev nD) : Thread nD τ), SemLoc.dma (recvS 6)) () NC + tallyAt (((peer c : Dev nD) : Thread nD τ), SemLoc.dma srecvS) () NR + tallyAt (((peer c : Dev nD) : Thread nD τ), SemLoc.dma (recvS 5)) () NC + tallyAt (((peer c : Dev nD) : Thread nD τ), SemLoc.dma (recvS 4)) () NC + tallyAt (((peer c : Dev nD) : Thread nD τ), SemLoc.dma (recvS 3)) () NC + tallyAt (((peer c : Dev nD) : Thread nD τ), SemLoc.dma (recvS 2)) () NC + tallyAt (((peer c : Dev nD) : Thread nD τ), SemLoc.dma (recvS 1)) () NC + tallyAt (((peer c : Dev nD) : Thread nD τ), SemLoc.dma (recvS 0)) () NC + tallyAt (((peer c : Dev nD) : Thread nD τ), SemLoc.reg barS) () 1
/-- The same after the handshake signal. -/
def O₁ (c : Dev nD) : CellTallies nD τ sig Unit := tallyAt (((peer c : Dev nD) : Thread nD τ), SemLoc.dma (recvS 7)) () NC + tallyAt (((peer c : Dev nD) : Thread nD τ), SemLoc.dma (recvS 6)) () NC + tallyAt (((peer c : Dev nD) : Thread nD τ), SemLoc.dma srecvS) () NR + tallyAt (((peer c : Dev nD) : Thread nD τ), SemLoc.dma (recvS 5)) () NC + tallyAt (((peer c : Dev nD) : Thread nD τ), SemLoc.dma (recvS 4)) () NC + tallyAt (((peer c : Dev nD) : Thread nD τ), SemLoc.dma (recvS 3)) () NC + tallyAt (((peer c : Dev nD) : Thread nD τ), SemLoc.dma (recvS 2)) () NC + tallyAt (((peer c : Dev nD) : Thread nD τ), SemLoc.dma (recvS 1)) () NC + tallyAt (((peer c : Dev nD) : Thread nD τ), SemLoc.dma (recvS 0)) () NC

theorem O₀_eq (c : Dev nD) : O₀ c = O₁ c + tallyAt (((peer c : Dev nD) : Thread nD τ), SemLoc.reg barS) () 1 := rfl

/-! ## Levels -/

def lvK : Kind → ℕ
  | .bar => 1 | .recv _ => 2 | .srecv => 2 | .send _ => 0 | .ssend => 0

def L (g : GSem nD τ sig) : Finset Unit := if g.1.2 = .tc then {()} else ∅
def lv (g : GSem nD τ sig) (_ : Unit) : ℕ := match kindOf g.2 with | some κ => lvK κ | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : Kind) (u : Unit) : lv (cell c κ) u = lvK κ := by
  unfold lv; rw [kindOf_sem κ (mem_all κ)]

/-- Whatever a device owes at launch is owed to a handshake or receive cell of its partner. -/
theorem O₀_pos {c : Dev nD} {g : GSem nD τ sig} {u : Unit} (h : 0 < O₀ c g u) : ∃ κ : Kind, 1 ≤ lvK κ ∧ g = cell (peer c) κ := by
  unfold O₀ at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals (obtain ⟨rfl, rfl⟩ := Pipeline.tallyAt_pos h)
  all_goals first | exact ⟨Kind.bar, by decide, rfl⟩ | exact ⟨Kind.srecv, by decide, rfl⟩ | exact ⟨Kind.recv 0, by decide, rfl⟩ | exact ⟨Kind.recv 1, by decide, rfl⟩ | exact ⟨Kind.recv 2, by decide, rfl⟩ | exact ⟨Kind.recv 3, by decide, rfl⟩ | exact ⟨Kind.recv 4, by decide, rfl⟩ | exact ⟨Kind.recv 5, by decide, rfl⟩ | exact ⟨Kind.recv 6, by decide, rfl⟩ | exact ⟨Kind.recv 7, by decide, rfl⟩

/-- After the handshake signal, only to its receive cells. -/
theorem O₁_pos {c : Dev nD} {g : GSem nD τ sig} {u : Unit} (h : 0 < O₁ c g u) : ∃ κ : Kind, lvK κ = 2 ∧ g = cell (peer c) κ := by
  unfold O₁ at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals (obtain ⟨rfl, rfl⟩ := Pipeline.tallyAt_pos h)
  all_goals first | exact ⟨Kind.srecv, by decide, rfl⟩ | exact ⟨Kind.recv 0, by decide, rfl⟩ | exact ⟨Kind.recv 1, by decide, rfl⟩ | exact ⟨Kind.recv 2, by decide, rfl⟩ | exact ⟨Kind.recv 3, by decide, rfl⟩ | exact ⟨Kind.recv 4, by decide, rfl⟩ | exact ⟨Kind.recv 5, by decide, rfl⟩ | exact ⟨Kind.recv 6, by decide, rfl⟩ | exact ⟨Kind.recv 7, by decide, rfl⟩

/-- A wait on a cell of level 0 (a staging cell, a send cell) is below everything owed at launch. -/
theorem mayWait_low (c : Dev nD) (s : SemLoc sig) (hs : lv ((c : Thread nD τ), s) () = 0) (O : CellTallies nD τ sig Unit) (hO : O = O₀ c ∨ O = 0) :
    (levAts L lv : sProp 𝕄) ⊢ MayWait (c : Thread nD τ) s () O := by
  rcases hO with rfl | rfl
  · refine Pipeline.mayWait_of_levAts (by rw [L_tc]; exact Finset.mem_singleton_self _) fun g i hg => ?_
    obtain ⟨κ, hκ, rfl⟩ := O₀_pos hg
    exact ⟨by rw [L_tc]; exact Finset.mem_singleton_self _, by rw [hs, lv_cell]; omega⟩
  · rw [MayWait_zero]; iintro -; iempintro

/-- The handshake wait is below the nine copies still owed. -/
theorem mayWait_bar (c : Dev nD) :
    (levAts L lv : sProp 𝕄) ⊢ MayWait (c : Thread nD τ) (SemLoc.reg barS) () (tallyAt (((peer c : Dev nD) : Thread nD τ), SemLoc.dma (recvS 7)) () NC + tallyAt (((peer c : Dev nD) : Thread nD τ), SemLoc.dma (recvS 6)) () NC + tallyAt (((peer c : Dev nD) : Thread nD τ), SemLoc.dma srecvS) () NR + tallyAt (((peer c : Dev nD) : Thread nD τ), SemLoc.dma (recvS 5)) () NC + tallyAt (((peer c : Dev nD) : Thread nD τ), SemLoc.dma (recvS 4)) () NC + tallyAt (((peer c : Dev nD) : Thread nD τ), SemLoc.dma (recvS 3)) () NC + tallyAt (((peer c : Dev nD) : Thread nD τ), SemLoc.dma (recvS 2)) () NC + tallyAt (((peer c : Dev nD) : Thread nD τ), SemLoc.dma (recvS 1)) () NC + tallyAt (((peer c : Dev nD) : Thread nD τ), SemLoc.dma (recvS 0)) () NC) := by
  refine Pipeline.mayWait_of_levAts (by rw [L_tc]; exact Finset.mem_singleton_self _) fun g i hg => ?_
  obtain ⟨κ, hκ, rfl⟩ := O₁_pos (c := c) hg
  exact ⟨by rw [L_tc]; exact Finset.mem_singleton_self _, by rw [show ((((c : Dev nD) : Thread nD τ), SemLoc.reg barS) : GSem nD τ sig) = cell c .bar from rfl, lv_cell, lv_cell, hκ]; decide⟩

end Cert.KernelIdeal.Dist

end
-- ==== Proof.Data.lean ====
/-
  The proof data of the exchange: what a device's body starts from and what it leaves.

  A device starts holding, for some names of the cells' invariants: the invariants of its own nineteen cells and of
  its partner's, its position at round 0 of each of its own cells, the fact that round 0 of every cell of the pair is
  reached, and one duty token for each kind of cell — of its own send cells (it pays them with its own copies) and of
  its PARTNER's handshake and receive cells (it pays those); the credit of its own handshake and receive cells, which
  its partner owes; and the four scratch buffers at whatever they hold. It leaves the scratch buffers and its eighteen
  own semaphores at zero, their cells closed.
-/
import proofs.«900347_g7700000000000348_dist_arsfmx_v7x_xyz2x4x4_x_t256_d512_v4096_bf16_1_alg».proof.Proof.Tables

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (H : Held F) (m : (ℓ : Loc nD τ sig) → Buf (Elt F) ℓ) (ρ : Dev nD → PrngReg)

abbrev 𝒱₀ : Variants := Variants.none

/-- Device `c`'s copy of `x` and its block of `W`, as the pipeline stages them. -/
def xs (c : Dev nD) : (cc0_stg0_0 : Ref sig .tc).ty.Contents (Elt F) :=
  (win0_0.blk (0 : Fin 1)).view.read (Elt F) (m ((c : Thread nD τ).loc main_arg0))
def ws (c : Dev nD) : (cc0_stg1_0 : Ref sig .tc).ty.Contents (Elt F) :=
  (win0_1.blk (0 : Fin 1)).view.read (Elt F) (m ((c : Thread nD τ).loc main_arg1))

/-- Who owns the cell of kind `κ` that device `c` pays: itself for its send cells, its partner for the rest. -/
@[reducible] def payer (c : Dev nD) : Kind → Dev nD
  | .send _ => c | .ssend => c | .bar => peer c | .recv _ => peer c | .srecv => peer c

def invs (K : Dev nD × Kind → ℕ) (c : Dev nD) : sProp 𝕄 :=
  iprop((bigSep Finset.univ fun κ : Kind => cellInv ER (sched H) (K (c, κ)) (cell c κ))
    ∗ (bigSep Finset.univ fun κ : Kind => cellInv ER (sched H) (K (peer c, κ)) (cell (peer c) κ)))

instance invs_persistent (K : Dev nD × Kind → ℕ) (c : Dev nD) : BI.Persistent (invs H K c) := by unfold invs; infer_instance

def ghost (K : Dev nD × Kind → ℕ) (c : Dev nD) : sProp 𝕄 :=
  iprop(invs H K c
    ∗ (bigSep Finset.univ fun κ : Kind => atPos ER (cell c κ) 0 ∅ 0)
    ∗ (bigSep Finset.univ fun κ : Kind => reached ER (cell c κ) 0)
    ∗ (bigSep Finset.univ fun κ : Kind => reached ER (cell (peer c) κ) 0)
    ∗ (bigSep Finset.univ fun κ : Kind => dutyTok ER (cell (payer c κ) κ) 0 ()))

/-- The credit of the cells the partner pays. -/
def creds (c : Dev nD) : sProp 𝕄 :=
  iprop(cred (tallyAt (cell c .bar) () 1) ∗ cred (tallyAt (cell c (.recv 0)) () NC) ∗ cred (tallyAt (cell c (.recv 1)) () NC) ∗ cred (tallyAt (cell c (.recv 2)) () NC) ∗ cred (tallyAt (cell c (.recv 3)) () NC) ∗ cred (tallyAt (cell c (.recv 4)) () NC) ∗ cred (tallyAt (cell c (.recv 5)) () NC) ∗ cred (tallyAt (cell c (.recv 6)) () NC) ∗ cred (tallyAt (cell c (.recv 7)) () NC) ∗ cred (tallyAt (cell c .srecv) () NR))

def start (c : Dev nD) : sProp 𝕄 := iprop((∃ K, ghost H K c) ∗ creds (F := F) c ∗ levAts L lv)

/-- The four scratch buffers, each whole at some contents. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

def Φ₀ (c : Dev nD) : sProp 𝕄 := iprop(start H c ∗ scr (F := F) c)
/-- After the body: the scratch buffers, and the device's own eighteen semaphores at zero. -/
def Φ₁ (c : Dev nD) : sProp 𝕄 := iprop(scr (F := F) c ∗ bigSep (Finset.univ.erase Kind.bar) fun κ : Kind => semVal (cell c κ) 0)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => ws m c
    | ⟨2, _⟩ => H.OUT c
  Φ t := match t with
    | ⟨0, _⟩ => Φ₀ H c
    | ⟨_ + 1, _⟩ => Φ₁ (F := F) c
  q _ := fullShare
  owed t := match t with
    | ⟨0, _⟩ => O₀ c
    | ⟨_ + 1, _⟩ => 0

end Cert.KernelIdeal.Dist

end
-- ==== Proof.Launch.lean ====
/-
  The launch of the exchange: from "each device's body is proved" to a run of the whole program on the mesh.

  The launch element is split between the pipeline's own cells and the exchange's: every device is dealt the round
  state, its position and the duty token of its nineteen cells. One global step then allocates every cell's invariant
  (the eighteen scoped semaphores and the one unscoped handshake semaphore all stand at zero), records the persistent
  facts of all cells of all devices, and deals the tokens across the pairs: the token of a device's handshake cell and
  of its nine receive cells goes to its partner, who pays them; the tokens of its send cells stay. What a device owes
  its partner at launch comes back to the partner as the credit of those ten cells. The pipeline's staging semaphores
  carry no cell of the exchange and lie at level 0, below everything a device owes.

  Then the three consequences the claims read: the argument arrays end as they began, and the result array ends
  holding what the body left in its staging buffer.
-/
import proofs.«900347_g7700000000000348_dist_arsfmx_v7x_xyz2x4x4_x_t256_d512_v4096_bf16_1_alg».proof.Proof.Data

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (H : Held F) (m : (ℓ : Loc nD τ sig) → Buf (Elt F) ℓ) (ρ : Dev nD → PrngReg)

/-! ## The launch -/

/-- The eighteen cells of a device that complete on scoped semaphores, in the order of the semaphores. -/
def okind : Fin 18 → Kind
  | 0 => .send 0 | 1 => .send 1 | 2 => .send 2 | 3 => .send 3 | 4 => .send 4 | 5 => .send 5 | 6 => .send 6 | 7 => .send 7
  | 8 => .recv 0 | 9 => .recv 1 | 10 => .recv 2 | 11 => .recv 3 | 12 => .recv 4 | 13 => .recv 5 | 14 => .recv 6 | 15 => .recv 7
  | 16 => .ssend | 17 => .srecv
  | ⟨_ + 18, h⟩ => absurd h (Nat.not_lt.2 (Nat.le_add_left _ _))

abbrev osem : Fin 18 → SemLoc sig := fun k => (okind k).sem

theorem ownSemFacts : Pipeline.OwnSemFacts cfg0.spec osem := by decide

theorem share_eq (c : Dev nD) (w : Fin cfg0.W) : (dats H m 0 c).share w = fullShare := by unfold Dat.share; split <;> rfl

abbrev kcell (ck : Dev nD × Kind) : GSem nD τ sig := cell ck.1 ck.2

theorem sem_injective : Function.Injective Kind.sem := fun κ κ' h => by
  have h1 := kindOf_sem κ (mem_all κ)
  rw [h, kindOf_sem κ' (mem_all κ')] at h1
  exact (Option.some.inj h1).symm

theorem kcell_injective : Function.Injective (kcell : Dev nD × Kind → GSem nD τ sig) := by
  rintro ⟨c, k⟩ ⟨c', k'⟩ h
  have h1 : c = c' := by have := congrArg (fun g : GSem nD τ sig => g.1.1) h; exact this
  subst h1
  have h2 : k.sem = k'.sem := congrArg Prod.snd h
  rw [sem_injective h2]

def ringCells : Finset (GSem nD τ sig) := Finset.univ.map ⟨kcell, kcell_injective⟩

abbrev tokOf (ck : Dev nD × Kind) : GSem nD τ sig × ℕ × Unit := (kcell ck, 0, ())
theorem tokOf_injective : Function.Injective (tokOf : Dev nD × Kind → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- What the launch element deals device `c`: the round state of its nineteen cells at counter zero, its position at
    round 0 of each and that the round is reached, and the one duty token of each. -/
def G (c : Dev nD) : sProp 𝕄 :=
  iprop((bigSep Finset.univ fun κ : Kind => roundState ER (sched H) (cell c κ) 0)
    ∗ (bigSep Finset.univ fun κ : Kind => iprop(atPos ER (cell c κ) 0 ∅ 0 ∗ reached ER (cell c κ) 0))
    ∗ (bigSep Finset.univ fun κ : Kind => dutyTok ER (cell c κ) 0 ()))

/-- What the global step makes of it. -/
def G' (c : Dev nD) : sProp 𝕄 := iprop(∃ K, ghost H K c)

omit [FloatOps F] in
theorem bigSep_cells (Φ : GSem nD τ sig → sProp 𝕄) :
    bigSep ringCells Φ = bigSep Finset.univ fun c : Dev nD => bigSep Finset.univ fun κ : Kind => Φ (cell c κ) := by
  unfold ringCells; rw [bigSep_map, bigSep_univ_prod]; rfl

theorem fund_ring : BI.own (ER (initOf ringCells ringToks)) ⊢ (|==> bigSep Finset.univ (G H) : sProp 𝕄) := by
  have hT : bigSep ringToks (fun x => (dutyTok ER x.1 x.2.1 x.2.2 : sProp 𝕄))
      = bigSep Finset.univ fun c : Dev nD => bigSep Finset.univ fun κ : Kind => dutyTok ER (cell c κ) 0 () := by
    unfold ringToks; rw [bigSep_map, bigSep_univ_prod]; rfl
  iintro HX
  imod (Rounds.fund ER (sched H) ringCells ringToks) $$ HX with ⟨Hst, Hr, Hat, Htok⟩
  imodintro
  ihave Hst' := (Entails.of_eq (bigSep_cells (F := F) fun g => roundState ER (sched H) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The eighteen scoped semaphores are the cells other than the handshake cell; -/
theorem ownSems0_eq (c : Dev nD) : (Pipeline.ownSems0 (Ix := Unit) (Name := ℕ) (U := UU) (Lvl := ℕ) (Val := Elt F) (τ := τ) osem c : sProp 𝕄)
    = bigSep (Finset.univ.erase Kind.bar) fun κ : Kind => semVal (cell c κ) 0 := by
  rw [Pipeline.ownSems0_eq_of_list c osem [0, 1, 2, 3, 4, 5, 6, 7, 8, 9, 10, 11, 12, 13, 14, 15, 16, 17] (by decide) (by decide),
    bigSep_eq_bigSepL_of_eq [Kind.send 0, .send 1, .send 2, .send 3, .send 4, .send 5, .send 6, .send 7,
      .recv 0, .recv 1, .recv 2, .recv 3, .recv 4, .recv 5, .recv 6, .recv 7, .ssend, .srecv] (by decide) (by decide)]
  rfl
omit [FloatOps F] in
/-- the handshake semaphore is the one unscoped semaphore. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun κ : Kind => semVal (cell c κ) 0 : sProp 𝕄) := by
  rw [ownSems0_eq, unscopedSems0_eq, bigSep_univ_at (fun κ : Kind => (semVal (cell c κ) 0 : sProp 𝕄)) Kind.bar]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G H c)
      ⊢ |={Set.univ}=> iprop((bigSep Finset.univ fun κ : Kind => iprop(∃ n : ℕ, cellInv ER (sched H) n (cell c κ)))
          ∗ (bigSep Finset.univ fun κ : Kind => iprop(atPos ER (cell c κ) 0 ∅ 0 ∗ reached ER (cell c κ) 0))
          ∗ (bigSep Finset.univ fun κ : Kind => dutyTok ER (cell c κ) 0 ())) := by
  unfold G
  iintro ⟨Hos, Hus, Hst, Hat, Htok⟩
  ihave Hv := (sems0_eq (F := F) c) $$ [Hos Hus]
  · isplitl [Hos] <;> iassumption
  imod (show iprop((bigSep Finset.univ fun κ : Kind => semVal (cell c κ) 0) ∗ bigSep Finset.univ fun κ : Kind => roundState ER (sched H) (cell c κ) 0)
      ⊢ (|={Set.univ}=> bigSep Finset.univ fun κ : Kind => iprop(∃ n : ℕ, cellInv ER (sched H) n (cell c κ)) : sProp 𝕄) from by
        rw [← bigSep_sep']
        exact (bigSep_mono fun κ _ => (Rounds.body_intro ER (sched H) (cell c κ)).trans inv_alloc).trans (bigSep_fupd _ _)) $$ [Hv Hst] with Hinv
  · isplitl [Hv] <;> iassumption
  imodintro
  isplitl [Hinv]; · iexact Hinv
  isplitl [Hat]; · iexact Hat
  iexact Htok

/-- The persistent part, of all devices at once: every cell's invariant and that round 0 of every cell is reached. -/
def records (K : Dev nD × Kind → ℕ) : sProp 𝕄 :=
  iprop((bigSep Finset.univ fun ck : Dev nD × Kind => cellInv ER (sched H) (K ck) (cell ck.1 ck.2))
    ∗ bigSep Finset.univ fun ck : Dev nD × Kind => reached ER (cell ck.1 ck.2) 0)

instance records_persistent (K : Dev nD × Kind → ℕ) : BI.Persistent (records H K) := by unfold records; infer_instance

theorem inv_at (K : Dev nD × Kind → ℕ) (c : Dev nD) (κ : Kind) :
    (bigSep Finset.univ fun ck : Dev nD × Kind => (cellInv ER (sched H) (K ck) (cell ck.1 ck.2) : sProp 𝕄)) ⊢ cellInv ER (sched H) (K (c, κ)) (cell c κ) :=
  bigSep_elim (Finset.mem_univ (c, κ))
omit [FloatOps F] in
theorem reached_at (c : Dev nD) (κ : Kind) :
    (bigSep Finset.univ fun ck : Dev nD × Kind => (reached ER (cell ck.1 ck.2) 0 : sProp 𝕄)) ⊢ reached ER (cell c κ) 0 :=
  bigSep_elim (Finset.mem_univ (c, κ))

/-- What stays with device `c`: its positions, and the tokens of the duties it pays. -/
def linear (c : Dev nD) : sProp 𝕄 :=
  iprop((bigSep Finset.univ fun κ : Kind => atPos ER (cell c κ) 0 ∅ 0) ∗ bigSep Finset.univ fun κ : Kind => dutyTok ER (cell (payer c κ) κ) 0 ())

theorem ghost_intro (K : Dev nD × Kind → ℕ) (c : Dev nD) : iprop(records H K ∗ linear (F := F) c) ⊢ G' H c := by
  unfold records linear G' ghost invs
  iintro ⟨⟨#HI, #HR⟩, Hat, Htok⟩
  iexists K
  isplitr
  · isplitr
    · iapply (BI.bigSep_intro_persistent (S := Finset.univ) (Φ := fun κ : Kind => cellInv ER (sched H) (K (c, κ)) (cell c κ)) fun κ _ => inv_at H K c κ); iexact HI
    · iapply (BI.bigSep_intro_persistent (S := Finset.univ) (Φ := fun κ : Kind => cellInv ER (sched H) (K (peer c, κ)) (cell (peer c) κ)) fun κ _ => inv_at H K (peer c) κ); iexact HI
  isplitl [Hat]; · iexact Hat
  isplitr
  · iapply (BI.bigSep_intro_persistent (S := Finset.univ) (Φ := fun κ : Kind => (reached ER (cell c κ) 0 : sProp 𝕄)) fun κ _ => reached_at (F := F) c κ); iexact HR
  isplitr
  · iapply (BI.bigSep_intro_persistent (S := Finset.univ) (Φ := fun κ : Kind => (reached ER (cell (peer c) κ) 0 : sProp 𝕄)) fun κ _ => reached_at (F := F) (peer c) κ); iexact HR
  iexact Htok

/-- Each cell's duty is paid by one device of the cell's pair: swapping, within every pair, the handshake and the
    receive cells is a bijection of the cells. -/
def payE : Dev nD × Kind ≃ Dev nD × Kind where
  toFun p := (payer p.1 p.2, p.2)
  invFun p := (payer p.1 p.2, p.2)
  left_inv := by rintro ⟨c, κ⟩; cases κ <;> simp only [payer, peer_peer]
  right_inv := by rintro ⟨c, κ⟩; cases κ <;> simp only [payer, peer_peer]

omit [FloatOps F] in
/-- The tokens dealt across the pairs: those of a device's handshake and receive cells go to its partner. -/
theorem toks_around : (bigSep Finset.univ fun c : Dev nD => bigSep Finset.univ fun κ : Kind => (dutyTok ER (cell c κ) 0 () : sProp 𝕄))
    ⊢ bigSep Finset.univ fun c : Dev nD => bigSep Finset.univ fun κ : Kind => dutyTok ER (cell (payer c κ) κ) 0 () := by
  have h1 := bigSep_univ_prod (fun p : Dev nD × Kind => (dutyTok ER (cell p.1 p.2) 0 () : sProp 𝕄))
  have h2 := bigSep_univ_prod (fun p : Dev nD × Kind => (dutyTok ER (cell (payer p.1 p.2) p.2) 0 () : sProp 𝕄))
  have h3 := bigSep_univ_equiv payE (fun p : Dev nD × Kind => (dutyTok ER (cell p.1 p.2) 0 () : sProp 𝕄))
  exact Entails.of_eq (h1.symm.trans (h3.trans h2))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun κ : Kind => iprop(∃ n : ℕ, cellInv ER (sched H) n (cell c κ)))
          ∗ (bigSep Finset.univ fun κ : Kind => iprop(atPos ER (cell c κ) 0 ∅ 0 ∗ reached ER (cell c κ) 0))
          ∗ (bigSep Finset.univ fun κ : Kind => dutyTok ER (cell c κ) 0 ())) : sProp 𝕄)
      ⊢ bigSep Finset.univ (G' H) := by
  rw [bigSep_sep', bigSep_sep', ← bigSep_univ_prod (fun ck : Dev nD × Kind => iprop(∃ n : ℕ, cellInv ER (sched H) n (cell ck.1 ck.2))),
    bigSep_congr (s := Finset.univ) (fun (c : Dev nD) _ => bigSep_sep' Finset.univ (fun κ : Kind => (atPos ER (cell c κ) 0 ∅ 0 : sProp 𝕄)) (fun κ => reached ER (cell c κ) 0)),
    bigSep_sep', ← bigSep_univ_prod (fun ck : Dev nD × Kind => (reached ER (cell ck.1 ck.2) 0 : sProp 𝕄))]
  iintro ⟨HI, ⟨Hat, #HR⟩, Htok⟩
  ihave HK := (BI.bigSep_exists_pi Finset.univ (fun (ck : Dev nD × Kind) (n : ℕ) => (cellInv ER (sched H) n (cell ck.1 ck.2) : sProp 𝕄))) $$ HI
  icases HK with ⟨%K, #HI⟩
  ihave Htk := (toks_around (F := F)) $$ Htok
  iapply (bigSep_with_persistent (R := records H K) fun c _ => ghost_intro H K c)
  isplitr
  · unfold records; isplitl; · iexact HI
    iexact HR
  · iapply ((Entails.of_eq (bigSep_sep' Finset.univ (fun c : Dev nD => bigSep Finset.univ fun κ : Kind => (atPos ER (cell c κ) 0 ∅ 0 : sProp 𝕄))
        (fun c : Dev nD => bigSep Finset.univ fun κ : Kind => dutyTok ER (cell (payer c κ) κ) 0 ())).symm).trans
      (bigSep_mono fun c _ => show _ ⊢ linear (F := F) c from Entails.of_eq rfl))
    isplitl [Hat]; · iexact Hat
    iexact Htk

/-- The global step: the eighteen own and the one unscoped semaphore of every device at once. -/
theorem glob : (bigSep Finset.univ fun c => iprop(Pipeline.ownSems0 (Ix := Unit) (Name := ℕ) (U := UU) (Lvl := ℕ) (Val := Elt F) (τ := τ) osem c ∗ unscopedSems0 c ∗ G H c) : sProp 𝕄)
    ⊢ |={Set.univ}=> bigSep Finset.univ (G' H) :=
  ((bigSep_mono fun c _ => core_alloc H c).trans (bigSep_fupd _ _)).trans (BI.fupd_mono (regroup H))

/-! ### The launch credit -/

omit [FloatOps F] in
/-- What the partner owes a device's handshake and receive cells is dealt to the device as their credit. -/
theorem creds_intro (c : Dev nD) : (Pipeline.launchCred O₀ c : sProp 𝕄) ⊢ creds c := by
  unfold O₀ creds
  rw [Pipeline.launchCred_add, Pipeline.launchCred_add, Pipeline.launchCred_add, Pipeline.launchCred_add, Pipeline.launchCred_add,
    Pipeline.launchCred_add, Pipeline.launchCred_add, Pipeline.launchCred_add, Pipeline.launchCred_add]
  iintro ⟨⟨⟨⟨⟨⟨⟨⟨⟨H7, H6⟩, HS⟩, H5⟩, H4⟩, H3⟩, H2⟩, H1⟩, H0⟩, HB⟩
  isplitl [HB]; · iapply (Pipeline.launchCred_tallyAt (SemLoc.reg barS) peer peer peer_peer peer_peer () 1 c); iexact HB
  isplitl [H0]; · iapply (Pipeline.launchCred_tallyAt (SemLoc.dma (recvS 0)) peer peer peer_peer peer_peer () NC c); iexact H0
  isplitl [H1]; · iapply (Pipeline.launchCred_tallyAt (SemLoc.dma (recvS 1)) peer peer peer_peer peer_peer () NC c); iexact H1
  isplitl [H2]; · iapply (Pipeline.launchCred_tallyAt (SemLoc.dma (recvS 2)) peer peer peer_peer peer_peer () NC c); iexact H2
  isplitl [H3]; · iapply (Pipeline.launchCred_tallyAt (SemLoc.dma (recvS 3)) peer peer peer_peer peer_peer () NC c); iexact H3
  isplitl [H4]; · iapply (Pipeline.launchCred_tallyAt (SemLoc.dma (recvS 4)) peer peer peer_peer peer_peer () NC c); iexact H4
  isplitl [H5]; · iapply (Pipeline.launchCred_tallyAt (SemLoc.dma (recvS 5)) peer peer peer_peer peer_peer () NC c); iexact H5
  isplitl [H6]; · iapply (Pipeline.launchCred_tallyAt (SemLoc.dma (recvS 6)) peer peer peer_peer peer_peer () NC c); iexact H6
  isplitl [H7]; · iapply (Pipeline.launchCred_tallyAt (SemLoc.dma (recvS 7)) peer peer peer_peer peer_peer () NC c); iexact H7
  iapply (Pipeline.launchCred_tallyAt (SemLoc.dma srecvS) peer peer peer_peer peer_peer () NR c); iexact HS

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' H c)
      ⊢ |={Set.univ}=> iprop(start H c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start H c ∗ Pipeline.prefHeld Pipeline.Prefetch.none c (fun _ => fullShare.right) (fun k => k.elim0) ∗ Pipeline.scopedRest cfg0.spec c)
      ⊢ (dats H m 0 c).Φ 0 := by
  rw [show (dats H m 0 c).Φ 0 = Φ₀ H c from rfl, scopedRest0_eq]
  unfold Φ₀ scr
  iintro ⟨Hs, -, Hr⟩
  isplitl [Hs]; · iexact Hs
  iexact Hr

theorem phi1_exit (c : Dev nD) :
    (dats H m 0 c).Φ (Fin.last cfg0.N) ⊢ iprop(emp ∗ Pipeline.ownSems0 osem c ∗ Pipeline.scopedRest cfg0.spec c) := by
  rw [show (dats H m 0 c).Φ (Fin.last cfg0.N) = Φ₁ (F := F) c from rfl, scopedRest0_eq, ownSems0_eq]
  unfold Φ₁ scr
  iintro ⟨Hr, Hz⟩
  isplitr; · iempintro
  isplitl [Hz]; · iexact Hz
  iexact Hr

/-- The pipeline's own staging semaphores carry no cell of the exchange. -/
theorem stage_kind : ∀ (w : Fin cfg0.W) (s : Fin (cfg0.win w).nbuf), kindOf (SemLoc.dma ((cfg0.win w).sem s)) = none := by
  intro w s; fin_cases w <;> fin_cases s <;> decide

theorem lv_stage (c : Dev nD) (w : Fin cfg0.W) (s : Fin (cfg0.win w).nbuf) : lv ((c : Thread nD τ), SemLoc.dma ((cfg0.win w).sem s)) () = 0 := by
  show (match kindOf (SemLoc.dma ((cfg0.win w).sem s)) with | some κ => lvK κ | none => 0) = 0
  rw [stage_kind]

theorem waits (c : Dev nD) : (levAts L lv : sProp 𝕄) ⊢ Pipeline.cellsWaits cfgs (dats H m) () 0 c :=
  Pipeline.cellsWaits_intro cfgs (dats H m) () 0 c fun w s t =>
    mayWait_low c _ (lv_stage c w s) _ (by
      rcases t with ⟨_ | _, ht⟩
      · exact Or.inl rfl
      · exact Or.inr rfl)

/-! ### The run -/

set_option maxRecDepth 8000 in
/-- At the compiled mesh of thirty-two devices, for any float values, from any memory with zero counters: every weakly
    fair execution of the sixteen pairwise exchanges terminates, and every final state has each device's windowed arrays
    at the contents the proof data computes. -/
theorem run_main (hbody : ∀ c : Dev nD, BodyObligation (dats (F := F) H m 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats H m 0 c).arrAt w cfg0.N) :=
  Pipeline.θ_run_region_owing_glob_pf (fun p => (cfgs p).toPCfg) (fun p => (cfgs p).toPCfg_adm) (dats H m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq H m)
    (hdistinct := winFacts0.arr_inj)
    (O₀ := O₀) (howed₀ := fun _ => rfl) (howedN := fun _ => rfl)
    (L := L) (lv := lv) (hL := L_of_ne) (hwaits := waits H m)
    (G := G H) (G' := G' H) (u₀ := u₀)
    (hu₀ := by
      unfold u₀
      iintro Hu
      ihave Hp := (ownU_pair _ _) $$ Hu
      icases Hp with ⟨HP, HX⟩
      imod (fund_ring H) $$ HX with HG
      imodintro
      isplitl [HP] <;> iassumption)
    (hglob := glob H)
    (hA := fun _ _ => rfl) (hpf := fun _ k => k.elim0)
    (X := start H) (Y := fun _ => iprop(emp)) (Z := fun _ => iprop(emp))
    (hX := start_intro H m ρ) (hin := phi0_intro H m) (hout := phi1_exit H m)
    (QY := fun _ _ => True)
    (hY := fun c s' => by
      iintro ⟨-, -, HSI⟩
      imodintro
      isplitr; · ipureintro; trivial
      iexact HSI)
    (hQ := fun _ h c w => (h c).1 w)

/-! ### What the run leaves in the arrays -/

/-- The argument arrays end as they began. -/
theorem frame_main (hbody : ∀ c : Dev nD, BodyObligation (dats (F := F) H m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c) 0).trans ((dats H m 0 c).arrAt_in 0 rfl _), ((h c) 1).trans ((dats H m 0 c).arrAt_in 1 rfl _)⟩) (run_main H m ρ hbody)

/-- The result's window is written back at the one point and its block is the whole array: the array ends holding
    what the body left in the staging buffer. -/
theorem out_final (c : Dev nD) : (dats H m 0 c).arrAt 2 cfg0.N = H.OUT c := by
  have h := (dats H m 0 c).arrAt_succ 2 t0_0
  rw [flush0_2, if_pos rfl] at h
  refine (show (dats H m 0 c).arrAt 2 cfg0.N = _ from h).trans ?_
  exact Memref.write_access_unit_zero_univ (Elt F) main_v1 (by funext a; fin_cases a <;> rfl) _ _ _

/-- The run with everything the claims read: the argument arrays unchanged, the result array at `H.OUT`. -/
theorem run_full (hbody : ∀ c : Dev nD, BodyObligation (dats (F := F) H m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = H.OUT c) :=
  (θ_run defs _ _).mono (fun _ h c => ⟨((h c) 0).trans ((dats H m 0 c).arrAt_in 0 rfl _), ((h c) 1).trans ((dats H m 0 c).arrAt_in 1 rfl _),
    ((h c) 2).trans (out_final H m c)⟩) (run_main H m ρ hbody)

/-- The result array alone. -/
theorem result_main (hbody : ∀ c : Dev nD, BodyObligation (dats (F := F) H m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = H.OUT c) :=
  (θ_run defs _ _).mono (fun _ h c => (h c).2.2) (run_full H m ρ hbody)

end Cert.KernelIdeal.Dist

end
-- ==== Proof.Terms.lean ====
/-
  Names for what one device's body computes, as functions of what its staging buffers hold (`x`: its copy of the
  activations, `w`: its block of the weights) and of what it has received (`rb`: the partner's eight chunks, `sr`:
  the partner's row sums): the eight chunks `E q` of `exp (x · w)` it stores and sends, the row sums `rowS` of all of
  them, the reciprocal `recip` of its own plus the partner's row sums, and the sixteen pieces of the result — the
  own chunks and the received ones, each scaled by `recip`, stored at the device's own half of the columns and at
  the other half. All of it is stated for any float instance.
-/
import proofs.«900347_g7700000000000348_dist_arsfmx_v7x_xyz2x4x4_x_t256_d512_v4096_bf16_1_alg».proof.Proof.Data

noncomputable section

namespace Cert.KernelIdeal.Dist

open Cert.KernelIdeal Cert.KernelIdeal.Gen
open Idealize.ShloMosaic
open Idealize.ShloMosaic.TcCoe

variable {F : FTy → Type} [FloatOps F]

abbrev CX (F : FTy → Type) := (cc0_stg0_0 : Ref sig .tc).ty.Contents (Elt F)
abbrev CW (F : FTy → Type) := (cc0_stg1_0 : Ref sig .tc).ty.Contents (Elt F)
abbrev CO (F : FTy → Type) := (cc0_stg2_0 : Ref sig .tc).ty.Contents (Elt F)
abbrev CB (F : FTy → Type) := (cc0_scratch0 : Ref sig .tc).ty.Contents (Elt F)
abbrev CR (F : FTy → Type) := (cc0_scratch1 : Ref sig .tc).ty.Contents (Elt F)
abbrev CS (F : FTy → Type) := (cc0_scratch2 : Ref sig .tc).ty.Contents (Elt F)
abbrev CT (F : FTy → Type) := (cc0_scratch3 : Ref sig .tc).ty.Contents (Elt F)

/-! ## The loads -/

def xL (x : CX F) : Vec F S256x512 .f32 :=
  View.readAt (Elt F) (Memref.whole cc0_stg0_0).view (Rect.unit (s := S256x512) ![0, 0] S256x512.size inb_S256x512_S256x512_0_0).toLoadRect x
def wL0 (w : CW F) : Vec F S512x512 .f32 :=
  View.readAt (Elt F) (Memref.whole cc0_stg1_0).view (Rect.unit (s := S512x4096) ![0, 0] S512x512.size inb_S512x4096_S512x512_0_0).toLoadRect w
def wL1 (w : CW F) : Vec F S512x512 .f32 :=
  View.readAt (Elt F) (Memref.whole cc0_stg1_0).view (Rect.unit (s := S512x4096) ![0, 512] S512x512.size inb_S512x4096_S512x512_0_512).toLoadRect w
def wL2 (w : CW F) : Vec F S512x512 .f32 :=
  View.readAt (Elt F) (Memref.whole cc0_stg1_0).view (Rect.unit (s := S512x4096) ![0, 1024] S512x512.size inb_S512x4096_S512x512_0_1024).toLoadRect w
def wL3 (w : CW F) : Vec F S512x512 .f32 :=
  View.readAt (Elt F) (Memref.whole cc0_stg1_0).view (Rect.unit (s := S512x4096) ![0, 1536] S512x512.size inb_S512x4096_S512x512_0_1536).toLoadRect w
def wL4 (w : CW F) : Vec F S512x512 .f32 :=
  View.readAt (Elt F) (Memref.whole cc0_stg1_0).view (Rect.unit (s := S512x4096) ![0, 2048] S512x512.size inb_S512x4096_S512x512_0_2048).toLoadRect w
def wL5 (w : CW F) : Vec F S512x512 .f32 :=
  View.readAt (Elt F) (Memref.whole cc0_stg1_0).view (Rect.unit (s := S512x4096) ![0, 2560] S512x512.size inb_S512x4096_S512x512_0_2560).toLoadRect w
def wL6 (w : CW F) : Vec F S512x512 .f32 :=
  View.readAt (Elt F) (Memref.whole cc0_stg1_0).view (Rect.unit (s := S512x4096) ![0, 3072] S512x512.size inb_S512x4096_S512x512_0_3072).toLoadRect w
def wL7 (w : CW F) : Vec F S512x512 .f32 :=
  View.readAt (Elt F) (Memref.whole cc0_stg1_0).view (Rect.unit (s := S512x4096) ![0, 3584] S512x512.size inb_S512x4096_S512x512_0_3584).toLoadRect w
def rbL0 (rb : CR F) : Vec F S1x256x512 .bf16 :=
  View.readAt (Elt F) (Memref.whole cc0_scratch1).view (Rect.unit (s := S8x256x512) ![0, 0, 0] S1x256x512.size inb_S8x256x512_S1x256x512_0_0_0).toLoadRect rb
def rbL1 (rb : CR F) : Vec F S1x256x512 .bf16 :=
  View.readAt (Elt F) (Memref.whole cc0_scratch1).view (Rect.unit (s := S8x256x512) ![1, 0, 0] S1x256x512.size inb_S8x256x512_S1x256x512_1_0_0).toLoadRect rb
def rbL2 (rb : CR F) : Vec F S1x256x512 .bf16 :=
  View.readAt (Elt F) (Memref.whole cc0_scratch1).view (Rect.unit (s := S8x256x512) ![2, 0, 0] S1x256x512.size inb_S8x256x512_S1x256x512_2_0_0).toLoadRect rb
def rbL3 (rb : CR F) : Vec F S1x256x512 .bf16 :=
  View.readAt (Elt F) (Memref.whole cc0_scratch1).view (Rect.unit (s := S8x256x512) ![3, 0, 0] S1x256x512.size inb_S8x256x512_S1x256x512_3_0_0).toLoadRect rb
def rbL4 (rb : CR F) : Vec F S1x256x512 .bf16 :=
  View.readAt (Elt F) (Memref.whole cc0_scratch1).view (Rect.unit (s := S8x256x512) ![4, 0, 0] S1x256x512.size inb_S8x256x512_S1x256x512_4_0_0).toLoadRect rb
def rbL5 (rb : CR F) : Vec F S1x256x512 .bf16 :=
  View.readAt (Elt F) (Memref.whole cc0_scratch1).view (Rect.unit (s := S8x256x512) ![5, 0, 0] S1x256x512.size inb_S8x256x512_S1x256x512_5_0_0).toLoadRect rb
def rbL6 (rb : CR F) : Vec F S1x256x512 .bf16 :=
  View.readAt (Elt F) (Memref.whole cc0_scratch1).view (Rect.unit (s := S8x256x512) ![6, 0, 0] S1x256x512.size inb_S8x256x512_S1x256x512_6_0_0).toLoadRect rb
def rbL7 (rb : CR F) : Vec F S1x256x512 .bf16 :=
  View.readAt (Elt F) (Memref.whole cc0_scratch1).view (Rect.unit (s := S8x256x512) ![7, 0, 0] S1x256x512.size inb_S8x256x512_S1x256x512_7_0_0).toLoadRect rb
def srL (sr : CT F) : Vec F S256x1 .bf16 :=
  View.readAt (Elt F) (Memref.whole cc0_scratch3).view (Rect.unit (s := S256x1) ![0, 0] S256x1.size inb_S256x1_S256x1_0_0).toLoadRect sr

/-! ## The chunks, the row sums, the reciprocal -/

def xb (x : CX F) : FVec F S256x512 .bf16 := k0_pay1 (xL x)
def E0 (x : CX F) (w : CW F) : FVec F S1x256x512 .bf16 := k0_pay4 (xL x) (wL0 w)
def E1 (x : CX F) (w : CW F) : FVec F S1x256x512 .bf16 := k0_pay7 (xb x) (wL1 w)
def E2 (x : CX F) (w : CW F) : FVec F S1x256x512 .bf16 := k0_pay10 (xb x) (wL2 w)
def E3 (x : CX F) (w : CW F) : FVec F S1x256x512 .bf16 := k0_pay13 (xb x) (wL3 w)
def E4 (x : CX F) (w : CW F) : FVec F S1x256x512 .bf16 := k0_pay16 (k0_pay14 (xb x) (wL4 w))
def E5 (x : CX F) (w : CW F) : FVec F S1x256x512 .bf16 := k0_pay19 (xb x) (wL5 w)
def E6 (x : CX F) (w : CW F) : FVec F S1x256x512 .bf16 := k0_pay21 (xb x) (wL6 w)
def E7 (x : CX F) (w : CW F) : FVec F S1x256x512 .bf16 := k0_pay25 (k0_pay24 (xb x) (wL7 w))

/-- The row sums of the device's eight chunks, accumulated chunk by chunk. -/
def rowS (x : CX F) (w : CW F) : FVec F S256x1 .f32 :=
  k0_pay23 (xb x) (k0_pay18 (xb x) (k0_pay12 (xb x) (k0_pay9 (xb x) (k0_pay6 (xb x) (k0_pay3 (xL x) (wL0 w)) (wL1 w)) (wL2 w)) (wL3 w))
    (k0_pay15 (xb x) (wL4 w)) (wL5 w)) (wL6 w) (wL7 w)
/-- The row sums as sent. -/
def rowSent (x : CX F) (w : CW F) : FVec F S256x1 .bf16 := k0_pay26 (rowS x w)
/-- One over the device's row sums plus the partner's. -/
def recip (x : CX F) (w : CW F) (sr : CT F) : FVec F S256x1 .f32 := k0_pay27 (rowS x w) (srL sr)

/-! ## What the buffers end up holding -/

abbrev accB (q : ℕ) (h : ∀ a, (![q, 0, 0] : Fin 3 → Nat) a + S1x256x512.size a ≤ S8x256x512.size a) :=
  (Memref.whole cc0_scratch0).access (Rect.unit (s := S8x256x512) ![q, 0, 0] S1x256x512.size h)

/-- The send buffer once all eight chunks are stored (over arbitrary prior contents `f`). -/
def sbAll (f : CB F) (x : CX F) (w : CW F) : CB F :=
  View.write (Elt F) (accB 7 (inbC 7)) (View.write (Elt F) (accB 6 (inbC 6)) (View.write (Elt F) (accB 5 (inbC 5)) (View.write (Elt F) (accB 4 (inbC 4))
    (View.write (Elt F) (accB 3 (inbC 3)) (View.write (Elt F) (accB 2 (inbC 2)) (View.write (Elt F) (accB 1 (inbC 1)) (View.write (Elt F) (accB 0 (inbC 0)) f
      (E0 x w) Finset.univ) (E1 x w) Finset.univ) (E2 x w) Finset.univ) (E3 x w) Finset.univ) (E4 x w) Finset.univ) (E5 x w) Finset.univ) (E6 x w) Finset.univ) (E7 x w) Finset.univ

/-- The row-sum send buffer once stored. -/
def ssAll (f : CS F) (x : CX F) (w : CW F) : CS F :=
  (Memref.whole cc0_scratch2).view.writes (Elt F) f [⟨Rect.unit (s := S256x1) ![0, 0] S256x1.size inb_S256x1_S256x1_0_0, rowSent x w⟩]

/-- The sixteen pieces of the result, last store first. -/
def outPieces (c : Dev nD) (x : CX F) (w : CW F) (rb : CR F) (sr : CT F) : List (View.Piece (Elt F) S256x8192 .bf16) :=
  [⟨Rect.unit (s := S256x8192) (k0_off2 c 3584#32) S256x512.size (k0_off2_inb c 7), k0_pay45 (recip x w sr) (rbL7 rb)⟩,
   ⟨Rect.unit (s := S256x8192) (k0_off2 c 3072#32) S256x512.size (k0_off2_inb c 6), k0_pay44 (recip x w sr) (rbL6 rb)⟩,
   ⟨Rect.unit (s := S256x8192) (k0_off2 c 2560#32) S256x512.size (k0_off2_inb c 5), k0_pay43 (recip x w sr) (rbL5 rb)⟩,
   ⟨Rect.unit (s := S256x8192) (k0_off2 c 2048#32) S256x512.size (k0_off2_inb c 4), k0_pay42 (recip x w sr) (rbL4 rb)⟩,
   ⟨Rect.unit (s := S256x8192) (k0_off2 c 1536#32) S256x512.size (k0_off2_inb c 3), k0_pay41 (recip x w sr) (rbL3 rb)⟩,
   ⟨Rect.unit (s := S256x8192) (k0_off2 c 1024#32) S256x512.size (k0_off2_inb c 2), k0_pay40 (recip x w sr) (rbL2 rb)⟩,
   ⟨Rect.unit (s := S256x8192) (k0_off2 c 512#32) S256x512.size (k0_off2_inb c 1), k0_pay39 (recip x w sr) (rbL1 rb)⟩,
   ⟨Rect.unit (s := S256x8192) (k0_off2 c 0#32) S256x512.size (k0_off2_inb c 0), k0_pay38 (recip x w sr) (rbL0 rb)⟩,
   ⟨Rect.unit (s := S256x8192) (k0_off1 c 3584#32) S256x512.size (k0_off1_inb c 7), k0_pay37 (recip x w sr) (E7 x w)⟩,
   ⟨Rect.unit (s := S256x8192) (k0_off1 c 3072#32) S256x512.size (k0_off1_inb c 6), k0_pay36 (recip x w sr) (E6 x w)⟩,
   ⟨Rect.unit (s := S256x8192) (k0_off1 c 2560#32) S256x512.size (k0_off1_inb c 5), k0_pay35 (recip x w sr) (k0_pay34 (E5 x w))⟩,
   ⟨Rect.unit (s := S256x8192) (k0_off1 c 2048#32) S256x512.size (k0_off1_inb c 4), k0_pay33 (recip x w sr) (E4 x w)⟩,
   ⟨Rect.unit (s := S256x8192) (k0_off1 c 1536#32) S256x512.size (k0_off1_inb c 3), k0_pay32 (recip x w sr) (E3 x w)⟩,
   ⟨Rect.unit (s := S256x8192) (k0_off1 c 1024#32) S256x512.size (k0_off1_inb c 2), k0_pay31 (recip x w sr) (E2 x w)⟩,
   ⟨Rect.unit (s := S256x8192) (k0_off1 c 512#32) S256x512.size (k0_off1_inb c 1), k0_pay30 (recip x w sr) (k0_pay29 (E1 x w))⟩,
   ⟨Rect.unit (s := S256x8192) (k0_off1 c 0#32) S256x512.size (k0_off1_inb c 0), k0_pay28 (rowS x w) (srL sr) (E0 x w)⟩]

/-- The result's staging buffer when the body ends (over arbitrary prior contents `f`). -/
def outAll (f : CO F) (c : Dev nD) (x : CX F) (w : CW F) (rb : CR F) (sr : CT F) : CO F :=
  (Memref.whole cc0_stg2_0).view.writes (Elt F) f (outPieces c x w rb sr)

end Cert.KernelIdeal.Dist

end
-- ==== Proof.ViewFacts.lean ====
/-
  What the exchanged buffers hold, element by element, whatever they held before.

  The eight chunks of the send buffer are the unit rectangles [q, q+1) × 256 × 512 of an [8, 256, 512]
  buffer: pairwise disjoint (they differ on the leading axis).  So an element of chunk q, after all eight
  chunk stores, holds what chunk q's store wrote — whatever the buffer held before and whatever the other
  seven stores wrote; and a copy of chunk q of one buffer into chunk q of another of the same shape lands
  the same values at the same indices.
-/
import proofs.«900347_g7700000000000348_dist_arsfmx_v7x_xyz2x4x4_x_t256_d512_v4096_bf16_1_alg».proof.Proof.Terms
import Idealize.ShloMosaic.Lib.Pipeline.Value

noncomputable section

namespace Cert.KernelIdeal.Dist

open Cert.KernelIdeal Cert.KernelIdeal.Gen
open Idealize.ShloMosaic
open Idealize.ShloMosaic.TcCoe

variable {F : FTy → Type} [FloatOps F]

/-! ## One unmasked write through a view -/

section General
variable {κ : Idealize.ShloMosaic.Kind} {sp : Space} {S : Shape} {e : EltTy} {Val : EltTy → Type}

/-- Under the view, an unmasked write leaves the payload whatever was there. -/
theorem write_univ_congr_of_mem (v : View sig κ sp S e) (f f' : v.ty.Contents Val) (w : S.Idx → Val e)
    {i : v.ty.Idx} (hi : i ∈ v.set) : v.write Val f w Finset.univ i = v.write Val f' w Finset.univ i := by
  obtain ⟨y, rfl⟩ := View.exists_emb_of_mem_set v hi
  rw [View.write_emb_of_mem _ _ (Finset.mem_univ y), View.write_emb_of_mem _ _ (Finset.mem_univ y)]

/-- Off the view, it leaves what was there. -/
theorem write_univ_of_not_mem (v : View sig κ sp S e) (f : v.ty.Contents Val) (w : S.Idx → Val e)
    {i : v.ty.Idx} (hi : i ∉ v.set) : v.write Val f w Finset.univ i = f i :=
  View.write_of_not_mem f w Finset.univ (by rwa [View.setOn_univ])

end General

/-! ## The chunks' element sets -/

/-- The rectangle of chunk q. -/
abbrev chunkRect (q : ℕ) (h : ∀ a, (![q, 0, 0] : Fin 3 → Nat) a + S1x256x512.size a ≤ S8x256x512.size a) : Rect S8x256x512 :=
  Rect.unit (s := S8x256x512) ![q, 0, 0] S1x256x512.size h

theorem accB_set (q : ℕ) (h : ∀ a, (![q, 0, 0] : Fin 3 → Nat) a + S1x256x512.size a ≤ S8x256x512.size a) :
    (accB q h).set = (chunkRect q h).set := View.set_slice_whole _ _

theorem chunkN_sb_set (q : ℕ) (h : ∀ a, (![q, 0, 0] : Fin 3 → Nat) a + S1x256x512.size a ≤ S8x256x512.size a) :
    (chunkN sbM q h).view.set = (chunkRect q h).set := by
  show (((View.whole cc0_scratch0).slice (chunkRect q h)).reshape S256x512 _).set = _
  rw [View.set_reshape, View.set_slice_whole]

theorem chunkN_rb_set (q : ℕ) (h : ∀ a, (![q, 0, 0] : Fin 3 → Nat) a + S1x256x512.size a ≤ S8x256x512.size a) :
    (chunkN rbM q h).view.set = (chunkRect q h).set := by
  show (((View.whole cc0_scratch1).slice (chunkRect q h)).reshape S256x512 _).set = _
  rw [View.set_reshape, View.set_slice_whole]

/-- Different chunks share no element: they differ on the leading axis. -/
theorem chunkRect_not_mem (p q : ℕ) (hp : ∀ a, (![p, 0, 0] : Fin 3 → Nat) a + S1x256x512.size a ≤ S8x256x512.size a)
    (hq : ∀ a, (![q, 0, 0] : Fin 3 → Nat) a + S1x256x512.size a ≤ S8x256x512.size a) (hne : p ≠ q)
    {i : S8x256x512.Idx} (hi : i ∈ (chunkRect q hq).set) : i ∉ (chunkRect p hp).set := by
  have hd : Disjoint (chunkRect q hq).set (chunkRect p hp).set := by
    refine Rect.unit_disjoint (0 : Fin 3) ?_
    show q + 1 ≤ p ∨ p + 1 ≤ q
    omega
  exact Finset.disjoint_left.mp hd hi

/-- A store to another chunk leaves chunk q's elements alone. -/
theorem peel (p q : ℕ) (hp : ∀ a, (![p, 0, 0] : Fin 3 → Nat) a + S1x256x512.size a ≤ S8x256x512.size a)
    (hq : ∀ a, (![q, 0, 0] : Fin 3 → Nat) a + S1x256x512.size a ≤ S8x256x512.size a) (hne : p ≠ q)
    (inner : CB F) (wp : FVec F S1x256x512 .bf16) {i : S8x256x512.Idx} (hi : i ∈ (chunkRect q hq).set) :
    View.write (Elt F) (accB p hp) inner wp Finset.univ i = inner i :=
  write_univ_of_not_mem (accB p hp) inner wp (by rw [accB_set]; exact chunkRect_not_mem p q hp hq hne hi)

/-- The store to chunk q itself leaves its payload there, whatever was under it. -/
theorem same (q : ℕ) (hq : ∀ a, (![q, 0, 0] : Fin 3 → Nat) a + S1x256x512.size a ≤ S8x256x512.size a)
    (f f' : CB F) (wq : FVec F S1x256x512 .bf16) {i : S8x256x512.Idx} (hi : i ∈ (chunkRect q hq).set) :
    View.write (Elt F) (accB q hq) f wq Finset.univ i = View.write (Elt F) (accB q hq) f' wq Finset.univ i :=
  write_univ_congr_of_mem (accB q hq) f f' wq (by rw [accB_set]; exact hi)

/-! ## (FA) A chunk's elements after all eight stores -/

theorem FA0 (f g : CB F) (x : CX F) (w : CW F) : ∀ i ∈ (chunkN sbM 0 (inbC 0)).view.set,
    View.write (Elt F) (accB 0 (inbC 0)) f (E0 x w) Finset.univ i = sbAll g x w i := by
  intro i hi
  rw [chunkN_sb_set] at hi
  unfold sbAll
  rw [peel 7 0 (inbC 7) (inbC 0) (by decide) _ _ hi,
    peel 6 0 (inbC 6) (inbC 0) (by decide) _ _ hi,
    peel 5 0 (inbC 5) (inbC 0) (by decide) _ _ hi,
    peel 4 0 (inbC 4) (inbC 0) (by decide) _ _ hi,
    peel 3 0 (inbC 3) (inbC 0) (by decide) _ _ hi,
    peel 2 0 (inbC 2) (inbC 0) (by decide) _ _ hi,
    peel 1 0 (inbC 1) (inbC 0) (by decide) _ _ hi]
  exact same 0 (inbC 0) _ _ _ hi

theorem FA1 (f g : CB F) (x : CX F) (w : CW F) : ∀ i ∈ (chunkN sbM 1 (inbC 1)).view.set,
    View.write (Elt F) (accB 1 (inbC 1)) f (E1 x w) Finset.univ i = sbAll g x w i := by
  intro i hi
  rw [chunkN_sb_set] at hi
  unfold sbAll
  rw [peel 7 1 (inbC 7) (inbC 1) (by decide) _ _ hi,
    peel 6 1 (inbC 6) (inbC 1) (by decide) _ _ hi,
    peel 5 1 (inbC 5) (inbC 1) (by decide) _ _ hi,
    peel 4 1 (inbC 4) (inbC 1) (by decide) _ _ hi,
    peel 3 1 (inbC 3) (inbC 1) (by decide) _ _ hi,
    peel 2 1 (inbC 2) (inbC 1) (by decide) _ _ hi]
  exact same 1 (inbC 1) _ _ _ hi

theorem FA2 (f g : CB F) (x : CX F) (w : CW F) : ∀ i ∈ (chunkN sbM 2 (inbC 2)).view.set,
    View.write (Elt F) (accB 2 (inbC 2)) f (E2 x w) Finset.univ i = sbAll g x w i := by
  intro i hi
  rw [chunkN_sb_set] at hi
  unfold sbAll
  rw [peel 7 2 (inbC 7) (inbC 2) (by decide) _ _ hi,
    peel 6 2 (inbC 6) (inbC 2) (by decide) _ _ hi,
    peel 5 2 (inbC 5) (inbC 2) (by decide) _ _ hi,
    peel 4 2 (inbC 4) (inbC 2) (by decide) _ _ hi,
    peel 3 2 (inbC 3) (inbC 2) (by decide) _ _ hi]
  exact same 2 (inbC 2) _ _ _ hi

theorem FA3 (f g : CB F) (x : CX F) (w : CW F) : ∀ i ∈ (chunkN sbM 3 (inbC 3)).view.set,
    View.write (Elt F) (accB 3 (inbC 3)) f (E3 x w) Finset.univ i = sbAll g x w i := by
  intro i hi
  rw [chunkN_sb_set] at hi
  unfold sbAll
  rw [peel 7 3 (inbC 7) (inbC 3) (by decide) _ _ hi,
    peel 6 3 (inbC 6) (inbC 3) (by decide) _ _ hi,
    peel 5 3 (inbC 5) (inbC 3) (by decide) _ _ hi,
    peel 4 3 (inbC 4) (inbC 3) (by decide) _ _ hi]
  exact same 3 (inbC 3) _ _ _ hi

theorem FA4 (f g : CB F) (x : CX F) (w : CW F) : ∀ i ∈ (chunkN sbM 4 (inbC 4)).view.set,
    View.write (Elt F) (accB 4 (inbC 4)) f (E4 x w) Finset.univ i = sbAll g x w i := by
  intro i hi
  rw [chunkN_sb_set] at hi
  unfold sbAll
  rw [peel 7 4 (inbC 7) (inbC 4) (by decide) _ _ hi,
    peel 6 4 (inbC 6) (inbC 4) (by decide) _ _ hi,
    peel 5 4 (inbC 5) (inbC 4) (by decide) _ _ hi]
  exact same 4 (inbC 4) _ _ _ hi

theorem FA5 (f g : CB F) (x : CX F) (w : CW F) : ∀ i ∈ (chunkN sbM 5 (inbC 5)).view.set,
    View.write (Elt F) (accB 5 (inbC 5)) f (E5 x w) Finset.univ i = sbAll g x w i := by
  intro i hi
  rw [chunkN_sb_set] at hi
  unfold sbAll
  rw [peel 7 5 (inbC 7) (inbC 5) (by decide) _ _ hi,
    peel 6 5 (inbC 6) (inbC 5) (by decide) _ _ hi]
  exact same 5 (inbC 5) _ _ _ hi

theorem FA6 (f g : CB F) (x : CX F) (w : CW F) : ∀ i ∈ (chunkN sbM 6 (inbC 6)).view.set,
    View.write (Elt F) (accB 6 (inbC 6)) f (E6 x w) Finset.univ i = sbAll g x w i := by
  intro i hi
  rw [chunkN_sb_set] at hi
  unfold sbAll
  rw [peel 7 6 (inbC 7) (inbC 6) (by decide) _ _ hi]
  exact same 6 (inbC 6) _ _ _ hi

theorem FA7 (f g : CB F) (x : CX F) (w : CW F) : ∀ i ∈ (chunkN sbM 7 (inbC 7)).view.set,
    View.write (Elt F) (accB 7 (inbC 7)) f (E7 x w) Finset.univ i = sbAll g x w i := by
  intro i hi
  rw [chunkN_sb_set] at hi
  unfold sbAll
  exact same 7 (inbC 7) _ _ _ hi

/-! ## (FB) A copy of chunk q into the other buffer's chunk q -/

theorem FB_of (q : ℕ) (h : ∀ a, (![q, 0, 0] : Fin 3 → Nat) a + S1x256x512.size a ≤ S8x256x512.size a)
    (fd : CR F) (fs G : CB F) (hfs : ∀ i ∈ (chunkN sbM q h).view.set, fs i = G i) :
    ∀ i ∈ (chunkN rbM q h).view.set,
      ((chunkN rbM q h).view.write (Elt F) fd ((chunkN sbM q h).view.read (Elt F) fs) Finset.univ) i = (G : CR F) i := by
  intro i hi
  obtain ⟨y, rfl⟩ := View.exists_emb_of_mem_set _ hi
  rw [View.write_emb_of_mem _ _ (Finset.mem_univ y), View.read_apply,
    hfs ((chunkN sbM q h).view.emb y) (View.emb_mem_set _ y)]
  rw [cast_cast, cast_eq]
  rfl

/-- (FB) in the form the exchange uses: the source chunk holds what all eight stores left. -/
theorem FB (q : ℕ) (h : ∀ a, (![q, 0, 0] : Fin 3 → Nat) a + S1x256x512.size a ≤ S8x256x512.size a)
    (fd : CR F) (fs g : CB F) (x : CX F) (w : CW F)
    (hfs : ∀ i ∈ (chunkN sbM q h).view.set, fs i = sbAll g x w i) :
    ∀ i ∈ (chunkN rbM q h).view.set,
      ((chunkN rbM q h).view.write (Elt F) fd ((chunkN sbM q h).view.read (Elt F) fs) Finset.univ) i
        = (sbAll g x w : CR F) i :=
  FB_of q h fd fs (sbAll g x w) hfs

end Cert.KernelIdeal.Dist

end
-- ==== Proof.ViewCover.lean ====
/-
  Buffers filled whole: what the stores leave does not depend on what was there.

  The row-sum send buffer is stored whole by one store, and copied whole into the partner's row-sum receive
  buffer.  The result's staging buffer [256, 8192] is stored in sixteen pieces of 512 columns: the device's own
  eight chunks from column 4096 · (c / 16) and the received eight from column 4096 − 4096 · (c / 16); for either
  value of c / 16 the sixteen column offsets are 0, 512, …, 7680, so the pieces cover the buffer, and a covering
  list of stores leaves contents that do not depend on the prior contents.
-/
import proofs.«900347_g7700000000000348_dist_arsfmx_v7x_xyz2x4x4_x_t256_d512_v4096_bf16_1_alg».proof.Proof.ViewFacts
import Idealize.ShloMosaic.Lib.Writes
import Idealize.ShloMosaic.Lib.ValueIdx

noncomputable section

namespace Cert.KernelIdeal.Dist

open Cert.KernelIdeal Cert.KernelIdeal.Gen
open Idealize.ShloMosaic
open Idealize.ShloMosaic.TcCoe

variable {F : FTy → Type} [FloatOps F]

/-- Through a whole buffer, a covering list of stores leaves contents that do not depend on the prior contents. -/
theorem writes_whole_congr {Val : EltTy → Type} (b : Ref sig .tc) (f g : b.ty.Contents Val)
    (L : List (View.Piece Val b.ty.shape b.ty.elt)) (h : ∀ y, ∃ p ∈ L, y ∈ p.1.set) :
    (View.whole b).writes Val f L = (View.whole b).writes Val g L := by
  have e := View.read_writes_of_cover (View.whole b) f (View.whole b) g L h
  rwa [View.read_whole, View.read_whole] at e

/-! ## (FS), (FT): the row sums' buffers -/

theorem ss_cover (x : CX F) (w : CW F) : ∀ y : S256x1.Idx,
    ∃ p ∈ ([⟨Rect.unit (s := S256x1) ![0, 0] S256x1.size inb_S256x1_S256x1_0_0, rowSent x w⟩] : List (View.Piece (Elt F) S256x1 .bf16)),
      y ∈ p.1.set :=
  fun y => ⟨_, List.mem_singleton_self _, View.mem_set_unit_zero (by funext a; match a with | ⟨0, _⟩ => rfl | ⟨1, _⟩ => rfl) inb_S256x1_S256x1_0_0 y⟩

/-- (FS) The row-sum send buffer after its one whole store, over any prior contents. -/
theorem FS (f g : CS F) (x : CX F) (w : CW F) : ssAll f x w = ssAll g x w := by
  unfold ssAll
  exact writes_whole_congr cc0_scratch2 f g _ (ss_cover x w)

/-- (FT), general: a whole copy of one row-sum buffer into the other lands the source's contents. -/
theorem FT_of (fd : CT F) (fs G : CS F) (hfs : ∀ i, fs i = G i) :
    ∀ i ∈ (Memref.whole cc0_scratch3).view.set,
      ((Memref.whole cc0_scratch3).view.write (Elt F) fd ((Memref.whole cc0_scratch2).view.read (Elt F) fs) Finset.univ) i
        = (G : CT F) i := by
  intro i _
  show (View.whole cc0_scratch3).write (Elt F) fd ((View.whole cc0_scratch2).read (Elt F) fs) Finset.univ i = _
  rw [View.write_whole_univ]
  exact hfs i

/-- (FT) -/
theorem FT (fd : CT F) (fs g : CS F) (x : CX F) (w : CW F) (hfs : ∀ i, fs i = ssAll g x w i) :
    ∀ i ∈ (Memref.whole cc0_scratch3).view.set,
      ((Memref.whole cc0_scratch3).view.write (Elt F) fd ((Memref.whole cc0_scratch2).view.read (Elt F) fs) Finset.univ) i
        = (ssAll g x w : CT F) i :=
  FT_of fd fs (ssAll g x w) hfs

/-! ## (FO): the result's sixteen pieces cover it -/

theorem out_cover (c : Dev nD) (x : CX F) (w : CW F) (rb : CR F) (sr : CT F) :
    ∀ y : S256x8192.Idx, ∃ p ∈ outPieces c x w rb sr, y ∈ p.1.set := by
  intro y
  obtain ⟨r, j, rfl⟩ : ∃ (r : Fin 256) (j : Fin 8192), y = ValueIdx.ix2 r j := ⟨y 0, y 1, ValueIdx.eq_ix2 y⟩
  have hc : c.val < 32 := c.isLt
  have hj : j.val < 8192 := j.isLt
  have hr : r.val < 256 := r.isLt
  have key : ∀ (off : Fin 2 → ℕ) (inb : ∀ a, off a + S256x512.size a ≤ S256x8192.size a) (o : ℕ), off = ![0, o] →
      o ≤ j.val → j.val < o + 512 → ValueIdx.ix2 r j ∈ (Rect.unit (s := S256x8192) off S256x512.size inb).set := by
    intro off inb o e h1 h2
    subst e
    refine Rect.mem_set_unit.mpr fun a => ?_
    match a with
    | ⟨0, _⟩ => exact ⟨Nat.zero_le _, by show r.val < 0 + 256; omega⟩
    | ⟨1, _⟩ => exact ⟨h1, h2⟩
  have o1_0 : k0_off1 c 0#32 = ![0, 4096 * (c.val / 16) + 0] := k0_off1_eq c 0
  have o2_0 : k0_off2 c 0#32 = ![0, (0 + 4096) - 4096 * (c.val / 16)] := k0_off2_eq c 0
  have o1_1 : k0_off1 c 512#32 = ![0, 4096 * (c.val / 16) + 512] := k0_off1_eq c 1
  have o2_1 : k0_off2 c 512#32 = ![0, (512 + 4096) - 4096 * (c.val / 16)] := k0_off2_eq c 1
  have o1_2 : k0_off1 c 1024#32 = ![0, 4096 * (c.val / 16) + 1024] := k0_off1_eq c 2
  have o2_2 : k0_off2 c 1024#32 = ![0, (1024 + 4096) - 4096 * (c.val / 16)] := k0_off2_eq c 2
  have o1_3 : k0_off1 c 1536#32 = ![0, 4096 * (c.val / 16) + 1536] := k0_off1_eq c 3
  have o2_3 : k0_off2 c 1536#32 = ![0, (1536 + 4096) - 4096 * (c.val / 16)] := k0_off2_eq c 3
  have o1_4 : k0_off1 c 2048#32 = ![0, 4096 * (c.val / 16) + 2048] := k0_off1_eq c 4
  have o2_4 : k0_off2 c 2048#32 = ![0, (2048 + 4096) - 4096 * (c.val / 16)] := k0_off2_eq c 4
  have o1_5 : k0_off1 c 2560#32 = ![0, 4096 * (c.val / 16) + 2560] := k0_off1_eq c 5
  have o2_5 : k0_off2 c 2560#32 = ![0, (2560 + 4096) - 4096 * (c.val / 16)] := k0_off2_eq c 5
  have o1_6 : k0_off1 c 3072#32 = ![0, 4096 * (c.val / 16) + 3072] := k0_off1_eq c 6
  have o2_6 : k0_off2 c 3072#32 = ![0, (3072 + 4096) - 4096 * (c.val / 16)] := k0_off2_eq c 6
  have o1_7 : k0_off1 c 3584#32 = ![0, 4096 * (c.val / 16) + 3584] := k0_off1_eq c 7
  have o2_7 : k0_off2 c 3584#32 = ![0, (3584 + 4096) - 4096 * (c.val / 16)] := k0_off2_eq c 7
  unfold outPieces
  by_cases hb : c.val / 16 = 0
  · rw [hb] at o1_0 o2_0 o1_1 o2_1 o1_2 o2_2 o1_3 o2_3 o1_4 o2_4 o1_5 o2_5 o1_6 o2_6 o1_7 o2_7
    by_cases h0 : j.val < 512
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩
      exact key _ (k0_off1_inb c 0) _ o1_0 (by omega) (by omega)
    by_cases h1 : j.val < 1024
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩
      exact key _ (k0_off1_inb c 1) _ o1_1 (by omega) (by omega)
    by_cases h2 : j.val < 1536
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩
      exact key _ (k0_off1_inb c 2) _ o1_2 (by omega) (by omega)
    by_cases h3 : j.val < 2048
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩
      exact key _ (k0_off1_inb c 3) _ o1_3 (by omega) (by omega)
    by_cases h4 : j.val < 2560
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
      exact key _ (k0_off1_inb c 4) _ o1_4 (by omega) (by omega)
    by_cases h5 : j.val < 3072
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
      exact key _ (k0_off1_inb c 5) _ o1_5 (by omega) (by omega)
    by_cases h6 : j.val < 3584
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
      exact key _ (k0_off1_inb c 6) _ o1_6 (by omega) (by omega)
    by_cases h7 : j.val < 4096
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
      exact key _ (k0_off1_inb c 7) _ o1_7 (by omega) (by omega)
    by_cases h8 : j.val < 4608
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact key _ (k0_off2_inb c 0) _ o2_0 (by omega) (by omega)
    by_cases h9 : j.val < 5120
    · refine ⟨_, (List.mem_cons_of_mem _ (List.mem_cons_of_mem _ (List.mem_cons_of_mem _ (List.mem_cons_of_mem _ (List.mem_cons_of_mem _ (List.mem_cons_of_mem _ List.mem_cons_self)))))), ?_⟩
      exact key _ (k0_off2_inb c 1) _ o2_1 (by omega) (by omega)
    by_cases h10 : j.val < 5632
    · refine ⟨_, (List.mem_cons_of_mem _ (List.mem_cons_of_mem _ (List.mem_cons_of_mem _ (List.mem_cons_of_mem _ (List.mem_cons_of_mem _ List.mem_cons_self))))), ?_⟩
      exact key _ (k0_off2_inb c 2) _ o2_2 (by omega) (by omega)
    by_cases h11 : j.val < 6144
    · refine ⟨_, (List.mem_cons_of_mem _ (List.mem_cons_of_mem _ (List.mem_cons_of_mem _ (List.mem_cons_of_mem _ List.mem_cons_self)))), ?_⟩
      exact key _ (k0_off2_inb c 3) _ o2_3 (by omega) (by omega)
    by_cases h12 : j.val < 6656
    · refine ⟨_, (List.mem_cons_of_mem _ (List.mem_cons_of_mem _ (List.mem_cons_of_mem _ List.mem_cons_self))), ?_⟩
      exact key _ (k0_off2_inb c 4) _ o2_4 (by omega) (by omega)
    by_cases h13 : j.val < 7168
    · refine ⟨_, (List.mem_cons_of_mem _ (List.mem_cons_of_mem _ List.mem_cons_self)), ?_⟩
      exact key _ (k0_off2_inb c 5) _ o2_5 (by omega) (by omega)
    by_cases h14 : j.val < 7680
    · refine ⟨_, (List.mem_cons_of_mem _ List.mem_cons_self), ?_⟩
      exact key _ (k0_off2_inb c 6) _ o2_6 (by omega) (by omega)
    refine ⟨_, List.mem_cons_self, ?_⟩
    exact key _ (k0_off2_inb c 7) _ o2_7 (by omega) (by omega)
  · have hb1 : c.val / 16 = 1 := by omega
    rw [hb1] at o1_0 o2_0 o1_1 o2_1 o1_2 o2_2 o1_3 o2_3 o1_4 o2_4 o1_5 o2_5 o1_6 o2_6 o1_7 o2_7
    by_cases h0 : j.val < 512
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact key _ (k0_off2_inb c 0) _ o2_0 (by omega) (by omega)
    by_cases h1 : j.val < 1024
    · refine ⟨_, (List.mem_cons_of_mem _ (List.mem_cons_of_mem _ (List.mem_cons_of_mem _ (List.mem_cons_of_mem _ (List.mem_cons_of_mem _ (List.mem_cons_of_mem _ List.mem_cons_self)))))), ?_⟩
      exact key _ (k0_off2_inb c 1) _ o2_1 (by omega) (by omega)
    by_cases h2 : j.val < 1536
    · refine ⟨_, (List.mem_cons_of_mem _ (List.mem_cons_of_mem _ (List.mem_cons_of_mem _ (List.mem_cons_of_mem _ (List.mem_cons_of_mem _ List.mem_cons_self))))), ?_⟩
      exact key _ (k0_off2_inb c 2) _ o2_2 (by omega) (by omega)
    by_cases h3 : j.val < 2048
    · refine ⟨_, (List.mem_cons_of_mem _ (List.mem_cons_of_mem _ (List.mem_cons_of_mem _ (List.mem_cons_of_mem _ List.mem_cons_self)))), ?_⟩
      exact key _ (k0_off2_inb c 3) _ o2_3 (by omega) (by omega)
    by_cases h4 : j.val < 2560
    · refine ⟨_, (List.mem_cons_of_mem _ (List.mem_cons_of_mem _ (List.mem_cons_of_mem _ List.mem_cons_self))), ?_⟩
      exact key _ (k0_off2_inb c 4) _ o2_4 (by omega) (by omega)
    by_cases h5 : j.val < 3072
    · refine ⟨_, (List.mem_cons_of_mem _ (List.mem_cons_of_mem _ List.mem_cons_self)), ?_⟩
      exact key _ (k0_off2_inb c 5) _ o2_5 (by omega) (by omega)
    by_cases h6 : j.val < 3584
    · refine ⟨_, (List.mem_cons_of_mem _ List.mem_cons_self), ?_⟩
      exact key _ (k0_off2_inb c 6) _ o2_6 (by omega) (by omega)
    by_cases h7 : j.val < 4096
    · refine ⟨_, List.mem_cons_self, ?_⟩
      exact key _ (k0_off2_inb c 7) _ o2_7 (by omega) (by omega)
    by_cases h8 : j.val < 4608
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩
      exact key _ (k0_off1_inb c 0) _ o1_0 (by omega) (by omega)
    by_cases h9 : j.val < 5120
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩
      exact key _ (k0_off1_inb c 1) _ o1_1 (by omega) (by omega)
    by_cases h10 : j.val < 5632
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩
      exact key _ (k0_off1_inb c 2) _ o1_2 (by omega) (by omega)
    by_cases h11 : j.val < 6144
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩
      exact key _ (k0_off1_inb c 3) _ o1_3 (by omega) (by omega)
    by_cases h12 : j.val < 6656
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
      exact key _ (k0_off1_inb c 4) _ o1_4 (by omega) (by omega)
    by_cases h13 : j.val < 7168
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
      exact key _ (k0_off1_inb c 5) _ o1_5 (by omega) (by omega)
    by_cases h14 : j.val < 7680
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
      exact key _ (k0_off1_inb c 6) _ o1_6 (by omega) (by omega)
    refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
    exact key _ (k0_off1_inb c 7) _ o1_7 (by omega) (by omega)

/-- (FO) The result's staging buffer after the sixteen stores, over any prior contents. -/
theorem FO (f g : CO F) (c : Dev nD) (x : CX F) (w : CW F) (rb : CR F) (sr : CT F) :
    outAll f c x w rb sr = outAll g c x w rb sr := by
  unfold outAll
  exact writes_whole_congr cc0_stg2_0 f g _ (out_cover c x w rb sr)

end Cert.KernelIdeal.Dist

end
-- ==== Proof.HeldOf.lean ====
/-
  What the exchanged buffers of every device hold, as functions of the launch memory: each device's send
  buffers from its own copy of the activations and its own block of the weights, its receive buffers from
  its partner's, and the result's staging buffer from all of them — each over one fixed filler contents,
  which the covering stores overwrite.
-/
import proofs.«900347_g7700000000000348_dist_arsfmx_v7x_xyz2x4x4_x_t256_d512_v4096_bf16_1_alg».proof.Proof.ViewCover

noncomputable section

namespace Cert.KernelIdeal.Dist

open Cert.KernelIdeal Cert.KernelIdeal.Gen
open Idealize.ShloMosaic
open Idealize.ShloMosaic.TcCoe

variable {F : FTy → Type} [FloatOps F]

/-- Filler contents of the chunk buffers, the row-sum buffers and the result's staging buffer (the zero word
    everywhere). -/
def fillB : CB F := fun _ => (FloatOps.ofBits .bf16 0#16 : F .bf16)
def fillS : CS F := fun _ => (FloatOps.ofBits .bf16 0#16 : F .bf16)
def fillO : CO F := fun _ => (FloatOps.ofBits .bf16 0#16 : F .bf16)

variable (m : (ℓ : Loc nD τ sig) → Buf (Elt F) ℓ)

/-- What device c's send buffers hold: its eight chunks, and its row sums as sent. -/
def sbOf (c : Dev nD) : CB F := sbAll fillB (xs m c) (ws m c)
def ssOf (c : Dev nD) : CS F := ssAll fillS (xs m c) (ws m c)
/-- What its receive buffers hold once everything has landed: its partner's send buffers' contents. -/
def rbOf (c : Dev nD) : CR F := sbOf m (peer c)
def srOf (c : Dev nD) : CT F := ssOf m (peer c)
/-- What the result's staging buffer holds when the body ends. -/
def outOf (c : Dev nD) : CO F := outAll fillO c (xs m c) (ws m c) (rbOf m c) (srOf m c)

/-- What the four exchanged buffers and the result's staging buffer of each device hold. -/
def heldOf : Held F where
  SB := sbOf m
  RB := rbOf m
  SS := ssOf m
  SR := srOf m
  OUT := outOf m

theorem heldOf_SB (c : Dev nD) : (heldOf m).SB c = sbOf m c := rfl
theorem heldOf_RB (c : Dev nD) : (heldOf m).RB c = rbOf m c := rfl
theorem heldOf_SS (c : Dev nD) : (heldOf m).SS c = ssOf m c := rfl
theorem heldOf_SR (c : Dev nD) : (heldOf m).SR c = srOf m c := rfl
theorem heldOf_OUT (c : Dev nD) : (heldOf m).OUT c = outOf m c := by
  first
    | (dsimp only [heldOf]; done)
    | (show (Held.mk (sbOf m) (rbOf m) (ssOf m) (srOf m) (outOf m)).OUT c = outOf m c; exact Eq.refl (outOf m c))
theorem sbOf_eq (c : Dev nD) : sbOf m c = sbAll fillB (xs m c) (ws m c) := rfl
theorem ssOf_eq (c : Dev nD) : ssOf m c = ssAll fillS (xs m c) (ws m c) := rfl
theorem rbOf_eq (c : Dev nD) : rbOf m c = sbOf m (peer c) := rfl
theorem srOf_eq (c : Dev nD) : srOf m c = ssOf m (peer c) := rfl
theorem outOf_eq (c : Dev nD) : outOf m c = outAll fillO c (xs m c) (ws m c) (rbOf m c) (srOf m c) := rfl

end Cert.KernelIdeal.Dist

end
-- ==== Proof.Chunks.lean ====
/-
  The send buffer and the receive buffer of a device are each eight chunks: the chunks' element sets are pairwise
  disjoint and cover the buffer, so a buffer held whole is held chunk by chunk, and eight chunks held each at contents
  of its own join to the buffer held whole. Also: a buffer held through its whole view is the buffer held.
-/
import proofs.«900347_g7700000000000348_dist_arsfmx_v7x_xyz2x4x4_x_t256_d512_v4096_bf16_1_alg».proof.Proof.Data
import Idealize.ShloMosaic.Lib.Ring

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The chunks tile the buffers -/

/-- Where chunk `b` starts. -/
abbrev coff (b : Fin 8) : Fin 3 → ℕ := ![b.val, 0, 0]

/-- A chunk's elements are those of its rectangle. -/
theorem chunk_set_sb (b : Fin 8) : (chunk sbM b).view.set = (Rect.unit (s := S8x256x512) (coff b) S1x256x512.size (inbC b)).set := by
  show (((View.whole cc0_scratch0).slice _).reshape _ _).set = _
  rw [View.set_reshape, View.set_slice_whole]
theorem chunk_set_rb (b : Fin 8) : (chunk rbM b).view.set = (Rect.unit (s := S8x256x512) (coff b) S1x256x512.size (inbC b)).set := by
  show (((View.whole cc0_scratch1).slice _).reshape _ _).set = _
  rw [View.set_reshape, View.set_slice_whole]

theorem rect_disj (b b' : Fin 8) (h : b ≠ b') :
    Disjoint (Rect.unit (s := S8x256x512) (coff b) S1x256x512.size (inbC b)).set (Rect.unit (s := S8x256x512) (coff b') S1x256x512.size (inbC b')).set :=
  Ring.lead_disjoint (s := S8x256x512) (NB := 8) (0 : Fin 3) 1 coff S1x256x512.size inbC (fun b => by simp [coff]) (by decide) b b' h

theorem rect_cover : Finset.univ.biUnion (fun b : Fin 8 => (Rect.unit (s := S8x256x512) (coff b) S1x256x512.size (inbC b)).set) = Finset.univ :=
  Ring.lead_cover (s := S8x256x512) (NB := 8) (0 : Fin 3) 1 coff S1x256x512.size inbC (fun b => by simp [coff]) (by decide) (by decide) (by decide) (by decide)

theorem chunk_disj_sb : ∀ b b' : Fin 8, b ≠ b' → Disjoint (chunk sbM b).view.set (chunk sbM b').view.set := fun b b' h => by
  rw [chunk_set_sb, chunk_set_sb]; exact rect_disj b b' h
theorem chunk_disj_rb : ∀ b b' : Fin 8, b ≠ b' → Disjoint (chunk rbM b).view.set (chunk rbM b').view.set := fun b b' h => by
  rw [chunk_set_rb, chunk_set_rb]; exact rect_disj b b' h
theorem chunk_cover_sb : Finset.biUnion (β := (cc0_scratch0 : Ref sig .tc).ty.Idx) Finset.univ (fun b : Fin 8 => (chunk sbM b).view.set) = Finset.univ := by
  have e : (fun b : Fin 8 => ((chunk sbM b).view.set : Finset (cc0_scratch0 : Ref sig .tc).ty.Idx)) = fun b : Fin 8 => (Rect.unit (s := S8x256x512) (coff b) S1x256x512.size (inbC b)).set := funext chunk_set_sb
  exact (congrArg (Finset.biUnion Finset.univ) e).trans rect_cover
theorem chunk_cover_rb : Finset.biUnion (β := (cc0_scratch1 : Ref sig .tc).ty.Idx) Finset.univ (fun b : Fin 8 => (chunk rbM b).view.set) = Finset.univ := by
  have e : (fun b : Fin 8 => ((chunk rbM b).view.set : Finset (cc0_scratch1 : Ref sig .tc).ty.Idx)) = fun b : Fin 8 => (Rect.unit (s := S8x256x512) (coff b) S1x256x512.size (inbC b)).set := funext chunk_set_rb
  exact (congrArg (Finset.biUnion Finset.univ) e).trans rect_cover

/-! ## Whole and chunk by chunk -/

/-- The chunks' element sets, as sets of the buffer's elements. -/
abbrev Isb (c : Dev nD) : Fin 8 → Finset (Idx ((c : Thread nD τ).loc cc0_scratch0)) := fun b => (chunk sbM b).view.set

/-- The buffer held whole is its eight chunks held. -/
theorem split_sb (c : Dev nD) (q : PosShare TreeShare) (f : (cc0_scratch0 : Ref sig .tc).ty.Contents (Elt F)) :
    ((((c : Thread nD τ).loc cc0_scratch0) ↦{q} f) : sProp 𝕄) = iprop(((chunkN sbM 0 (inbC 0)).view.loc (c : Thread nD τ) ↦[(chunkN sbM 0 (inbC 0)).view.set]{q} f) ∗ ((chunkN sbM 1 (inbC 1)).view.loc (c : Thread nD τ) ↦[(chunkN sbM 1 (inbC 1)).view.set]{q} f) ∗ ((chunkN sbM 2 (inbC 2)).view.loc (c : Thread nD τ) ↦[(chunkN sbM 2 (inbC 2)).view.set]{q} f) ∗ ((chunkN sbM 3 (inbC 3)).view.loc (c : Thread nD τ) ↦[(chunkN sbM 3 (inbC 3)).view.set]{q} f) ∗ ((chunkN sbM 4 (inbC 4)).view.loc (c : Thread nD τ) ↦[(chunkN sbM 4 (inbC 4)).view.set]{q} f) ∗ ((chunkN sbM 5 (inbC 5)).view.loc (c : Thread nD τ) ↦[(chunkN sbM 5 (inbC 5)).view.set]{q} f) ∗ ((chunkN sbM 6 (inbC 6)).view.loc (c : Thread nD τ) ↦[(chunkN sbM 6 (inbC 6)).view.set]{q} f) ∗ ((chunkN sbM 7 (inbC 7)).view.loc (c : Thread nD τ) ↦[(chunkN sbM 7 (inbC 7)).view.set]{q} f)) := by
  rw [Ring.pointsTo_blocks (Isb c) chunk_disj_sb chunk_cover_sb f,
    bigSep_univ_eq_bigSepL [(0 : Fin 8), 1, 2, 3, 4, 5, 6, 7] (by decide) (by decide)]
  rfl

/-- Eight chunks held, each at contents of its own, are the buffer held whole at some contents. -/
theorem join_sb (c : Dev nD) (q : PosShare TreeShare) :
    (iprop((∃ f, ((chunkN sbM 0 (inbC 0)).view.loc (c : Thread nD τ) ↦[(chunkN sbM 0 (inbC 0)).view.set]{q} f)) ∗ (∃ f, ((chunkN sbM 1 (inbC 1)).view.loc (c : Thread nD τ) ↦[(chunkN sbM 1 (inbC 1)).view.set]{q} f)) ∗ (∃ f, ((chunkN sbM 2 (inbC 2)).view.loc (c : Thread nD τ) ↦[(chunkN sbM 2 (inbC 2)).view.set]{q} f)) ∗ (∃ f, ((chunkN sbM 3 (inbC 3)).view.loc (c : Thread nD τ) ↦[(chunkN sbM 3 (inbC 3)).view.set]{q} f)) ∗ (∃ f, ((chunkN sbM 4 (inbC 4)).view.loc (c : Thread nD τ) ↦[(chunkN sbM 4 (inbC 4)).view.set]{q} f)) ∗ (∃ f, ((chunkN sbM 5 (inbC 5)).view.loc (c : Thread nD τ) ↦[(chunkN sbM 5 (inbC 5)).view.set]{q} f)) ∗ (∃ f, ((chunkN sbM 6 (inbC 6)).view.loc (c : Thread nD τ) ↦[(chunkN sbM 6 (inbC 6)).view.set]{q} f)) ∗ (∃ f, ((chunkN sbM 7 (inbC 7)).view.loc (c : Thread nD τ) ↦[(chunkN sbM 7 (inbC 7)).view.set]{q} f))) : sProp 𝕄)
      ⊢ iprop(∃ g : Buf (Elt F) ((c : Thread nD τ).loc cc0_scratch0), ((c : Thread nD τ).loc cc0_scratch0) ↦{q} g) := by
  have e : (bigSep Finset.univ (fun b : Fin 8 => iprop(∃ f, ((c : Thread nD τ).loc cc0_scratch0) ↦[Isb c b]{q} f)) : sProp 𝕄)
      = iprop((∃ f, ((chunkN sbM 0 (inbC 0)).view.loc (c : Thread nD τ) ↦[(chunkN sbM 0 (inbC 0)).view.set]{q} f)) ∗ (∃ f, ((chunkN sbM 1 (inbC 1)).view.loc (c : Thread nD τ) ↦[(chunkN sbM 1 (inbC 1)).view.set]{q} f)) ∗ (∃ f, ((chunkN sbM 2 (inbC 2)).view.loc (c : Thread nD τ) ↦[(chunkN sbM 2 (inbC 2)).view.set]{q} f)) ∗ (∃ f, ((chunkN sbM 3 (inbC 3)).view.loc (c : Thread nD τ) ↦[(chunkN sbM 3 (inbC 3)).view.set]{q} f)) ∗ (∃ f, ((chunkN sbM 4 (inbC 4)).view.loc (c : Thread nD τ) ↦[(chunkN sbM 4 (inbC 4)).view.set]{q} f)) ∗ (∃ f, ((chunkN sbM 5 (inbC 5)).view.loc (c : Thread nD τ) ↦[(chunkN sbM 5 (inbC 5)).view.set]{q} f)) ∗ (∃ f, ((chunkN sbM 6 (inbC 6)).view.loc (c : Thread nD τ) ↦[(chunkN sbM 6 (inbC 6)).view.set]{q} f)) ∗ (∃ f, ((chunkN sbM 7 (inbC 7)).view.loc (c : Thread nD τ) ↦[(chunkN sbM 7 (inbC 7)).view.set]{q} f))) := by
    rw [bigSep_univ_eq_bigSepL [(0 : Fin 8), 1, 2, 3, 4, 5, 6, 7] (by decide) (by decide)]
    rfl
  iintro ⟨⟨%f0, H0⟩, Hrest⟩
  iapply (Ring.pointsTo_blocks_join_exists (Isb c) chunk_disj_sb chunk_cover_sb f0)
  iapply (Entails.of_eq e.symm)
  isplitl [H0]
  · iexists f0; iexact H0
  · iexact Hrest

/-- The chunks' element sets, as sets of the buffer's elements. -/
abbrev Irb (c : Dev nD) : Fin 8 → Finset (Idx ((c : Thread nD τ).loc cc0_scratch1)) := fun b => (chunk rbM b).view.set

/-- The buffer held whole is its eight chunks held. -/
theorem split_rb (c : Dev nD) (q : PosShare TreeShare) (f : (cc0_scratch1 : Ref sig .tc).ty.Contents (Elt F)) :
    ((((c : Thread nD τ).loc cc0_scratch1) ↦{q} f) : sProp 𝕄) = iprop(((chunkN rbM 0 (inbC 0)).view.loc (c : Thread nD τ) ↦[(chunkN rbM 0 (inbC 0)).view.set]{q} f) ∗ ((chunkN rbM 1 (inbC 1)).view.loc (c : Thread nD τ) ↦[(chunkN rbM 1 (inbC 1)).view.set]{q} f) ∗ ((chunkN rbM 2 (inbC 2)).view.loc (c : Thread nD τ) ↦[(chunkN rbM 2 (inbC 2)).view.set]{q} f) ∗ ((chunkN rbM 3 (inbC 3)).view.loc (c : Thread nD τ) ↦[(chunkN rbM 3 (inbC 3)).view.set]{q} f) ∗ ((chunkN rbM 4 (inbC 4)).view.loc (c : Thread nD τ) ↦[(chunkN rbM 4 (inbC 4)).view.set]{q} f) ∗ ((chunkN rbM 5 (inbC 5)).view.loc (c : Thread nD τ) ↦[(chunkN rbM 5 (inbC 5)).view.set]{q} f) ∗ ((chunkN rbM 6 (inbC 6)).view.loc (c : Thread nD τ) ↦[(chunkN rbM 6 (inbC 6)).view.set]{q} f) ∗ ((chunkN rbM 7 (inbC 7)).view.loc (c : Thread nD τ) ↦[(chunkN rbM 7 (inbC 7)).view.set]{q} f)) := by
  rw [Ring.pointsTo_blocks (Irb c) chunk_disj_rb chunk_cover_rb f,
    bigSep_univ_eq_bigSepL [(0 : Fin 8), 1, 2, 3, 4, 5, 6, 7] (by decide) (by decide)]
  rfl

/-- Eight chunks held, each at contents of its own, are the buffer held whole at some contents. -/
theorem join_rb (c : Dev nD) (q : PosShare TreeShare) :
    (iprop((∃ f, ((chunkN rbM 0 (inbC 0)).view.loc (c : Thread nD τ) ↦[(chunkN rbM 0 (inbC 0)).view.set]{q} f)) ∗ (∃ f, ((chunkN rbM 1 (inbC 1)).view.loc (c : Thread nD τ) ↦[(chunkN rbM 1 (inbC 1)).view.set]{q} f)) ∗ (∃ f, ((chunkN rbM 2 (inbC 2)).view.loc (c : Thread nD τ) ↦[(chunkN rbM 2 (inbC 2)).view.set]{q} f)) ∗ (∃ f, ((chunkN rbM 3 (inbC 3)).view.loc (c : Thread nD τ) ↦[(chunkN rbM 3 (inbC 3)).view.set]{q} f)) ∗ (∃ f, ((chunkN rbM 4 (inbC 4)).view.loc (c : Thread nD τ) ↦[(chunkN rbM 4 (inbC 4)).view.set]{q} f)) ∗ (∃ f, ((chunkN rbM 5 (inbC 5)).view.loc (c : Thread nD τ) ↦[(chunkN rbM 5 (inbC 5)).view.set]{q} f)) ∗ (∃ f, ((chunkN rbM 6 (inbC 6)).view.loc (c : Thread nD τ) ↦[(chunkN rbM 6 (inbC 6)).view.set]{q} f)) ∗ (∃ f, ((chunkN rbM 7 (inbC 7)).view.loc (c : Thread nD τ) ↦[(chunkN rbM 7 (inbC 7)).view.set]{q} f))) : sProp 𝕄)
      ⊢ iprop(∃ g : Buf (Elt F) ((c : Thread nD τ).loc cc0_scratch1), ((c : Thread nD τ).loc cc0_scratch1) ↦{q} g) := by
  have e : (bigSep Finset.univ (fun b : Fin 8 => iprop(∃ f, ((c : Thread nD τ).loc cc0_scratch1) ↦[Irb c b]{q} f)) : sProp 𝕄)
      = iprop((∃ f, ((chunkN rbM 0 (inbC 0)).view.loc (c : Thread nD τ) ↦[(chunkN rbM 0 (inbC 0)).view.set]{q} f)) ∗ (∃ f, ((chunkN rbM 1 (inbC 1)).view.loc (c : Thread nD τ) ↦[(chunkN rbM 1 (inbC 1)).view.set]{q} f)) ∗ (∃ f, ((chunkN rbM 2 (inbC 2)).view.loc (c : Thread nD τ) ↦[(chunkN rbM 2 (inbC 2)).view.set]{q} f)) ∗ (∃ f, ((chunkN rbM 3 (inbC 3)).view.loc (c : Thread nD τ) ↦[(chunkN rbM 3 (inbC 3)).view.set]{q} f)) ∗ (∃ f, ((chunkN rbM 4 (inbC 4)).view.loc (c : Thread nD τ) ↦[(chunkN rbM 4 (inbC 4)).view.set]{q} f)) ∗ (∃ f, ((chunkN rbM 5 (inbC 5)).view.loc (c : Thread nD τ) ↦[(chunkN rbM 5 (inbC 5)).view.set]{q} f)) ∗ (∃ f, ((chunkN rbM 6 (inbC 6)).view.loc (c : Thread nD τ) ↦[(chunkN rbM 6 (inbC 6)).view.set]{q} f)) ∗ (∃ f, ((chunkN rbM 7 (inbC 7)).view.loc (c : Thread nD τ) ↦[(chunkN rbM 7 (inbC 7)).view.set]{q} f))) := by
    rw [bigSep_univ_eq_bigSepL [(0 : Fin 8), 1, 2, 3, 4, 5, 6, 7] (by decide) (by decide)]
    rfl
  iintro ⟨⟨%f0, H0⟩, Hrest⟩
  iapply (Ring.pointsTo_blocks_join_exists (Irb c) chunk_disj_rb chunk_cover_rb f0)
  iapply (Entails.of_eq e.symm)
  isplitl [H0]
  · iexists f0; iexact H0
  · iexact Hrest

/-! ## A buffer held through its whole view -/

theorem whole_scratch2 (c : Dev nD) (q : PosShare TreeShare) (f : (cc0_scratch2 : Ref sig .tc).ty.Contents (Elt F)) :
    (((Memref.whole cc0_scratch2 : Memref sig .tc .vmem S256x1 .bf16).view.loc (c : Thread nD τ) ↦[(Memref.whole cc0_scratch2 : Memref sig .tc .vmem S256x1 .bf16).view.set]{q} f) : sProp 𝕄)
      = (((c : Thread nD τ).loc cc0_scratch2) ↦{q} f) := by
  rw [show (Memref.whole cc0_scratch2 : Memref sig .tc .vmem S256x1 .bf16).view.set = Finset.univ from View.set_whole _]
theorem whole_scratch3 (c : Dev nD) (q : PosShare TreeShare) (f : (cc0_scratch3 : Ref sig .tc).ty.Contents (Elt F)) :
    (((Memref.whole cc0_scratch3 : Memref sig .tc .vmem S256x1 .bf16).view.loc (c : Thread nD τ) ↦[(Memref.whole cc0_scratch3 : Memref sig .tc .vmem S256x1 .bf16).view.set]{q} f) : sProp 𝕄)
      = (((c : Thread nD τ).loc cc0_scratch3) ↦{q} f) := by
  rw [show (Memref.whole cc0_scratch3 : Memref sig .tc .vmem S256x1 .bf16).view.set = Finset.univ from View.set_whole _]

theorem whole_stg0 (c : Dev nD) (q : PosShare TreeShare) (f : (cc0_stg0_0 : Ref sig .tc).ty.Contents (Elt F)) :
    (((Memref.whole cc0_stg0_0 : Memref sig .tc .vmem S256x512 .f32).view.loc (c : Thread nD τ) ↦{q} f) : sProp 𝕄) = (((c : Thread nD τ).loc cc0_stg0_0) ↦{q} f) := rfl
theorem whole_stg1 (c : Dev nD) (q : PosShare TreeShare) (f : (cc0_stg1_0 : Ref sig .tc).ty.Contents (Elt F)) :
    (((Memref.whole cc0_stg1_0 : Memref sig .tc .vmem S512x4096 .f32).view.loc (c : Thread nD τ) ↦{q} f) : sProp 𝕄) = (((c : Thread nD τ).loc cc0_stg1_0) ↦{q} f) := rfl
theorem whole_stg2 (c : Dev nD) (q : PosShare TreeShare) (f : (cc0_stg2_0 : Ref sig .tc).ty.Contents (Elt F)) :
    (((Memref.whole cc0_stg2_0 : Memref sig .tc .vmem S256x8192 .bf16).view.loc (c : Thread nD τ) ↦{q} f) : sProp 𝕄) = (((c : Thread nD τ).loc cc0_stg2_0) ↦{q} f) := rfl

end Cert.KernelIdeal.Dist

end
-- ==== Proof.Body.lean ====
/-
  One device's body, stepped from what the pipeline hands it to what it hands back.

  The order of events on device `c`, partner `p = peer c`: it signals `p`'s handshake cell, handing over its own
  nine landing buffers, and waits on its own handshake cell, which brings `p`'s; for each chunk `q` it loads a
  block of columns of its weights, stores `exp (x · w_q)` into chunk `q` of its send buffer and copies that chunk
  into chunk `q` of `p`'s receive buffer — the copy reads the chunk at a half share while the device keeps the
  other half to read the chunk again —; it stores and copies the row sums of all eight chunks; it waits for `p`'s
  row sums, forms the reciprocal of the total, writes its own eight chunks scaled into its own half of the result's
  columns, then, as each of `p`'s chunks lands, that chunk scaled into the other half; last it waits for its own
  nine copies to have left. What the copies carry is stated through the facts `hSB… hOUT` about the contents
  `H`; they are proved where `H` is chosen.
-/
import proofs.«900347_g7700000000000348_dist_arsfmx_v7x_xyz2x4x4_x_t256_d512_v4096_bf16_1_alg».proof.Proof.Terms
import proofs.«900347_g7700000000000348_dist_arsfmx_v7x_xyz2x4x4_x_t256_d512_v4096_bf16_1_alg».proof.Proof.Chunks

noncomputable section

namespace Cert.KernelIdeal.Dist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (H : Held F)

variable (m : (ℓ : Loc nD τ sig) → Buf (Elt F) ℓ)

/-- A conjunction over the nineteen kinds of cell, written out; -/
theorem kinds_chain (Φ : Kind → sProp 𝕄) : bigSep Finset.univ Φ = iprop(Φ (Kind.bar) ∗ Φ (Kind.send 0) ∗ Φ (Kind.send 1) ∗ Φ (Kind.send 2) ∗ Φ (Kind.send 3) ∗ Φ (Kind.send 4) ∗ Φ (Kind.send 5) ∗ Φ (Kind.send 6) ∗ Φ (Kind.send 7) ∗ Φ (Kind.recv 0) ∗ Φ (Kind.recv 1) ∗ Φ (Kind.recv 2) ∗ Φ (Kind.recv 3) ∗ Φ (Kind.recv 4) ∗ Φ (Kind.recv 5) ∗ Φ (Kind.recv 6) ∗ Φ (Kind.recv 7) ∗ Φ (Kind.ssend) ∗ Φ (Kind.srecv)) :=
  bigSep_univ_eq_bigSepL [Kind.bar, Kind.send 0, Kind.send 1, Kind.send 2, Kind.send 3, Kind.send 4, Kind.send 5, Kind.send 6, Kind.send 7, Kind.recv 0, Kind.recv 1, Kind.recv 2, Kind.recv 3, Kind.recv 4, Kind.recv 5, Kind.recv 6, Kind.recv 7, Kind.ssend, Kind.srecv] (by decide) (by decide) Φ
/-- over the eighteen that are a device's own semaphores. -/
theorem kinds18_chain (Φ : Kind → sProp 𝕄) : bigSep (Finset.univ.erase Kind.bar) Φ = iprop(Φ (Kind.send 0) ∗ Φ (Kind.send 1) ∗ Φ (Kind.send 2) ∗ Φ (Kind.send 3) ∗ Φ (Kind.send 4) ∗ Φ (Kind.send 5) ∗ Φ (Kind.send 6) ∗ Φ (Kind.send 7) ∗ Φ (Kind.recv 0) ∗ Φ (Kind.recv 1) ∗ Φ (Kind.recv 2) ∗ Φ (Kind.recv 3) ∗ Φ (Kind.recv 4) ∗ Φ (Kind.recv 5) ∗ Φ (Kind.recv 6) ∗ Φ (Kind.recv 7) ∗ Φ (Kind.ssend) ∗ Φ (Kind.srecv)) :=
  bigSep_eq_bigSepL_of_eq [Kind.send 0, Kind.send 1, Kind.send 2, Kind.send 3, Kind.send 4, Kind.send 5, Kind.send 6, Kind.send 7, Kind.recv 0, Kind.recv 1, Kind.recv 2, Kind.recv 3, Kind.recv 4, Kind.recv 5, Kind.recv 6, Kind.recv 7, Kind.ssend, Kind.srecv] (by decide) (by decide) Φ

/-- What a device starts from, cell by cell. -/
def ghostX (K : Dev nD × Kind → ℕ) (c : Dev nD) : sProp 𝕄 :=
  iprop((iprop(cellInv ER (sched H) (K (c, Kind.bar)) (((c : Dev nD) : Thread nD τ), SemLoc.reg barS) ∗ cellInv ER (sched H) (K (c, Kind.send 0)) (((c : Dev nD) : Thread nD τ), SemLoc.dma (sendS 0)) ∗ cellInv ER (sched H) (K (c, Kind.send 1)) (((c : Dev nD) : Thread nD τ), SemLoc.dma (sendS 1)) ∗ cellInv ER (sched H) (K (c, Kind.send 2)) (((c : Dev nD) : Thread nD τ), SemLoc.dma (sendS 2)) ∗ cellInv ER (sched H) (K (c, Kind.send 3)) (((c : Dev nD) : Thread nD τ), SemLoc.dma (sendS 3)) ∗ cellInv ER (sched H) (K (c, Kind.send 4)) (((c : Dev nD) : Thread nD τ), SemLoc.dma (sendS 4)) ∗ cellInv ER (sched H) (K (c, Kind.send 5)) (((c : Dev nD) : Thread nD τ), SemLoc.dma (sendS 5)) ∗ cellInv ER (sched H) (K (c, Kind.send 6)) (((c : Dev nD) : Thread nD τ), SemLoc.dma (sendS 6)) ∗ cellInv ER (sched H) (K (c, Kind.send 7)) (((c : Dev nD) : Thread nD τ), SemLoc.dma (sendS 7)) ∗ cellInv ER (sched H) (K (c, Kind.recv 0)) (((c : Dev nD) : Thread nD τ), SemLoc.dma (recvS 0)) ∗ cellInv ER (sched H) (K (c, Kind.recv 1)) (((c : Dev nD) : Thread nD τ), SemLoc.dma (recvS 1)) ∗ cellInv ER (sched H) (K (c, Kind.recv 2)) (((c : Dev nD) : Thread nD τ), SemLoc.dma (recvS 2)) ∗ cellInv ER (sched H) (K (c, Kind.recv 3)) (((c : Dev nD) : Thread nD τ), SemLoc.dma (recvS 3)) ∗ cellInv ER (sched H) (K (c, Kind.recv 4)) (((c : Dev nD) : Thread nD τ), SemLoc.dma (recvS 4)) ∗ cellInv ER (sched H) (K (c, Kind.recv 5)) (((c : Dev nD) : Thread nD τ), SemLoc.dma (recvS 5)) ∗ cellInv ER (sched H) (K (c, Kind.recv 6)) (((c : Dev nD) : Thread nD τ), SemLoc.dma (recvS 6)) ∗ cellInv ER (sched H) (K (c, Kind.recv 7)) (((c : Dev nD) : Thread nD τ), SemLoc.dma (recvS 7)) ∗ cellInv ER (sched H) (K (c, Kind.ssend)) (((c : Dev nD) : Thread nD τ), SemLoc.dma ssendS) ∗ cellInv ER (sched H) (K (c, Kind.srecv)) (((c : Dev nD) : Thread nD τ), SemLoc.dma srecvS)) ∗ iprop(cellInv ER (sched H) (K (peer c, Kind.bar)) (((peer c : Dev nD) : Thread nD τ), SemLoc.reg barS) ∗ cellInv ER (sched H) (K (peer c, Kind.send 0)) (((peer c : Dev nD) : Thread nD τ), SemLoc.dma (sendS 0)) ∗ cellInv ER (sched H) (K (peer c, Kind.send 1)) (((peer c : Dev nD) : Thread nD τ), SemLoc.dma (sendS 1)) ∗ cellInv ER (sched H) (K (peer c, Kind.send 2)) (((peer c : Dev nD) : Thread nD τ), SemLoc.dma (sendS 2)) ∗ cellInv ER (sched H) (K (peer c, Kind.send 3)) (((peer c : Dev nD) : Thread nD τ), SemLoc.dma (sendS 3)) ∗ cellInv ER (sched H) (K (peer c, Kind.send 4)) (((peer c : Dev nD) : Thread nD τ), SemLoc.dma (sendS 4)) ∗ cellInv ER (sched H) (K (peer c, Kind.send 5)) (((peer c : Dev nD) : Thread nD τ), SemLoc.dma (sendS 5)) ∗ cellInv ER (sched H) (K (peer c, Kind.send 6)) (((peer c : Dev nD) : Thread nD τ), SemLoc.dma (sendS 6)) ∗ cellInv ER (sched H) (K (peer c, Kind.send 7)) (((peer c : Dev nD) : Thread nD τ), SemLoc.dma (sendS 7)) ∗ cellInv ER (sched H) (K (peer c, Kind.recv 0)) (((peer c : Dev nD) : Thread nD τ), SemLoc.dma (recvS 0)) ∗ cellInv ER (sched H) (K (peer c, Kind.recv 1)) (((peer c : Dev nD) : Thread nD τ), SemLoc.dma (recvS 1)) ∗ cellInv ER (sched H) (K (peer c, Kind.recv 2)) (((peer c : Dev nD) : Thread nD τ), SemLoc.dma (recvS 2)) ∗ cellInv ER (sched H) (K (peer c, Kind.recv 3)) (((peer c : Dev nD) : Thread nD τ), SemLoc.dma (recvS 3)) ∗ cellInv ER (sched H) (K (peer c, Kind.recv 4)) (((peer c : Dev nD) : Thread nD τ), SemLoc.dma (recvS 4)) ∗ cellInv ER (sched H) (K (peer c, Kind.recv 5)) (((peer c : Dev nD) : Thread nD τ), SemLoc.dma (recvS 5)) ∗ cellInv ER (sched H) (K (peer c, Kind.recv 6)) (((peer c : Dev nD) : Thread nD τ), SemLoc.dma (recvS 6)) ∗ cellInv ER (sched H) (K (peer c, Kind.recv 7)) (((peer c : Dev nD) : Thread nD τ), SemLoc.dma (recvS 7)) ∗ cellInv ER (sched H) (K (peer c, Kind.ssend)) (((peer c : Dev nD) : Thread nD τ), SemLoc.dma ssendS) ∗ cellInv ER (sched H) (K (peer c, Kind.srecv)) (((peer c : Dev nD) : Thread nD τ), SemLoc.dma srecvS)))
    ∗ iprop(atPos ER (((c : Dev nD) : Thread nD τ), SemLoc.reg barS) 0 ∅ 0 ∗ atPos ER (((c : Dev nD) : Thread nD τ), SemLoc.dma (sendS 0)) 0 ∅ 0 ∗ atPos ER (((c : Dev nD) : Thread nD τ), SemLoc.dma (sendS 1)) 0 ∅ 0 ∗ atPos ER (((c : Dev nD) : Thread nD τ), SemLoc.dma (sendS 2)) 0 ∅ 0 ∗ atPos ER (((c : Dev nD) : Thread nD τ), SemLoc.dma (sendS 3)) 0 ∅ 0 ∗ atPos ER (((c : Dev nD) : Thread nD τ), SemLoc.dma (sendS 4)) 0 ∅ 0 ∗ atPos ER (((c : Dev nD) : Thread nD τ), SemLoc.dma (sendS 5)) 0 ∅ 0 ∗ atPos ER (((c : Dev nD) : Thread nD τ), SemLoc.dma (sendS 6)) 0 ∅ 0 ∗ atPos ER (((c : Dev nD) : Thread nD τ), SemLoc.dma (sendS 7)) 0 ∅ 0 ∗ atPos ER (((c : Dev nD) : Thread nD τ), SemLoc.dma (recvS 0)) 0 ∅ 0 ∗ atPos ER (((c : Dev nD) : Thread nD τ), SemLoc.dma (recvS 1)) 0 ∅ 0 ∗ atPos ER (((c : Dev nD) : Thread nD τ), SemLoc.dma (recvS 2)) 0 ∅ 0 ∗ atPos ER (((c : Dev nD) : Thread nD τ), SemLoc.dma (recvS 3)) 0 ∅ 0 ∗ atPos ER (((c : Dev nD) : Thread nD τ), SemLoc.dma (recvS 4)) 0 ∅ 0 ∗ atPos ER (((c : Dev nD) : Thread nD τ), SemLoc.dma (recvS 5)) 0 ∅ 0 ∗ atPos ER (((c : Dev nD) : Thread nD τ), SemLoc.dma (recvS 6)) 0 ∅ 0 ∗ atPos ER (((c : Dev nD) : Thread nD τ), SemLoc.dma (recvS 7)) 0 ∅ 0 ∗ atPos ER (((c : Dev nD) : Thread nD τ), SemLoc.dma ssendS) 0 ∅ 0 ∗ atPos ER (((c : Dev nD) : Thread nD τ), SemLoc.dma srecvS) 0 ∅ 0)
    ∗ iprop(reached ER (((c : Dev nD) : Thread nD τ), SemLoc.reg barS) 0 ∗ reached ER (((c : Dev nD) : Thread nD τ), SemLoc.dma (sendS 0)) 0 ∗ reached ER (((c : Dev nD) : Thread nD τ), SemLoc.dma (sendS 1)) 0 ∗ reached ER (((c : Dev nD) : Thread nD τ), SemLoc.dma (sendS 2)) 0 ∗ reached ER (((c : Dev nD) : Thread nD τ), SemLoc.dma (sendS 3)) 0 ∗ reached ER (((c : Dev nD) : Thread nD τ), SemLoc.dma (sendS 4)) 0 ∗ reached ER (((c : Dev nD) : Thread nD τ), SemLoc.dma (sendS 5)) 0 ∗ reached ER (((c : Dev nD) : Thread nD τ), SemLoc.dma (sendS 6)) 0 ∗ reached ER (((c : Dev nD) : Thread nD τ), SemLoc.dma (sendS 7)) 0 ∗ reached ER (((c : Dev nD) : Thread nD τ), SemLoc.dma (recvS 0)) 0 ∗ reached ER (((c : Dev nD) : Thread nD τ), SemLoc.dma (recvS 1)) 0 ∗ reached ER (((c : Dev nD) : Thread nD τ), SemLoc.dma (recvS 2)) 0 ∗ reached ER (((c : Dev nD) : Thread nD τ), SemLoc.dma (recvS 3)) 0 ∗ reached ER (((c : Dev nD) : Thread nD τ), SemLoc.dma (recvS 4)) 0 ∗ reached ER (((c : Dev nD) : Thread nD τ), SemLoc.dma (recvS 5)) 0 ∗ reached ER (((c : Dev nD) : Thread nD τ), SemLoc.dma (recvS 6)) 0 ∗ reached ER (((c : Dev nD) : Thread nD τ), SemLoc.dma (recvS 7)) 0 ∗ reached ER (((c : Dev nD) : Thread nD τ), SemLoc.dma ssendS) 0 ∗ reached ER (((c : Dev nD) : Thread nD τ), SemLoc.dma srecvS) 0)
    ∗ iprop(reached ER (((peer c : Dev nD) : Thread nD τ), SemLoc.reg barS) 0 ∗ reached ER (((peer c : Dev nD) : Thread nD τ), SemLoc.dma (sendS 0)) 0 ∗ reached ER (((peer c : Dev nD) : Thread nD τ), SemLoc.dma (sendS 1)) 0 ∗ reached ER (((peer c : Dev nD) : Thread nD τ), SemLoc.dma (sendS 2)) 0 ∗ reached ER (((peer c : Dev nD) : Thread nD τ), SemLoc.dma (sendS 3)) 0 ∗ reached ER (((peer c : Dev nD) : Thread nD τ), SemLoc.dma (sendS 4)) 0 ∗ reached ER (((peer c : Dev nD) : Thread nD τ), SemLoc.dma (sendS 5)) 0 ∗ reached ER (((peer c : Dev nD) : Thread nD τ), SemLoc.dma (sendS 6)) 0 ∗ reached ER (((peer c : Dev nD) : Thread nD τ), SemLoc.dma (sendS 7)) 0 ∗ reached ER (((peer c : Dev nD) : Thread nD τ), SemLoc.dma (recvS 0)) 0 ∗ reached ER (((peer c : Dev nD) : Thread nD τ), SemLoc.dma (recvS 1)) 0 ∗ reached ER (((peer c : Dev nD) : Thread nD τ), SemLoc.dma (recvS 2)) 0 ∗ reached ER (((peer c : Dev nD) : Thread nD τ), SemLoc.dma (recvS 3)) 0 ∗ reached ER (((peer c : Dev nD) : Thread nD τ), SemLoc.dma (recvS 4)) 0 ∗ reached ER (((peer c : Dev nD) : Thread nD τ), SemLoc.dma (recvS 5)) 0 ∗ reached ER (((peer c : Dev nD) : Thread nD τ), SemLoc.dma (recvS 6)) 0 ∗ reached ER (((peer c : Dev nD) : Thread nD τ), SemLoc.dma (recvS 7)) 0 ∗ reached ER (((peer c : Dev nD) : Thread nD τ), SemLoc.dma ssendS) 0 ∗ reached ER (((peer c : Dev nD) : Thread nD τ), SemLoc.dma srecvS) 0)
    ∗ iprop(dutyTok ER (((peer c : Dev nD) : Thread nD τ), SemLoc.reg barS) 0 () ∗ dutyTok ER (((c : Dev nD) : Thread nD τ), SemLoc.dma (sendS 0)) 0 () ∗ dutyTok ER (((c : Dev nD) : Thread nD τ), SemLoc.dma (sendS 1)) 0 () ∗ dutyTok ER (((c : Dev nD) : Thread nD τ), SemLoc.dma (sendS 2)) 0 () ∗ dutyTok ER (((c : Dev nD) : Thread nD τ), SemLoc.dma (sendS 3)) 0 () ∗ dutyTok ER (((c : Dev nD) : Thread nD τ), SemLoc.dma (sendS 4)) 0 () ∗ dutyTok ER (((c : Dev nD) : Thread nD τ), SemLoc.dma (sendS 5)) 0 () ∗ dutyTok ER (((c : Dev nD) : Thread nD τ), SemLoc.dma (sendS 6)) 0 () ∗ dutyTok ER (((c : Dev nD) : Thread nD τ), SemLoc.dma (sendS 7)) 0 () ∗ dutyTok ER (((peer c : Dev nD) : Thread nD τ), SemLoc.dma (recvS 0)) 0 () ∗ dutyTok ER (((peer c : Dev nD) : Thread nD τ), SemLoc.dma (recvS 1)) 0 () ∗ dutyTok ER (((peer c : Dev nD) : Thread nD τ), SemLoc.dma (recvS 2)) 0 () ∗ dutyTok ER (((peer c : Dev nD) : Thread nD τ), SemLoc.dma (recvS 3)) 0 () ∗ dutyTok ER (((peer c : Dev nD) : Thread nD τ), SemLoc.dma (recvS 4)) 0 () ∗ dutyTok ER (((peer c : Dev nD) : Thread nD τ), SemLoc.dma (recvS 5)) 0 () ∗ dutyTok ER (((peer c : Dev nD) : Thread nD τ), SemLoc.dma (recvS 6)) 0 () ∗ dutyTok ER (((peer c : Dev nD) : Thread nD τ), SemLoc.dma (recvS 7)) 0 () ∗ dutyTok ER (((c : Dev nD) : Thread nD τ), SemLoc.dma ssendS) 0 () ∗ dutyTok ER (((peer c : Dev nD) : Thread nD τ), SemLoc.dma srecvS) 0 ()))

set_option maxHeartbeats 1000000 in
theorem ghost_explicit (K : Dev nD × Kind → ℕ) (c : Dev nD) : ghost H K c ⊢ ghostX H K c := by
  unfold ghost invs ghostX
  rw [kinds_chain, kinds_chain, kinds_chain, kinds_chain, kinds_chain, kinds_chain]
  exact BI.Entails.refl _

theorem creds_explicit (c : Dev nD) : creds (F := F) c ⊢ iprop(cred (tallyAt (((c : Dev nD) : Thread nD τ), SemLoc.reg barS) () 1) ∗ cred (tallyAt (((c : Dev nD) : Thread nD τ), SemLoc.dma (recvS 0)) () NC) ∗ cred (tallyAt (((c : Dev nD) : Thread nD τ), SemLoc.dma (recvS 1)) () NC) ∗ cred (tallyAt (((c : Dev nD) : Thread nD τ), SemLoc.dma (recvS 2)) () NC) ∗ cred (tallyAt (((c : Dev nD) : Thread nD τ), SemLoc.dma (recvS 3)) () NC) ∗ cred (tallyAt (((c : Dev nD) : Thread nD τ), SemLoc.dma (recvS 4)) () NC) ∗ cred (tallyAt (((c : Dev nD) : Thread nD τ), SemLoc.dma (recvS 5)) () NC) ∗ cred (tallyAt (((c : Dev nD) : Thread nD τ), SemLoc.dma (recvS 6)) () NC) ∗ cred (tallyAt (((c : Dev nD) : Thread nD τ), SemLoc.dma (recvS 7)) () NC) ∗ cred (tallyAt (((c : Dev nD) : Thread nD τ), SemLoc.dma srecvS) () NR)) := by
  unfold creds; exact BI.Entails.refl _

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands a device's body: the start of the exchange, what it owes, and the three staging buffers. -/
def bodyPre' (c : Dev nD) : sProp 𝕄 :=
  iprop(Φ₀ H c ∗ (dats H m 0 c).owesAt () t0_0.castSucc
    ∗ (∃ d, stg c cc0_stg0_0 ((dats H m 0 c).before (0 : Fin 3) t0_0 d))
    ∗ (∃ d, stg c cc0_stg1_0 ((dats H m 0 c).before (1 : Fin 3) t0_0 d))
    ∗ (∃ d, stg c cc0_stg2_0 ((dats H m 0 c).before (2 : Fin 3) t0_0 d)))

/-- What the body hands back. -/
def bodyPost (c : Dev nD) : sProp 𝕄 :=
  iprop(Φ₁ (F := F) c ∗ (dats H m 0 c).owesAt () t0_0.succ
    ∗ stg c cc0_stg0_0 (xs m c) ∗ stg c cc0_stg1_0 (ws m c) ∗ stg c cc0_stg2_0 (H.OUT c))

attribute [local sl_rounds] duties_bar duties_send duties_recv duties_ssend duties_srecv amount_bar amount_send amount_recv amount_ssend amount_srecv
  expect_bar expect_send expect_recv expect_ssend expect_srecv payload_bar payload_send0 payload_recv0 payload_send1 payload_recv1 payload_send2 payload_recv2 payload_send3 payload_recv3 payload_send4 payload_recv4 payload_send5 payload_recv5 payload_send6 payload_recv6 payload_send7 payload_recv7 payload_ssend payload_srecv peer_peer
attribute [local sl_rounds high] payload_bar_peer

set_option maxHeartbeats 2000000 in
/-- One device's body, from what the pipeline hands it to what it hands back: the handshake, eight chunks computed,
    stored and copied to the partner while the next is computed, the row sums copied, the result's own half written
    from the send buffer and its other half from what the partner's copies landed, every wait below what is still owed. -/
theorem sound_body (c : Dev nD)
    (hSB0 : ∀ f : CB F, ∀ i ∈ (chunkN sbM 0 (inbC 0)).view.set, (View.write (Elt F) (accB 0 (inbC 0)) f (E0 (xs m c) (ws m c)) Finset.univ) i = H.SB c i)
    (hSB1 : ∀ f : CB F, ∀ i ∈ (chunkN sbM 1 (inbC 1)).view.set, (View.write (Elt F) (accB 1 (inbC 1)) f (E1 (xs m c) (ws m c)) Finset.univ) i = H.SB c i)
    (hSB2 : ∀ f : CB F, ∀ i ∈ (chunkN sbM 2 (inbC 2)).view.set, (View.write (Elt F) (accB 2 (inbC 2)) f (E2 (xs m c) (ws m c)) Finset.univ) i = H.SB c i)
    (hSB3 : ∀ f : CB F, ∀ i ∈ (chunkN sbM 3 (inbC 3)).view.set, (View.write (Elt F) (accB 3 (inbC 3)) f (E3 (xs m c) (ws m c)) Finset.univ) i = H.SB c i)
    (hSB4 : ∀ f : CB F, ∀ i ∈ (chunkN sbM 4 (inbC 4)).view.set, (View.write (Elt F) (accB 4 (inbC 4)) f (E4 (xs m c) (ws m c)) Finset.univ) i = H.SB c i)
    (hSB5 : ∀ f : CB F, ∀ i ∈ (chunkN sbM 5 (inbC 5)).view.set, (View.write (Elt F) (accB 5 (inbC 5)) f (E5 (xs m c) (ws m c)) Finset.univ) i = H.SB c i)
    (hSB6 : ∀ f : CB F, ∀ i ∈ (chunkN sbM 6 (inbC 6)).view.set, (View.write (Elt F) (accB 6 (inbC 6)) f (E6 (xs m c) (ws m c)) Finset.univ) i = H.SB c i)
    (hSB7 : ∀ f : CB F, ∀ i ∈ (chunkN sbM 7 (inbC 7)).view.set, (View.write (Elt F) (accB 7 (inbC 7)) f (E7 (xs m c) (ws m c)) Finset.univ) i = H.SB c i)
    (hRB0 : ∀ (fd : CR F) (f : CB F), ∀ i ∈ (chunkN rbM 0 (inbC 0)).view.set, ((chunkN rbM 0 (inbC 0)).view.write (Elt F) fd ((chunkN sbM 0 (inbC 0)).view.read (Elt F) (View.write (Elt F) (accB 0 (inbC 0)) f (E0 (xs m c) (ws m c)) Finset.univ)) Finset.univ) i = H.RB (peer c) i)
    (hRB1 : ∀ (fd : CR F) (f : CB F), ∀ i ∈ (chunkN rbM 1 (inbC 1)).view.set, ((chunkN rbM 1 (inbC 1)).view.write (Elt F) fd ((chunkN sbM 1 (inbC 1)).view.read (Elt F) (View.write (Elt F) (accB 1 (inbC 1)) f (E1 (xs m c) (ws m c)) Finset.univ)) Finset.univ) i = H.RB (peer c) i)
    (hRB2 : ∀ (fd : CR F) (f : CB F), ∀ i ∈ (chunkN rbM 2 (inbC 2)).view.set, ((chunkN rbM 2 (inbC 2)).view.write (Elt F) fd ((chunkN sbM 2 (inbC 2)).view.read (Elt F) (View.write (Elt F) (accB 2 (inbC 2)) f (E2 (xs m c) (ws m c)) Finset.univ)) Finset.univ) i = H.RB (peer c) i)
    (hRB3 : ∀ (fd : CR F) (f : CB F), ∀ i ∈ (chunkN rbM 3 (inbC 3)).view.set, ((chunkN rbM 3 (inbC 3)).view.write (Elt F) fd ((chunkN sbM 3 (inbC 3)).view.read (Elt F) (View.write (Elt F) (accB 3 (inbC 3)) f (E3 (xs m c) (ws m c)) Finset.univ)) Finset.univ) i = H.RB (peer c) i)
    (hRB4 : ∀ (fd : CR F) (f : CB F), ∀ i ∈ (chunkN rbM 4 (inbC 4)).view.set, ((chunkN rbM 4 (inbC 4)).view.write (Elt F) fd ((chunkN sbM 4 (inbC 4)).view.read (Elt F) (View.write (Elt F) (accB 4 (inbC 4)) f (E4 (xs m c) (ws m c)) Finset.univ)) Finset.univ) i = H.RB (peer c) i)
    (hRB5 : ∀ (fd : CR F) (f : CB F), ∀ i ∈ (chunkN rbM 5 (inbC 5)).view.set, ((chunkN rbM 5 (inbC 5)).view.write (Elt F) fd ((chunkN sbM 5 (inbC 5)).view.read (Elt F) (View.write (Elt F) (accB 5 (inbC 5)) f (E5 (xs m c) (ws m c)) Finset.univ)) Finset.univ) i = H.RB (peer c) i)
    (hRB6 : ∀ (fd : CR F) (f : CB F), ∀ i ∈ (chunkN rbM 6 (inbC 6)).view.set, ((chunkN rbM 6 (inbC 6)).view.write (Elt F) fd ((chunkN sbM 6 (inbC 6)).view.read (Elt F) (View.write (Elt F) (accB 6 (inbC 6)) f (E6 (xs m c) (ws m c)) Finset.univ)) Finset.univ) i = H.RB (peer c) i)
    (hRB7 : ∀ (fd : CR F) (f : CB F), ∀ i ∈ (chunkN rbM 7 (inbC 7)).view.set, ((chunkN rbM 7 (inbC 7)).view.write (Elt F) fd ((chunkN sbM 7 (inbC 7)).view.read (Elt F) (View.write (Elt F) (accB 7 (inbC 7)) f (E7 (xs m c) (ws m c)) Finset.univ)) Finset.univ) i = H.RB (peer c) i)
    (hSS : ∀ f : CS F, ∀ i ∈ (Memref.whole cc0_scratch2 : Memref sig .tc .vmem S256x1 .bf16).view.set, ssAll f (xs m c) (ws m c) i = H.SS c i)
    (hSR : ∀ (fd : CT F) (f : CS F), ∀ i ∈ (Memref.whole cc0_scratch3 : Memref sig .tc .vmem S256x1 .bf16).view.set, ((Memref.whole cc0_scratch3 : Memref sig .tc .vmem S256x1 .bf16).view.write (Elt F) fd ((Memref.whole cc0_scratch2 : Memref sig .tc .vmem S256x1 .bf16).view.read (Elt F) (ssAll f (xs m c) (ws m c))) Finset.univ) i = H.SR (peer c) i)
    (hOUT : ∀ f : CO F, outAll f c (xs m c) (ws m c) (H.RB c) (H.SR c) = H.OUT c) :
    bodyPre' H m c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost H m c) := by
  unfold bodyPre' Φ₀ start scr
  iintro ⟨⟨⟨⟨%K, Hg⟩, Hcr, #Hlev⟩, ⟨%f0, Hs0⟩, ⟨%f1, Hs1⟩, ⟨%f2, Hs2⟩, ⟨%f3, Hs3⟩⟩, Ho, ⟨%d0, %g0, %hg0, Hx0⟩, ⟨%d1, %g1, %hg1, Hw0⟩, ⟨%d2, %g2, %hg2, Hout0⟩⟩
  have hx : g0 = xs m c := by rw [hg0]; unfold Dat.before; rw [if_pos (fetch0_0 t0_0)]; rfl
  have hw : g1 = ws m c := by rw [hg1]; unfold Dat.before; rw [if_pos (fetch0_1 t0_0)]; rfl
  subst hx hw
  -- the ghost state and the credit, cell by cell
  ihave Hg' := (ghost_explicit H K c) $$ Hg
  unfold ghostX
  icases Hg' with ⟨⟨⟨#HIb, #HIs0, #HIs1, #HIs2, #HIs3, #HIs4, #HIs5, #HIs6, #HIs7, #HIr0, #HIr1, #HIr2, #HIr3, #HIr4, #HIr5, #HIr6, #HIr7, #HIss, #HIsr⟩, ⟨#HIbP, #HIs0P, #HIs1P, #HIs2P, #HIs3P, #HIs4P, #HIs5P, #HIs6P, #HIs7P, #HIr0P, #HIr1P, #HIr2P, #HIr3P, #HIr4P, #HIr5P, #HIr6P, #HIr7P, #HIssP, #HIsrP⟩⟩, ⟨Hab, Has0, Has1, Has2, Has3, Has4, Has5, Has6, Has7, Har0, Har1, Har2, Har3, Har4, Har5, Har6, Har7, Hass, Hasr⟩, ⟨#Hrb, #Hrs0, #Hrs1, #Hrs2, #Hrs3, #Hrs4, #Hrs5, #Hrs6, #Hrs7, #Hrr0, #Hrr1, #Hrr2, #Hrr3, #Hrr4, #Hrr5, #Hrr6, #Hrr7, #Hrss, #Hrsr⟩, ⟨#HrbP, #Hrs0P, #Hrs1P, #Hrs2P, #Hrs3P, #Hrs4P, #Hrs5P, #Hrs6P, #Hrs7P, #Hrr0P, #Hrr1P, #Hrr2P, #Hrr3P, #Hrr4P, #Hrr5P, #Hrr6P, #Hrr7P, #HrssP, #HrsrP⟩, ⟨HtbP, Hts0, Hts1, Hts2, Hts3, Hts4, Hts5, Hts6, Hts7, Htr0P, Htr1P, Htr2P, Htr3P, Htr4P, Htr5P, Htr6P, Htr7P, Htss, HtsrP⟩⟩
  ihave Hcr' := (creds_explicit (F := F) c) $$ Hcr
  icases Hcr' with ⟨Hcb, Hcr0, Hcr1, Hcr2, Hcr3, Hcr4, Hcr5, Hcr6, Hcr7, Hcsr⟩
  unfold Dat.owesAt Pipeline.owesWithin
  icases Ho with ⟨%W, %hW, HO⟩
  rw [show (dats H m 0 c).owed t0_0.castSucc = O₀ c from rfl]
  unfold O₀
  -- the buffers, in the spelling the body's steps read; the two chunked scratch buffers chunk by chunk
  ihave Hx := (Entails.of_eq (whole_stg0 c fullShare (xs m c)).symm) $$ Hx0
  ihave Hw := (Entails.of_eq (whole_stg1 c fullShare (ws m c)).symm) $$ Hw0
  ihave Hout := (Entails.of_eq (whole_stg2 c fullShare g2).symm) $$ Hout0
  ihave Hss := (Entails.of_eq (whole_scratch2 c fullShare f2).symm) $$ Hs2
  ihave Hsr := (Entails.of_eq (whole_scratch3 c fullShare f3).symm) $$ Hs3
  ihave Hs0' := (Entails.of_eq (split_sb c fullShare f0)) $$ Hs0
  icases Hs0' with ⟨Hsb0, Hsb1, Hsb2, Hsb3, Hsb4, Hsb5, Hsb6, Hsb7⟩
  ihave Hs1' := (Entails.of_eq (split_rb c fullShare f1)) $$ Hs1
  icases Hs1' with ⟨Hrb0, Hrb1, Hrb2, Hrb3, Hrb4, Hrb5, Hrb6, Hrb7⟩
  have hmw := mayWait_bar (F := F) c
  have hd1 := dev1_eq; have hd2 := dev2_eq; have hd3 := dev3_eq; have hd4 := dev4_eq; have hd5 := dev5_eq
  have hd6 := dev6_eq; have hd7 := dev7_eq; have hd8 := dev8_eq; have hd9 := dev9_eq; have hd10 := dev10_eq
  -- the handshake, the first chunk, up to its copy
  sl_exec
  clear hmw
  -- copy 0: the chunk's left half goes with the copy, the right half stays for the loads
  ihave Hh0 := (pointsTo_share (PosShare.mem_left_op_right fullShare)).1 $$ Hsb0
  icases Hh0 with ⟨Hsb0L, Hsb0R⟩
  iapply (Rounds.wp_send_pointsTo 𝒱₀ ER (sched H) (c : Thread nD τ) none (c' := ((peer c : Dev nD) : Thread nD τ)) (src := chunkN sbM 0 (inbC 0)) (dst := chunkN rbM 0 (inbC 0))
      (sS := SemLoc.dma (sendS 0)) (sem := SemLoc.dma (recvS 0)) (q := fullShare.left) (κ₁ := K (c, .send 0)) (κ₂ := K (peer c, .recv 0))
      (r₁ := 0) (r₂ := 0) (d₁ := ()) (d₂ := ())
      (by rw [duties_send]; exact Finset.mem_singleton_self _) (by rw [duties_recv]; exact Finset.mem_singleton_self _)
      () () NC rfl (amount_send H c 0 ()) (amount_recv H (peer c) 0 ()) _ rfl
      ((Entails.of_eq (pointsTo_congr (hSB0 _))).trans (Entails.of_eq (payload_send0 H c ()).symm))
      ((Entails.of_eq (pointsTo_congr (hRB0 _ _))).trans (Entails.of_eq (payload_recv0 H (peer c) ()).symm))) $$ [Hsb0L Hab_pay1 HO Hts0 Htr0P Hab_pay10]
  · isplitr; · iexact HIs0
    isplitr; · iexact HIr0P
    isplitl [Hsb0L]; · iexact Hsb0L
    isplitl [Hab_pay1]; · iexact Hab_pay1
    isplitl [HO]; · iexact HO
    isplitl [Hts0]; · iexact Hts0
    isplitr; · iexact Hrs0
    isplitl [Htr0P]; · iexact Htr0P
    iexact Hab_pay10
  iintro ⟨Hcs0, HO⟩
  sl_exec
  -- copy 1: the chunk's left half goes with the copy, the right half stays for the loads
  ihave Hh1 := (pointsTo_share (PosShare.mem_left_op_right fullShare)).1 $$ Hsb1
  icases Hh1 with ⟨Hsb1L, Hsb1R⟩
  iapply (Rounds.wp_send_pointsTo 𝒱₀ ER (sched H) (c : Thread nD τ) none (c' := ((peer c : Dev nD) : Thread nD τ)) (src := chunkN sbM 1 (inbC 1)) (dst := chunkN rbM 1 (inbC 1))
      (sS := SemLoc.dma (sendS 1)) (sem := SemLoc.dma (recvS 1)) (q := fullShare.left) (κ₁ := K (c, .send 1)) (κ₂ := K (peer c, .recv 1))
      (r₁ := 0) (r₂ := 0) (d₁ := ()) (d₂ := ())
      (by rw [duties_send]; exact Finset.mem_singleton_self _) (by rw [duties_recv]; exact Finset.mem_singleton_self _)
      () () NC rfl (amount_send H c 1 ()) (amount_recv H (peer c) 1 ()) _ rfl
      ((Entails.of_eq (pointsTo_congr (hSB1 _))).trans (Entails.of_eq (payload_send1 H c ()).symm))
      ((Entails.of_eq (pointsTo_congr (hRB1 _ _))).trans (Entails.of_eq (payload_recv1 H (peer c) ()).symm))) $$ [Hsb1L Hab_pay2 HO Hts1 Htr1P Hab_pay11]
  · isplitr; · iexact HIs1
    isplitr; · iexact HIr1P
    isplitl [Hsb1L]; · iexact Hsb1L
    isplitl [Hab_pay2]; · iexact Hab_pay2
    isplitl [HO]; · iexact HO
    isplitl [Hts1]; · iexact Hts1
    isplitr; · iexact Hrs1
    isplitl [Htr1P]; · iexact Htr1P
    iexact Hab_pay11
  iintro ⟨Hcs1, HO⟩
  sl_exec
  -- copy 2: the chunk's left half goes with the copy, the right half stays for the loads
  ihave Hh2 := (pointsTo_share (PosShare.mem_left_op_right fullShare)).1 $$ Hsb2
  icases Hh2 with ⟨Hsb2L, Hsb2R⟩
  iapply (Rounds.wp_send_pointsTo 𝒱₀ ER (sched H) (c : Thread nD τ) none (c' := ((peer c : Dev nD) : Thread nD τ)) (src := chunkN sbM 2 (inbC 2)) (dst := chunkN rbM 2 (inbC 2))
      (sS := SemLoc.dma (sendS 2)) (sem := SemLoc.dma (recvS 2)) (q := fullShare.left) (κ₁ := K (c, .send 2)) (κ₂ := K (peer c, .recv 2))
      (r₁ := 0) (r₂ := 0) (d₁ := ()) (d₂ := ())
      (by rw [duties_send]; exact Finset.mem_singleton_self _) (by rw [duties_recv]; exact Finset.mem_singleton_self _)
      () () NC rfl (amount_send H c 2 ()) (amount_recv H (peer c) 2 ()) _ rfl
      ((Entails.of_eq (pointsTo_congr (hSB2 _))).trans (Entails.of_eq (payload_send2 H c ()).symm))
      ((Entails.of_eq (pointsTo_congr (hRB2 _ _))).trans (Entails.of_eq (payload_recv2 H (peer c) ()).symm))) $$ [Hsb2L Hab_pay3 HO Hts2 Htr2P Hab_pay12]
  · isplitr; · iexact HIs2
    isplitr; · iexact HIr2P
    isplitl [Hsb2L]; · iexact Hsb2L
    isplitl [Hab_pay3]; · iexact Hab_pay3
    isplitl [HO]; · iexact HO
    isplitl [Hts2]; · iexact Hts2
    isplitr; · iexact Hrs2
    isplitl [Htr2P]; · iexact Htr2P
    iexact Hab_pay12
  iintro ⟨Hcs2, HO⟩
  sl_exec
  -- copy 3: the chunk's left half goes with the copy, the right half stays for the loads
  ihave Hh3 := (pointsTo_share (PosShare.mem_left_op_right fullShare)).1 $$ Hsb3
  icases Hh3 with ⟨Hsb3L, Hsb3R⟩
  iapply (Rounds.wp_send_pointsTo 𝒱₀ ER (sched H) (c : Thread nD τ) none (c' := ((peer c : Dev nD) : Thread nD τ)) (src := chunkN sbM 3 (inbC 3)) (dst := chunkN rbM 3 (inbC 3))
      (sS := SemLoc.dma (sendS 3)) (sem := SemLoc.dma (recvS 3)) (q := fullShare.left) (κ₁ := K (c, .send 3)) (κ₂ := K (peer c, .recv 3))
      (r₁ := 0) (r₂ := 0) (d₁ := ()) (d₂ := ())
      (by rw [duties_send]; exact Finset.mem_singleton_self _) (by rw [duties_recv]; exact Finset.mem_singleton_self _)
      () () NC rfl (amount_send H c 3 ()) (amount_recv H (peer c) 3 ()) _ rfl
      ((Entails.of_eq (pointsTo_congr (hSB3 _))).trans (Entails.of_eq (payload_send3 H c ()).symm))
      ((Entails.of_eq (pointsTo_congr (hRB3 _ _))).trans (Entails.of_eq (payload_recv3 H (peer c) ()).symm))) $$ [Hsb3L Hab_pay4 HO Hts3 Htr3P Hab_pay13]
  · isplitr; · iexact HIs3
    isplitr; · iexact HIr3P
    isplitl [Hsb3L]; · iexact Hsb3L
    isplitl [Hab_pay4]; · iexact Hab_pay4
    isplitl [HO]; · iexact HO
    isplitl [Hts3]; · iexact Hts3
    isplitr; · iexact Hrs3
    isplitl [Htr3P]; · iexact Htr3P
    iexact Hab_pay13
  iintro ⟨Hcs3, HO⟩
  sl_exec
  -- copy 4: the chunk's left half goes with the copy, the right half stays for the loads
  ihave Hh4 := (pointsTo_share (PosShare.mem_left_op_right fullShare)).1 $$ Hsb4
  icases Hh4 with ⟨Hsb4L, Hsb4R⟩
  iapply (Rounds.wp_send_pointsTo 𝒱₀ ER (sched H) (c : Thread nD τ) none (c' := ((peer c : Dev nD) : Thread nD τ)) (src := chunkN sbM 4 (inbC 4)) (dst := chunkN rbM 4 (inbC 4))
      (sS := SemLoc.dma (sendS 4)) (sem := SemLoc.dma (recvS 4)) (q := fullShare.left) (κ₁ := K (c, .send 4)) (κ₂ := K (peer c, .recv 4))
      (r₁ := 0) (r₂ := 0) (d₁ := ()) (d₂ := ())
      (by rw [duties_send]; exact Finset.mem_singleton_self _) (by rw [duties_recv]; exact Finset.mem_singleton_self _)
      () () NC rfl (amount_send H c 4 ()) (amount_recv H (peer c) 4 ()) _ rfl
      ((Entails.of_eq (pointsTo_congr (hSB4 _))).trans (Entails.of_eq (payload_send4 H c ()).symm))
      ((Entails.of_eq (pointsTo_congr (hRB4 _ _))).trans (Entails.of_eq (payload_recv4 H (peer c) ()).symm))) $$ [Hsb4L Hab_pay5 HO Hts4 Htr4P Hab_pay14]
  · isplitr; · iexact HIs4
    isplitr; · iexact HIr4P
    isplitl [Hsb4L]; · iexact Hsb4L
    isplitl [Hab_pay5]; · iexact Hab_pay5
    isplitl [HO]; · iexact HO
    isplitl [Hts4]; · iexact Hts4
    isplitr; · iexact Hrs4
    isplitl [Htr4P]; · iexact Htr4P
    iexact Hab_pay14
  iintro ⟨Hcs4, HO⟩
  sl_exec
  -- copy 5: the chunk's left half goes with the copy, the right half stays for the loads
  ihave Hh5 := (pointsTo_share (PosShare.mem_left_op_right fullShare)).1 $$ Hsb5
  icases Hh5 with ⟨Hsb5L, Hsb5R⟩
  iapply (Rounds.wp_send_pointsTo 𝒱₀ ER (sched H) (c : Thread nD τ) none (c' := ((peer c : Dev nD) : Thread nD τ)) (src := chunkN sbM 5 (inbC 5)) (dst := chunkN rbM 5 (inbC 5))
      (sS := SemLoc.dma (sendS 5)) (sem := SemLoc.dma (recvS 5)) (q := fullShare.left) (κ₁ := K (c, .send 5)) (κ₂ := K (peer c, .recv 5))
      (r₁ := 0) (r₂ := 0) (d₁ := ()) (d₂ := ())
      (by rw [duties_send]; exact Finset.mem_singleton_self _) (by rw [duties_recv]; exact Finset.mem_singleton_self _)
      () () NC rfl (amount_send H c 5 ()) (amount_recv H (peer c) 5 ()) _ rfl
      ((Entails.of_eq (pointsTo_congr (hSB5 _))).trans (Entails.of_eq (payload_send5 H c ()).symm))
      ((Entails.of_eq (pointsTo_congr (hRB5 _ _))).trans (Entails.of_eq (payload_recv5 H (peer c) ()).symm))) $$ [Hsb5L Hab_pay6 HO Hts5 Htr5P Hab_pay15]
  · isplitr; · iexact HIs5
    isplitr; · iexact HIr5P
    isplitl [Hsb5L]; · iexact Hsb5L
    isplitl [Hab_pay6]; · iexact Hab_pay6
    isplitl [HO]; · iexact HO
    isplitl [Hts5]; · iexact Hts5
    isplitr; · iexact Hrs5
    isplitl [Htr5P]; · iexact Htr5P
    iexact Hab_pay15
  iintro ⟨Hcs5, HO⟩
  sl_exec
  -- the row sums' copy, likewise
  ihave Hhs := (pointsTo_share (PosShare.mem_left_op_right fullShare)).1 $$ Hss
  icases Hhs with ⟨HssL, HssR⟩
  iapply (Rounds.wp_send_pointsTo 𝒱₀ ER (sched H) (c : Thread nD τ) none (c' := ((peer c : Dev nD) : Thread nD τ)) (src := (Memref.whole cc0_scratch2 : Memref sig .tc .vmem S256x1 .bf16)) (dst := (Memref.whole cc0_scratch3 : Memref sig .tc .vmem S256x1 .bf16))
      (sS := SemLoc.dma ssendS) (sem := SemLoc.dma srecvS) (q := fullShare.left) (κ₁ := K (c, .ssend)) (κ₂ := K (peer c, .srecv))
      (r₁ := 0) (r₂ := 0) (d₁ := ()) (d₂ := ())
      (by rw [duties_ssend]; exact Finset.mem_singleton_self _) (by rw [duties_srecv]; exact Finset.mem_singleton_self _)
      () () NR rfl (amount_ssend H c ()) (amount_srecv H (peer c) ()) _ rfl
      ((Entails.of_eq (pointsTo_congr (hSS _))).trans (Entails.of_eq (payload_ssend H c ()).symm))
      ((Entails.of_eq (pointsTo_congr (hSR _ _))).trans (Entails.of_eq (payload_srecv H (peer c) ()).symm))) $$ [HssL Hab_pay9 HO Htss HtsrP Hab_pay18]
  · isplitr; · iexact HIss
    isplitr; · iexact HIsrP
    isplitl [HssL]; · iexact HssL
    isplitl [Hab_pay9]; · iexact Hab_pay9
    isplitl [HO]; · iexact HO
    isplitl [Htss]; · iexact Htss
    isplitr; · iexact Hrss
    isplitl [HtsrP]; · iexact HtsrP
    iexact Hab_pay18
  iintro ⟨Hcss, HO⟩
  sl_exec
  -- copy 6: the chunk's left half goes with the copy, the right half stays for the loads
  ihave Hh6 := (pointsTo_share (PosShare.mem_left_op_right fullShare)).1 $$ Hsb6
  icases Hh6 with ⟨Hsb6L, Hsb6R⟩
  iapply (Rounds.wp_send_pointsTo 𝒱₀ ER (sched H) (c : Thread nD τ) none (c' := ((peer c : Dev nD) : Thread nD τ)) (src := chunkN sbM 6 (inbC 6)) (dst := chunkN rbM 6 (inbC 6))
      (sS := SemLoc.dma (sendS 6)) (sem := SemLoc.dma (recvS 6)) (q := fullShare.left) (κ₁ := K (c, .send 6)) (κ₂ := K (peer c, .recv 6))
      (r₁ := 0) (r₂ := 0) (d₁ := ()) (d₂ := ())
      (by rw [duties_send]; exact Finset.mem_singleton_self _) (by rw [duties_recv]; exact Finset.mem_singleton_self _)
      () () NC rfl (amount_send H c 6 ()) (amount_recv H (peer c) 6 ()) _ rfl
      ((Entails.of_eq (pointsTo_congr (hSB6 _))).trans (Entails.of_eq (payload_send6 H c ()).symm))
      ((Entails.of_eq (pointsTo_congr (hRB6 _ _))).trans (Entails.of_eq (payload_recv6 H (peer c) ()).symm))) $$ [Hsb6L Hab_pay7 HO Hts6 Htr6P Hab_pay16]
  · isplitr; · iexact HIs6
    isplitr; · iexact HIr6P
    isplitl [Hsb6L]; · iexact Hsb6L
    isplitl [Hab_pay7]; · iexact Hab_pay7
    isplitl [HO]; · iexact HO
    isplitl [Hts6]; · iexact Hts6
    isplitr; · iexact Hrs6
    isplitl [Htr6P]; · iexact Htr6P
    iexact Hab_pay16
  iintro ⟨Hcs6, HO⟩
  sl_exec
  -- copy 7: the chunk's left half goes with the copy, the right half stays for the loads
  ihave Hh7 := (pointsTo_share (PosShare.mem_left_op_right fullShare)).1 $$ Hsb7
  icases Hh7 with ⟨Hsb7L, Hsb7R⟩
  iapply (Rounds.wp_send_pointsTo 𝒱₀ ER (sched H) (c : Thread nD τ) none (c' := ((peer c : Dev nD) : Thread nD τ)) (src := chunkN sbM 7 (inbC 7)) (dst := chunkN rbM 7 (inbC 7))
      (sS := SemLoc.dma (sendS 7)) (sem := SemLoc.dma (recvS 7)) (q := fullShare.left) (κ₁ := K (c, .send 7)) (κ₂ := K (peer c, .recv 7))
      (r₁ := 0) (r₂ := 0) (d₁ := ()) (d₂ := ())
      (by rw [duties_send]; exact Finset.mem_singleton_self _) (by rw [duties_recv]; exact Finset.mem_singleton_self _)
      () () NC rfl (amount_send H c 7 ()) (amount_recv H (peer c) 7 ()) 0 (by rw [zero_add])
      ((Entails.of_eq (pointsTo_congr (hSB7 _))).trans (Entails.of_eq (payload_send7 H c ()).symm))
      ((Entails.of_eq (pointsTo_congr (hRB7 _ _))).trans (Entails.of_eq (payload_recv7 H (peer c) ()).symm))) $$ [Hsb7L Hab_pay8 HO Hts7 Htr7P Hab_pay17]
  · isplitr; · iexact HIs7
    isplitr; · iexact HIr7P
    isplitl [Hsb7L]; · iexact Hsb7L
    isplitl [Hab_pay8]; · iexact Hab_pay8
    isplitl [HO]; · iexact HO
    isplitl [Hts7]; · iexact Hts7
    isplitr; · iexact Hrs7
    isplitl [Htr7P]; · iexact Htr7P
    iexact Hab_pay17
  iintro ⟨Hcs7, HO⟩
  sl_exec
  -- the eighteen own cells close: their semaphores are the device's again, at zero
  imod (Rounds.cell_close ER (sched H) (Set.mem_univ (K (c, Kind.send 0))) (fun h => h) (R := 1) (duties_later H _)) $$ [Has0] with Hzs0
  · isplitr; · iexact HIs0
    iexact Has0
  imod (Rounds.cell_close ER (sched H) (Set.mem_univ (K (c, Kind.send 1))) (fun h => h) (R := 1) (duties_later H _)) $$ [Has1] with Hzs1
  · isplitr; · iexact HIs1
    iexact Has1
  imod (Rounds.cell_close ER (sched H) (Set.mem_univ (K (c, Kind.send 2))) (fun h => h) (R := 1) (duties_later H _)) $$ [Has2] with Hzs2
  · isplitr; · iexact HIs2
    iexact Has2
  imod (Rounds.cell_close ER (sched H) (Set.mem_univ (K (c, Kind.send 3))) (fun h => h) (R := 1) (duties_later H _)) $$ [Has3] with Hzs3
  · isplitr; · iexact HIs3
    iexact Has3
  imod (Rounds.cell_close ER (sched H) (Set.mem_univ (K (c, Kind.send 4))) (fun h => h) (R := 1) (duties_later H _)) $$ [Has4] with Hzs4
  · isplitr; · iexact HIs4
    iexact Has4
  imod (Rounds.cell_close ER (sched H) (Set.mem_univ (K (c, Kind.send 5))) (fun h => h) (R := 1) (duties_later H _)) $$ [Has5] with Hzs5
  · isplitr; · iexact HIs5
    iexact Has5
  imod (Rounds.cell_close ER (sched H) (Set.mem_univ (K (c, Kind.send 6))) (fun h => h) (R := 1) (duties_later H _)) $$ [Has6] with Hzs6
  · isplitr; · iexact HIs6
    iexact Has6
  imod (Rounds.cell_close ER (sched H) (Set.mem_univ (K (c, Kind.send 7))) (fun h => h) (R := 1) (duties_later H _)) $$ [Has7] with Hzs7
  · isplitr; · iexact HIs7
    iexact Has7
  imod (Rounds.cell_close ER (sched H) (Set.mem_univ (K (c, Kind.recv 0))) (fun h => h) (R := 1) (duties_later H _)) $$ [Har0] with Hzr0
  · isplitr; · iexact HIr0
    iexact Har0
  imod (Rounds.cell_close ER (sched H) (Set.mem_univ (K (c, Kind.recv 1))) (fun h => h) (R := 1) (duties_later H _)) $$ [Har1] with Hzr1
  · isplitr; · iexact HIr1
    iexact Har1
  imod (Rounds.cell_close ER (sched H) (Set.mem_univ (K (c, Kind.recv 2))) (fun h => h) (R := 1) (duties_later H _)) $$ [Har2] with Hzr2
  · isplitr; · iexact HIr2
    iexact Har2
  imod (Rounds.cell_close ER (sched H) (Set.mem_univ (K (c, Kind.recv 3))) (fun h => h) (R := 1) (duties_later H _)) $$ [Har3] with Hzr3
  · isplitr; · iexact HIr3
    iexact Har3
  imod (Rounds.cell_close ER (sched H) (Set.mem_univ (K (c, Kind.recv 4))) (fun h => h) (R := 1) (duties_later H _)) $$ [Har4] with Hzr4
  · isplitr; · iexact HIr4
    iexact Har4
  imod (Rounds.cell_close ER (sched H) (Set.mem_univ (K (c, Kind.recv 5))) (fun h => h) (R := 1) (duties_later H _)) $$ [Har5] with Hzr5
  · isplitr; · iexact HIr5
    iexact Har5
  imod (Rounds.cell_close ER (sched H) (Set.mem_univ (K (c, Kind.recv 6))) (fun h => h) (R := 1) (duties_later H _)) $$ [Har6] with Hzr6
  · isplitr; · iexact HIr6
    iexact Har6
  imod (Rounds.cell_close ER (sched H) (Set.mem_univ (K (c, Kind.recv 7))) (fun h => h) (R := 1) (duties_later H _)) $$ [Har7] with Hzr7
  · isplitr; · iexact HIr7
    iexact Har7
  imod (Rounds.cell_close ER (sched H) (Set.mem_univ (K (c, Kind.ssend))) (fun h => h) (R := 1) (duties_later H _)) $$ [Hass] with Hzss
  · isplitr; · iexact HIss
    iexact Hass
  imod (Rounds.cell_close ER (sched H) (Set.mem_univ (K (c, Kind.srecv))) (fun h => h) (R := 1) (duties_later H _)) $$ [Hasr] with Hzsr
  · isplitr; · iexact HIsr
    iexact Hasr
  rw [wp_ret]; imodintro
  unfold bodyPost Φ₁ scr Dat.owesAt Pipeline.owesWithin
  rw [show (dats H m 0 c).owed t0_0.succ = 0 from rfl, kinds18_chain]
  -- the send buffers' halves rejoin; the four scratch buffers are whole again
  ihave HR0 : ((chunkN sbM 0 (inbC 0)).view.loc ((c : Dev nD) : Thread nD τ) ↦[(chunkN sbM 0 (inbC 0)).view.set]{fullShare.right} H.SB c) $$ [Hsb0R]
  · iapply (Entails.of_eq (pointsTo_congr (hSB0 f0)))
    iexact Hsb0R
  ihave HF0 := (pointsTo_share (PosShare.mem_left_op_right fullShare)).2 $$ [Has0_pay1 HR0]
  · isplitl [Has0_pay1] <;> iassumption
  ihave HR1 : ((chunkN sbM 1 (inbC 1)).view.loc ((c : Dev nD) : Thread nD τ) ↦[(chunkN sbM 1 (inbC 1)).view.set]{fullShare.right} H.SB c) $$ [Hsb1R]
  · iapply (Entails.of_eq (pointsTo_congr (hSB1 f0)))
    iexact Hsb1R
  ihave HF1 := (pointsTo_share (PosShare.mem_left_op_right fullShare)).2 $$ [Has1_pay1 HR1]
  · isplitl [Has1_pay1] <;> iassumption
  ihave HR2 : ((chunkN sbM 2 (inbC 2)).view.loc ((c : Dev nD) : Thread nD τ) ↦[(chunkN sbM 2 (inbC 2)).view.set]{fullShare.right} H.SB c) $$ [Hsb2R]
  · iapply (Entails.of_eq (pointsTo_congr (hSB2 f0)))
    iexact Hsb2R
  ihave HF2 := (pointsTo_share (PosShare.mem_left_op_right fullShare)).2 $$ [Has2_pay1 HR2]
  · isplitl [Has2_pay1] <;> iassumption
  ihave HR3 : ((chunkN sbM 3 (inbC 3)).view.loc ((c : Dev nD) : Thread nD τ) ↦[(chunkN sbM 3 (inbC 3)).view.set]{fullShare.right} H.SB c) $$ [Hsb3R]
  · iapply (Entails.of_eq (pointsTo_congr (hSB3 f0)))
    iexact Hsb3R
  ihave HF3 := (pointsTo_share (PosShare.mem_left_op_right fullShare)).2 $$ [Has3_pay1 HR3]
  · isplitl [Has3_pay1] <;> iassumption
  ihave HR4 : ((chunkN sbM 4 (inbC 4)).view.loc ((c : Dev nD) : Thread nD τ) ↦[(chunkN sbM 4 (inbC 4)).view.set]{fullShare.right} H.SB c) $$ [Hsb4R]
  · iapply (Entails.of_eq (pointsTo_congr (hSB4 f0)))
    iexact Hsb4R
  ihave HF4 := (pointsTo_share (PosShare.mem_left_op_right fullShare)).2 $$ [Has4_pay1 HR4]
  · isplitl [Has4_pay1] <;> iassumption
  ihave HR5 : ((chunkN sbM 5 (inbC 5)).view.loc ((c : Dev nD) : Thread nD τ) ↦[(chunkN sbM 5 (inbC 5)).view.set]{fullShare.right} H.SB c) $$ [Hsb5R]
  · iapply (Entails.of_eq (pointsTo_congr (hSB5 f0)))
    iexact Hsb5R
  ihave HF5 := (pointsTo_share (PosShare.mem_left_op_right fullShare)).2 $$ [Has5_pay1 HR5]
  · isplitl [Has5_pay1] <;> iassumption
  ihave HR6 : ((chunkN sbM 6 (inbC 6)).view.loc ((c : Dev nD) : Thread nD τ) ↦[(chunkN sbM 6 (inbC 6)).view.set]{fullShare.right} H.SB c) $$ [Hsb6R]
  · iapply (Entails.of_eq (pointsTo_congr (hSB6 f0)))
    iexact Hsb6R
  ihave HF6 := (pointsTo_share (PosShare.mem_left_op_right fullShare)).2 $$ [Has6_pay1 HR6]
  · isplitl [Has6_pay1] <;> iassumption
  ihave HR7 : ((chunkN sbM 7 (inbC 7)).view.loc ((c : Dev nD) : Thread nD τ) ↦[(chunkN sbM 7 (inbC 7)).view.set]{fullShare.right} H.SB c) $$ [Hsb7R]
  · iapply (Entails.of_eq (pointsTo_congr (hSB7 f0)))
    iexact Hsb7R
  ihave HF7 := (pointsTo_share (PosShare.mem_left_op_right fullShare)).2 $$ [Has7_pay1 HR7]
  · isplitl [Has7_pay1] <;> iassumption
  ihave HJ0 := (join_sb (F := F) c fullShare) $$ [HF0 HF1 HF2 HF3 HF4 HF5 HF6 HF7]
  · isplitl [HF0]; · (iexists _; iexact HF0)
    isplitl [HF1]; · (iexists _; iexact HF1)
    isplitl [HF2]; · (iexists _; iexact HF2)
    isplitl [HF3]; · (iexists _; iexact HF3)
    isplitl [HF4]; · (iexists _; iexact HF4)
    isplitl [HF5]; · (iexists _; iexact HF5)
    isplitl [HF6]; · (iexists _; iexact HF6)
    iexists _; iexact HF7
  ihave HJ1 := (join_rb (F := F) c fullShare) $$ [Har0_pay1 Har1_pay1 Har2_pay1 Har3_pay1 Har4_pay1 Har5_pay1 Har6_pay1 Har7_pay1]
  · isplitl [Har0_pay1]; · (iexists _; iexact Har0_pay1)
    isplitl [Har1_pay1]; · (iexists _; iexact Har1_pay1)
    isplitl [Har2_pay1]; · (iexists _; iexact Har2_pay1)
    isplitl [Har3_pay1]; · (iexists _; iexact Har3_pay1)
    isplitl [Har4_pay1]; · (iexists _; iexact Har4_pay1)
    isplitl [Har5_pay1]; · (iexists _; iexact Har5_pay1)
    isplitl [Har6_pay1]; · (iexists _; iexact Har6_pay1)
    iexists _; iexact Har7_pay1
  ihave HRs : ((Memref.whole cc0_scratch2 : Memref sig .tc .vmem S256x1 .bf16).view.loc ((c : Dev nD) : Thread nD τ) ↦[(Memref.whole cc0_scratch2 : Memref sig .tc .vmem S256x1 .bf16).view.set]{fullShare.right} H.SS c) $$ [HssR]
  · iapply (Entails.of_eq (pointsTo_congr (hSS f2)))
    iexact HssR
  ihave HFs := (pointsTo_share (PosShare.mem_left_op_right fullShare)).2 $$ [Hass_pay1 HRs]
  · isplitl [Hass_pay1] <;> iassumption
  ihave HFs' := (Entails.of_eq (whole_scratch2 c fullShare (H.SS c))) $$ HFs
  ihave HFr' := (Entails.of_eq (whole_scratch3 c fullShare (H.SR c))) $$ Hasr_pay1
  isplitl [HJ0 HJ1 HFs' HFr' Hzs0 Hzs1 Hzs2 Hzs3 Hzs4 Hzs5 Hzs6 Hzs7 Hzr0 Hzr1 Hzr2 Hzr3 Hzr4 Hzr5 Hzr6 Hzr7 Hzss Hzsr]
  · isplitl [HJ0 HJ1 HFs' HFr']
    · isplitl [HJ0]; · iexact HJ0
      isplitl [HJ1]; · iexact HJ1
      isplitl [HFs']; · (iexists _; iexact HFs')
      iexists _; iexact HFr'
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzs6]; · iexact Hzs6
      isplitl [Hzs7]; · iexact Hzs7
      isplitl [Hzr0]; · iexact Hzr0
      isplitl [Hzr1]; · iexact Hzr1
      isplitl [Hzr2]; · iexact Hzr2
      isplitl [Hzr3]; · iexact Hzr3
      isplitl [Hzr4]; · iexact Hzr4
      isplitl [Hzr5]; · iexact Hzr5
      isplitl [Hzr6]; · iexact Hzr6
      isplitl [Hzr7]; · iexact Hzr7
      isplitl [Hzss]; · iexact Hzss
      iexact Hzsr
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; exact hOUT g2)
  iexact Hout

end Cert.KernelIdeal.Dist

end
-- ==== Proof.BodyOb.lean ====
import proofs.«900347_g7700000000000348_dist_arsfmx_v7x_xyz2x4x4_x_t256_d512_v4096_bf16_1_alg».proof.Proof.Body
import proofs.«900347_g7700000000000348_dist_arsfmx_v7x_xyz2x4x4_x_t256_d512_v4096_bf16_1_alg».proof.Proof.HeldOf

noncomputable section

namespace Cert.KernelIdeal.Dist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What lands in the partner's receive buffers is what this device sent: the partner's partner is the device. -/
theorem rbOf_peer (c : Dev nD) : rbOf m (peer c) = (sbAll fillB (xs m c) (ws m c) : CR F) := by
  unfold rbOf sbOf; rw [peer_peer]
theorem srOf_peer (c : Dev nD) : srOf m (peer c) = (ssAll fillS (xs m c) (ws m c) : CT F) := by
  unfold srOf ssOf; rw [peer_peer]

set_option maxRecDepth 8000 in
set_option maxHeartbeats 2000000 in
/-- The body obligation of the pipeline, at the contents `heldOf m`: the body as stepped in `sound_body`, its facts
    about what the copies carry discharged by the chunk-by-chunk reading of the buffers. -/
theorem body_obligation (c : Dev nD) : BodyObligation (dats (F := F) (heldOf m) m 0 c) (defs₀ (F := F)) 𝒱₀ () Set.univ := fun t => by
  have ht : t = t0_0 := fin_N0 t
  subst ht
  rw [bigSep_W0, bigSep_W0]
  simp only [owns_whole_eq]
  show bodyPre' (heldOf m) m c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost (heldOf m) m c)
  exact sound_body (heldOf m) m c
    (fun f => FA0 f fillB (xs m c) (ws m c))
    (fun f => FA1 f fillB (xs m c) (ws m c))
    (fun f => FA2 f fillB (xs m c) (ws m c))
    (fun f => FA3 f fillB (xs m c) (ws m c))
    (fun f => FA4 f fillB (xs m c) (ws m c))
    (fun f => FA5 f fillB (xs m c) (ws m c))
    (fun f => FA6 f fillB (xs m c) (ws m c))
    (fun f => FA7 f fillB (xs m c) (ws m c))
    (fun fd f i hi => (FB 0 (inbC 0) fd _ fillB (xs m c) (ws m c) (FA0 f fillB (xs m c) (ws m c)) i hi).trans (congrFun (rbOf_peer m c).symm i))
    (fun fd f i hi => (FB 1 (inbC 1) fd _ fillB (xs m c) (ws m c) (FA1 f fillB (xs m c) (ws m c)) i hi).trans (congrFun (rbOf_peer m c).symm i))
    (fun fd f i hi => (FB 2 (inbC 2) fd _ fillB (xs m c) (ws m c) (FA2 f fillB (xs m c) (ws m c)) i hi).trans (congrFun (rbOf_peer m c).symm i))
    (fun fd f i hi => (FB 3 (inbC 3) fd _ fillB (xs m c) (ws m c) (FA3 f fillB (xs m c) (ws m c)) i hi).trans (congrFun (rbOf_peer m c).symm i))
    (fun fd f i hi => (FB 4 (inbC 4) fd _ fillB (xs m c) (ws m c) (FA4 f fillB (xs m c) (ws m c)) i hi).trans (congrFun (rbOf_peer m c).symm i))
    (fun fd f i hi => (FB 5 (inbC 5) fd _ fillB (xs m c) (ws m c) (FA5 f fillB (xs m c) (ws m c)) i hi).trans (congrFun (rbOf_peer m c).symm i))
    (fun fd f i hi => (FB 6 (inbC 6) fd _ fillB (xs m c) (ws m c) (FA6 f fillB (xs m c) (ws m c)) i hi).trans (congrFun (rbOf_peer m c).symm i))
    (fun fd f i hi => (FB 7 (inbC 7) fd _ fillB (xs m c) (ws m c) (FA7 f fillB (xs m c) (ws m c)) i hi).trans (congrFun (rbOf_peer m c).symm i))
    (fun f i _ => congrFun (FS f fillS (xs m c) (ws m c)) i)
    (fun fd f i hi => (FT fd _ fillS (xs m c) (ws m c) (fun j => congrFun (FS f fillS (xs m c) (ws m c)) j) i hi).trans (congrFun (srOf_peer m c).symm i))
    (fun f => FO f fillO c (xs m c) (ws m c) (rbOf m c) (srOf m c))

end Cert.KernelIdeal.Dist

end
-- ==== Proof.Spec.lean ====
/-
  The specification of this certificate's result, stated over no program.

  For x : [256, 512] and W : [512, 8192] on the extended reals,
    logit x W r j  = ∑ k, x (r, k) * W (k, j),
    rowSum x W r   = ∑ j, exp (logit x W r j)           (all 8192 columns),
    G x W (r, j)   = exp (logit x W r j) * (1 / rowSum x W r),
  with exp, the quotient and the literal one exactly those of the ideal instance
  (Ideal.exp, Ideal.div, the word 0x3F800000 read by Ideal.ofBits).  This is the normalised
  exponential of each row of x @ W, written as "numerator times reciprocal of the row's sum".
-/
import Idealize.ShloMosaic.PureOps.Ideal
import Idealize.ShloMosaic.Lib.ValueIdx

noncomputable section

open scoped BigOperators

namespace Cert.RowSoftmax

open Idealize.ShloMosaic Idealize.ShloMosaic.ValueIdx

/-- The left factor's shape. -/
abbrev SX : Shape := ⟨2, ![256, 512]⟩
/-- The right factor's shape (all 8192 columns). -/
abbrev SW : Shape := ⟨2, ![512, 8192]⟩
/-- The result's shape. -/
abbrev SO : Shape := ⟨2, ![256, 8192]⟩

/-- The literal one, as the word the programs spell. -/
abbrev one : EReal := Ideal.ofBits .f32 0x3F800000#32

/-- Entry (r, j) of the product x @ W: the sum over the 512 contracted positions. -/
def logit (x : SX.Idx → EReal) (W : SW.Idx → EReal) (r : Fin 256) (j : Fin 8192) : EReal :=
  ∑ k : Fin 512, x (ix2 r k) * W (ix2 k j)

/-- The sum of the exponentials of row r of x @ W, over all 8192 columns. -/
def rowSum (x : SX.Idx → EReal) (W : SW.Idx → EReal) (r : Fin 256) : EReal :=
  ∑ j : Fin 8192, Ideal.exp (logit x W r j)

/-- The result at coordinates (r, j): the exponential of the logit times the reciprocal of the row's sum. -/
def entry (x : SX.Idx → EReal) (W : SW.Idx → EReal) (r : Fin 256) (j : Fin 8192) : EReal :=
  Ideal.exp (logit x W r j) * Ideal.div one (rowSum x W r)

/-- The result array as one function of the two argument arrays. -/
def G (x : SX.Idx → EReal) (W : SW.Idx → EReal) : SO.Idx → EReal :=
  fun i => entry x W (i 0) (i 1)

/-- G at an index given by its coordinates. -/
theorem G_ix2 (x : SX.Idx → EReal) (W : SW.Idx → EReal) (r : Fin 256) (j : Fin 8192) :
    G x W (ix2 r j) = Ideal.exp (logit x W r j) * Ideal.div one (rowSum x W r) := rfl

/-- G at any index, through its coordinates. -/
theorem G_apply (x : SX.Idx → EReal) (W : SW.Idx → EReal) (i : SO.Idx) :
    G x W i = Ideal.exp (logit x W (i 0) (i 1)) * Ideal.div one (rowSum x W (i 0)) := rfl

/-- The literal one is the extended real 1. -/
theorem one_eq : one = 1 := by
  simp [one, Ideal.ofBits, Ideal.ieee, -EReal.coe_mul]; norm_num

end Cert.RowSoftmax

end
-- ==== Proof.Blocks.lean ====
/-
  The specification read through a device's column block.

  The whole right factor W : [512, 8192] is cut along its columns into 2 blocks of 4096; device c
  (of the 2 × 4 × 4 mesh, numbered row-major) holds the block its first mesh coordinate c / 16 names.
  Column j' of block b is column b · 4096 + j' of the whole.  So the logit over the whole array at that
  column is the same sum over the block (blogit), a row's sum over all 8192 columns is the sum of the
  two blocks' row sums (in either order), and a block's row sum over 4096 columns is the sum of its
  eight consecutive chunks of 512 columns, which written from 0 and from the left is
  0 + chunk 0 + chunk 1 + … + chunk 7.
-/
import proofs.«900347_g7700000000000348_dist_arsfmx_v7x_xyz2x4x4_x_t256_d512_v4096_bf16_1_alg».proof.Proof.Spec
import Idealize.ShloMosaic.Lib.Layout
import Idealize.ShloMosaic.Lib.ValueIdx

noncomputable section

open scoped BigOperators

namespace Cert.RowSoftmax

open Idealize.ShloMosaic Idealize.ShloMosaic.ValueIdx

/-- A column block's shape. -/
abbrev SWb : Shape := ⟨2, ![512, 4096]⟩

/-- Device c's column block of the whole right factor. -/
abbrev devBlock (c : Fin 32) (W : SW.Idx → EReal) : SWb.Idx → EReal :=
  Layout.blockN ⟨2, ![512, 4096]⟩ ⟨2, ![512, 8192]⟩ (Layout.meshBlock [2, 4, 4] ![[], [0]] c) W

/-- Which of the 2 column blocks device c holds: its first mesh coordinate. -/
def devCol (c : Fin 32) : Fin 2 := ⟨c.val / 16, by omega⟩

/-- Column j of block b, as a column of the whole. -/
def col (b : Fin 2) (j : Fin 4096) : Fin 8192 := ⟨b.val * 4096 + j.val, by omega⟩

/-- Column l of chunk q (512 columns each), as a column of a block. -/
def chunkCol (q : Fin 8) (l : Fin 512) : Fin 4096 := ⟨q.val * 512 + l.val, by omega⟩

theorem col_val (b : Fin 2) (j : Fin 4096) : (col b j).val = b.val * 4096 + j.val := rfl
theorem chunkCol_val (q : Fin 8) (l : Fin 512) : (chunkCol q l).val = q.val * 512 + l.val := rfl
theorem devCol_val (c : Fin 32) : (devCol c).val = c.val / 16 := rfl

/-- The block coordinates the mesh gives each device: none along the rows, c / 16 along the columns. -/
theorem meshBlock_coords : ∀ c : Fin 32,
    ((Layout.meshBlock [2, 4, 4] ![[], [0]] c) 0).val = 0
      ∧ ((Layout.meshBlock [2, 4, 4] ![[], [0]] c) 1).val = c.val / 16 := by decide

/-- Entry (k, j) of device c's block is entry (k, (c / 16) · 4096 + j) of the whole. -/
theorem devBlock_apply (c : Fin 32) (W : SW.Idx → EReal) (k : Fin 512) (j : Fin 4096) :
    devBlock c W (ix2 k j) = W (ix2 k (col (devCol c) j)) := by
  show W _ = W _
  refine congrArg W (funext fun b => Fin.ext ?_)
  rw [Layout.TilesN.idx_val]
  match b with
  | ⟨0, _⟩ =>
    have e := (meshBlock_coords c).1
    show ((Layout.meshBlock [2, 4, 4] ![[], [0]] c) 0).val * 512 + k.val = k.val
    omega
  | ⟨1, _⟩ =>
    have e := (meshBlock_coords c).2
    show ((Layout.meshBlock [2, 4, 4] ![[], [0]] c) 1).val * 4096 + j.val = c.val / 16 * 4096 + j.val
    omega

/-- Entry (r, j) of x @ (a column block): the sum over the 512 contracted positions. -/
def blogit (x : SX.Idx → EReal) (Wb : SWb.Idx → EReal) (r : Fin 256) (j : Fin 4096) : EReal :=
  ∑ k : Fin 512, x (ix2 r k) * Wb (ix2 k j)

/-- The sum of the exponentials of row r of x @ (a column block), over its 4096 columns. -/
def blockSum (x : SX.Idx → EReal) (Wb : SWb.Idx → EReal) (r : Fin 256) : EReal :=
  ∑ j : Fin 4096, Ideal.exp (blogit x Wb r j)

/-- One chunk's part of that sum: 512 consecutive columns. -/
def chunkSum (x : SX.Idx → EReal) (Wb : SWb.Idx → EReal) (r : Fin 256) (q : Fin 8) : EReal :=
  ∑ l : Fin 512, Ideal.exp (blogit x Wb r (chunkCol q l))

/-- The logit over device c's block is the logit over the whole at the block's column. -/
theorem blogit_devBlock (x : SX.Idx → EReal) (W : SW.Idx → EReal) (c : Fin 32) (r : Fin 256) (j : Fin 4096) :
    blogit x (devBlock c W) r j = logit x W r (col (devCol c) j) := by
  unfold blogit logit
  exact Finset.sum_congr rfl fun k _ => by rw [devBlock_apply]

/-- The 8192 columns are 2 blocks of 4096. -/
def colEquiv : Fin 2 × Fin 4096 ≃ Fin 8192 where
  toFun p := col p.1 p.2
  invFun j := (⟨j.val / 4096, by omega⟩, ⟨j.val % 4096, by omega⟩)
  left_inv := fun ⟨b, j⟩ => Prod.ext
    (Fin.ext (by show (b.val * 4096 + j.val) / 4096 = b.val; omega))
    (Fin.ext (by show (b.val * 4096 + j.val) % 4096 = j.val; omega))
  right_inv := fun j => Fin.ext (by show j.val / 4096 * 4096 + j.val % 4096 = j.val; omega)

/-- The 4096 columns of a block are 8 chunks of 512. -/
def chunkEquiv : Fin 8 × Fin 512 ≃ Fin 4096 where
  toFun p := chunkCol p.1 p.2
  invFun j := (⟨j.val / 512, by omega⟩, ⟨j.val % 512, by omega⟩)
  left_inv := fun ⟨q, l⟩ => Prod.ext
    (Fin.ext (by show (q.val * 512 + l.val) / 512 = q.val; omega))
    (Fin.ext (by show (q.val * 512 + l.val) % 512 = l.val; omega))
  right_inv := fun j => Fin.ext (by show j.val / 512 * 512 + j.val % 512 = j.val; omega)

/-- A sum over the 8192 columns, block by block. -/
theorem sum_cols (f : Fin 8192 → EReal) : ∑ j, f j = ∑ b : Fin 2, ∑ j : Fin 4096, f (col b j) :=
  (Equiv.sum_comp colEquiv f).symm.trans (Fintype.sum_prod_type _)

/-- A sum over a block's 4096 columns, chunk by chunk. -/
theorem sum_chunks (f : Fin 4096 → EReal) : ∑ j, f j = ∑ q : Fin 8, ∑ l : Fin 512, f (chunkCol q l) :=
  (Equiv.sum_comp chunkEquiv f).symm.trans (Fintype.sum_prod_type _)

/-- Device c's block's row sum is the whole row's sum restricted to the block's columns. -/
theorem blockSum_devBlock (x : SX.Idx → EReal) (W : SW.Idx → EReal) (c : Fin 32) (r : Fin 256) :
    blockSum x (devBlock c W) r = ∑ j : Fin 4096, Ideal.exp (logit x W r (col (devCol c) j)) := by
  unfold blockSum
  exact Finset.sum_congr rfl fun j _ => by rw [blogit_devBlock]

/-- THE ROW SUM IS THE TWO BLOCKS' ROW SUMS: for two devices holding different column blocks (a device and
    its partner along the first mesh axis), in either order. -/
theorem rowSum_two_blocks (x : SX.Idx → EReal) (W : SW.Idx → EReal) (c c' : Fin 32) (hcc : devCol c ≠ devCol c')
    (r : Fin 256) :
    rowSum x W r = blockSum x (devBlock c W) r + blockSum x (devBlock c' W) r := by
  rw [blockSum_devBlock, blockSum_devBlock]
  unfold rowSum
  rw [sum_cols, Fin.sum_univ_two]
  generalize devCol c = a at hcc ⊢
  generalize devCol c' = b at hcc ⊢
  fin_cases a <;> fin_cases b
  · exact absurd rfl hcc
  · rfl
  · exact add_comm _ _
  · exact absurd rfl hcc

/-- A block's row sum is the sum of its 8 chunks' sums. -/
theorem blockSum_chunks (x : SX.Idx → EReal) (Wb : SWb.Idx → EReal) (r : Fin 256) :
    blockSum x Wb r = ∑ q : Fin 8, chunkSum x Wb r q := by
  unfold blockSum chunkSum
  exact sum_chunks _

/-- The same, accumulated from 0 chunk after chunk from the left. -/
theorem blockSum_chunks8 (x : SX.Idx → EReal) (Wb : SWb.Idx → EReal) (r : Fin 256) :
    blockSum x Wb r = 0 + chunkSum x Wb r 0 + chunkSum x Wb r 1 + chunkSum x Wb r 2 + chunkSum x Wb r 3
      + chunkSum x Wb r 4 + chunkSum x Wb r 5 + chunkSum x Wb r 6 + chunkSum x Wb r 7 := by
  rw [blockSum_chunks, Fin.sum_univ_eight, zero_add]

/-- THE RESULT AT A DEVICE BLOCK'S COLUMN: at column j of the block device c holds, the specification is the
    exponential of the logit over that block times the reciprocal of the whole row's sum. -/
theorem G_devBlock (x : SX.Idx → EReal) (W : SW.Idx → EReal) (c : Fin 32) (r : Fin 256) (j : Fin 4096) :
    G x W (ix2 r (col (devCol c) j))
      = Ideal.exp (blogit x (devBlock c W) r j) * Ideal.div one (rowSum x W r) := by
  rw [G_ix2, blogit_devBlock]

/-- Two devices hold different column blocks exactly when their first mesh coordinates differ. -/
theorem devCol_ne_iff (c c' : Fin 32) : devCol c ≠ devCol c' ↔ c.val / 16 ≠ c'.val / 16 := by
  rw [Ne, Fin.ext_iff]; rfl

/-- A block's row sum as a device accumulates it: from 0, chunk after chunk from the left. -/
def acc8 (x : SX.Idx → EReal) (Wb : SWb.Idx → EReal) (r : Fin 256) : EReal :=
  0 + chunkSum x Wb r 0 + chunkSum x Wb r 1 + chunkSum x Wb r 2 + chunkSum x Wb r 3
    + chunkSum x Wb r 4 + chunkSum x Wb r 5 + chunkSum x Wb r 6 + chunkSum x Wb r 7

theorem acc8_eq_blockSum (x : SX.Idx → EReal) (Wb : SWb.Idx → EReal) (r : Fin 256) :
    acc8 x Wb r = blockSum x Wb r := (blockSum_chunks8 x Wb r).symm

/-- The whole row's sum is the accumulated sum of one device's block plus that of a device holding the
    other block. -/
theorem rowSum_eq_acc8 (x : SX.Idx → EReal) (W : SW.Idx → EReal) (c c' : Fin 32) (hcc : devCol c ≠ devCol c')
    (r : Fin 256) :
    rowSum x W r = acc8 x (devBlock c W) r + acc8 x (devBlock c' W) r := by
  rw [acc8_eq_blockSum, acc8_eq_blockSum]; exact rowSum_two_blocks x W c c' hcc r

/-- THE RESULT IN THE DEVICES' OWN TERMS: at column j of the block device c0 holds, the specification is the
    exponential of the logit over that block times the reciprocal of (the accumulated row sum of device c's
    block plus that of device c''s block), for any two devices c, c' holding different blocks. -/
theorem G_devBlock_acc8 (x : SX.Idx → EReal) (W : SW.Idx → EReal) (c0 c c' : Fin 32) (hcc : devCol c ≠ devCol c')
    (r : Fin 256) (j : Fin 4096) :
    G x W (ix2 r (col (devCol c0) j))
      = Ideal.exp (blogit x (devBlock c0 W) r j)
          * Ideal.div one (acc8 x (devBlock c W) r + acc8 x (devBlock c' W) r) := by
  rw [G_devBlock, rowSum_eq_acc8 x W c c' hcc]

/-- Every column of the whole is a column of one of the two blocks. -/
theorem col_surj (j : Fin 8192) : ∃ (b : Fin 2) (j' : Fin 4096), j = col b j' :=
  ⟨(colEquiv.symm j).1, (colEquiv.symm j).2, (colEquiv.apply_symm_apply j).symm⟩

/-- Every column of a block is a column of one of its eight chunks. -/
theorem chunkCol_surj (j : Fin 4096) : ∃ (q : Fin 8) (l : Fin 512), j = chunkCol q l :=
  ⟨(chunkEquiv.symm j).1, (chunkEquiv.symm j).2, (chunkEquiv.apply_symm_apply j).symm⟩

end Cert.RowSoftmax

end
-- ==== Proof.OutLoads.lean ====
/-
  The body's loads and the buffers' contents, read at an index.

  A load of a [512, 512] chunk of the device's block at column offset 512 q reads the block at column
  q · 512 + l; a load of chunk q of the receive buffer reads it at (q, r, l); the whole-buffer loads read
  the contents.  After the eight chunk stores the send buffer holds chunk q's values at (q, r, l), and after
  its one store the row-sum send buffer holds the row sums as sent.
-/
import proofs.«900347_g7700000000000348_dist_arsfmx_v7x_xyz2x4x4_x_t256_d512_v4096_bf16_1_alg».proof.Proof.ViewCover
import proofs.«900347_g7700000000000348_dist_arsfmx_v7x_xyz2x4x4_x_t256_d512_v4096_bf16_1_alg».proof.Proof.Blocks

noncomputable section

namespace Cert.KernelIdeal.Dist

open Cert.KernelIdeal Cert.KernelIdeal.Gen
open Idealize.ShloMosaic
open Idealize.ShloMosaic.TcCoe
open Idealize.ShloMosaic.ValueIdx
open Cert.RowSoftmax (chunkCol col devCol)

variable {F : FTy → Type} [FloatOps F]

/-! ## The loads -/

theorem xL_eq (x : CX F) : xL x = x := by
  unfold xL
  exact Memref.readAt_unit_zero (Elt F) cc0_stg0_0 (by funext a; match a with | ⟨0, _⟩ => rfl | ⟨1, _⟩ => rfl) inb_S256x512_S256x512_0_0 x

theorem srL_eq (sr : CT F) : srL sr = sr := by
  unfold srL
  exact Memref.readAt_unit_zero (Elt F) cc0_scratch3 (by funext a; match a with | ⟨0, _⟩ => rfl | ⟨1, _⟩ => rfl) inb_S256x1_S256x1_0_0 sr

theorem wL0_apply (w : CW F) (k l : Fin 512) : wL0 w (ix2 k l) = w (ix2 k (chunkCol 0 l)) := by
  unfold wL0
  show w (LoadRect.idx (Rect.unit (s := S512x4096) ![0, 0] S512x512.size inb_S512x4096_S512x512_0_0).toLoadRect (ix2 k l)) = _
  refine congrArg w (funext fun a => Fin.ext ?_)
  match a with
  | ⟨0, _⟩ => show 0 + 1 * k.val = k.val; omega
  | ⟨1, _⟩ => show 0 + 1 * l.val = 0 * 512 + l.val; omega
theorem wL1_apply (w : CW F) (k l : Fin 512) : wL1 w (ix2 k l) = w (ix2 k (chunkCol 1 l)) := by
  unfold wL1
  show w (LoadRect.idx (Rect.unit (s := S512x4096) ![0, 512] S512x512.size inb_S512x4096_S512x512_0_512).toLoadRect (ix2 k l)) = _
  refine congrArg w (funext fun a => Fin.ext ?_)
  match a with
  | ⟨0, _⟩ => show 0 + 1 * k.val = k.val; omega
  | ⟨1, _⟩ => show 512 + 1 * l.val = 1 * 512 + l.val; omega
theorem wL2_apply (w : CW F) (k l : Fin 512) : wL2 w (ix2 k l) = w (ix2 k (chunkCol 2 l)) := by
  unfold wL2
  show w (LoadRect.idx (Rect.unit (s := S512x4096) ![0, 1024] S512x512.size inb_S512x4096_S512x512_0_1024).toLoadRect (ix2 k l)) = _
  refine congrArg w (funext fun a => Fin.ext ?_)
  match a with
  | ⟨0, _⟩ => show 0 + 1 * k.val = k.val; omega
  | ⟨1, _⟩ => show 1024 + 1 * l.val = 2 * 512 + l.val; omega
theorem wL3_apply (w : CW F) (k l : Fin 512) : wL3 w (ix2 k l) = w (ix2 k (chunkCol 3 l)) := by
  unfold wL3
  show w (LoadRect.idx (Rect.unit (s := S512x4096) ![0, 1536] S512x512.size inb_S512x4096_S512x512_0_1536).toLoadRect (ix2 k l)) = _
  refine congrArg w (funext fun a => Fin.ext ?_)
  match a with
  | ⟨0, _⟩ => show 0 + 1 * k.val = k.val; omega
  | ⟨1, _⟩ => show 1536 + 1 * l.val = 3 * 512 + l.val; omega
theorem wL4_apply (w : CW F) (k l : Fin 512) : wL4 w (ix2 k l) = w (ix2 k (chunkCol 4 l)) := by
  unfold wL4
  show w (LoadRect.idx (Rect.unit (s := S512x4096) ![0, 2048] S512x512.size inb_S512x4096_S512x512_0_2048).toLoadRect (ix2 k l)) = _
  refine congrArg w (funext fun a => Fin.ext ?_)
  match a with
  | ⟨0, _⟩ => show 0 + 1 * k.val = k.val; omega
  | ⟨1, _⟩ => show 2048 + 1 * l.val = 4 * 512 + l.val; omega
theorem wL5_apply (w : CW F) (k l : Fin 512) : wL5 w (ix2 k l) = w (ix2 k (chunkCol 5 l)) := by
  unfold wL5
  show w (LoadRect.idx (Rect.unit (s := S512x4096) ![0, 2560] S512x512.size inb_S512x4096_S512x512_0_2560).toLoadRect (ix2 k l)) = _
  refine congrArg w (funext fun a => Fin.ext ?_)
  match a with
  | ⟨0, _⟩ => show 0 + 1 * k.val = k.val; omega
  | ⟨1, _⟩ => show 2560 + 1 * l.val = 5 * 512 + l.val; omega
theorem wL6_apply (w : CW F) (k l : Fin 512) : wL6 w (ix2 k l) = w (ix2 k (chunkCol 6 l)) := by
  unfold wL6
  show w (LoadRect.idx (Rect.unit (s := S512x4096) ![0, 3072] S512x512.size inb_S512x4096_S512x512_0_3072).toLoadRect (ix2 k l)) = _
  refine congrArg w (funext fun a => Fin.ext ?_)
  match a with
  | ⟨0, _⟩ => show 0 + 1 * k.val = k.val; omega
  | ⟨1, _⟩ => show 3072 + 1 * l.val = 6 * 512 + l.val; omega
theorem wL7_apply (w : CW F) (k l : Fin 512) : wL7 w (ix2 k l) = w (ix2 k (chunkCol 7 l)) := by
  unfold wL7
  show w (LoadRect.idx (Rect.unit (s := S512x4096) ![0, 3584] S512x512.size inb_S512x4096_S512x512_0_3584).toLoadRect (ix2 k l)) = _
  refine congrArg w (funext fun a => Fin.ext ?_)
  match a with
  | ⟨0, _⟩ => show 0 + 1 * k.val = k.val; omega
  | ⟨1, _⟩ => show 3584 + 1 * l.val = 7 * 512 + l.val; omega

theorem rbL0_apply (rb : CR F) (u : Fin 1) (r : Fin 256) (l : Fin 512) :
    rbL0 rb (ix3 u r l) = rb (ix3 (0 : Fin 8) r l) := by
  unfold rbL0
  show rb (LoadRect.idx (Rect.unit (s := S8x256x512) ![0, 0, 0] S1x256x512.size inb_S8x256x512_S1x256x512_0_0_0).toLoadRect (ix3 u r l)) = _
  refine congrArg rb (funext fun a => Fin.ext ?_)
  have hu : u.val = 0 := by omega
  match a with
  | ⟨0, _⟩ => show 0 + 1 * u.val = 0; omega
  | ⟨1, _⟩ => show 0 + 1 * r.val = r.val; omega
  | ⟨2, _⟩ => show 0 + 1 * l.val = l.val; omega
theorem rbL1_apply (rb : CR F) (u : Fin 1) (r : Fin 256) (l : Fin 512) :
    rbL1 rb (ix3 u r l) = rb (ix3 (1 : Fin 8) r l) := by
  unfold rbL1
  show rb (LoadRect.idx (Rect.unit (s := S8x256x512) ![1, 0, 0] S1x256x512.size inb_S8x256x512_S1x256x512_1_0_0).toLoadRect (ix3 u r l)) = _
  refine congrArg rb (funext fun a => Fin.ext ?_)
  have hu : u.val = 0 := by omega
  match a with
  | ⟨0, _⟩ => show 1 + 1 * u.val = 1; omega
  | ⟨1, _⟩ => show 0 + 1 * r.val = r.val; omega
  | ⟨2, _⟩ => show 0 + 1 * l.val = l.val; omega
theorem rbL2_apply (rb : CR F) (u : Fin 1) (r : Fin 256) (l : Fin 512) :
    rbL2 rb (ix3 u r l) = rb (ix3 (2 : Fin 8) r l) := by
  unfold rbL2
  show rb (LoadRect.idx (Rect.unit (s := S8x256x512) ![2, 0, 0] S1x256x512.size inb_S8x256x512_S1x256x512_2_0_0).toLoadRect (ix3 u r l)) = _
  refine congrArg rb (funext fun a => Fin.ext ?_)
  have hu : u.val = 0 := by omega
  match a with
  | ⟨0, _⟩ => show 2 + 1 * u.val = 2; omega
  | ⟨1, _⟩ => show 0 + 1 * r.val = r.val; omega
  | ⟨2, _⟩ => show 0 + 1 * l.val = l.val; omega
theorem rbL3_apply (rb : CR F) (u : Fin 1) (r : Fin 256) (l : Fin 512) :
    rbL3 rb (ix3 u r l) = rb (ix3 (3 : Fin 8) r l) := by
  unfold rbL3
  show rb (LoadRect.idx (Rect.unit (s := S8x256x512) ![3, 0, 0] S1x256x512.size inb_S8x256x512_S1x256x512_3_0_0).toLoadRect (ix3 u r l)) = _
  refine congrArg rb (funext fun a => Fin.ext ?_)
  have hu : u.val = 0 := by omega
  match a with
  | ⟨0, _⟩ => show 3 + 1 * u.val = 3; omega
  | ⟨1, _⟩ => show 0 + 1 * r.val = r.val; omega
  | ⟨2, _⟩ => show 0 + 1 * l.val = l.val; omega
theorem rbL4_apply (rb : CR F) (u : Fin 1) (r : Fin 256) (l : Fin 512) :
    rbL4 rb (ix3 u r l) = rb (ix3 (4 : Fin 8) r l) := by
  unfold rbL4
  show rb (LoadRect.idx (Rect.unit (s := S8x256x512) ![4, 0, 0] S1x256x512.size inb_S8x256x512_S1x256x512_4_0_0).toLoadRect (ix3 u r l)) = _
  refine congrArg rb (funext fun a => Fin.ext ?_)
  have hu : u.val = 0 := by omega
  match a with
  | ⟨0, _⟩ => show 4 + 1 * u.val = 4; omega
  | ⟨1, _⟩ => show 0 + 1 * r.val = r.val; omega
  | ⟨2, _⟩ => show 0 + 1 * l.val = l.val; omega
theorem rbL5_apply (rb : CR F) (u : Fin 1) (r : Fin 256) (l : Fin 512) :
    rbL5 rb (ix3 u r l) = rb (ix3 (5 : Fin 8) r l) := by
  unfold rbL5
  show rb (LoadRect.idx (Rect.unit (s := S8x256x512) ![5, 0, 0] S1x256x512.size inb_S8x256x512_S1x256x512_5_0_0).toLoadRect (ix3 u r l)) = _
  refine congrArg rb (funext fun a => Fin.ext ?_)
  have hu : u.val = 0 := by omega
  match a with
  | ⟨0, _⟩ => show 5 + 1 * u.val = 5; omega
  | ⟨1, _⟩ => show 0 + 1 * r.val = r.val; omega
  | ⟨2, _⟩ => show 0 + 1 * l.val = l.val; omega
theorem rbL6_apply (rb : CR F) (u : Fin 1) (r : Fin 256) (l : Fin 512) :
    rbL6 rb (ix3 u r l) = rb (ix3 (6 : Fin 8) r l) := by
  unfold rbL6
  show rb (LoadRect.idx (Rect.unit (s := S8x256x512) ![6, 0, 0] S1x256x512.size inb_S8x256x512_S1x256x512_6_0_0).toLoadRect (ix3 u r l)) = _
  refine congrArg rb (funext fun a => Fin.ext ?_)
  have hu : u.val = 0 := by omega
  match a with
  | ⟨0, _⟩ => show 6 + 1 * u.val = 6; omega
  | ⟨1, _⟩ => show 0 + 1 * r.val = r.val; omega
  | ⟨2, _⟩ => show 0 + 1 * l.val = l.val; omega
theorem rbL7_apply (rb : CR F) (u : Fin 1) (r : Fin 256) (l : Fin 512) :
    rbL7 rb (ix3 u r l) = rb (ix3 (7 : Fin 8) r l) := by
  unfold rbL7
  show rb (LoadRect.idx (Rect.unit (s := S8x256x512) ![7, 0, 0] S1x256x512.size inb_S8x256x512_S1x256x512_7_0_0).toLoadRect (ix3 u r l)) = _
  refine congrArg rb (funext fun a => Fin.ext ?_)
  have hu : u.val = 0 := by omega
  match a with
  | ⟨0, _⟩ => show 7 + 1 * u.val = 7; omega
  | ⟨1, _⟩ => show 0 + 1 * r.val = r.val; omega
  | ⟨2, _⟩ => show 0 + 1 * l.val = l.val; omega

/-! ## The send buffers' contents -/

/-- Where chunk q's store puts its payload's index (u, r, l): at (q, r, l). -/
theorem accB_emb (q : ℕ) (h : ∀ a, (![q, 0, 0] : Fin 3 → Nat) a + S1x256x512.size a ≤ S8x256x512.size a)
    (q' : Fin 8) (hq : q'.val = q) (r : Fin 256) (l : Fin 512) :
    (accB q h).emb (ix3 (0 : Fin 1) r l) = ix3 q' r l := by
  funext a
  refine Fin.ext ?_
  match a with
  | ⟨0, _⟩ => show q + 1 * 0 = q'.val; omega
  | ⟨1, _⟩ => show 0 + 1 * r.val = r.val; omega
  | ⟨2, _⟩ => show 0 + 1 * l.val = l.val; omega

theorem sbAll_chunk0 (g : CB F) (x : CX F) (w : CW F) (r : Fin 256) (l : Fin 512) :
    sbAll g x w (ix3 (0 : Fin 8) r l) = E0 x w (ix3 (0 : Fin 1) r l) := by
  have hi : (accB 0 (inbC 0)).emb (ix3 (0 : Fin 1) r l) = ix3 (0 : Fin 8) r l := accB_emb 0 (inbC 0) 0 rfl r l
  have hm : ix3 (0 : Fin 8) r l ∈ (chunkN sbM 0 (inbC 0)).view.set := by
    rw [chunkN_sb_set, ← accB_set, ← hi]; exact View.emb_mem_set _ _
  rw [← FA0 g g x w _ hm, ← hi, View.write_emb_of_mem _ _ (Finset.mem_univ _), cast_eq]
theorem sbAll_chunk1 (g : CB F) (x : CX F) (w : CW F) (r : Fin 256) (l : Fin 512) :
    sbAll g x w (ix3 (1 : Fin 8) r l) = E1 x w (ix3 (0 : Fin 1) r l) := by
  have hi : (accB 1 (inbC 1)).emb (ix3 (0 : Fin 1) r l) = ix3 (1 : Fin 8) r l := accB_emb 1 (inbC 1) 1 rfl r l
  have hm : ix3 (1 : Fin 8) r l ∈ (chunkN sbM 1 (inbC 1)).view.set := by
    rw [chunkN_sb_set, ← accB_set, ← hi]; exact View.emb_mem_set _ _
  rw [← FA1 g g x w _ hm, ← hi, View.write_emb_of_mem _ _ (Finset.mem_univ _), cast_eq]
theorem sbAll_chunk2 (g : CB F) (x : CX F) (w : CW F) (r : Fin 256) (l : Fin 512) :
    sbAll g x w (ix3 (2 : Fin 8) r l) = E2 x w (ix3 (0 : Fin 1) r l) := by
  have hi : (accB 2 (inbC 2)).emb (ix3 (0 : Fin 1) r l) = ix3 (2 : Fin 8) r l := accB_emb 2 (inbC 2) 2 rfl r l
  have hm : ix3 (2 : Fin 8) r l ∈ (chunkN sbM 2 (inbC 2)).view.set := by
    rw [chunkN_sb_set, ← accB_set, ← hi]; exact View.emb_mem_set _ _
  rw [← FA2 g g x w _ hm, ← hi, View.write_emb_of_mem _ _ (Finset.mem_univ _), cast_eq]
theorem sbAll_chunk3 (g : CB F) (x : CX F) (w : CW F) (r : Fin 256) (l : Fin 512) :
    sbAll g x w (ix3 (3 : Fin 8) r l) = E3 x w (ix3 (0 : Fin 1) r l) := by
  have hi : (accB 3 (inbC 3)).emb (ix3 (0 : Fin 1) r l) = ix3 (3 : Fin 8) r l := accB_emb 3 (inbC 3) 3 rfl r l
  have hm : ix3 (3 : Fin 8) r l ∈ (chunkN sbM 3 (inbC 3)).view.set := by
    rw [chunkN_sb_set, ← accB_set, ← hi]; exact View.emb_mem_set _ _
  rw [← FA3 g g x w _ hm, ← hi, View.write_emb_of_mem _ _ (Finset.mem_univ _), cast_eq]
theorem sbAll_chunk4 (g : CB F) (x : CX F) (w : CW F) (r : Fin 256) (l : Fin 512) :
    sbAll g x w (ix3 (4 : Fin 8) r l) = E4 x w (ix3 (0 : Fin 1) r l) := by
  have hi : (accB 4 (inbC 4)).emb (ix3 (0 : Fin 1) r l) = ix3 (4 : Fin 8) r l := accB_emb 4 (inbC 4) 4 rfl r l
  have hm : ix3 (4 : Fin 8) r l ∈ (chunkN sbM 4 (inbC 4)).view.set := by
    rw [chunkN_sb_set, ← accB_set, ← hi]; exact View.emb_mem_set _ _
  rw [← FA4 g g x w _ hm, ← hi, View.write_emb_of_mem _ _ (Finset.mem_univ _), cast_eq]
theorem sbAll_chunk5 (g : CB F) (x : CX F) (w : CW F) (r : Fin 256) (l : Fin 512) :
    sbAll g x w (ix3 (5 : Fin 8) r l) = E5 x w (ix3 (0 : Fin 1) r l) := by
  have hi : (accB 5 (inbC 5)).emb (ix3 (0 : Fin 1) r l) = ix3 (5 : Fin 8) r l := accB_emb 5 (inbC 5) 5 rfl r l
  have hm : ix3 (5 : Fin 8) r l ∈ (chunkN sbM 5 (inbC 5)).view.set := by
    rw [chunkN_sb_set, ← accB_set, ← hi]; exact View.emb_mem_set _ _
  rw [← FA5 g g x w _ hm, ← hi, View.write_emb_of_mem _ _ (Finset.mem_univ _), cast_eq]
theorem sbAll_chunk6 (g : CB F) (x : CX F) (w : CW F) (r : Fin 256) (l : Fin 512) :
    sbAll g x w (ix3 (6 : Fin 8) r l) = E6 x w (ix3 (0 : Fin 1) r l) := by
  have hi : (accB 6 (inbC 6)).emb (ix3 (0 : Fin 1) r l) = ix3 (6 : Fin 8) r l := accB_emb 6 (inbC 6) 6 rfl r l
  have hm : ix3 (6 : Fin 8) r l ∈ (chunkN sbM 6 (inbC 6)).view.set := by
    rw [chunkN_sb_set, ← accB_set, ← hi]; exact View.emb_mem_set _ _
  rw [← FA6 g g x w _ hm, ← hi, View.write_emb_of_mem _ _ (Finset.mem_univ _), cast_eq]
theorem sbAll_chunk7 (g : CB F) (x : CX F) (w : CW F) (r : Fin 256) (l : Fin 512) :
    sbAll g x w (ix3 (7 : Fin 8) r l) = E7 x w (ix3 (0 : Fin 1) r l) := by
  have hi : (accB 7 (inbC 7)).emb (ix3 (0 : Fin 1) r l) = ix3 (7 : Fin 8) r l := accB_emb 7 (inbC 7) 7 rfl r l
  have hm : ix3 (7 : Fin 8) r l ∈ (chunkN sbM 7 (inbC 7)).view.set := by
    rw [chunkN_sb_set, ← accB_set, ← hi]; exact View.emb_mem_set _ _
  rw [← FA7 g g x w _ hm, ← hi, View.write_emb_of_mem _ _ (Finset.mem_univ _), cast_eq]

/-- The row-sum send buffer holds the row sums as sent. -/
theorem ssAll_eq (g : CS F) (x : CX F) (w : CW F) : ssAll g x w = rowSent x w := by
  unfold ssAll
  rw [View.writes_singleton]
  exact Memref.write_access_unit_zero_univ (Elt F) cc0_scratch2 (by funext a; match a with | ⟨0, _⟩ => rfl | ⟨1, _⟩ => rfl) inb_S256x1_S256x1_0_0 g (rowSent x w)

end Cert.KernelIdeal.Dist

end
-- ==== Proof.Payload.lean ====
/-
  The kernel's pure values, read at an index on the extended reals.

  Each of the eight column chunks: the product of the left factor with a [512, 512] chunk of the device's
  block, exponentiated, is at (r, l) the exponential of ∑ k, left (r, k) * chunk (k, l); its lane sum at row r
  is the sum over l of those; the stored copies (a change of format, a leading unit axis) hold the same
  values.  The reciprocal is 1 / (own row sum + received row sum), and each output chunk is a stored or
  received chunk times the row's reciprocal.
-/
import proofs.«900347_g7700000000000348_dist_arsfmx_v7x_xyz2x4x4_x_t256_d512_v4096_bf16_1_alg».proof.Proof.Blocks
import proofs.«900347_g7700000000000348_dist_arsfmx_v7x_xyz2x4x4_x_t256_d512_v4096_bf16_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowSoftmax.Pay

open Cert.KernelIdeal Cert.KernelIdeal.Gen Cert.RowSoftmax
open Idealize.ShloMosaic Idealize.ShloMosaic.ValueIdx

/-- The exponential of entry (r, l) of (left factor) @ (a [512, 512] chunk). -/
def expDot (a : S256x512.Idx → EReal) (w : S512x512.Idx → EReal) (r : Fin 256) (l : Fin 512) : EReal :=
  Ideal.exp (∑ k : Fin 512, a (ix2 r k) * w (ix2 k l))

/-- The sum of those over the chunk's 512 columns. -/
def expDotSum (a : S256x512.Idx → EReal) (w : S512x512.Idx → EReal) (r : Fin 256) : EReal :=
  ∑ l : Fin 512, expDot a w r l

/-! ## The matrix product of a chunk at an index -/

theorem lhs0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhs0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhs1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The chunk's product into the zero accumulator, at (r, l): the sum over the 512 contracted positions. -/
theorem matmul_chunk_apply (a : FVec Ideal S256x512 .bf16) (b : FVec Ideal S512x512 .bf16) (r : Fin 256) (l : Fin 512) :
    matmul dot_S256x512_S512x512_S256x512_1_0_0_1_n_n none a b (constant S256x512 .f32 0x00000000#32) (ix2 r l)
      = ∑ k : Fin 512, a (ix2 r k) * b (ix2 k l) := by
  refine (Ideal.matmul_constant_zero_apply dot_S256x512_S512x512_S256x512_1_0_0_1_n_n none a b (ix2 r l)).trans ?_
  rw [← Equiv.sum_comp (ValueIdx.contrEquiv1 dot_S256x512_S512x512_S256x512_1_0_0_1_n_n 512 rfl rfl).symm]
  refine Finset.sum_congr rfl fun k _ => ?_
  have hk := ValueIdx.contrEquiv1_symm_val dot_S256x512_S512x512_S256x512_1_0_0_1_n_n 512 rfl rfl k
  have el : dot_S256x512_S512x512_S256x512_1_0_0_1_n_n.lhsIdx (ix2 r l) ((ValueIdx.contrEquiv1 dot_S256x512_S512x512_S256x512_1_0_0_1_n_n 512 rfl rfl).symm k) = ix2 r k := funext fun c => Fin.ext (by
    match c with
    | ⟨0, _⟩ => exact lhs0 _ _
    | ⟨1, _⟩ => exact (lhs1 _ _).trans hk)
  have er : dot_S256x512_S512x512_S256x512_1_0_0_1_n_n.rhsIdx (ix2 r l) ((ValueIdx.contrEquiv1 dot_S256x512_S512x512_S256x512_1_0_0_1_n_n 512 rfl rfl).symm k) = ix2 k l := funext fun c => Fin.ext (by
    match c with
    | ⟨0, _⟩ => exact (rhs0 _ _).trans hk
    | ⟨1, _⟩ => exact rhs1 _ _)
  rw [el, er]

/-- The pattern of every chunk: exp of the product of the (already narrowed) left factor with the narrowed
    chunk, at (r, l). -/
theorem expChunk_apply (v19 : FVec Ideal S256x512 .bf16) (w : Vec Ideal S512x512 .f32) (r : Fin 256) (l : Fin 512) :
    exp (matmul dot_S256x512_S512x512_S256x512_1_0_0_1_n_n none v19
        (truncf .bf16 (shapeCast S512x512 w shapeCasts_S512x512_S512x512) bitsLt_bf16_f32)
        (constant S256x512 .f32 0x00000000#32)) (ix2 r l)
      = expDot v19 w r l := by
  show Ideal.exp _ = _
  rw [matmul_chunk_apply, shapeCast_self]
  rfl

/-- The narrowed left factor holds the left factor's values. -/
theorem pay1_apply (v17 : Vec Ideal S256x512 .f32) (i : S256x512.Idx) : k0_pay1 (F := Ideal) v17 i = v17 i := by
  unfold k0_pay1
  show shapeCast S256x512 v17 shapeCasts_S256x512_S256x512 i = _
  rw [shapeCast_self]

theorem pay1_eq (v17 : Vec Ideal S256x512 .f32) : k0_pay1 (F := Ideal) v17 = v17 := funext (pay1_apply v17)

/-! ## The eight exponentiated chunks -/

theorem pay2_apply (v17 : Vec Ideal S256x512 .f32) (w : Vec Ideal S512x512 .f32) (r : Fin 256) (l : Fin 512) :
    k0_pay2 (F := Ideal) v17 w (ix2 r l) = expDot v17 w r l := by
  unfold k0_pay2
  refine (expChunk_apply (k0_pay1 v17) w r l).trans ?_
  rw [pay1_eq]
theorem pay5_apply (v19 : FVec Ideal S256x512 .bf16) (w : Vec Ideal S512x512 .f32) (r : Fin 256) (l : Fin 512) :
    k0_pay5 (F := Ideal) v19 w (ix2 r l) = expDot v19 w r l := by
  unfold k0_pay5; exact expChunk_apply v19 w r l
theorem pay8_apply (v19 : FVec Ideal S256x512 .bf16) (w : Vec Ideal S512x512 .f32) (r : Fin 256) (l : Fin 512) :
    k0_pay8 (F := Ideal) v19 w (ix2 r l) = expDot v19 w r l := by
  unfold k0_pay8; exact expChunk_apply v19 w r l
theorem pay11_apply (v19 : FVec Ideal S256x512 .bf16) (w : Vec Ideal S512x512 .f32) (r : Fin 256) (l : Fin 512) :
    k0_pay11 (F := Ideal) v19 w (ix2 r l) = expDot v19 w r l := by
  unfold k0_pay11; exact expChunk_apply v19 w r l
theorem pay14_apply (v19 : FVec Ideal S256x512 .bf16) (w : Vec Ideal S512x512 .f32) (r : Fin 256) (l : Fin 512) :
    k0_pay14 (F := Ideal) v19 w (ix2 r l) = expDot v19 w r l := by
  unfold k0_pay14; exact expChunk_apply v19 w r l
theorem pay17_apply (v19 : FVec Ideal S256x512 .bf16) (w : Vec Ideal S512x512 .f32) (r : Fin 256) (l : Fin 512) :
    k0_pay17 (F := Ideal) v19 w (ix2 r l) = expDot v19 w r l := by
  unfold k0_pay17; exact expChunk_apply v19 w r l
theorem pay20_apply (v19 : FVec Ideal S256x512 .bf16) (w : Vec Ideal S512x512 .f32) (r : Fin 256) (l : Fin 512) :
    k0_pay20 (F := Ideal) v19 w (ix2 r l) = expDot v19 w r l := by
  unfold k0_pay20; exact expChunk_apply v19 w r l
theorem pay22_apply (v19 : FVec Ideal S256x512 .bf16) (w : Vec Ideal S512x512 .f32) (r : Fin 256) (l : Fin 512) :
    k0_pay22 (F := Ideal) v19 w (ix2 r l) = expDot v19 w r l := by
  unfold k0_pay22; exact expChunk_apply v19 w r l

/-! ## What is stored to the eight send chunks: the same values under a leading unit axis -/

/-- Narrowing and adding a leading unit axis keeps the values. -/
theorem store_apply (e : FVec Ideal S256x512 .f32) (u : Fin 1) (r : Fin 256) (l : Fin 512) :
    shapeCast S1x256x512 (truncf .bf16 e bitsLt_bf16_f32) shapeCasts_S256x512_S1x256x512 (ix3 u r l) = e (ix2 r l) := by
  rw [shapeCast_ab_1ab_apply]; rfl

theorem pay4_apply (v17 : Vec Ideal S256x512 .f32) (w : Vec Ideal S512x512 .f32) (u : Fin 1) (r : Fin 256) (l : Fin 512) :
    k0_pay4 (F := Ideal) v17 w (ix3 u r l) = expDot v17 w r l := by
  unfold k0_pay4; exact (store_apply _ u r l).trans (pay2_apply v17 w r l)
theorem pay7_apply (v19 : FVec Ideal S256x512 .bf16) (w : Vec Ideal S512x512 .f32) (u : Fin 1) (r : Fin 256) (l : Fin 512) :
    k0_pay7 (F := Ideal) v19 w (ix3 u r l) = expDot v19 w r l := by
  unfold k0_pay7; exact (store_apply _ u r l).trans (pay5_apply v19 w r l)
theorem pay10_apply (v19 : FVec Ideal S256x512 .bf16) (w : Vec Ideal S512x512 .f32) (u : Fin 1) (r : Fin 256) (l : Fin 512) :
    k0_pay10 (F := Ideal) v19 w (ix3 u r l) = expDot v19 w r l := by
  unfold k0_pay10; exact (store_apply _ u r l).trans (pay8_apply v19 w r l)
theorem pay13_apply (v19 : FVec Ideal S256x512 .bf16) (w : Vec Ideal S512x512 .f32) (u : Fin 1) (r : Fin 256) (l : Fin 512) :
    k0_pay13 (F := Ideal) v19 w (ix3 u r l) = expDot v19 w r l := by
  unfold k0_pay13; exact (store_apply _ u r l).trans (pay11_apply v19 w r l)
theorem pay16_apply (v129 : FVec Ideal S256x512 .f32) (u : Fin 1) (r : Fin 256) (l : Fin 512) :
    k0_pay16 (F := Ideal) v129 (ix3 u r l) = v129 (ix2 r l) := by
  unfold k0_pay16; exact store_apply v129 u r l
theorem pay19_apply (v19 : FVec Ideal S256x512 .bf16) (w : Vec Ideal S512x512 .f32) (u : Fin 1) (r : Fin 256) (l : Fin 512) :
    k0_pay19 (F := Ideal) v19 w (ix3 u r l) = expDot v19 w r l := by
  unfold k0_pay19; exact (store_apply _ u r l).trans (pay17_apply v19 w r l)
theorem pay21_apply (v19 : FVec Ideal S256x512 .bf16) (w : Vec Ideal S512x512 .f32) (u : Fin 1) (r : Fin 256) (l : Fin 512) :
    k0_pay21 (F := Ideal) v19 w (ix3 u r l) = expDot v19 w r l := by
  unfold k0_pay21; exact (store_apply _ u r l).trans (pay20_apply v19 w r l)
theorem pay24_apply (v19 : FVec Ideal S256x512 .bf16) (w : Vec Ideal S512x512 .f32) (r : Fin 256) (l : Fin 512) :
    k0_pay24 (F := Ideal) v19 w (ix2 r l) = expDot v19 w r l := by
  unfold k0_pay24; exact pay22_apply v19 w r l
theorem pay25_apply (v197 : FVec Ideal S256x512 .bf16) (u : Fin 1) (r : Fin 256) (l : Fin 512) :
    k0_pay25 (F := Ideal) v197 (ix3 u r l) = v197 (ix2 r l) := by
  unfold k0_pay25; exact shapeCast_ab_1ab_apply v197 shapeCasts_S256x512_S1x256x512 u r l

/-! ## The row sums -/

/-- A chunk's lane sum as a column: at (r, 0), the sum over the chunk's 512 columns. -/
theorem laneSum_apply (e : FVec Ideal S256x512 .f32) (r : Fin 256) (z : Fin 1) :
    shapeCast S256x1 (multiReduction .add [1] S256 e 0x00000000#32 reduces_S256x512_S256 (.inl rfl) rfl)
        shapeCasts_S256_S256x1 (ix2 r z) = ∑ l : Fin 512, e (ix2 r l) := by
  refine (shapeCast_apply _ shapeCasts_S256_S256x1 (ix2 r z) (ix1 r) ?_).trans ?_
  · rw [Shape.rowMajor_val_one, Shape.rowMajor_val_two]
    show r.val = r.val * 1 + z.val
    omega
  · refine (Ideal.multiReduction_add_single e 0x00000000#32 reduces_S256x512_S256 (.inl rfl) rfl (ix1 r)).trans ?_
    refine Finset.sum_congr rfl fun k _ => congrArg e (funext fun a => Fin.ext ?_)
    match a with
    | ⟨0, _⟩ => rfl
    | ⟨1, _⟩ => rfl

theorem pay3_apply (v17 : Vec Ideal S256x512 .f32) (w : Vec Ideal S512x512 .f32) (r : Fin 256) (z : Fin 1) :
    k0_pay3 (F := Ideal) v17 w (ix2 r z) = 0 + expDotSum v17 w r := by
  unfold k0_pay3
  show Ideal.ofBits .f32 0x00000000#32 + shapeCast S256x1 _ shapeCasts_S256_S256x1 (ix2 r z) = _
  rw [Ideal.ofBits_zero_f32, laneSum_apply]
  exact congrArg (0 + ·) (Finset.sum_congr rfl fun l _ => pay2_apply v17 w r l)
theorem pay6_apply (v19 : FVec Ideal S256x512 .bf16) (acc : FVec Ideal S256x1 .f32) (w : Vec Ideal S512x512 .f32)
    (r : Fin 256) (z : Fin 1) :
    k0_pay6 (F := Ideal) v19 acc w (ix2 r z) = acc (ix2 r z) + expDotSum v19 w r := by
  unfold k0_pay6
  show acc (ix2 r z) + shapeCast S256x1 _ shapeCasts_S256_S256x1 (ix2 r z) = _
  rw [laneSum_apply]
  exact congrArg (acc (ix2 r z) + ·) (Finset.sum_congr rfl fun l _ => pay5_apply v19 w r l)
theorem pay9_apply (v19 : FVec Ideal S256x512 .bf16) (acc : FVec Ideal S256x1 .f32) (w : Vec Ideal S512x512 .f32)
    (r : Fin 256) (z : Fin 1) :
    k0_pay9 (F := Ideal) v19 acc w (ix2 r z) = acc (ix2 r z) + expDotSum v19 w r := by
  unfold k0_pay9
  show acc (ix2 r z) + shapeCast S256x1 _ shapeCasts_S256_S256x1 (ix2 r z) = _
  rw [laneSum_apply]
  exact congrArg (acc (ix2 r z) + ·) (Finset.sum_congr rfl fun l _ => pay8_apply v19 w r l)
theorem pay12_apply (v19 : FVec Ideal S256x512 .bf16) (acc : FVec Ideal S256x1 .f32) (w : Vec Ideal S512x512 .f32)
    (r : Fin 256) (z : Fin 1) :
    k0_pay12 (F := Ideal) v19 acc w (ix2 r z) = acc (ix2 r z) + expDotSum v19 w r := by
  unfold k0_pay12
  show acc (ix2 r z) + shapeCast S256x1 _ shapeCasts_S256_S256x1 (ix2 r z) = _
  rw [laneSum_apply]
  exact congrArg (acc (ix2 r z) + ·) (Finset.sum_congr rfl fun l _ => pay11_apply v19 w r l)
theorem pay15_apply (v19 : FVec Ideal S256x512 .bf16) (w : Vec Ideal S512x512 .f32) (r : Fin 256) (z : Fin 1) :
    k0_pay15 (F := Ideal) v19 w (ix2 r z) = expDotSum v19 w r := by
  unfold k0_pay15
  show shapeCast S256x1 _ shapeCasts_S256_S256x1 (ix2 r z) = _
  rw [laneSum_apply]
  exact Finset.sum_congr rfl fun l _ => pay14_apply v19 w r l
theorem pay18_apply (v19 : FVec Ideal S256x512 .bf16) (acc s4 : FVec Ideal S256x1 .f32) (w : Vec Ideal S512x512 .f32)
    (r : Fin 256) (z : Fin 1) :
    k0_pay18 (F := Ideal) v19 acc s4 w (ix2 r z) = acc (ix2 r z) + s4 (ix2 r z) + expDotSum v19 w r := by
  unfold k0_pay18
  show acc (ix2 r z) + s4 (ix2 r z) + shapeCast S256x1 _ shapeCasts_S256_S256x1 (ix2 r z) = _
  rw [laneSum_apply]
  exact congrArg (acc (ix2 r z) + s4 (ix2 r z) + ·) (Finset.sum_congr rfl fun l _ => pay17_apply v19 w r l)
theorem pay23_apply (v19 : FVec Ideal S256x512 .bf16) (acc : FVec Ideal S256x1 .f32) (w6 w7 : Vec Ideal S512x512 .f32)
    (r : Fin 256) (z : Fin 1) :
    k0_pay23 (F := Ideal) v19 acc w6 w7 (ix2 r z) = acc (ix2 r z) + expDotSum v19 w6 r + expDotSum v19 w7 r := by
  unfold k0_pay23
  show acc (ix2 r z) + shapeCast S256x1 _ shapeCasts_S256_S256x1 (ix2 r z)
    + shapeCast S256x1 _ shapeCasts_S256_S256x1 (ix2 r z) = _
  rw [laneSum_apply, laneSum_apply]
  have e6 : ∑ l : Fin 512, k0_pay20 (F := Ideal) v19 w6 (ix2 r l) = expDotSum v19 w6 r :=
    Finset.sum_congr rfl fun l _ => pay20_apply v19 w6 r l
  have e7 : ∑ l : Fin 512, k0_pay22 (F := Ideal) v19 w7 (ix2 r l) = expDotSum v19 w7 r :=
    Finset.sum_congr rfl fun l _ => pay22_apply v19 w7 r l
  rw [e6, e7]

/-- THE ACCUMULATED ROW SUM: the whole chain from the left factor and the eight loaded chunks, at (r, 0):
    from 0, chunk after chunk from the left. -/
theorem acc_chain (v17 : Vec Ideal S256x512 .f32) (w0 w1 w2 w3 w4 w5 w6 w7 : Vec Ideal S512x512 .f32)
    (r : Fin 256) (z : Fin 1) :
    k0_pay23 (F := Ideal) (k0_pay1 v17)
        (k0_pay18 (k0_pay1 v17)
          (k0_pay12 (k0_pay1 v17) (k0_pay9 (k0_pay1 v17) (k0_pay6 (k0_pay1 v17) (k0_pay3 v17 w0) w1) w2) w3)
          (k0_pay15 (k0_pay1 v17) w4) w5)
        w6 w7 (ix2 r z)
      = 0 + expDotSum v17 w0 r + expDotSum v17 w1 r + expDotSum v17 w2 r + expDotSum v17 w3 r
          + expDotSum v17 w4 r + expDotSum v17 w5 r + expDotSum v17 w6 r + expDotSum v17 w7 r := by
  rw [pay23_apply, pay18_apply, pay12_apply, pay9_apply, pay6_apply, pay3_apply, pay15_apply, pay1_eq]

/-- What is stored to the row-sum send buffer holds the accumulated row sums. -/
theorem pay26_apply (v196 : FVec Ideal S256x1 .f32) (i : S256x1.Idx) : k0_pay26 (F := Ideal) v196 i = v196 i := by
  unfold k0_pay26
  show shapeCast S256x1 (truncf .bf16 v196 bitsLt_bf16_f32) shapeCasts_S256x1_S256x1 i = _
  rw [shapeCast_self]; rfl
theorem pay26_eq (v196 : FVec Ideal S256x1 .f32) : k0_pay26 (F := Ideal) v196 = v196 := funext (pay26_apply v196)

/-! ## Through the device's block: when the loaded chunk q is the block's columns q · 512 + l -/

/-- With the left factor x and a loaded chunk that is chunk q of a block Wb, the exponentiated product is the
    exponential of the block's logit at the chunk's column. -/
theorem expDot_eq_blogit (x : SX.Idx → EReal) (Wb : SWb.Idx → EReal) (q : Fin 8) (w : S512x512.Idx → EReal)
    (hw : ∀ (k : Fin 512) (l : Fin 512), w (ix2 k l) = Wb (ix2 k (chunkCol q l))) (r : Fin 256) (l : Fin 512) :
    expDot x w r l = Ideal.exp (blogit x Wb r (chunkCol q l)) := by
  unfold expDot blogit
  exact congrArg Ideal.exp (Finset.sum_congr rfl fun k _ => by rw [hw])

/-- … and its lane sum is the block's chunk sum. -/
theorem expDotSum_eq_chunkSum (x : SX.Idx → EReal) (Wb : SWb.Idx → EReal) (q : Fin 8) (w : S512x512.Idx → EReal)
    (hw : ∀ (k : Fin 512) (l : Fin 512), w (ix2 k l) = Wb (ix2 k (chunkCol q l))) (r : Fin 256) :
    expDotSum x w r = chunkSum x Wb r q := by
  unfold expDotSum chunkSum
  exact Finset.sum_congr rfl fun l _ => expDot_eq_blogit x Wb q w hw r l

end Cert.RowSoftmax.Pay

end
-- ==== Proof.PayloadOut.lean ====
/-
  The kernel's reciprocal and its sixteen output chunks, read at an index on the extended reals.

  The reciprocal is, at each row, 1 / (the device's own accumulated row sum + the received row sum);
  each output chunk is, at (r, l), a stored or received chunk's value at (0, r, l) times row r's
  reciprocal (a column broadcast along the chunk's 512 columns).
-/
import proofs.«900347_g7700000000000348_dist_arsfmx_v7x_xyz2x4x4_x_t256_d512_v4096_bf16_1_alg».proof.Proof.Payload

noncomputable section

open scoped BigOperators

namespace Cert.RowSoftmax.Pay

open Cert.KernelIdeal Cert.KernelIdeal.Gen Cert.RowSoftmax
open Idealize.ShloMosaic Idealize.ShloMosaic.ValueIdx

/-- The reciprocal at an index: the literal one divided by (own row sum + received row sum). -/
theorem pay27_apply (v196 : FVec Ideal S256x1 .f32) (v245 : Vec Ideal S256x1 .bf16) (i : S256x1.Idx) :
    k0_pay27 (F := Ideal) v196 v245 i = Ideal.div one (v196 i + v245 i) := rfl

/-- A column broadcast along 512 columns reads, at (r, l), the column's row r. -/
theorem colBcast_apply (v : FVec Ideal S256x1 .f32) (r : Fin 256) (l : Fin 512) :
    broadcastTo S256x512 v broadcasts_S256x1_S256x512 (ix2 r l) = v (ix2 r (0 : Fin 1)) := by
  refine broadcastTo_apply v broadcasts_S256x1_S256x512 (ix2 r l) (ix2 r (0 : Fin 1)) fun ax => ?_
  match ax with
  | ⟨0, _⟩ => show r.val = if (256 : Nat) = 1 then 0 else r.val; rw [if_neg (by decide)]
  | ⟨1, _⟩ => show 0 = if (1 : Nat) = 1 then 0 else l.val; rw [if_pos rfl]

/-- The pattern of an output chunk computed from a loaded [1, 256, 512] chunk: its value times the row's
    reciprocal. -/
theorem scaleLoaded_apply (v249 : FVec Ideal S256x1 .f32) (c : Vec Ideal S1x256x512 .bf16) (r : Fin 256) (l : Fin 512) :
    truncf .bf16 (mulf (extf .f32 (shapeCast S256x512 c shapeCasts_S1x256x512_S256x512 : FVec Ideal S256x512 .bf16) bitsLt_bf16_f32)
        (broadcastTo S256x512 v249 broadcasts_S256x1_S256x512)) bitsLt_bf16_f32 (ix2 r l)
      = c (ix3 (0 : Fin 1) r l) * v249 (ix2 r (0 : Fin 1)) := by
  show shapeCast S256x512 c shapeCasts_S1x256x512_S256x512 (ix2 r l)
    * broadcastTo S256x512 v249 broadcasts_S256x1_S256x512 (ix2 r l) = _
  rw [shapeCast_1ab_ab_apply, colBcast_apply]

/-- The same from an already squeezed [256, 512] chunk. -/
theorem scaleSqueezed_apply (v249 : FVec Ideal S256x1 .f32) (c : FVec Ideal S256x512 .bf16) (r : Fin 256) (l : Fin 512) :
    truncf .bf16 (mulf (extf .f32 c bitsLt_bf16_f32) (broadcastTo S256x512 v249 broadcasts_S256x1_S256x512))
        bitsLt_bf16_f32 (ix2 r l)
      = c (ix2 r l) * v249 (ix2 r (0 : Fin 1)) := by
  show c (ix2 r l) * broadcastTo S256x512 v249 broadcasts_S256x1_S256x512 (ix2 r l) = _
  rw [colBcast_apply]

/-- Dropping the leading unit axis of a loaded chunk. -/
theorem squeeze_apply (c : Vec Ideal S1x256x512 .bf16) (r : Fin 256) (l : Fin 512) :
    (shapeCast S256x512 c shapeCasts_S1x256x512_S256x512 : FVec Ideal S256x512 .bf16) (ix2 r l) = c (ix3 (0 : Fin 1) r l) :=
  shapeCast_1ab_ab_apply c shapeCasts_S1x256x512_S256x512 r l

theorem pay28_apply (v196 : FVec Ideal S256x1 .f32) (v245 : Vec Ideal S256x1 .bf16) (c : Vec Ideal S1x256x512 .bf16)
    (r : Fin 256) (l : Fin 512) :
    k0_pay28 (F := Ideal) v196 v245 c (ix2 r l)
      = c (ix3 (0 : Fin 1) r l) * Ideal.div one (v196 (ix2 r (0 : Fin 1)) + v245 (ix2 r (0 : Fin 1))) := by
  unfold k0_pay28; exact scaleLoaded_apply (k0_pay27 v196 v245) c r l
theorem pay29_apply (c : Vec Ideal S1x256x512 .bf16) (r : Fin 256) (l : Fin 512) :
    k0_pay29 (F := Ideal) c (ix2 r l) = c (ix3 (0 : Fin 1) r l) := by
  unfold k0_pay29; exact squeeze_apply c r l
theorem pay30_apply (v249 : FVec Ideal S256x1 .f32) (c : FVec Ideal S256x512 .bf16) (r : Fin 256) (l : Fin 512) :
    k0_pay30 (F := Ideal) v249 c (ix2 r l) = c (ix2 r l) * v249 (ix2 r (0 : Fin 1)) := by
  unfold k0_pay30; exact scaleSqueezed_apply v249 c r l
theorem pay31_apply (v249 : FVec Ideal S256x1 .f32) (c : Vec Ideal S1x256x512 .bf16) (r : Fin 256) (l : Fin 512) :
    k0_pay31 (F := Ideal) v249 c (ix2 r l) = c (ix3 (0 : Fin 1) r l) * v249 (ix2 r (0 : Fin 1)) := by
  unfold k0_pay31; exact scaleLoaded_apply v249 c r l
theorem pay32_apply (v249 : FVec Ideal S256x1 .f32) (c : Vec Ideal S1x256x512 .bf16) (r : Fin 256) (l : Fin 512) :
    k0_pay32 (F := Ideal) v249 c (ix2 r l) = c (ix3 (0 : Fin 1) r l) * v249 (ix2 r (0 : Fin 1)) := by
  unfold k0_pay32; exact scaleLoaded_apply v249 c r l
theorem pay33_apply (v249 : FVec Ideal S256x1 .f32) (c : Vec Ideal S1x256x512 .bf16) (r : Fin 256) (l : Fin 512) :
    k0_pay33 (F := Ideal) v249 c (ix2 r l) = c (ix3 (0 : Fin 1) r l) * v249 (ix2 r (0 : Fin 1)) := by
  unfold k0_pay33; exact scaleLoaded_apply v249 c r l
theorem pay34_apply (c : Vec Ideal S1x256x512 .bf16) (r : Fin 256) (l : Fin 512) :
    k0_pay34 (F := Ideal) c (ix2 r l) = c (ix3 (0 : Fin 1) r l) := by
  unfold k0_pay34; exact squeeze_apply c r l
theorem pay35_apply (v249 : FVec Ideal S256x1 .f32) (c : FVec Ideal S256x512 .bf16) (r : Fin 256) (l : Fin 512) :
    k0_pay35 (F := Ideal) v249 c (ix2 r l) = c (ix2 r l) * v249 (ix2 r (0 : Fin 1)) := by
  unfold k0_pay35; exact scaleSqueezed_apply v249 c r l
theorem pay36_apply (v249 : FVec Ideal S256x1 .f32) (c : Vec Ideal S1x256x512 .bf16) (r : Fin 256) (l : Fin 512) :
    k0_pay36 (F := Ideal) v249 c (ix2 r l) = c (ix3 (0 : Fin 1) r l) * v249 (ix2 r (0 : Fin 1)) := by
  unfold k0_pay36; exact scaleLoaded_apply v249 c r l
theorem pay37_apply (v249 : FVec Ideal S256x1 .f32) (c : Vec Ideal S1x256x512 .bf16) (r : Fin 256) (l : Fin 512) :
    k0_pay37 (F := Ideal) v249 c (ix2 r l) = c (ix3 (0 : Fin 1) r l) * v249 (ix2 r (0 : Fin 1)) := by
  unfold k0_pay37; exact scaleLoaded_apply v249 c r l
theorem pay38_apply (v249 : FVec Ideal S256x1 .f32) (c : Vec Ideal S1x256x512 .bf16) (r : Fin 256) (l : Fin 512) :
    k0_pay38 (F := Ideal) v249 c (ix2 r l) = c (ix3 (0 : Fin 1) r l) * v249 (ix2 r (0 : Fin 1)) := by
  unfold k0_pay38; exact scaleLoaded_apply v249 c r l
theorem pay39_apply (v249 : FVec Ideal S256x1 .f32) (c : Vec Ideal S1x256x512 .bf16) (r : Fin 256) (l : Fin 512) :
    k0_pay39 (F := Ideal) v249 c (ix2 r l) = c (ix3 (0 : Fin 1) r l) * v249 (ix2 r (0 : Fin 1)) := by
  unfold k0_pay39; exact scaleLoaded_apply v249 c r l
theorem pay40_apply (v249 : FVec Ideal S256x1 .f32) (c : Vec Ideal S1x256x512 .bf16) (r : Fin 256) (l : Fin 512) :
    k0_pay40 (F := Ideal) v249 c (ix2 r l) = c (ix3 (0 : Fin 1) r l) * v249 (ix2 r (0 : Fin 1)) := by
  unfold k0_pay40; exact scaleLoaded_apply v249 c r l
theorem pay41_apply (v249 : FVec Ideal S256x1 .f32) (c : Vec Ideal S1x256x512 .bf16) (r : Fin 256) (l : Fin 512) :
    k0_pay41 (F := Ideal) v249 c (ix2 r l) = c (ix3 (0 : Fin 1) r l) * v249 (ix2 r (0 : Fin 1)) := by
  unfold k0_pay41; exact scaleLoaded_apply v249 c r l
theorem pay42_apply (v249 : FVec Ideal S256x1 .f32) (c : Vec Ideal S1x256x512 .bf16) (r : Fin 256) (l : Fin 512) :
    k0_pay42 (F := Ideal) v249 c (ix2 r l) = c (ix3 (0 : Fin 1) r l) * v249 (ix2 r (0 : Fin 1)) := by
  unfold k0_pay42; exact scaleLoaded_apply v249 c r l
theorem pay43_apply (v249 : FVec Ideal S256x1 .f32) (c : Vec Ideal S1x256x512 .bf16) (r : Fin 256) (l : Fin 512) :
    k0_pay43 (F := Ideal) v249 c (ix2 r l) = c (ix3 (0 : Fin 1) r l) * v249 (ix2 r (0 : Fin 1)) := by
  unfold k0_pay43; exact scaleLoaded_apply v249 c r l
theorem pay44_apply (v249 : FVec Ideal S256x1 .f32) (c : Vec Ideal S1x256x512 .bf16) (r : Fin 256) (l : Fin 512) :
    k0_pay44 (F := Ideal) v249 c (ix2 r l) = c (ix3 (0 : Fin 1) r l) * v249 (ix2 r (0 : Fin 1)) := by
  unfold k0_pay44; exact scaleLoaded_apply v249 c r l
theorem pay45_apply (v249 : FVec Ideal S256x1 .f32) (c : Vec Ideal S1x256x512 .bf16) (r : Fin 256) (l : Fin 512) :
    k0_pay45 (F := Ideal) v249 c (ix2 r l) = c (ix3 (0 : Fin 1) r l) * v249 (ix2 r (0 : Fin 1)) := by
  unfold k0_pay45; exact scaleLoaded_apply v249 c r l

end Cert.RowSoftmax.Pay

end
-- ==== Proof.PayloadBlock.lean ====
/-
  The kernel's values joined to the specification, for one device.

  When the eight loaded chunks are the eight 512-column chunks of the device's block, the device's
  accumulated row sum is the block's accumulated row sum (acc8); and an exponentiated block logit times
  the reciprocal of (one block's accumulated row sum + the other block's) is the specification's entry at
  that block's column.
-/
import proofs.«900347_g7700000000000348_dist_arsfmx_v7x_xyz2x4x4_x_t256_d512_v4096_bf16_1_alg».proof.Proof.PayloadOut

noncomputable section

open scoped BigOperators

namespace Cert.RowSoftmax.Pay

open Cert.KernelIdeal Cert.KernelIdeal.Gen Cert.RowSoftmax
open Idealize.ShloMosaic Idealize.ShloMosaic.ValueIdx

/-- The accumulated row sum over the eight chunks of a block Wb is acc8 of that block. -/
theorem acc_chain_acc8 (x : Vec Ideal S256x512 .f32) (Wb : SWb.Idx → EReal)
    (w0 w1 w2 w3 w4 w5 w6 w7 : Vec Ideal S512x512 .f32)
    (h0 : ∀ (k : Fin 512) (l : Fin 512), w0 (ix2 k l) = Wb (ix2 k (chunkCol 0 l)))
    (h1 : ∀ (k : Fin 512) (l : Fin 512), w1 (ix2 k l) = Wb (ix2 k (chunkCol 1 l)))
    (h2 : ∀ (k : Fin 512) (l : Fin 512), w2 (ix2 k l) = Wb (ix2 k (chunkCol 2 l)))
    (h3 : ∀ (k : Fin 512) (l : Fin 512), w3 (ix2 k l) = Wb (ix2 k (chunkCol 3 l)))
    (h4 : ∀ (k : Fin 512) (l : Fin 512), w4 (ix2 k l) = Wb (ix2 k (chunkCol 4 l)))
    (h5 : ∀ (k : Fin 512) (l : Fin 512), w5 (ix2 k l) = Wb (ix2 k (chunkCol 5 l)))
    (h6 : ∀ (k : Fin 512) (l : Fin 512), w6 (ix2 k l) = Wb (ix2 k (chunkCol 6 l)))
    (h7 : ∀ (k : Fin 512) (l : Fin 512), w7 (ix2 k l) = Wb (ix2 k (chunkCol 7 l)))
    (r : Fin 256) (z : Fin 1) :
    k0_pay23 (F := Ideal) (k0_pay1 x)
        (k0_pay18 (k0_pay1 x)
          (k0_pay12 (k0_pay1 x) (k0_pay9 (k0_pay1 x) (k0_pay6 (k0_pay1 x) (k0_pay3 x w0) w1) w2) w3)
          (k0_pay15 (k0_pay1 x) w4) w5)
        w6 w7 (ix2 r z)
      = acc8 x Wb r := by
  rw [acc_chain, expDotSum_eq_chunkSum x Wb 0 w0 h0, expDotSum_eq_chunkSum x Wb 1 w1 h1,
    expDotSum_eq_chunkSum x Wb 2 w2 h2, expDotSum_eq_chunkSum x Wb 3 w3 h3, expDotSum_eq_chunkSum x Wb 4 w4 h4,
    expDotSum_eq_chunkSum x Wb 5 w5 h5, expDotSum_eq_chunkSum x Wb 6 w6 h6, expDotSum_eq_chunkSum x Wb 7 w7 h7]
  rfl

/-- AN OUTPUT ENTRY IS THE SPECIFICATION'S: a value e that is the exponentiated logit over device c0's block
    at column j, times the reciprocal of (S + S') with S, S' the accumulated row sums of two devices holding
    different blocks, is G at row r and column j of c0's block. -/
theorem entry_eq_G (x : SX.Idx → EReal) (W : SW.Idx → EReal) (c0 c c' : Fin 32) (hcc : devCol c ≠ devCol c')
    (r : Fin 256) (j : Fin 4096) (e S S' : EReal)
    (he : e = Ideal.exp (blogit x (devBlock c0 W) r j))
    (hS : S = acc8 x (devBlock c W) r) (hS' : S' = acc8 x (devBlock c' W) r) :
    e * Ideal.div one (S + S') = G x W (ix2 r (col (devCol c0) j)) := by
  rw [he, hS, hS']; exact (G_devBlock_acc8 x W c0 c c' hcc r j).symm

end Cert.RowSoftmax.Pay

end
-- ==== Proof.OutValue.lean ====
/-
  The result's staging buffer holds the specification.

  On device c, with x the activations, Wc the device's block and Wp its partner's block of the whole W:
  every one of the sixteen stored pieces is, at (r, l), an exponentiated block logit — the device's own
  chunk q, or the partner's chunk q as received — times the reciprocal of (the device's accumulated row
  sum + the partner's); that is the specification's entry at row r and the column the piece's rectangle
  puts l at.  The pieces cover the buffer, so it holds the specification everywhere.
-/
import proofs.«900347_g7700000000000348_dist_arsfmx_v7x_xyz2x4x4_x_t256_d512_v4096_bf16_1_alg».proof.Proof.OutLoads
import proofs.«900347_g7700000000000348_dist_arsfmx_v7x_xyz2x4x4_x_t256_d512_v4096_bf16_1_alg».proof.Proof.HeldOf
import proofs.«900347_g7700000000000348_dist_arsfmx_v7x_xyz2x4x4_x_t256_d512_v4096_bf16_1_alg».proof.Proof.PayloadBlock

noncomputable section

open scoped BigOperators

namespace Cert.KernelIdeal.Dist

open Cert.KernelIdeal Cert.KernelIdeal.Gen
open Idealize.ShloMosaic
open Idealize.ShloMosaic.TcCoe
open Idealize.ShloMosaic.ValueIdx
open Cert.RowSoftmax (chunkCol col devCol devBlock blogit acc8 G SW SWb SX devCol_ne_iff)
open Cert.RowSoftmax

/-! ## The stored chunks, the row sums and the reciprocal, as the specification's terms -/

theorem xb_eq (x : CX Ideal) : (xb x : S256x512.Idx → EReal) = x := by
  unfold xb; rw [Pay.pay1_eq, xL_eq]

theorem E0_val (x : CX Ideal) (w : CW Ideal) (u : Fin 1) (r : Fin 256) (l : Fin 512) :
    E0 x w (ix3 u r l) = Ideal.exp (blogit x w r (chunkCol 0 l)) := by
  unfold E0
  rw [Pay.pay4_apply, xL_eq]
  exact Pay.expDot_eq_blogit x w 0 (wL0 w) (wL0_apply w) r l
theorem E1_val (x : CX Ideal) (w : CW Ideal) (u : Fin 1) (r : Fin 256) (l : Fin 512) :
    E1 x w (ix3 u r l) = Ideal.exp (blogit x w r (chunkCol 1 l)) := by
  unfold E1
  rw [Pay.pay7_apply, xb_eq]
  exact Pay.expDot_eq_blogit x w 1 (wL1 w) (wL1_apply w) r l
theorem E2_val (x : CX Ideal) (w : CW Ideal) (u : Fin 1) (r : Fin 256) (l : Fin 512) :
    E2 x w (ix3 u r l) = Ideal.exp (blogit x w r (chunkCol 2 l)) := by
  unfold E2
  rw [Pay.pay10_apply, xb_eq]
  exact Pay.expDot_eq_blogit x w 2 (wL2 w) (wL2_apply w) r l
theorem E3_val (x : CX Ideal) (w : CW Ideal) (u : Fin 1) (r : Fin 256) (l : Fin 512) :
    E3 x w (ix3 u r l) = Ideal.exp (blogit x w r (chunkCol 3 l)) := by
  unfold E3
  rw [Pay.pay13_apply, xb_eq]
  exact Pay.expDot_eq_blogit x w 3 (wL3 w) (wL3_apply w) r l
theorem E4_val (x : CX Ideal) (w : CW Ideal) (u : Fin 1) (r : Fin 256) (l : Fin 512) :
    E4 x w (ix3 u r l) = Ideal.exp (blogit x w r (chunkCol 4 l)) := by
  unfold E4
  rw [Pay.pay16_apply, Pay.pay14_apply, xb_eq]
  exact Pay.expDot_eq_blogit x w 4 (wL4 w) (wL4_apply w) r l
theorem E5_val (x : CX Ideal) (w : CW Ideal) (u : Fin 1) (r : Fin 256) (l : Fin 512) :
    E5 x w (ix3 u r l) = Ideal.exp (blogit x w r (chunkCol 5 l)) := by
  unfold E5
  rw [Pay.pay19_apply, xb_eq]
  exact Pay.expDot_eq_blogit x w 5 (wL5 w) (wL5_apply w) r l
theorem E6_val (x : CX Ideal) (w : CW Ideal) (u : Fin 1) (r : Fin 256) (l : Fin 512) :
    E6 x w (ix3 u r l) = Ideal.exp (blogit x w r (chunkCol 6 l)) := by
  unfold E6
  rw [Pay.pay21_apply, xb_eq]
  exact Pay.expDot_eq_blogit x w 6 (wL6 w) (wL6_apply w) r l
theorem E7_val (x : CX Ideal) (w : CW Ideal) (u : Fin 1) (r : Fin 256) (l : Fin 512) :
    E7 x w (ix3 u r l) = Ideal.exp (blogit x w r (chunkCol 7 l)) := by
  unfold E7
  rw [Pay.pay25_apply, Pay.pay24_apply, xb_eq]
  exact Pay.expDot_eq_blogit x w 7 (wL7 w) (wL7_apply w) r l

theorem rowS_val (x : CX Ideal) (w : CW Ideal) (r : Fin 256) (z : Fin 1) : rowS x w (ix2 r z) = acc8 x w r := by
  unfold rowS xb
  rw [xL_eq]
  exact Pay.acc_chain_acc8 x w (wL0 w) (wL1 w) (wL2 w) (wL3 w) (wL4 w) (wL5 w) (wL6 w) (wL7 w)
    (wL0_apply w) (wL1_apply w) (wL2_apply w) (wL3_apply w) (wL4_apply w) (wL5_apply w) (wL6_apply w) (wL7_apply w) r z

theorem sent_val (g' : CS Ideal) (x : CX Ideal) (w : CW Ideal) (r : Fin 256) (z : Fin 1) :
    ssAll g' x w (ix2 r z) = acc8 x w r := by
  rw [ssAll_eq]; unfold rowSent; rw [Pay.pay26_apply, rowS_val]

theorem recip_val (x : CX Ideal) (w : CW Ideal) (sr : CT Ideal) (r : Fin 256) (z : Fin 1) :
    recip x w sr (ix2 r z) = Ideal.div one (acc8 x w r + sr (ix2 r z)) := by
  unfold recip; rw [Pay.pay27_apply, rowS_val, srL_eq]

/-- A device and its partner hold different column blocks. -/
theorem devCol_peer : ∀ c : Dev nD, devCol c ≠ devCol (peer c) := by decide

/-! ## Where a piece's rectangle puts its index -/

theorem own_emb (c : Dev nD) (q : Fin 8)
    (inb : ∀ a, (k0_off1 c (BitVec.ofNat 32 (512 * q.val))) a + S256x512.size a ≤ S256x8192.size a) (r : Fin 256) (l : Fin 512) :
    (Rect.unit (s := S256x8192) (k0_off1 c (BitVec.ofNat 32 (512 * q.val))) S256x512.size inb).emb (ix2 r l)
      = ix2 r (col (devCol c) (chunkCol q l)) := by
  have hc : c.val < 32 := c.isLt
  have hq : q.val < 8 := q.isLt
  funext a
  refine Fin.ext ?_
  match a with
  | ⟨0, _⟩ =>
    show (k0_off1 c (BitVec.ofNat 32 (512 * q.val))) 0 + 1 * r.val = r.val
    rw [k0_off1_eq c q]
    show 0 + 1 * r.val = r.val
    omega
  | ⟨1, _⟩ =>
    show (k0_off1 c (BitVec.ofNat 32 (512 * q.val))) 1 + 1 * l.val = c.val / 16 * 4096 + (q.val * 512 + l.val)
    rw [k0_off1_eq c q]
    show 4096 * (c.val / 16) + 512 * q.val + 1 * l.val = c.val / 16 * 4096 + (q.val * 512 + l.val)
    omega

theorem other_emb (c : Dev nD) (q : Fin 8)
    (inb : ∀ a, (k0_off2 c (BitVec.ofNat 32 (512 * q.val))) a + S256x512.size a ≤ S256x8192.size a) (r : Fin 256) (l : Fin 512) :
    (Rect.unit (s := S256x8192) (k0_off2 c (BitVec.ofNat 32 (512 * q.val))) S256x512.size inb).emb (ix2 r l)
      = ix2 r (col (devCol (peer c)) (chunkCol q l)) := by
  have hc : c.val < 32 := c.isLt
  have hq : q.val < 8 := q.isLt
  funext a
  refine Fin.ext ?_
  match a with
  | ⟨0, _⟩ =>
    show (k0_off2 c (BitVec.ofNat 32 (512 * q.val))) 0 + 1 * r.val = r.val
    rw [k0_off2_eq c q]
    show 0 + 1 * r.val = r.val
    omega
  | ⟨1, _⟩ =>
    show (k0_off2 c (BitVec.ofNat 32 (512 * q.val))) 1 + 1 * l.val = (c.val + 16) % 32 / 16 * 4096 + (q.val * 512 + l.val)
    rw [k0_off2_eq c q]
    show (512 * q.val + 4096) - 4096 * (c.val / 16) + 1 * l.val = (c.val + 16) % 32 / 16 * 4096 + (q.val * 512 + l.val)
    omega

/-! ## One piece's entry -/

section Piece
variable (x : CX Ideal) (Wc Wp : CW Ideal) (W : SW.Idx → EReal) (c : Dev nD) (g' : CS Ideal)
  (hWc : (Wc : SWb.Idx → EReal) = devBlock c W) (hWp : (Wp : SWb.Idx → EReal) = devBlock (peer c) W)

include hWc hWp in
/-- An own chunk's value times the reciprocal is the specification at the own half's column. -/
theorem own_piece (q : Fin 8)
    (inb : ∀ a, (k0_off1 c (BitVec.ofNat 32 (512 * q.val))) a + S256x512.size a ≤ S256x8192.size a)
    (e : EReal) (r : Fin 256) (l : Fin 512) (he : e = Ideal.exp (blogit x Wc r (chunkCol q l))) :
    e * recip x Wc (ssAll g' x Wp) (ix2 r (0 : Fin 1))
      = G x W ((Rect.unit (s := S256x8192) (k0_off1 c (BitVec.ofNat 32 (512 * q.val))) S256x512.size inb).emb (ix2 r l)) := by
  rw [own_emb, recip_val, sent_val]
  exact Pay.entry_eq_G x W c c (peer c) (devCol_peer c) r (chunkCol q l) e _ _ (by rw [he, hWc]) (by rw [hWc]) (by rw [hWp])

include hWc hWp in
/-- A received chunk's value times the reciprocal is the specification at the other half's column. -/
theorem other_piece (q : Fin 8)
    (inb : ∀ a, (k0_off2 c (BitVec.ofNat 32 (512 * q.val))) a + S256x512.size a ≤ S256x8192.size a)
    (e : EReal) (r : Fin 256) (l : Fin 512) (he : e = Ideal.exp (blogit x Wp r (chunkCol q l))) :
    e * recip x Wc (ssAll g' x Wp) (ix2 r (0 : Fin 1))
      = G x W ((Rect.unit (s := S256x8192) (k0_off2 c (BitVec.ofNat 32 (512 * q.val))) S256x512.size inb).emb (ix2 r l)) := by
  rw [other_emb, recip_val, sent_val]
  exact Pay.entry_eq_G x W (peer c) c (peer c) (devCol_peer c) r (chunkCol q l) e _ _ (by rw [he, hWp]) (by rw [hWc]) (by rw [hWp])

end Piece

/-! ## The sixteen pieces -/

theorem pieces_ok (x : CX Ideal) (Wc Wp : CW Ideal) (W : SW.Idx → EReal) (c : Dev nD) (g : CB Ideal) (g' : CS Ideal)
    (hWc : (Wc : SWb.Idx → EReal) = devBlock c W) (hWp : (Wp : SWb.Idx → EReal) = devBlock (peer c) W) :
    ∀ p ∈ outPieces c x Wc (sbAll g x Wp) (ssAll g' x Wp), ∀ x' : p.1.shape.Idx,
      p.2 x' = (G x W : S256x8192.Idx → EReal) (p.1.emb x') := by
  unfold outPieces
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => nomatch h⟩⟩⟩⟩⟩⟩⟩⟩⟩⟩⟩⟩⟩⟩⟩⟩
  · intro x'
    obtain ⟨r, l, rfl⟩ : ∃ (r : Fin 256) (l : Fin 512), x' = ix2 r l := ⟨x' 0, x' 1, eq_ix2 x'⟩
    dsimp only
    rw [Pay.pay45_apply]
    exact other_piece x Wc Wp W c g' hWc hWp 7 _ _ r l (by rw [rbL7_apply, sbAll_chunk7, E7_val])
  · intro x'
    obtain ⟨r, l, rfl⟩ : ∃ (r : Fin 256) (l : Fin 512), x' = ix2 r l := ⟨x' 0, x' 1, eq_ix2 x'⟩
    dsimp only
    rw [Pay.pay44_apply]
    exact other_piece x Wc Wp W c g' hWc hWp 6 _ _ r l (by rw [rbL6_apply, sbAll_chunk6, E6_val])
  · intro x'
    obtain ⟨r, l, rfl⟩ : ∃ (r : Fin 256) (l : Fin 512), x' = ix2 r l := ⟨x' 0, x' 1, eq_ix2 x'⟩
    dsimp only
    rw [Pay.pay43_apply]
    exact other_piece x Wc Wp W c g' hWc hWp 5 _ _ r l (by rw [rbL5_apply, sbAll_chunk5, E5_val])
  · intro x'
    obtain ⟨r, l, rfl⟩ : ∃ (r : Fin 256) (l : Fin 512), x' = ix2 r l := ⟨x' 0, x' 1, eq_ix2 x'⟩
    dsimp only
    rw [Pay.pay42_apply]
    exact other_piece x Wc Wp W c g' hWc hWp 4 _ _ r l (by rw [rbL4_apply, sbAll_chunk4, E4_val])
  · intro x'
    obtain ⟨r, l, rfl⟩ : ∃ (r : Fin 256) (l : Fin 512), x' = ix2 r l := ⟨x' 0, x' 1, eq_ix2 x'⟩
    dsimp only
    rw [Pay.pay41_apply]
    exact other_piece x Wc Wp W c g' hWc hWp 3 _ _ r l (by rw [rbL3_apply, sbAll_chunk3, E3_val])
  · intro x'
    obtain ⟨r, l, rfl⟩ : ∃ (r : Fin 256) (l : Fin 512), x' = ix2 r l := ⟨x' 0, x' 1, eq_ix2 x'⟩
    dsimp only
    rw [Pay.pay40_apply]
    exact other_piece x Wc Wp W c g' hWc hWp 2 _ _ r l (by rw [rbL2_apply, sbAll_chunk2, E2_val])
  · intro x'
    obtain ⟨r, l, rfl⟩ : ∃ (r : Fin 256) (l : Fin 512), x' = ix2 r l := ⟨x' 0, x' 1, eq_ix2 x'⟩
    dsimp only
    rw [Pay.pay39_apply]
    exact other_piece x Wc Wp W c g' hWc hWp 1 _ _ r l (by rw [rbL1_apply, sbAll_chunk1, E1_val])
  · intro x'
    obtain ⟨r, l, rfl⟩ : ∃ (r : Fin 256) (l : Fin 512), x' = ix2 r l := ⟨x' 0, x' 1, eq_ix2 x'⟩
    dsimp only
    rw [Pay.pay38_apply]
    exact other_piece x Wc Wp W c g' hWc hWp 0 _ _ r l (by rw [rbL0_apply, sbAll_chunk0, E0_val])
  · intro x'
    obtain ⟨r, l, rfl⟩ : ∃ (r : Fin 256) (l : Fin 512), x' = ix2 r l := ⟨x' 0, x' 1, eq_ix2 x'⟩
    dsimp only
    rw [Pay.pay37_apply]
    exact own_piece x Wc Wp W c g' hWc hWp 7 _ _ r l (E7_val x Wc 0 r l)
  · intro x'
    obtain ⟨r, l, rfl⟩ : ∃ (r : Fin 256) (l : Fin 512), x' = ix2 r l := ⟨x' 0, x' 1, eq_ix2 x'⟩
    dsimp only
    rw [Pay.pay36_apply]
    exact own_piece x Wc Wp W c g' hWc hWp 6 _ _ r l (E6_val x Wc 0 r l)
  · intro x'
    obtain ⟨r, l, rfl⟩ : ∃ (r : Fin 256) (l : Fin 512), x' = ix2 r l := ⟨x' 0, x' 1, eq_ix2 x'⟩
    dsimp only
    rw [Pay.pay35_apply, Pay.pay34_apply]
    exact own_piece x Wc Wp W c g' hWc hWp 5 _ _ r l (E5_val x Wc 0 r l)
  · intro x'
    obtain ⟨r, l, rfl⟩ : ∃ (r : Fin 256) (l : Fin 512), x' = ix2 r l := ⟨x' 0, x' 1, eq_ix2 x'⟩
    dsimp only
    rw [Pay.pay33_apply]
    exact own_piece x Wc Wp W c g' hWc hWp 4 _ _ r l (E4_val x Wc 0 r l)
  · intro x'
    obtain ⟨r, l, rfl⟩ : ∃ (r : Fin 256) (l : Fin 512), x' = ix2 r l := ⟨x' 0, x' 1, eq_ix2 x'⟩
    dsimp only
    rw [Pay.pay32_apply]
    exact own_piece x Wc Wp W c g' hWc hWp 3 _ _ r l (E3_val x Wc 0 r l)
  · intro x'
    obtain ⟨r, l, rfl⟩ : ∃ (r : Fin 256) (l : Fin 512), x' = ix2 r l := ⟨x' 0, x' 1, eq_ix2 x'⟩
    dsimp only
    rw [Pay.pay31_apply]
    exact own_piece x Wc Wp W c g' hWc hWp 2 _ _ r l (E2_val x Wc 0 r l)
  · intro x'
    obtain ⟨r, l, rfl⟩ : ∃ (r : Fin 256) (l : Fin 512), x' = ix2 r l := ⟨x' 0, x' 1, eq_ix2 x'⟩
    dsimp only
    rw [Pay.pay30_apply, Pay.pay29_apply]
    exact own_piece x Wc Wp W c g' hWc hWp 1 _ _ r l (E1_val x Wc 0 r l)
  · intro x'
    obtain ⟨r, l, rfl⟩ : ∃ (r : Fin 256) (l : Fin 512), x' = ix2 r l := ⟨x' 0, x' 1, eq_ix2 x'⟩
    dsimp only
    rw [Pay.pay28_apply, ← Pay.pay27_apply]
    exact own_piece x Wc Wp W c g' hWc hWp 0 _ _ r l (E0_val x Wc 0 r l)

/-- THE RESULT'S STAGING BUFFER HOLDS THE SPECIFICATION. -/
theorem out_eq_G (f : CO Ideal) (x : CX Ideal) (Wc Wp : CW Ideal) (W : SW.Idx → EReal) (c : Dev nD) (g : CB Ideal) (g' : CS Ideal)
    (hWc : (Wc : SWb.Idx → EReal) = devBlock c W) (hWp : (Wp : SWb.Idx → EReal) = devBlock (peer c) W) :
    (outAll f c x Wc (sbAll g x Wp) (ssAll g' x Wp) : S256x8192.Idx → EReal) = G x W := by
  funext y
  unfold outAll
  have key := View.read_writes_apply_of_pieces (View.whole cc0_stg2_0) f (G x W : S256x8192.Idx → EReal)
    (outPieces c x Wc (sbAll g x Wp) (ssAll g' x Wp)) (pieces_ok x Wc Wp W c g g' hWc hWp) y
    (out_cover c x Wc (sbAll g x Wp) (ssAll g' x Wp) y)
  rw [View.read_whole] at key
  exact key

/-- The same for the buffers' own filler contents and the two devices' blocks of one whole W: the form the
    certificate's assembly uses. -/
theorem outValue (X : SX.Idx → EReal) (W : SW.Idx → EReal) (hX : ∀ i, ∃ a : ℝ, X i = (a : EReal))
    (hW : ∀ i, ∃ a : ℝ, W i = (a : EReal)) (c : Dev nD) :
    outAll (F := Ideal) fillO c X (devBlock c W) (sbAll fillB X (devBlock (peer c) W)) (ssAll fillS X (devBlock (peer c) W))
      = Cert.RowSoftmax.G X W :=
  out_eq_G fillO X (devBlock c W) (devBlock (peer c) W) W c fillB fillS rfl rfl

end Cert.KernelIdeal.Dist

end
-- ==== Proof.Bits.Proto.lean ====
/-
  A two-device exchange, repeated on sixteen disjoint pairs of a mesh of thirty-two: device `c` and its partner
  `peer c` (the device whose first mesh coordinate is flipped: `c ± 16`) each compute eight column chunks of
  `exp (x · W_c)` and the row sums of all of them, send every chunk and the row sums to the partner, and divide
  both their own chunks and the received ones by the sum of the two row-sum vectors.

  This module fixes the vocabulary of that exchange: the partner map, the nineteen semaphore cells of a device
  (the entry handshake, eight send cells, eight receive cells, the row-sum send and receive cells), and the
  one-round schedule that says who pays which cell and what the payment hands the cell's owner.
-/
import proofs.«900347_g7700000000000348_dist_arsfmx_v7x_xyz2x4x4_x_t256_d512_v4096_bf16_1_alg».proof.Proof.Gen.Kernel
import proofs.«900347_g7700000000000348_dist_arsfmx_v7x_xyz2x4x4_x_t256_d512_v4096_bf16_1_alg».proof.Proof.Gen.Kernel.Skeleton
import proofs.«900347_g7700000000000348_dist_arsfmx_v7x_xyz2x4x4_x_t256_d512_v4096_bf16_1_alg».proof.Proof.Gen.Kernel.Launch
import proofs.«900347_g7700000000000348_dist_arsfmx_v7x_xyz2x4x4_x_t256_d512_v4096_bf16_1_alg».proof.Proof.Gen.Kernel.Points
import proofs.«900347_g7700000000000348_dist_arsfmx_v7x_xyz2x4x4_x_t256_d512_v4096_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside one for the exchange's cells (one duty a cell) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

/-- The partner of device `c`: the same second and third mesh coordinates, the first one flipped. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- Flipping the first coordinate is an involution of the mesh. -/
def flip : Dev nD ≃ Dev nD := ⟨peer, peer, peer_peer, peer_peer⟩

theorem dev_closed : ∀ c : Dev nD, (4 * ((c.val / 4) % 4) + (c.val % 4) + 16) - 16 * (c.val / 16) = (peer c).val := by decide

/-- Every device-id chain of the body names the partner. -/
theorem dev1_eq (c : Dev nD) : (⟨k0_dev1 c, k0_dev1_lt c⟩ : Dev nD) = peer c := Fin.ext ((k0_dev1_eq c).trans (dev_closed c))
theorem dev2_eq (c : Dev nD) : (⟨k0_dev2 c, k0_dev2_lt c⟩ : Dev nD) = peer c := Fin.ext ((k0_dev2_eq c).trans (dev_closed c))
theorem dev3_eq (c : Dev nD) : (⟨k0_dev3 c, k0_dev3_lt c⟩ : Dev nD) = peer c := Fin.ext ((k0_dev3_eq c).trans (dev_closed c))
theorem dev4_eq (c : Dev nD) : (⟨k0_dev4 c, k0_dev4_lt c⟩ : Dev nD) = peer c := Fin.ext ((k0_dev4_eq c).trans (dev_closed c))
theorem dev5_eq (c : Dev nD) : (⟨k0_dev5 c, k0_dev5_lt c⟩ : Dev nD) = peer c := Fin.ext ((k0_dev5_eq c).trans (dev_closed c))
theorem dev6_eq (c : Dev nD) : (⟨k0_dev6 c, k0_dev6_lt c⟩ : Dev nD) = peer c := Fin.ext ((k0_dev6_eq c).trans (dev_closed c))
theorem dev7_eq (c : Dev nD) : (⟨k0_dev7 c, k0_dev7_lt c⟩ : Dev nD) = peer c := Fin.ext ((k0_dev7_eq c).trans (dev_closed c))
theorem dev8_eq (c : Dev nD) : (⟨k0_dev8 c, k0_dev8_lt c⟩ : Dev nD) = peer c := Fin.ext ((k0_dev8_eq c).trans (dev_closed c))
theorem dev9_eq (c : Dev nD) : (⟨k0_dev9 c, k0_dev9_lt c⟩ : Dev nD) = peer c := Fin.ext ((k0_dev9_eq c).trans (dev_closed c))
theorem dev10_eq (c : Dev nD) : (⟨k0_dev10 c, k0_dev10_lt c⟩ : Dev nD) = peer c := Fin.ext ((k0_dev10_eq c).trans (dev_closed c))

/-! ## The buffers -/

abbrev xM : Memref sig .tc .vmem S256x512 .f32 := Memref.whole cc0_stg0_0
abbrev wM : Memref sig .tc .vmem S512x4096 .f32 := Memref.whole cc0_stg1_0
abbrev oM : Memref sig .tc .vmem S256x8192 .bf16 := Memref.whole cc0_stg2_0
/-- The eight chunks a device sends, -/
abbrev sbM : Memref sig .tc .vmem S8x256x512 .bf16 := Memref.whole cc0_scratch0
/-- the eight it receives, -/
abbrev rbM : Memref sig .tc .vmem S8x256x512 .bf16 := Memref.whole cc0_scratch1
/-- its own row sums as sent, and its partner's as received. -/
abbrev ssM : Memref sig .tc .vmem S256x1 .bf16 := Memref.whole cc0_scratch2
abbrev srM : Memref sig .tc .vmem S256x1 .bf16 := Memref.whole cc0_scratch3

theorem inbC : ∀ k : Fin 8, ∀ a, (![k.val, 0, 0] : Fin 3 → Nat) a + S1x256x512.size a ≤ S8x256x512.size a := by decide
theorem inbS : ∀ k : Fin 8, ∀ a, (![k.val] : Fin 1 → Nat) a + S1.size a ≤ S8.size a := by decide

/-- Chunk number `k` of a buffer of eight chunks, as the body's copies name it. -/
abbrev chunkN (M : Memref sig .tc .vmem S8x256x512 .bf16) (k : ℕ) (h : ∀ a, (![k, 0, 0] : Fin 3 → Nat) a + S1x256x512.size a ≤ S8x256x512.size a) :
    Memref sig .tc .vmem S256x512 .bf16 :=
  (M.slice (Rect.unit (s := S8x256x512) ![k, 0, 0] S1x256x512.size h) (fun _ => rfl)).squeeze S256x512 squeezes_S1x256x512_S256x512

/-- Chunk `k` of a buffer of eight chunks, as the body's copies name it. -/
abbrev chunk (M : Memref sig .tc .vmem S8x256x512 .bf16) (k : Fin 8) : Memref sig .tc .vmem S256x512 .bf16 :=
  (M.slice (Rect.unit (s := S8x256x512) ![k.val, 0, 0] S1x256x512.size (inbC k)) (fun _ => rfl)).squeeze S256x512 squeezes_S1x256x512_S256x512

/-! ## The cells -/

abbrev barS : Sem sig := (SemArray.scalar (sig.barrier 0 rfl) : Sems sig S_).sem
abbrev sendS (k : Fin 8) : DmaSem sig := ((cc0_scratch4.slice (Rect.unit (s := S8) ![k.val] S1.size (inbS k))).squeeze S_ squeezes_S1_S_).sem
abbrev recvS (k : Fin 8) : DmaSem sig := ((cc0_scratch5.slice (Rect.unit (s := S8) ![k.val] S1.size (inbS k))).squeeze S_ squeezes_S1_S_).sem
abbrev ssendS : DmaSem sig := cc0_scratch6.sem
abbrev srecvS : DmaSem sig := cc0_scratch7.sem

/-- What a cell is for. -/
inductive Kind where
  | bar | send (k : Fin 8) | recv (k : Fin 8) | ssend | srecv
  deriving DecidableEq

def Kind.sem : Kind → SemLoc sig
  | .bar => .reg barS | .send k => .dma (sendS k) | .recv k => .dma (recvS k) | .ssend => .dma ssendS | .srecv => .dma srecvS

def allKinds : List Kind := [.bar] ++ (List.finRange 8).map .send ++ (List.finRange 8).map .recv ++ [.ssend, .srecv]

/-- The kind of the cell on semaphore `s`, if the exchange uses `s` at all. -/
def kindOf (s : SemLoc sig) : Option Kind := allKinds.find? fun κ => κ.sem = s

theorem kindOf_sem : ∀ κ ∈ allKinds, kindOf κ.sem = some κ := by decide

abbrev cell (c : Dev nD) (κ : Kind) : GSem nD τ sig := ((c : Thread nD τ), κ.sem)

end Cert.Kernel.Dist

end
-- ==== Proof.Bits.Sched.lean ====
/-
  The one-round schedule of the exchange. Every cell has exactly one duty, in round 0:
  * a device's handshake cell is paid one unit by its partner's signal, which hands over the partner's eight
    receive chunks and its row-sum receive buffer (at whatever they hold) and the fact that the partner has
    reached round 0 of the nine cells those buffers complete on — what the nine copies into them need;
  * send cell `k` is paid by the device's own copy of chunk `k`, which hands back the half share of the chunk
    the copy was reading (the other half stays with the device, which goes on reading the chunk);
  * receive cell `k` is paid by the partner's copy, which hands over the chunk holding what the partner sent;
  * likewise the row-sum send and receive cells (the send cell again hands back a half share).
  The contents are parameters here: `SB c`, `SS c` what device `c`'s send buffers hold when it copies them,
  `RB c`, `SR c` what its receive buffers hold once everything has landed.
-/
import proofs.«900347_g7700000000000348_dist_arsfmx_v7x_xyz2x4x4_x_t256_d512_v4096_bf16_1_alg».proof.Proof.Bits.Proto

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What the four exchanged buffers of each device hold. -/
structure Held (F : FTy → Type) where
  SB : Dev nD → (cc0_scratch0 : Ref sig .tc).ty.Contents (Elt F)
  RB : Dev nD → (cc0_scratch1 : Ref sig .tc).ty.Contents (Elt F)
  SS : Dev nD → (cc0_scratch2 : Ref sig .tc).ty.Contents (Elt F)
  SR : Dev nD → (cc0_scratch3 : Ref sig .tc).ty.Contents (Elt F)
  /-- and what the result's staging buffer holds when the body ends. -/
  OUT : Dev nD → (cc0_stg2_0 : Ref sig .tc).ty.Contents (Elt F)

variable (H : Held F)

/-! ## Amounts -/

/-- The credit of a chunk's copy and of the row sums' copy, in the semaphores' units. -/
abbrev NC : ℕ := 8192
abbrev NR : ℕ := 2048
theorem NC_pos : 0 < NC := by decide
theorem NC_eq (k : ℕ) (h : ∀ a, (![k, 0, 0] : Fin 3 → Nat) a + S1x256x512.size a ≤ S8x256x512.size a) : (chunkN rbM k h).view.dmaCredit = NC := rfl
theorem NR_pos : 0 < NR := by decide
theorem NR_eq : (Memref.whole cc0_scratch3 : Memref sig .tc .vmem S256x1 .bf16).view.dmaCredit = NR := rfl

def Kind.amt : Kind → ℕ
  | .bar => 1 | .send _ => NC | .recv _ => NC | .ssend => NR | .srecv => NR

theorem Kind.amt_pos (κ : Kind) : 0 < κ.amt := by
  cases κ <;> first | exact Nat.one_pos | exact NC_pos | exact NR_pos

/-! ## Payloads -/

/-- Chunk `k` of the send buffer on `c`, at share `q`. -/
abbrev sbPts (c : Dev nD) (k : Fin 8) (q : PosShare TreeShare) (f : (cc0_scratch0 : Ref sig .tc).ty.Contents (Elt F)) : sProp 𝕄 :=
  (chunk sbM k).view.loc (c : Thread nD τ) ↦[(chunk sbM k).view.set]{q} f
/-- Chunk `k` of the receive buffer on `c`. -/
abbrev rbPts (c : Dev nD) (k : Fin 8) (f : (cc0_scratch1 : Ref sig .tc).ty.Contents (Elt F)) : sProp 𝕄 :=
  (chunk rbM k).view.loc (c : Thread nD τ) ↦[(chunk rbM k).view.set]{fullShare} f
/-- The same two, with the chunk named by its number. -/
abbrev sbP (c : Dev nD) (k : ℕ) (h : ∀ a, (![k, 0, 0] : Fin 3 → Nat) a + S1x256x512.size a ≤ S8x256x512.size a) (q : PosShare TreeShare)
    (f : (cc0_scratch0 : Ref sig .tc).ty.Contents (Elt F)) : sProp 𝕄 :=
  (chunkN sbM k h).view.loc (c : Thread nD τ) ↦[(chunkN sbM k h).view.set]{q} f
abbrev rbP (c : Dev nD) (k : ℕ) (h : ∀ a, (![k, 0, 0] : Fin 3 → Nat) a + S1x256x512.size a ≤ S8x256x512.size a)
    (f : (cc0_scratch1 : Ref sig .tc).ty.Contents (Elt F)) : sProp 𝕄 :=
  (chunkN rbM k h).view.loc (c : Thread nD τ) ↦[(chunkN rbM k h).view.set]{fullShare} f
abbrev ssPts (c : Dev nD) (q : PosShare TreeShare) (f : (cc0_scratch2 : Ref sig .tc).ty.Contents (Elt F)) : sProp 𝕄 :=
  (Memref.whole cc0_scratch2 : Memref sig .tc .vmem S256x1 .bf16).view.loc (c : Thread nD τ) ↦[(Memref.whole cc0_scratch2 : Memref sig .tc .vmem S256x1 .bf16).view.set]{q} f
abbrev srPts (c : Dev nD) (f : (cc0_scratch3 : Ref sig .tc).ty.Contents (Elt F)) : sProp 𝕄 :=
  (Memref.whole cc0_scratch3 : Memref sig .tc .vmem S256x1 .bf16).view.loc (c : Thread nD τ) ↦[(Memref.whole cc0_scratch3 : Memref sig .tc .vmem S256x1 .bf16).view.set]{fullShare} f

/-- What device `p`'s handshake signal hands its partner: `p`'s nine landing buffers and that `p` is at round 0 of
    the nine cells they complete on. -/
def barPay (p : Dev nD) : sProp 𝕄 :=
  iprop((∃ f, ((chunkN rbM 0 (inbC 0)).view.loc ((p : Dev nD) : Thread nD τ) ↦[(chunkN rbM 0 (inbC 0)).view.set]{fullShare} f)) ∗ (∃ f, ((chunkN rbM 1 (inbC 1)).view.loc ((p : Dev nD) : Thread nD τ) ↦[(chunkN rbM 1 (inbC 1)).view.set]{fullShare} f)) ∗ (∃ f, ((chunkN rbM 2 (inbC 2)).view.loc ((p : Dev nD) : Thread nD τ) ↦[(chunkN rbM 2 (inbC 2)).view.set]{fullShare} f)) ∗ (∃ f, ((chunkN rbM 3 (inbC 3)).view.loc ((p : Dev nD) : Thread nD τ) ↦[(chunkN rbM 3 (inbC 3)).view.set]{fullShare} f)) ∗ (∃ f, ((chunkN rbM 4 (inbC 4)).view.loc ((p : Dev nD) : Thread nD τ) ↦[(chunkN rbM 4 (inbC 4)).view.set]{fullShare} f)) ∗ (∃ f, ((chunkN rbM 5 (inbC 5)).view.loc ((p : Dev nD) : Thread nD τ) ↦[(chunkN rbM 5 (inbC 5)).view.set]{fullShare} f)) ∗ (∃ f, ((chunkN rbM 6 (inbC 6)).view.loc ((p : Dev nD) : Thread nD τ) ↦[(chunkN rbM 6 (inbC 6)).view.set]{fullShare} f)) ∗ (∃ f, ((chunkN rbM 7 (inbC 7)).view.loc ((p : Dev nD) : Thread nD τ) ↦[(chunkN rbM 7 (inbC 7)).view.set]{fullShare} f)) ∗ (∃ f, ((Memref.whole cc0_scratch3 : Memref sig .tc .vmem S256x1 .bf16).view.loc ((p : Dev nD) : Thread nD τ) ↦[(Memref.whole cc0_scratch3 : Memref sig .tc .vmem S256x1 .bf16).view.set]{fullShare} f)) ∗ reached ER (((p : Dev nD) : Thread nD τ), SemLoc.dma (recvS 0)) 0 ∗ reached ER (((p : Dev nD) : Thread nD τ), SemLoc.dma (recvS 1)) 0 ∗ reached ER (((p : Dev nD) : Thread nD τ), SemLoc.dma (recvS 2)) 0 ∗ reached ER (((p : Dev nD) : Thread nD τ), SemLoc.dma (recvS 3)) 0 ∗ reached ER (((p : Dev nD) : Thread nD τ), SemLoc.dma (recvS 4)) 0 ∗ reached ER (((p : Dev nD) : Thread nD τ), SemLoc.dma (recvS 5)) 0 ∗ reached ER (((p : Dev nD) : Thread nD τ), SemLoc.dma (recvS 6)) 0 ∗ reached ER (((p : Dev nD) : Thread nD τ), SemLoc.dma (recvS 7)) 0 ∗ reached ER (((p : Dev nD) : Thread nD τ), SemLoc.dma srecvS) 0)

def Kind.pay (c : Dev nD) : Kind → sProp 𝕄
  | .bar => barPay (F := F) (peer c)
  | .send k => sbPts c k fullShare.left (H.SB c)
  | .recv k => rbPts c k (H.RB c)
  | .ssend => ssPts c fullShare.left (H.SS c)
  | .srecv => srPts c (H.SR c)

/-! ## The schedule -/

def sched : Rounds.Schedule (GSem nD τ sig) Unit 𝕄 where
  duties g r := if r = 0 ∧ g.1.2 = .tc ∧ (kindOf g.2).isSome then {()} else ∅
  amount g _ _ := match kindOf g.2 with | some κ => κ.amt | none => 1
  payload g _ _ := match kindOf g.2 with | some κ => κ.pay H g.1.1 | none => iprop(emp)
  amount_pos g _ _ _ := by
    cases h : kindOf g.2 with
    | none => simp only [h]; exact Nat.one_pos
    | some κ => simp only [h]; exact κ.amt_pos

set_option synthInstance.maxHeartbeats 2000000 in
set_option maxHeartbeats 2000000 in
instance barPay_storable (p : Dev nD) : BI.Storable (upEmb : UEmb _ 𝕄) (barPay (F := F) p) := by unfold barPay; infer_instance

instance pay_storable (c : Dev nD) (κ : Kind) : BI.Storable (upEmb : UEmb _ 𝕄) (κ.pay H c) := by
  cases κ <;> (unfold Kind.pay; infer_instance)

instance sched_payload_storable (g : GSem nD τ sig) (r : ℕ) (d : Unit) : BI.Storable (upEmb : UEmb _ 𝕄) ((sched H).payload g r d) := by
  show BI.Storable upEmb (match kindOf g.2 with | some κ => κ.pay H g.1.1 | none => iprop(emp))
  cases kindOf g.2 <;> infer_instance

/-! ## The tables -/

section Tables
variable (c : Dev nD) (κ : Kind) (hκ : κ ∈ allKinds)

theorem duties_cell (hκ : κ ∈ allKinds) : (sched H).duties (cell c κ) 0 = {()} := by
  dsimp only [sched]; rw [if_pos ⟨rfl, rfl, by rw [kindOf_sem κ hκ]; rfl⟩]
theorem duties_later (g : GSem nD τ sig) : ∀ r, 1 ≤ r → (sched H).duties g r = ∅ :=
  fun r hr => by dsimp only [sched]; rw [if_neg fun h => by omega]
theorem amount_cell (hκ : κ ∈ allKinds) (d : Unit) : (sched H).amount (cell c κ) 0 d = κ.amt := by
  dsimp only [sched]; rw [kindOf_sem κ hκ]
theorem payload_cell (hκ : κ ∈ allKinds) (d : Unit) : (sched H).payload (cell c κ) 0 d = κ.pay H c := by
  dsimp only [sched]; rw [kindOf_sem κ hκ]
theorem expect_cell (hκ : κ ∈ allKinds) : (sched H).expect (cell c κ) 0 = κ.amt := by
  unfold Schedule.expect Schedule.amountOf; rw [duties_cell H c κ hκ, Finset.sum_singleton, amount_cell H c κ hκ]
theorem rest_cell (hκ : κ ∈ allKinds) :
    bigSep ((sched H).duties (cell c κ) 0 \ ∅) (fun d => (sched H).payload (cell c κ) 0 d) = κ.pay H c := by
  rw [Finset.sdiff_empty, duties_cell H c κ hκ, bigSep_singleton, payload_cell H c κ hκ]

end Tables

theorem mem_all : ∀ κ : Kind, κ ∈ allKinds := by
  intro κ; cases κ with
  | bar => decide
  | ssend => decide
  | srecv => decide
  | send k => revert k; decide
  | recv k => revert k; decide

instance : Fintype Kind := ⟨allKinds.toFinset, fun κ => List.mem_toFinset.mpr (mem_all κ)⟩

end Cert.Kernel.Dist

end
-- ==== Proof.Bits.Tables.lean ====
/-
  The schedule's tables in the spelling the body's steps meet them in, what each device owes at launch, the levels
  of the cells, and the evidence that a device may wait where it waits.

  Levels: the staging cells and the send cells lie at 0, the handshake cells at 1, the receive cells at 2. A device
  owes only its partner's handshake cell and its partner's nine receive cells; it waits for its staging copies while
  owing all ten (0 < 1, 2), for its handshake while owing the nine copies (1 < 2), and for everything else owing
  nothing. So every wait is below what the waiter owes, and no cycle of waits can form.
-/
import proofs.«900347_g7700000000000348_dist_arsfmx_v7x_xyz2x4x4_x_t256_d512_v4096_bf16_1_alg».proof.Proof.Bits.Sched

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (H : Held F)

/-! ## The handshake's payload, piece by piece -/

theorem barPay_eq (p : Dev nD) : (barPay (F := F) p) = iprop((∃ f, ((chunkN rbM 0 (inbC 0)).view.loc ((p : Dev nD) : Thread nD τ) ↦[(chunkN rbM 0 (inbC 0)).view.set]{fullShare} f)) ∗ (∃ f, ((chunkN rbM 1 (inbC 1)).view.loc ((p : Dev nD) : Thread nD τ) ↦[(chunkN rbM 1 (inbC 1)).view.set]{fullShare} f)) ∗ (∃ f, ((chunkN rbM 2 (inbC 2)).view.loc ((p : Dev nD) : Thread nD τ) ↦[(chunkN rbM 2 (inbC 2)).view.set]{fullShare} f)) ∗ (∃ f, ((chunkN rbM 3 (inbC 3)).view.loc ((p : Dev nD) : Thread nD τ) ↦[(chunkN rbM 3 (inbC 3)).view.set]{fullShare} f)) ∗ (∃ f, ((chunkN rbM 4 (inbC 4)).view.loc ((p : Dev nD) : Thread nD τ) ↦[(chunkN rbM 4 (inbC 4)).view.set]{fullShare} f)) ∗ (∃ f, ((chunkN rbM 5 (inbC 5)).view.loc ((p : Dev nD) : Thread nD τ) ↦[(chunkN rbM 5 (inbC 5)).view.set]{fullShare} f)) ∗ (∃ f, ((chunkN rbM 6 (inbC 6)).view.loc ((p : Dev nD) : Thread nD τ) ↦[(chunkN rbM 6 (inbC 6)).view.set]{fullShare} f)) ∗ (∃ f, ((chunkN rbM 7 (inbC 7)).view.loc ((p : Dev nD) : Thread nD τ) ↦[(chunkN rbM 7 (inbC 7)).view.set]{fullShare} f)) ∗ (∃ f, ((Memref.whole cc0_scratch3 : Memref sig .tc .vmem S256x1 .bf16).view.loc ((p : Dev nD) : Thread nD τ) ↦[(Memref.whole cc0_scratch3 : Memref sig .tc .vmem S256x1 .bf16).view.set]{fullShare} f)) ∗ reached ER (((p : Dev nD) : Thread nD τ), SemLoc.dma (recvS 0)) 0 ∗ reached ER (((p : Dev nD) : Thread nD τ), SemLoc.dma (recvS 1)) 0 ∗ reached ER (((p : Dev nD) : Thread nD τ), SemLoc.dma (recvS 2)) 0 ∗ reached ER (((p : Dev nD) : Thread nD τ), SemLoc.dma (recvS 3)) 0 ∗ reached ER (((p : Dev nD) : Thread nD τ), SemLoc.dma (recvS 4)) 0 ∗ reached ER (((p : Dev nD) : Thread nD τ), SemLoc.dma (recvS 5)) 0 ∗ reached ER (((p : Dev nD) : Thread nD τ), SemLoc.dma (recvS 6)) 0 ∗ reached ER (((p : Dev nD) : Thread nD τ), SemLoc.dma (recvS 7)) 0 ∗ reached ER (((p : Dev nD) : Thread nD τ), SemLoc.dma srecvS) 0) := by
  unfold barPay; rfl

/-! ## The tables -/

section Tables
variable (c : Dev nD) (k : Fin 8) (d : Unit)

theorem duties_bar : (sched H).duties (((c : Dev nD) : Thread nD τ), SemLoc.reg barS) 0 = {()} := duties_cell H c .bar (mem_all _)
theorem duties_send : (sched H).duties (((c : Dev nD) : Thread nD τ), SemLoc.dma (sendS k)) 0 = {()} := duties_cell H c (.send k) (mem_all _)
theorem duties_recv : (sched H).duties (((c : Dev nD) : Thread nD τ), SemLoc.dma (recvS k)) 0 = {()} := duties_cell H c (.recv k) (mem_all _)
theorem duties_ssend : (sched H).duties (((c : Dev nD) : Thread nD τ), SemLoc.dma ssendS) 0 = {()} := duties_cell H c .ssend (mem_all _)
theorem duties_srecv : (sched H).duties (((c : Dev nD) : Thread nD τ), SemLoc.dma srecvS) 0 = {()} := duties_cell H c .srecv (mem_all _)

theorem amount_bar : (sched H).amount (((c : Dev nD) : Thread nD τ), SemLoc.reg barS) 0 d = 1 := amount_cell H c .bar (mem_all _) d
theorem amount_send : (sched H).amount (((c : Dev nD) : Thread nD τ), SemLoc.dma (sendS k)) 0 d = NC := amount_cell H c (.send k) (mem_all _) d
theorem amount_recv : (sched H).amount (((c : Dev nD) : Thread nD τ), SemLoc.dma (recvS k)) 0 d = NC := amount_cell H c (.recv k) (mem_all _) d
theorem amount_ssend : (sched H).amount (((c : Dev nD) : Thread nD τ), SemLoc.dma ssendS) 0 d = NR := amount_cell H c .ssend (mem_all _) d
theorem amount_srecv : (sched H).amount (((c : Dev nD) : Thread nD τ), SemLoc.dma srecvS) 0 d = NR := amount_cell H c .srecv (mem_all _) d

theorem expect_bar : (sched H).expect (((c : Dev nD) : Thread nD τ), SemLoc.reg barS) 0 = 1 := expect_cell H c .bar (mem_all _)
theorem expect_send : (sched H).expect (((c : Dev nD) : Thread nD τ), SemLoc.dma (sendS k)) 0 = NC := expect_cell H c (.send k) (mem_all _)
theorem expect_recv : (sched H).expect (((c : Dev nD) : Thread nD τ), SemLoc.dma (recvS k)) 0 = NC := expect_cell H c (.recv k) (mem_all _)
theorem expect_ssend : (sched H).expect (((c : Dev nD) : Thread nD τ), SemLoc.dma ssendS) 0 = NR := expect_cell H c .ssend (mem_all _)
theorem expect_srecv : (sched H).expect (((c : Dev nD) : Thread nD τ), SemLoc.dma srecvS) 0 = NR := expect_cell H c .srecv (mem_all _)

/-- A device's handshake cell is paid with its partner's landing buffers; -/
theorem payload_bar : (sched H).payload (((c : Dev nD) : Thread nD τ), SemLoc.reg barS) 0 d = iprop((∃ f, ((chunkN rbM 0 (inbC 0)).view.loc (((peer c) : Dev nD) : Thread nD τ) ↦[(chunkN rbM 0 (inbC 0)).view.set]{fullShare} f)) ∗ (∃ f, ((chunkN rbM 1 (inbC 1)).view.loc (((peer c) : Dev nD) : Thread nD τ) ↦[(chunkN rbM 1 (inbC 1)).view.set]{fullShare} f)) ∗ (∃ f, ((chunkN rbM 2 (inbC 2)).view.loc (((peer c) : Dev nD) : Thread nD τ) ↦[(chunkN rbM 2 (inbC 2)).view.set]{fullShare} f)) ∗ (∃ f, ((chunkN rbM 3 (inbC 3)).view.loc (((peer c) : Dev nD) : Thread nD τ) ↦[(chunkN rbM 3 (inbC 3)).view.set]{fullShare} f)) ∗ (∃ f, ((chunkN rbM 4 (inbC 4)).view.loc (((peer c) : Dev nD) : Thread nD τ) ↦[(chunkN rbM 4 (inbC 4)).view.set]{fullShare} f)) ∗ (∃ f, ((chunkN rbM 5 (inbC 5)).view.loc (((peer c) : Dev nD) : Thread nD τ) ↦[(chunkN rbM 5 (inbC 5)).view.set]{fullShare} f)) ∗ (∃ f, ((chunkN rbM 6 (inbC 6)).view.loc (((peer c) : Dev nD) : Thread nD τ) ↦[(chunkN rbM 6 (inbC 6)).view.set]{fullShare} f)) ∗ (∃ f, ((chunkN rbM 7 (inbC 7)).view.loc (((peer c) : Dev nD) : Thread nD τ) ↦[(chunkN rbM 7 (inbC 7)).view.set]{fullShare} f)) ∗ (∃ f, ((Memref.whole cc0_scratch3 : Memref sig .tc .vmem S256x1 .bf16).view.loc (((peer c) : Dev nD) : Thread nD τ) ↦[(Memref.whole cc0_scratch3 : Memref sig .tc .vmem S256x1 .bf16).view.set]{fullShare} f)) ∗ reached ER ((((peer c) : Dev nD) : Thread nD τ), SemLoc.dma (recvS 0)) 0 ∗ reached ER ((((peer c) : Dev nD) : Thread nD τ), SemLoc.dma (recvS 1)) 0 ∗ reached ER ((((peer c) : Dev nD) : Thread nD τ), SemLoc.dma (recvS 2)) 0 ∗ reached ER ((((peer c) : Dev nD) : Thread nD τ), SemLoc.dma (recvS 3)) 0 ∗ reached ER ((((peer c) : Dev nD) : Thread nD τ), SemLoc.dma (recvS 4)) 0 ∗ reached ER ((((peer c) : Dev nD) : Thread nD τ), SemLoc.dma (recvS 5)) 0 ∗ reached ER ((((peer c) : Dev nD) : Thread nD τ), SemLoc.dma (recvS 6)) 0 ∗ reached ER ((((peer c) : Dev nD) : Thread nD τ), SemLoc.dma (recvS 7)) 0 ∗ reached ER ((((peer c) : Dev nD) : Thread nD τ), SemLoc.dma srecvS) 0) :=
  (payload_cell H c .bar (mem_all _) d).trans (barPay_eq (peer c))
/-- so the partner's is paid with the device's own. -/
theorem payload_bar_peer : (sched H).payload (((peer c : Dev nD) : Thread nD τ), SemLoc.reg barS) 0 d = iprop((∃ f, ((chunkN rbM 0 (inbC 0)).view.loc ((c : Dev nD) : Thread nD τ) ↦[(chunkN rbM 0 (inbC 0)).view.set]{fullShare} f)) ∗ (∃ f, ((chunkN rbM 1 (inbC 1)).view.loc ((c : Dev nD) : Thread nD τ) ↦[(chunkN rbM 1 (inbC 1)).view.set]{fullShare} f)) ∗ (∃ f, ((chunkN rbM 2 (inbC 2)).view.loc ((c : Dev nD) : Thread nD τ) ↦[(chunkN rbM 2 (inbC 2)).view.set]{fullShare} f)) ∗ (∃ f, ((chunkN rbM 3 (inbC 3)).view.loc ((c : Dev nD) : Thread nD τ) ↦[(chunkN rbM 3 (inbC 3)).view.set]{fullShare} f)) ∗ (∃ f, ((chunkN rbM 4 (inbC 4)).view.loc ((c : Dev nD) : Thread nD τ) ↦[(chunkN rbM 4 (inbC 4)).view.set]{fullShare} f)) ∗ (∃ f, ((chunkN rbM 5 (inbC 5)).view.loc ((c : Dev nD) : Thread nD τ) ↦[(chunkN rbM 5 (inbC 5)).view.set]{fullShare} f)) ∗ (∃ f, ((chunkN rbM 6 (inbC 6)).view.loc ((c : Dev nD) : Thread nD τ) ↦[(chunkN rbM 6 (inbC 6)).view.set]{fullShare} f)) ∗ (∃ f, ((chunkN rbM 7 (inbC 7)).view.loc ((c : Dev nD) : Thread nD τ) ↦[(chunkN rbM 7 (inbC 7)).view.set]{fullShare} f)) ∗ (∃ f, ((Memref.whole cc0_scratch3 : Memref sig .tc .vmem S256x1 .bf16).view.loc ((c : Dev nD) : Thread nD τ) ↦[(Memref.whole cc0_scratch3 : Memref sig .tc .vmem S256x1 .bf16).view.set]{fullShare} f)) ∗ reached ER (((c : Dev nD) : Thread nD τ), SemLoc.dma (recvS 0)) 0 ∗ reached ER (((c : Dev nD) : Thread nD τ), SemLoc.dma (recvS 1)) 0 ∗ reached ER (((c : Dev nD) : Thread nD τ), SemLoc.dma (recvS 2)) 0 ∗ reached ER (((c : Dev nD) : Thread nD τ), SemLoc.dma (recvS 3)) 0 ∗ reached ER (((c : Dev nD) : Thread nD τ), SemLoc.dma (recvS 4)) 0 ∗ reached ER (((c : Dev nD) : Thread nD τ), SemLoc.dma (recvS 5)) 0 ∗ reached ER (((c : Dev nD) : Thread nD τ), SemLoc.dma (recvS 6)) 0 ∗ reached ER (((c : Dev nD) : Thread nD τ), SemLoc.dma (recvS 7)) 0 ∗ reached ER (((c : Dev nD) : Thread nD τ), SemLoc.dma srecvS) 0) := by
  rw [payload_bar, peer_peer]
theorem payload_send0 : (sched H).payload (((c : Dev nD) : Thread nD τ), SemLoc.dma (sendS 0)) 0 d = ((chunkN sbM 0 (inbC 0)).view.loc ((c : Dev nD) : Thread nD τ) ↦[(chunkN sbM 0 (inbC 0)).view.set]{fullShare.left} H.SB c) := payload_cell H c (.send 0) (mem_all _) d
theorem payload_recv0 : (sched H).payload (((c : Dev nD) : Thread nD τ), SemLoc.dma (recvS 0)) 0 d = ((chunkN rbM 0 (inbC 0)).view.loc ((c : Dev nD) : Thread nD τ) ↦[(chunkN rbM 0 (inbC 0)).view.set]{fullShare} H.RB c) := payload_cell H c (.recv 0) (mem_all _) d
theorem payload_send1 : (sched H).payload (((c : Dev nD) : Thread nD τ), SemLoc.dma (sendS 1)) 0 d = ((chunkN sbM 1 (inbC 1)).view.loc ((c : Dev nD) : Thread nD τ) ↦[(chunkN sbM 1 (inbC 1)).view.set]{fullShare.left} H.SB c) := payload_cell H c (.send 1) (mem_all _) d
theorem payload_recv1 : (sched H).payload (((c : Dev nD) : Thread nD τ), SemLoc.dma (recvS 1)) 0 d = ((chunkN rbM 1 (inbC 1)).view.loc ((c : Dev nD) : Thread nD τ) ↦[(chunkN rbM 1 (inbC 1)).view.set]{fullShare} H.RB c) := payload_cell H c (.recv 1) (mem_all _) d
theorem payload_send2 : (sched H).payload (((c : Dev nD) : Thread nD τ), SemLoc.dma (sendS 2)) 0 d = ((chunkN sbM 2 (inbC 2)).view.loc ((c : Dev nD) : Thread nD τ) ↦[(chunkN sbM 2 (inbC 2)).view.set]{fullShare.left} H.SB c) := payload_cell H c (.send 2) (mem_all _) d
theorem payload_recv2 : (sched H).payload (((c : Dev nD) : Thread nD τ), SemLoc.dma (recvS 2)) 0 d = ((chunkN rbM 2 (inbC 2)).view.loc ((c : Dev nD) : Thread nD τ) ↦[(chunkN rbM 2 (inbC 2)).view.set]{fullShare} H.RB c) := payload_cell H c (.recv 2) (mem_all _) d
theorem payload_send3 : (sched H).payload (((c : Dev nD) : Thread nD τ), SemLoc.dma (sendS 3)) 0 d = ((chunkN sbM 3 (inbC 3)).view.loc ((c : Dev nD) : Thread nD τ) ↦[(chunkN sbM 3 (inbC 3)).view.set]{fullShare.left} H.SB c) := payload_cell H c (.send 3) (mem_all _) d
theorem payload_recv3 : (sched H).payload (((c : Dev nD) : Thread nD τ), SemLoc.dma (recvS 3)) 0 d = ((chunkN rbM 3 (inbC 3)).view.loc ((c : Dev nD) : Thread nD τ) ↦[(chunkN rbM 3 (inbC 3)).view.set]{fullShare} H.RB c) := payload_cell H c (.recv 3) (mem_all _) d
theorem payload_send4 : (sched H).payload (((c : Dev nD) : Thread nD τ), SemLoc.dma (sendS 4)) 0 d = ((chunkN sbM 4 (inbC 4)).view.loc ((c : Dev nD) : Thread nD τ) ↦[(chunkN sbM 4 (inbC 4)).view.set]{fullShare.left} H.SB c) := payload_cell H c (.send 4) (mem_all _) d
theorem payload_recv4 : (sched H).payload (((c : Dev nD) : Thread nD τ), SemLoc.dma (recvS 4)) 0 d = ((chunkN rbM 4 (inbC 4)).view.loc ((c : Dev nD) : Thread nD τ) ↦[(chunkN rbM 4 (inbC 4)).view.set]{fullShare} H.RB c) := payload_cell H c (.recv 4) (mem_all _) d
theorem payload_send5 : (sched H).payload (((c : Dev nD) : Thread nD τ), SemLoc.dma (sendS 5)) 0 d = ((chunkN sbM 5 (inbC 5)).view.loc ((c : Dev nD) : Thread nD τ) ↦[(chunkN sbM 5 (inbC 5)).view.set]{fullShare.left} H.SB c) := payload_cell H c (.send 5) (mem_all _) d
theorem payload_recv5 : (sched H).payload (((c : Dev nD) : Thread nD τ), SemLoc.dma (recvS 5)) 0 d = ((chunkN rbM 5 (inbC 5)).view.loc ((c : Dev nD) : Thread nD τ) ↦[(chunkN rbM 5 (inbC 5)).view.set]{fullShare} H.RB c) := payload_cell H c (.recv 5) (mem_all _) d
theorem payload_send6 : (sched H).payload (((c : Dev nD) : Thread nD τ), SemLoc.dma (sendS 6)) 0 d = ((chunkN sbM 6 (inbC 6)).view.loc ((c : Dev nD) : Thread nD τ) ↦[(chunkN sbM 6 (inbC 6)).view.set]{fullShare.left} H.SB c) := payload_cell H c (.send 6) (mem_all _) d
theorem payload_recv6 : (sched H).payload (((c : Dev nD) : Thread nD τ), SemLoc.dma (recvS 6)) 0 d = ((chunkN rbM 6 (inbC 6)).view.loc ((c : Dev nD) : Thread nD τ) ↦[(chunkN rbM 6 (inbC 6)).view.set]{fullShare} H.RB c) := payload_cell H c (.recv 6) (mem_all _) d
theorem payload_send7 : (sched H).payload (((c : Dev nD) : Thread nD τ), SemLoc.dma (sendS 7)) 0 d = ((chunkN sbM 7 (inbC 7)).view.loc ((c : Dev nD) : Thread nD τ) ↦[(chunkN sbM 7 (inbC 7)).view.set]{fullShare.left} H.SB c) := payload_cell H c (.send 7) (mem_all _) d
theorem payload_recv7 : (sched H).payload (((c : Dev nD) : Thread nD τ), SemLoc.dma (recvS 7)) 0 d = ((chunkN rbM 7 (inbC 7)).view.loc ((c : Dev nD) : Thread nD τ) ↦[(chunkN rbM 7 (inbC 7)).view.set]{fullShare} H.RB c) := payload_cell H c (.recv 7) (mem_all _) d
theorem payload_ssend : (sched H).payload (((c : Dev nD) : Thread nD τ), SemLoc.dma ssendS) 0 d = ((Memref.whole cc0_scratch2 : Memref sig .tc .vmem S256x1 .bf16).view.loc ((c : Dev nD) : Thread nD τ) ↦[(Memref.whole cc0_scratch2 : Memref sig .tc .vmem S256x1 .bf16).view.set]{fullShare.left} H.SS c) := payload_cell H c .ssend (mem_all _) d
theorem payload_srecv : (sched H).payload (((c : Dev nD) : Thread nD τ), SemLoc.dma srecvS) 0 d = ((Memref.whole cc0_scratch3 : Memref sig .tc .vmem S256x1 .bf16).view.loc ((c : Dev nD) : Thread nD τ) ↦[(Memref.whole cc0_scratch3 : Memref sig .tc .vmem S256x1 .bf16).view.set]{fullShare} H.SR c) := payload_cell H c .srecv (mem_all _) d

end Tables

/-! ## What a device owes at launch -/

/-- Device `c` owes its partner's handshake cell a unit and its partner's nine receive cells their copies' credit,
    summed so that each payment, in the body's order, takes the last summand left. -/
def O₀ (c : Dev nD) : CellTallies nD τ sig Unit := tallyAt (((peer c : Dev nD) : Thread nD τ), SemLoc.dma (recvS 7)) () NC + tallyAt (((peer c : Dev nD) : Thread nD τ), SemLoc.dma (recvS 6)) () NC + tallyAt (((peer c : Dev nD) : Thread nD τ), SemLoc.dma srecvS) () NR + tallyAt (((peer c : Dev nD) : Thread nD τ), SemLoc.dma (recvS 5)) () NC + tallyAt (((peer c : Dev nD) : Thread nD τ), SemLoc.dma (recvS 4)) () NC + tallyAt (((peer c : Dev nD) : Thread nD τ), SemLoc.dma (recvS 3)) () NC + tallyAt (((peer c : Dev nD) : Thread nD τ), SemLoc.dma (recvS 2)) () NC + tallyAt (((peer c : Dev nD) : Thread nD τ), SemLoc.dma (recvS 1)) () NC + tallyAt (((peer c : Dev nD) : Thread nD τ), SemLoc.dma (recvS 0)) () NC + tallyAt (((peer c : Dev nD) : Thread nD τ), SemLoc.reg barS) () 1
/-- The same after the handshake signal. -/
def O₁ (c : Dev nD) : CellTallies nD τ sig Unit := tallyAt (((peer c : Dev nD) : Thread nD τ), SemLoc.dma (recvS 7)) () NC + tallyAt (((peer c : Dev nD) : Thread nD τ), SemLoc.dma (recvS 6)) () NC + tallyAt (((peer c : Dev nD) : Thread nD τ), SemLoc.dma srecvS) () NR + tallyAt (((peer c : Dev nD) : Thread nD τ), SemLoc.dma (recvS 5)) () NC + tallyAt (((peer c : Dev nD) : Thread nD τ), SemLoc.dma (recvS 4)) () NC + tallyAt (((peer c : Dev nD) : Thread nD τ), SemLoc.dma (recvS 3)) () NC + tallyAt (((peer c : Dev nD) : Thread nD τ), SemLoc.dma (recvS 2)) () NC + tallyAt (((peer c : Dev nD) : Thread nD τ), SemLoc.dma (recvS 1)) () NC + tallyAt (((peer c : Dev nD) : Thread nD τ), SemLoc.dma (recvS 0)) () NC

theorem O₀_eq (c : Dev nD) : O₀ c = O₁ c + tallyAt (((peer c : Dev nD) : Thread nD τ), SemLoc.reg barS) () 1 := rfl

/-! ## Levels -/

def lvK : Kind → ℕ
  | .bar => 1 | .recv _ => 2 | .srecv => 2 | .send _ => 0 | .ssend => 0

def L (g : GSem nD τ sig) : Finset Unit := if g.1.2 = .tc then {()} else ∅
def lv (g : GSem nD τ sig) (_ : Unit) : ℕ := match kindOf g.2 with | some κ => lvK κ | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : Kind) (u : Unit) : lv (cell c κ) u = lvK κ := by
  unfold lv; rw [kindOf_sem κ (mem_all κ)]

/-- Whatever a device owes at launch is owed to a handshake or receive cell of its partner. -/
theorem O₀_pos {c : Dev nD} {g : GSem nD τ sig} {u : Unit} (h : 0 < O₀ c g u) : ∃ κ : Kind, 1 ≤ lvK κ ∧ g = cell (peer c) κ := by
  unfold O₀ at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals (obtain ⟨rfl, rfl⟩ := Pipeline.tallyAt_pos h)
  all_goals first | exact ⟨Kind.bar, by decide, rfl⟩ | exact ⟨Kind.srecv, by decide, rfl⟩ | exact ⟨Kind.recv 0, by decide, rfl⟩ | exact ⟨Kind.recv 1, by decide, rfl⟩ | exact ⟨Kind.recv 2, by decide, rfl⟩ | exact ⟨Kind.recv 3, by decide, rfl⟩ | exact ⟨Kind.recv 4, by decide, rfl⟩ | exact ⟨Kind.recv 5, by decide, rfl⟩ | exact ⟨Kind.recv 6, by decide, rfl⟩ | exact ⟨Kind.recv 7, by decide, rfl⟩

/-- After the handshake signal, only to its receive cells. -/
theorem O₁_pos {c : Dev nD} {g : GSem nD τ sig} {u : Unit} (h : 0 < O₁ c g u) : ∃ κ : Kind, lvK κ = 2 ∧ g = cell (peer c) κ := by
  unfold O₁ at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals (obtain ⟨rfl, rfl⟩ := Pipeline.tallyAt_pos h)
  all_goals first | exact ⟨Kind.srecv, by decide, rfl⟩ | exact ⟨Kind.recv 0, by decide, rfl⟩ | exact ⟨Kind.recv 1, by decide, rfl⟩ | exact ⟨Kind.recv 2, by decide, rfl⟩ | exact ⟨Kind.recv 3, by decide, rfl⟩ | exact ⟨Kind.recv 4, by decide, rfl⟩ | exact ⟨Kind.recv 5, by decide, rfl⟩ | exact ⟨Kind.recv 6, by decide, rfl⟩ | exact ⟨Kind.recv 7, by decide, rfl⟩

/-- A wait on a cell of level 0 (a staging cell, a send cell) is below everything owed at launch. -/
theorem mayWait_low (c : Dev nD) (s : SemLoc sig) (hs : lv ((c : Thread nD τ), s) () = 0) (O : CellTallies nD τ sig Unit) (hO : O = O₀ c ∨ O = 0) :
    (levAts L lv : sProp 𝕄) ⊢ MayWait (c : Thread nD τ) s () O := by
  rcases hO with rfl | rfl
  · refine Pipeline.mayWait_of_levAts (by rw [L_tc]; exact Finset.mem_singleton_self _) fun g i hg => ?_
    obtain ⟨κ, hκ, rfl⟩ := O₀_pos hg
    exact ⟨by rw [L_tc]; exact Finset.mem_singleton_self _, by rw [hs, lv_cell]; omega⟩
  · rw [MayWait_zero]; iintro -; iempintro

/-- The handshake wait is below the nine copies still owed. -/
theorem mayWait_bar (c : Dev nD) :
    (levAts L lv : sProp 𝕄) ⊢ MayWait (c : Thread nD τ) (SemLoc.reg barS) () (tallyAt (((peer c : Dev nD) : Thread nD τ), SemLoc.dma (recvS 7)) () NC + tallyAt (((peer c : Dev nD) : Thread nD τ), SemLoc.dma (recvS 6)) () NC + tallyAt (((peer c : Dev nD) : Thread nD τ), SemLoc.dma srecvS) () NR + tallyAt (((peer c : Dev nD) : Thread nD τ), SemLoc.dma (recvS 5)) () NC + tallyAt (((peer c : Dev nD) : Thread nD τ), SemLoc.dma (recvS 4)) () NC + tallyAt (((peer c : Dev nD) : Thread nD τ), SemLoc.dma (recvS 3)) () NC + tallyAt (((peer c : Dev nD) : Thread nD τ), SemLoc.dma (recvS 2)) () NC + tallyAt (((peer c : Dev nD) : Thread nD τ), SemLoc.dma (recvS 1)) () NC + tallyAt (((peer c : Dev nD) : Thread nD τ), SemLoc.dma (recvS 0)) () NC) := by
  refine Pipeline.mayWait_of_levAts (by rw [L_tc]; exact Finset.mem_singleton_self _) fun g i hg => ?_
  obtain ⟨κ, hκ, rfl⟩ := O₁_pos (c := c) hg
  exact ⟨by rw [L_tc]; exact Finset.mem_singleton_self _, by rw [show ((((c : Dev nD) : Thread nD τ), SemLoc.reg barS) : GSem nD τ sig) = cell c .bar from rfl, lv_cell, lv_cell, hκ]; decide⟩

end Cert.Kernel.Dist

end
-- ==== Proof.Bits.Data.lean ====
/-
  The proof data of the exchange: what a device's body starts from and what it leaves.

  A device starts holding, for some names of the cells' invariants: the invariants of its own nineteen cells and of
  its partner's, its position at round 0 of each of its own cells, the fact that round 0 of every cell of the pair is
  reached, and one duty token for each kind of cell — of its own send cells (it pays them with its own copies) and of
  its PARTNER's handshake and receive cells (it pays those); the credit of its own handshake and receive cells, which
  its partner owes; and the four scratch buffers at whatever they hold. It leaves the scratch buffers and its eighteen
  own semaphores at zero, their cells closed.
-/
import proofs.«900347_g7700000000000348_dist_arsfmx_v7x_xyz2x4x4_x_t256_d512_v4096_bf16_1_alg».proof.Proof.Bits.Tables

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (H : Held F) (m : (ℓ : Loc nD τ sig) → Buf (Elt F) ℓ) (ρ : Dev nD → PrngReg)

abbrev 𝒱₀ : Variants := Variants.none

/-- Device `c`'s copy of `x` and its block of `W`, as the pipeline stages them. -/
def xs (c : Dev nD) : (cc0_stg0_0 : Ref sig .tc).ty.Contents (Elt F) :=
  (win0_0.blk (0 : Fin 1)).view.read (Elt F) (m ((c : Thread nD τ).loc main_arg0))
def ws (c : Dev nD) : (cc0_stg1_0 : Ref sig .tc).ty.Contents (Elt F) :=
  (win0_1.blk (0 : Fin 1)).view.read (Elt F) (m ((c : Thread nD τ).loc main_arg1))

/-- Who owns the cell of kind `κ` that device `c` pays: itself for its send cells, its partner for the rest. -/
@[reducible] def payer (c : Dev nD) : Kind → Dev nD
  | .send _ => c | .ssend => c | .bar => peer c | .recv _ => peer c | .srecv => peer c

def invs (K : Dev nD × Kind → ℕ) (c : Dev nD) : sProp 𝕄 :=
  iprop((bigSep Finset.univ fun κ : Kind => cellInv ER (sched H) (K (c, κ)) (cell c κ))
    ∗ (bigSep Finset.univ fun κ : Kind => cellInv ER (sched H) (K (peer c, κ)) (cell (peer c) κ)))

instance invs_persistent (K : Dev nD × Kind → ℕ) (c : Dev nD) : BI.Persistent (invs H K c) := by unfold invs; infer_instance

def ghost (K : Dev nD × Kind → ℕ) (c : Dev nD) : sProp 𝕄 :=
  iprop(invs H K c
    ∗ (bigSep Finset.univ fun κ : Kind => atPos ER (cell c κ) 0 ∅ 0)
    ∗ (bigSep Finset.univ fun κ : Kind => reached ER (cell c κ) 0)
    ∗ (bigSep Finset.univ fun κ : Kind => reached ER (cell (peer c) κ) 0)
    ∗ (bigSep Finset.univ fun κ : Kind => dutyTok ER (cell (payer c κ) κ) 0 ()))

/-- The credit of the cells the partner pays. -/
def creds (c : Dev nD) : sProp 𝕄 :=
  iprop(cred (tallyAt (cell c .bar) () 1) ∗ cred (tallyAt (cell c (.recv 0)) () NC) ∗ cred (tallyAt (cell c (.recv 1)) () NC) ∗ cred (tallyAt (cell c (.recv 2)) () NC) ∗ cred (tallyAt (cell c (.recv 3)) () NC) ∗ cred (tallyAt (cell c (.recv 4)) () NC) ∗ cred (tallyAt (cell c (.recv 5)) () NC) ∗ cred (tallyAt (cell c (.recv 6)) () NC) ∗ cred (tallyAt (cell c (.recv 7)) () NC) ∗ cred (tallyAt (cell c .srecv) () NR))

def start (c : Dev nD) : sProp 𝕄 := iprop((∃ K, ghost H K c) ∗ creds (F := F) c ∗ levAts L lv)

/-- The four scratch buffers, each whole at some contents. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

def Φ₀ (c : Dev nD) : sProp 𝕄 := iprop(start H c ∗ scr (F := F) c)
/-- After the body: the scratch buffers, and the device's own eighteen semaphores at zero. -/
def Φ₁ (c : Dev nD) : sProp 𝕄 := iprop(scr (F := F) c ∗ bigSep (Finset.univ.erase Kind.bar) fun κ : Kind => semVal (cell c κ) 0)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => ws m c
    | ⟨2, _⟩ => H.OUT c
  Φ t := match t with
    | ⟨0, _⟩ => Φ₀ H c
    | ⟨_ + 1, _⟩ => Φ₁ (F := F) c
  q _ := fullShare
  owed t := match t with
    | ⟨0, _⟩ => O₀ c
    | ⟨_ + 1, _⟩ => 0

end Cert.Kernel.Dist

end
-- ==== Proof.Bits.Terms.lean ====
/-
  Names for what one device's body computes, as functions of what its staging buffers hold (`x`: its copy of the
  activations, `w`: its block of the weights) and of what it has received (`rb`: the partner's eight chunks, `sr`:
  the partner's row sums): the eight chunks `E q` of `exp (x · w)` it stores and sends, the row sums `rowS` of all of
  them, the reciprocal `recip` of its own plus the partner's row sums, and the sixteen pieces of the result — the
  own chunks and the received ones, each scaled by `recip`, stored at the device's own half of the columns and at
  the other half. All of it is stated for any float instance.
-/
import proofs.«900347_g7700000000000348_dist_arsfmx_v7x_xyz2x4x4_x_t256_d512_v4096_bf16_1_alg».proof.Proof.Bits.Data

noncomputable section

namespace Cert.Kernel.Dist

open Cert.Kernel Cert.Kernel.Gen
open Idealize.ShloMosaic
open Idealize.ShloMosaic.TcCoe

variable {F : FTy → Type} [FloatOps F]

abbrev CX (F : FTy → Type) := (cc0_stg0_0 : Ref sig .tc).ty.Contents (Elt F)
abbrev CW (F : FTy → Type) := (cc0_stg1_0 : Ref sig .tc).ty.Contents (Elt F)
abbrev CO (F : FTy → Type) := (cc0_stg2_0 : Ref sig .tc).ty.Contents (Elt F)
abbrev CB (F : FTy → Type) := (cc0_scratch0 : Ref sig .tc).ty.Contents (Elt F)
abbrev CR (F : FTy → Type) := (cc0_scratch1 : Ref sig .tc).ty.Contents (Elt F)
abbrev CS (F : FTy → Type) := (cc0_scratch2 : Ref sig .tc).ty.Contents (Elt F)
abbrev CT (F : FTy → Type) := (cc0_scratch3 : Ref sig .tc).ty.Contents (Elt F)

/-! ## The loads -/

def xL (x : CX F) : Vec F S256x512 .f32 :=
  View.readAt (Elt F) (Memref.whole cc0_stg0_0).view (Rect.unit (s := S256x512) ![0, 0] S256x512.size inb_S256x512_S256x512_0_0).toLoadRect x
def wL0 (w : CW F) : Vec F S512x512 .f32 :=
  View.readAt (Elt F) (Memref.whole cc0_stg1_0).view (Rect.unit (s := S512x4096) ![0, 0] S512x512.size inb_S512x4096_S512x512_0_0).toLoadRect w
def wL1 (w : CW F) : Vec F S512x512 .f32 :=
  View.readAt (Elt F) (Memref.whole cc0_stg1_0).view (Rect.unit (s := S512x4096) ![0, 512] S512x512.size inb_S512x4096_S512x512_0_512).toLoadRect w
def wL2 (w : CW F) : Vec F S512x512 .f32 :=
  View.readAt (Elt F) (Memref.whole cc0_stg1_0).view (Rect.unit (s := S512x4096) ![0, 1024] S512x512.size inb_S512x4096_S512x512_0_1024).toLoadRect w
def wL3 (w : CW F) : Vec F S512x512 .f32 :=
  View.readAt (Elt F) (Memref.whole cc0_stg1_0).view (Rect.unit (s := S512x4096) ![0, 1536] S512x512.size inb_S512x4096_S512x512_0_1536).toLoadRect w
def wL4 (w : CW F) : Vec F S512x512 .f32 :=
  View.readAt (Elt F) (Memref.whole cc0_stg1_0).view (Rect.unit (s := S512x4096) ![0, 2048] S512x512.size inb_S512x4096_S512x512_0_2048).toLoadRect w
def wL5 (w : CW F) : Vec F S512x512 .f32 :=
  View.readAt (Elt F) (Memref.whole cc0_stg1_0).view (Rect.unit (s := S512x4096) ![0, 2560] S512x512.size inb_S512x4096_S512x512_0_2560).toLoadRect w
def wL6 (w : CW F) : Vec F S512x512 .f32 :=
  View.readAt (Elt F) (Memref.whole cc0_stg1_0).view (Rect.unit (s := S512x4096) ![0, 3072] S512x512.size inb_S512x4096_S512x512_0_3072).toLoadRect w
def wL7 (w : CW F) : Vec F S512x512 .f32 :=
  View.readAt (Elt F) (Memref.whole cc0_stg1_0).view (Rect.unit (s := S512x4096) ![0, 3584] S512x512.size inb_S512x4096_S512x512_0_3584).toLoadRect w
def rbL0 (rb : CR F) : Vec F S1x256x512 .bf16 :=
  View.readAt (Elt F) (Memref.whole cc0_scratch1).view (Rect.unit (s := S8x256x512) ![0, 0, 0] S1x256x512.size inb_S8x256x512_S1x256x512_0_0_0).toLoadRect rb
def rbL1 (rb : CR F) : Vec F S1x256x512 .bf16 :=
  View.readAt (Elt F) (Memref.whole cc0_scratch1).view (Rect.unit (s := S8x256x512) ![1, 0, 0] S1x256x512.size inb_S8x256x512_S1x256x512_1_0_0).toLoadRect rb
def rbL2 (rb : CR F) : Vec F S1x256x512 .bf16 :=
  View.readAt (Elt F) (Memref.whole cc0_scratch1).view (Rect.unit (s := S8x256x512) ![2, 0, 0] S1x256x512.size inb_S8x256x512_S1x256x512_2_0_0).toLoadRect rb
def rbL3 (rb : CR F) : Vec F S1x256x512 .bf16 :=
  View.readAt (Elt F) (Memref.whole cc0_scratch1).view (Rect.unit (s := S8x256x512) ![3, 0, 0] S1x256x512.size inb_S8x256x512_S1x256x512_3_0_0).toLoadRect rb
def rbL4 (rb : CR F) : Vec F S1x256x512 .bf16 :=
  View.readAt (Elt F) (Memref.whole cc0_scratch1).view (Rect.unit (s := S8x256x512) ![4, 0, 0] S1x256x512.size inb_S8x256x512_S1x256x512_4_0_0).toLoadRect rb
def rbL5 (rb : CR F) : Vec F S1x256x512 .bf16 :=
  View.readAt (Elt F) (Memref.whole cc0_scratch1).view (Rect.unit (s := S8x256x512) ![5, 0, 0] S1x256x512.size inb_S8x256x512_S1x256x512_5_0_0).toLoadRect rb
def rbL6 (rb : CR F) : Vec F S1x256x512 .bf16 :=
  View.readAt (Elt F) (Memref.whole cc0_scratch1).view (Rect.unit (s := S8x256x512) ![6, 0, 0] S1x256x512.size inb_S8x256x512_S1x256x512_6_0_0).toLoadRect rb
def rbL7 (rb : CR F) : Vec F S1x256x512 .bf16 :=
  View.readAt (Elt F) (Memref.whole cc0_scratch1).view (Rect.unit (s := S8x256x512) ![7, 0, 0] S1x256x512.size inb_S8x256x512_S1x256x512_7_0_0).toLoadRect rb
def srL (sr : CT F) : Vec F S256x1 .bf16 :=
  View.readAt (Elt F) (Memref.whole cc0_scratch3).view (Rect.unit (s := S256x1) ![0, 0] S256x1.size inb_S256x1_S256x1_0_0).toLoadRect sr

/-! ## The chunks, the row sums, the reciprocal -/

def xb (x : CX F) : FVec F S256x512 .bf16 := k0_pay1 (xL x)
def E0 (x : CX F) (w : CW F) : FVec F S1x256x512 .bf16 := k0_pay4 (xL x) (wL0 w)
def E1 (x : CX F) (w : CW F) : FVec F S1x256x512 .bf16 := k0_pay7 (xb x) (wL1 w)
def E2 (x : CX F) (w : CW F) : FVec F S1x256x512 .bf16 := k0_pay10 (xb x) (wL2 w)
def E3 (x : CX F) (w : CW F) : FVec F S1x256x512 .bf16 := k0_pay13 (xb x) (wL3 w)
def E4 (x : CX F) (w : CW F) : FVec F S1x256x512 .bf16 := k0_pay16 (k0_pay14 (xb x) (wL4 w))
def E5 (x : CX F) (w : CW F) : FVec F S1x256x512 .bf16 := k0_pay19 (xb x) (wL5 w)
def E6 (x : CX F) (w : CW F) : FVec F S1x256x512 .bf16 := k0_pay21 (xb x) (wL6 w)
def E7 (x : CX F) (w : CW F) : FVec F S1x256x512 .bf16 := k0_pay25 (k0_pay24 (xb x) (wL7 w))

/-- The row sums of the device's eight chunks, accumulated chunk by chunk. -/
def rowS (x : CX F) (w : CW F) : FVec F S256x1 .f32 :=
  k0_pay23 (xb x) (k0_pay18 (xb x) (k0_pay12 (xb x) (k0_pay9 (xb x) (k0_pay6 (xb x) (k0_pay3 (xL x) (wL0 w)) (wL1 w)) (wL2 w)) (wL3 w))
    (k0_pay15 (xb x) (wL4 w)) (wL5 w)) (wL6 w) (wL7 w)
/-- The row sums as sent. -/
def rowSent (x : CX F) (w : CW F) : FVec F S256x1 .bf16 := k0_pay26 (rowS x w)
/-- One over the device's row sums plus the partner's. -/
def recip (x : CX F) (w : CW F) (sr : CT F) : FVec F S256x1 .f32 := k0_pay27 (rowS x w) (srL sr)

/-! ## What the buffers end up holding -/

abbrev accB (q : ℕ) (h : ∀ a, (![q, 0, 0] : Fin 3 → Nat) a + S1x256x512.size a ≤ S8x256x512.size a) :=
  (Memref.whole cc0_scratch0).access (Rect.unit (s := S8x256x512) ![q, 0, 0] S1x256x512.size h)

/-- The send buffer once all eight chunks are stored (over arbitrary prior contents `f`). -/
def sbAll (f : CB F) (x : CX F) (w : CW F) : CB F :=
  View.write (Elt F) (accB 7 (inbC 7)) (View.write (Elt F) (accB 6 (inbC 6)) (View.write (Elt F) (accB 5 (inbC 5)) (View.write (Elt F) (accB 4 (inbC 4))
    (View.write (Elt F) (accB 3 (inbC 3)) (View.write (Elt F) (accB 2 (inbC 2)) (View.write (Elt F) (accB 1 (inbC 1)) (View.write (Elt F) (accB 0 (inbC 0)) f
      (E0 x w) Finset.univ) (E1 x w) Finset.univ) (E2 x w) Finset.univ) (E3 x w) Finset.univ) (E4 x w) Finset.univ) (E5 x w) Finset.univ) (E6 x w) Finset.univ) (E7 x w) Finset.univ

/-- The row-sum send buffer once stored. -/
def ssAll (f : CS F) (x : CX F) (w : CW F) : CS F :=
  (Memref.whole cc0_scratch2).view.writes (Elt F) f [⟨Rect.unit (s := S256x1) ![0, 0] S256x1.size inb_S256x1_S256x1_0_0, rowSent x w⟩]

/-- The sixteen pieces of the result, last store first. -/
def outPieces (c : Dev nD) (x : CX F) (w : CW F) (rb : CR F) (sr : CT F) : List (View.Piece (Elt F) S256x8192 .bf16) :=
  [⟨Rect.unit (s := S256x8192) (k0_off2 c 3584#32) S256x512.size (k0_off2_inb c 7), k0_pay45 (recip x w sr) (rbL7 rb)⟩,
   ⟨Rect.unit (s := S256x8192) (k0_off2 c 3072#32) S256x512.size (k0_off2_inb c 6), k0_pay44 (recip x w sr) (rbL6 rb)⟩,
   ⟨Rect.unit (s := S256x8192) (k0_off2 c 2560#32) S256x512.size (k0_off2_inb c 5), k0_pay43 (recip x w sr) (rbL5 rb)⟩,
   ⟨Rect.unit (s := S256x8192) (k0_off2 c 2048#32) S256x512.size (k0_off2_inb c 4), k0_pay42 (recip x w sr) (rbL4 rb)⟩,
   ⟨Rect.unit (s := S256x8192) (k0_off2 c 1536#32) S256x512.size (k0_off2_inb c 3), k0_pay41 (recip x w sr) (rbL3 rb)⟩,
   ⟨Rect.unit (s := S256x8192) (k0_off2 c 1024#32) S256x512.size (k0_off2_inb c 2), k0_pay40 (recip x w sr) (rbL2 rb)⟩,
   ⟨Rect.unit (s := S256x8192) (k0_off2 c 512#32) S256x512.size (k0_off2_inb c 1), k0_pay39 (recip x w sr) (rbL1 rb)⟩,
   ⟨Rect.unit (s := S256x8192) (k0_off2 c 0#32) S256x512.size (k0_off2_inb c 0), k0_pay38 (recip x w sr) (rbL0 rb)⟩,
   ⟨Rect.unit (s := S256x8192) (k0_off1 c 3584#32) S256x512.size (k0_off1_inb c 7), k0_pay37 (recip x w sr) (E7 x w)⟩,
   ⟨Rect.unit (s := S256x8192) (k0_off1 c 3072#32) S256x512.size (k0_off1_inb c 6), k0_pay36 (recip x w sr) (E6 x w)⟩,
   ⟨Rect.unit (s := S256x8192) (k0_off1 c 2560#32) S256x512.size (k0_off1_inb c 5), k0_pay35 (recip x w sr) (k0_pay34 (E5 x w))⟩,
   ⟨Rect.unit (s := S256x8192) (k0_off1 c 2048#32) S256x512.size (k0_off1_inb c 4), k0_pay33 (recip x w sr) (E4 x w)⟩,
   ⟨Rect.unit (s := S256x8192) (k0_off1 c 1536#32) S256x512.size (k0_off1_inb c 3), k0_pay32 (recip x w sr) (E3 x w)⟩,
   ⟨Rect.unit (s := S256x8192) (k0_off1 c 1024#32) S256x512.size (k0_off1_inb c 2), k0_pay31 (recip x w sr) (E2 x w)⟩,
   ⟨Rect.unit (s := S256x8192) (k0_off1 c 512#32) S256x512.size (k0_off1_inb c 1), k0_pay30 (recip x w sr) (k0_pay29 (E1 x w))⟩,
   ⟨Rect.unit (s := S256x8192) (k0_off1 c 0#32) S256x512.size (k0_off1_inb c 0), k0_pay28 (rowS x w) (srL sr) (E0 x w)⟩]

/-- The result's staging buffer when the body ends (over arbitrary prior contents `f`). -/
def outAll (f : CO F) (c : Dev nD) (x : CX F) (w : CW F) (rb : CR F) (sr : CT F) : CO F :=
  (Memref.whole cc0_stg2_0).view.writes (Elt F) f (outPieces c x w rb sr)

end Cert.Kernel.Dist

end
-- ==== Proof.Bits.ViewFacts.lean ====
/-
  What the exchanged buffers hold, element by element, whatever they held before.

  The eight chunks of the send buffer are the unit rectangles [q, q+1) × 256 × 512 of an [8, 256, 512]
  buffer: pairwise disjoint (they differ on the leading axis).  So an element of chunk q, after all eight
  chunk stores, holds what chunk q's store wrote — whatever the buffer held before and whatever the other
  seven stores wrote; and a copy of chunk q of one buffer into chunk q of another of the same shape lands
  the same values at the same indices.
-/
import proofs.«900347_g7700000000000348_dist_arsfmx_v7x_xyz2x4x4_x_t256_d512_v4096_bf16_1_alg».proof.Proof.Bits.Terms
import Idealize.ShloMosaic.Lib.Pipeline.Value

noncomputable section

namespace Cert.Kernel.Dist

open Cert.Kernel Cert.Kernel.Gen
open Idealize.ShloMosaic
open Idealize.ShloMosaic.TcCoe

variable {F : FTy → Type} [FloatOps F]

/-! ## One unmasked write through a view -/

section General
variable {κ : Idealize.ShloMosaic.Kind} {sp : Space} {S : Shape} {e : EltTy} {Val : EltTy → Type}

/-- Under the view, an unmasked write leaves the payload whatever was there. -/
theorem write_univ_congr_of_mem (v : View sig κ sp S e) (f f' : v.ty.Contents Val) (w : S.Idx → Val e)
    {i : v.ty.Idx} (hi : i ∈ v.set) : v.write Val f w Finset.univ i = v.write Val f' w Finset.univ i := by
  obtain ⟨y, rfl⟩ := View.exists_emb_of_mem_set v hi
  rw [View.write_emb_of_mem _ _ (Finset.mem_univ y), View.write_emb_of_mem _ _ (Finset.mem_univ y)]

/-- Off the view, it leaves what was there. -/
theorem write_univ_of_not_mem (v : View sig κ sp S e) (f : v.ty.Contents Val) (w : S.Idx → Val e)
    {i : v.ty.Idx} (hi : i ∉ v.set) : v.write Val f w Finset.univ i = f i :=
  View.write_of_not_mem f w Finset.univ (by rwa [View.setOn_univ])

end General

/-! ## The chunks' element sets -/

/-- The rectangle of chunk q. -/
abbrev chunkRect (q : ℕ) (h : ∀ a, (![q, 0, 0] : Fin 3 → Nat) a + S1x256x512.size a ≤ S8x256x512.size a) : Rect S8x256x512 :=
  Rect.unit (s := S8x256x512) ![q, 0, 0] S1x256x512.size h

theorem accB_set (q : ℕ) (h : ∀ a, (![q, 0, 0] : Fin 3 → Nat) a + S1x256x512.size a ≤ S8x256x512.size a) :
    (accB q h).set = (chunkRect q h).set := View.set_slice_whole _ _

theorem chunkN_sb_set (q : ℕ) (h : ∀ a, (![q, 0, 0] : Fin 3 → Nat) a + S1x256x512.size a ≤ S8x256x512.size a) :
    (chunkN sbM q h).view.set = (chunkRect q h).set := by
  show (((View.whole cc0_scratch0).slice (chunkRect q h)).reshape S256x512 _).set = _
  rw [View.set_reshape, View.set_slice_whole]

theorem chunkN_rb_set (q : ℕ) (h : ∀ a, (![q, 0, 0] : Fin 3 → Nat) a + S1x256x512.size a ≤ S8x256x512.size a) :
    (chunkN rbM q h).view.set = (chunkRect q h).set := by
  show (((View.whole cc0_scratch1).slice (chunkRect q h)).reshape S256x512 _).set = _
  rw [View.set_reshape, View.set_slice_whole]

/-- Different chunks share no element: they differ on the leading axis. -/
theorem chunkRect_not_mem (p q : ℕ) (hp : ∀ a, (![p, 0, 0] : Fin 3 → Nat) a + S1x256x512.size a ≤ S8x256x512.size a)
    (hq : ∀ a, (![q, 0, 0] : Fin 3 → Nat) a + S1x256x512.size a ≤ S8x256x512.size a) (hne : p ≠ q)
    {i : S8x256x512.Idx} (hi : i ∈ (chunkRect q hq).set) : i ∉ (chunkRect p hp).set := by
  have hd : Disjoint (chunkRect q hq).set (chunkRect p hp).set := by
    refine Rect.unit_disjoint (0 : Fin 3) ?_
    show q + 1 ≤ p ∨ p + 1 ≤ q
    omega
  exact Finset.disjoint_left.mp hd hi

/-- A store to another chunk leaves chunk q's elements alone. -/
theorem peel (p q : ℕ) (hp : ∀ a, (![p, 0, 0] : Fin 3 → Nat) a + S1x256x512.size a ≤ S8x256x512.size a)
    (hq : ∀ a, (![q, 0, 0] : Fin 3 → Nat) a + S1x256x512.size a ≤ S8x256x512.size a) (hne : p ≠ q)
    (inner : CB F) (wp : FVec F S1x256x512 .bf16) {i : S8x256x512.Idx} (hi : i ∈ (chunkRect q hq).set) :
    View.write (Elt F) (accB p hp) inner wp Finset.univ i = inner i :=
  write_univ_of_not_mem (accB p hp) inner wp (by rw [accB_set]; exact chunkRect_not_mem p q hp hq hne hi)

/-- The store to chunk q itself leaves its payload there, whatever was under it. -/
theorem same (q : ℕ) (hq : ∀ a, (![q, 0, 0] : Fin 3 → Nat) a + S1x256x512.size a ≤ S8x256x512.size a)
    (f f' : CB F) (wq : FVec F S1x256x512 .bf16) {i : S8x256x512.Idx} (hi : i ∈ (chunkRect q hq).set) :
    View.write (Elt F) (accB q hq) f wq Finset.univ i = View.write (Elt F) (accB q hq) f' wq Finset.univ i :=
  write_univ_congr_of_mem (accB q hq) f f' wq (by rw [accB_set]; exact hi)

/-! ## (FA) A chunk's elements after all eight stores -/

theorem FA0 (f g : CB F) (x : CX F) (w : CW F) : ∀ i ∈ (chunkN sbM 0 (inbC 0)).view.set,
    View.write (Elt F) (accB 0 (inbC 0)) f (E0 x w) Finset.univ i = sbAll g x w i := by
  intro i hi
  rw [chunkN_sb_set] at hi
  unfold sbAll
  rw [peel 7 0 (inbC 7) (inbC 0) (by decide) _ _ hi,
    peel 6 0 (inbC 6) (inbC 0) (by decide) _ _ hi,
    peel 5 0 (inbC 5) (inbC 0) (by decide) _ _ hi,
    peel 4 0 (inbC 4) (inbC 0) (by decide) _ _ hi,
    peel 3 0 (inbC 3) (inbC 0) (by decide) _ _ hi,
    peel 2 0 (inbC 2) (inbC 0) (by decide) _ _ hi,
    peel 1 0 (inbC 1) (inbC 0) (by decide) _ _ hi]
  exact same 0 (inbC 0) _ _ _ hi

theorem FA1 (f g : CB F) (x : CX F) (w : CW F) : ∀ i ∈ (chunkN sbM 1 (inbC 1)).view.set,
    View.write (Elt F) (accB 1 (inbC 1)) f (E1 x w) Finset.univ i = sbAll g x w i := by
  intro i hi
  rw [chunkN_sb_set] at hi
  unfold sbAll
  rw [peel 7 1 (inbC 7) (inbC 1) (by decide) _ _ hi,
    peel 6 1 (inbC 6) (inbC 1) (by decide) _ _ hi,
    peel 5 1 (inbC 5) (inbC 1) (by decide) _ _ hi,
    peel 4 1 (inbC 4) (inbC 1) (by decide) _ _ hi,
    peel 3 1 (inbC 3) (inbC 1) (by decide) _ _ hi,
    peel 2 1 (inbC 2) (inbC 1) (by decide) _ _ hi]
  exact same 1 (inbC 1) _ _ _ hi

theorem FA2 (f g : CB F) (x : CX F) (w : CW F) : ∀ i ∈ (chunkN sbM 2 (inbC 2)).view.set,
    View.write (Elt F) (accB 2 (inbC 2)) f (E2 x w) Finset.univ i = sbAll g x w i := by
  intro i hi
  rw [chunkN_sb_set] at hi
  unfold sbAll
  rw [peel 7 2 (inbC 7) (inbC 2) (by decide) _ _ hi,
    peel 6 2 (inbC 6) (inbC 2) (by decide) _ _ hi,
    peel 5 2 (inbC 5) (inbC 2) (by decide) _ _ hi,
    peel 4 2 (inbC 4) (inbC 2) (by decide) _ _ hi,
    peel 3 2 (inbC 3) (inbC 2) (by decide) _ _ hi]
  exact same 2 (inbC 2) _ _ _ hi

theorem FA3 (f g : CB F) (x : CX F) (w : CW F) : ∀ i ∈ (chunkN sbM 3 (inbC 3)).view.set,
    View.write (Elt F) (accB 3 (inbC 3)) f (E3 x w) Finset.univ i = sbAll g x w i := by
  intro i hi
  rw [chunkN_sb_set] at hi
  unfold sbAll
  rw [peel 7 3 (inbC 7) (inbC 3) (by decide) _ _ hi,
    peel 6 3 (inbC 6) (inbC 3) (by decide) _ _ hi,
    peel 5 3 (inbC 5) (inbC 3) (by decide) _ _ hi,
    peel 4 3 (inbC 4) (inbC 3) (by decide) _ _ hi]
  exact same 3 (inbC 3) _ _ _ hi

theorem FA4 (f g : CB F) (x : CX F) (w : CW F) : ∀ i ∈ (chunkN sbM 4 (inbC 4)).view.set,
    View.write (Elt F) (accB 4 (inbC 4)) f (E4 x w) Finset.univ i = sbAll g x w i := by
  intro i hi
  rw [chunkN_sb_set] at hi
  unfold sbAll
  rw [peel 7 4 (inbC 7) (inbC 4) (by decide) _ _ hi,
    peel 6 4 (inbC 6) (inbC 4) (by decide) _ _ hi,
    peel 5 4 (inbC 5) (inbC 4) (by decide) _ _ hi]
  exact same 4 (inbC 4) _ _ _ hi

theorem FA5 (f g : CB F) (x : CX F) (w : CW F) : ∀ i ∈ (chunkN sbM 5 (inbC 5)).view.set,
    View.write (Elt F) (accB 5 (inbC 5)) f (E5 x w) Finset.univ i = sbAll g x w i := by
  intro i hi
  rw [chunkN_sb_set] at hi
  unfold sbAll
  rw [peel 7 5 (inbC 7) (inbC 5) (by decide) _ _ hi,
    peel 6 5 (inbC 6) (inbC 5) (by decide) _ _ hi]
  exact same 5 (inbC 5) _ _ _ hi

theorem FA6 (f g : CB F) (x : CX F) (w : CW F) : ∀ i ∈ (chunkN sbM 6 (inbC 6)).view.set,
    View.write (Elt F) (accB 6 (inbC 6)) f (E6 x w) Finset.univ i = sbAll g x w i := by
  intro i hi
  rw [chunkN_sb_set] at hi
  unfold sbAll
  rw [peel 7 6 (inbC 7) (inbC 6) (by decide) _ _ hi]
  exact same 6 (inbC 6) _ _ _ hi

theorem FA7 (f g : CB F) (x : CX F) (w : CW F) : ∀ i ∈ (chunkN sbM 7 (inbC 7)).view.set,
    View.write (Elt F) (accB 7 (inbC 7)) f (E7 x w) Finset.univ i = sbAll g x w i := by
  intro i hi
  rw [chunkN_sb_set] at hi
  unfold sbAll
  exact same 7 (inbC 7) _ _ _ hi

/-! ## (FB) A copy of chunk q into the other buffer's chunk q -/

theorem FB_of (q : ℕ) (h : ∀ a, (![q, 0, 0] : Fin 3 → Nat) a + S1x256x512.size a ≤ S8x256x512.size a)
    (fd : CR F) (fs G : CB F) (hfs : ∀ i ∈ (chunkN sbM q h).view.set, fs i = G i) :
    ∀ i ∈ (chunkN rbM q h).view.set,
      ((chunkN rbM q h).view.write (Elt F) fd ((chunkN sbM q h).view.read (Elt F) fs) Finset.univ) i = (G : CR F) i := by
  intro i hi
  obtain ⟨y, rfl⟩ := View.exists_emb_of_mem_set _ hi
  rw [View.write_emb_of_mem _ _ (Finset.mem_univ y), View.read_apply,
    hfs ((chunkN sbM q h).view.emb y) (View.emb_mem_set _ y)]
  rw [cast_cast, cast_eq]
  rfl

/-- (FB) in the form the exchange uses: the source chunk holds what all eight stores left. -/
theorem FB (q : ℕ) (h : ∀ a, (![q, 0, 0] : Fin 3 → Nat) a + S1x256x512.size a ≤ S8x256x512.size a)
    (fd : CR F) (fs g : CB F) (x : CX F) (w : CW F)
    (hfs : ∀ i ∈ (chunkN sbM q h).view.set, fs i = sbAll g x w i) :
    ∀ i ∈ (chunkN rbM q h).view.set,
      ((chunkN rbM q h).view.write (Elt F) fd ((chunkN sbM q h).view.read (Elt F) fs) Finset.univ) i
        = (sbAll g x w : CR F) i :=
  FB_of q h fd fs (sbAll g x w) hfs

end Cert.Kernel.Dist

end
-- ==== Proof.Bits.ViewCover.lean ====
/-
  Buffers filled whole: what the stores leave does not depend on what was there.

  The row-sum send buffer is stored whole by one store, and copied whole into the partner's row-sum receive
  buffer.  The result's staging buffer [256, 8192] is stored in sixteen pieces of 512 columns: the device's own
  eight chunks from column 4096 · (c / 16) and the received eight from column 4096 − 4096 · (c / 16); for either
  value of c / 16 the sixteen column offsets are 0, 512, …, 7680, so the pieces cover the buffer, and a covering
  list of stores leaves contents that do not depend on the prior contents.
-/
import proofs.«900347_g7700000000000348_dist_arsfmx_v7x_xyz2x4x4_x_t256_d512_v4096_bf16_1_alg».proof.Proof.Bits.ViewFacts
import Idealize.ShloMosaic.Lib.Writes
import Idealize.ShloMosaic.Lib.ValueIdx

noncomputable section

namespace Cert.Kernel.Dist

open Cert.Kernel Cert.Kernel.Gen
open Idealize.ShloMosaic
open Idealize.ShloMosaic.TcCoe

variable {F : FTy → Type} [FloatOps F]

/-- Through a whole buffer, a covering list of stores leaves contents that do not depend on the prior contents. -/
theorem writes_whole_congr {Val : EltTy → Type} (b : Ref sig .tc) (f g : b.ty.Contents Val)
    (L : List (View.Piece Val b.ty.shape b.ty.elt)) (h : ∀ y, ∃ p ∈ L, y ∈ p.1.set) :
    (View.whole b).writes Val f L = (View.whole b).writes Val g L := by
  have e := View.read_writes_of_cover (View.whole b) f (View.whole b) g L h
  rwa [View.read_whole, View.read_whole] at e

/-! ## (FS), (FT): the row sums' buffers -/

theorem ss_cover (x : CX F) (w : CW F) : ∀ y : S256x1.Idx,
    ∃ p ∈ ([⟨Rect.unit (s := S256x1) ![0, 0] S256x1.size inb_S256x1_S256x1_0_0, rowSent x w⟩] : List (View.Piece (Elt F) S256x1 .bf16)),
      y ∈ p.1.set :=
  fun y => ⟨_, List.mem_singleton_self _, View.mem_set_unit_zero (by funext a; match a with | ⟨0, _⟩ => rfl | ⟨1, _⟩ => rfl) inb_S256x1_S256x1_0_0 y⟩

/-- (FS) The row-sum send buffer after its one whole store, over any prior contents. -/
theorem FS (f g : CS F) (x : CX F) (w : CW F) : ssAll f x w = ssAll g x w := by
  unfold ssAll
  exact writes_whole_congr cc0_scratch2 f g _ (ss_cover x w)

/-- (FT), general: a whole copy of one row-sum buffer into the other lands the source's contents. -/
theorem FT_of (fd : CT F) (fs G : CS F) (hfs : ∀ i, fs i = G i) :
    ∀ i ∈ (Memref.whole cc0_scratch3).view.set,
      ((Memref.whole cc0_scratch3).view.write (Elt F) fd ((Memref.whole cc0_scratch2).view.read (Elt F) fs) Finset.univ) i
        = (G : CT F) i := by
  intro i _
  show (View.whole cc0_scratch3).write (Elt F) fd ((View.whole cc0_scratch2).read (Elt F) fs) Finset.univ i = _
  rw [View.write_whole_univ]
  exact hfs i

/-- (FT) -/
theorem FT (fd : CT F) (fs g : CS F) (x : CX F) (w : CW F) (hfs : ∀ i, fs i = ssAll g x w i) :
    ∀ i ∈ (Memref.whole cc0_scratch3).view.set,
      ((Memref.whole cc0_scratch3).view.write (Elt F) fd ((Memref.whole cc0_scratch2).view.read (Elt F) fs) Finset.univ) i
        = (ssAll g x w : CT F) i :=
  FT_of fd fs (ssAll g x w) hfs

/-! ## (FO): the result's sixteen pieces cover it -/

theorem out_cover (c : Dev nD) (x : CX F) (w : CW F) (rb : CR F) (sr : CT F) :
    ∀ y : S256x8192.Idx, ∃ p ∈ outPieces c x w rb sr, y ∈ p.1.set := by
  intro y
  obtain ⟨r, j, rfl⟩ : ∃ (r : Fin 256) (j : Fin 8192), y = ValueIdx.ix2 r j := ⟨y 0, y 1, ValueIdx.eq_ix2 y⟩
  have hc : c.val < 32 := c.isLt
  have hj : j.val < 8192 := j.isLt
  have hr : r.val < 256 := r.isLt
  have key : ∀ (off : Fin 2 → ℕ) (inb : ∀ a, off a + S256x512.size a ≤ S256x8192.size a) (o : ℕ), off = ![0, o] →
      o ≤ j.val → j.val < o + 512 → ValueIdx.ix2 r j ∈ (Rect.unit (s := S256x8192) off S256x512.size inb).set := by
    intro off inb o e h1 h2
    subst e
    refine Rect.mem_set_unit.mpr fun a => ?_
    match a with
    | ⟨0, _⟩ => exact ⟨Nat.zero_le _, by show r.val < 0 + 256; omega⟩
    | ⟨1, _⟩ => exact ⟨h1, h2⟩
  have o1_0 : k0_off1 c 0#32 = ![0, 4096 * (c.val / 16) + 0] := k0_off1_eq c 0
  have o2_0 : k0_off2 c 0#32 = ![0, (0 + 4096) - 4096 * (c.val / 16)] := k0_off2_eq c 0
  have o1_1 : k0_off1 c 512#32 = ![0, 4096 * (c.val / 16) + 512] := k0_off1_eq c 1
  have o2_1 : k0_off2 c 512#32 = ![0, (512 + 4096) - 4096 * (c.val / 16)] := k0_off2_eq c 1
  have o1_2 : k0_off1 c 1024#32 = ![0, 4096 * (c.val / 16) + 1024] := k0_off1_eq c 2
  have o2_2 : k0_off2 c 1024#32 = ![0, (1024 + 4096) - 4096 * (c.val / 16)] := k0_off2_eq c 2
  have o1_3 : k0_off1 c 1536#32 = ![0, 4096 * (c.val / 16) + 1536] := k0_off1_eq c 3
  have o2_3 : k0_off2 c 1536#32 = ![0, (1536 + 4096) - 4096 * (c.val / 16)] := k0_off2_eq c 3
  have o1_4 : k0_off1 c 2048#32 = ![0, 4096 * (c.val / 16) + 2048] := k0_off1_eq c 4
  have o2_4 : k0_off2 c 2048#32 = ![0, (2048 + 4096) - 4096 * (c.val / 16)] := k0_off2_eq c 4
  have o1_5 : k0_off1 c 2560#32 = ![0, 4096 * (c.val / 16) + 2560] := k0_off1_eq c 5
  have o2_5 : k0_off2 c 2560#32 = ![0, (2560 + 4096) - 4096 * (c.val / 16)] := k0_off2_eq c 5
  have o1_6 : k0_off1 c 3072#32 = ![0, 4096 * (c.val / 16) + 3072] := k0_off1_eq c 6
  have o2_6 : k0_off2 c 3072#32 = ![0, (3072 + 4096) - 4096 * (c.val / 16)] := k0_off2_eq c 6
  have o1_7 : k0_off1 c 3584#32 = ![0, 4096 * (c.val / 16) + 3584] := k0_off1_eq c 7
  have o2_7 : k0_off2 c 3584#32 = ![0, (3584 + 4096) - 4096 * (c.val / 16)] := k0_off2_eq c 7
  unfold outPieces
  by_cases hb : c.val / 16 = 0
  · rw [hb] at o1_0 o2_0 o1_1 o2_1 o1_2 o2_2 o1_3 o2_3 o1_4 o2_4 o1_5 o2_5 o1_6 o2_6 o1_7 o2_7
    by_cases h0 : j.val < 512
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩
      exact key _ (k0_off1_inb c 0) _ o1_0 (by omega) (by omega)
    by_cases h1 : j.val < 1024
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩
      exact key _ (k0_off1_inb c 1) _ o1_1 (by omega) (by omega)
    by_cases h2 : j.val < 1536
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩
      exact key _ (k0_off1_inb c 2) _ o1_2 (by omega) (by omega)
    by_cases h3 : j.val < 2048
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩
      exact key _ (k0_off1_inb c 3) _ o1_3 (by omega) (by omega)
    by_cases h4 : j.val < 2560
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
      exact key _ (k0_off1_inb c 4) _ o1_4 (by omega) (by omega)
    by_cases h5 : j.val < 3072
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
      exact key _ (k0_off1_inb c 5) _ o1_5 (by omega) (by omega)
    by_cases h6 : j.val < 3584
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
      exact key _ (k0_off1_inb c 6) _ o1_6 (by omega) (by omega)
    by_cases h7 : j.val < 4096
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
      exact key _ (k0_off1_inb c 7) _ o1_7 (by omega) (by omega)
    by_cases h8 : j.val < 4608
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact key _ (k0_off2_inb c 0) _ o2_0 (by omega) (by omega)
    by_cases h9 : j.val < 5120
    · refine ⟨_, (List.mem_cons_of_mem _ (List.mem_cons_of_mem _ (List.mem_cons_of_mem _ (List.mem_cons_of_mem _ (List.mem_cons_of_mem _ (List.mem_cons_of_mem _ List.mem_cons_self)))))), ?_⟩
      exact key _ (k0_off2_inb c 1) _ o2_1 (by omega) (by omega)
    by_cases h10 : j.val < 5632
    · refine ⟨_, (List.mem_cons_of_mem _ (List.mem_cons_of_mem _ (List.mem_cons_of_mem _ (List.mem_cons_of_mem _ (List.mem_cons_of_mem _ List.mem_cons_self))))), ?_⟩
      exact key _ (k0_off2_inb c 2) _ o2_2 (by omega) (by omega)
    by_cases h11 : j.val < 6144
    · refine ⟨_, (List.mem_cons_of_mem _ (List.mem_cons_of_mem _ (List.mem_cons_of_mem _ (List.mem_cons_of_mem _ List.mem_cons_self)))), ?_⟩
      exact key _ (k0_off2_inb c 3) _ o2_3 (by omega) (by omega)
    by_cases h12 : j.val < 6656
    · refine ⟨_, (List.mem_cons_of_mem _ (List.mem_cons_of_mem _ (List.mem_cons_of_mem _ List.mem_cons_self))), ?_⟩
      exact key _ (k0_off2_inb c 4) _ o2_4 (by omega) (by omega)
    by_cases h13 : j.val < 7168
    · refine ⟨_, (List.mem_cons_of_mem _ (List.mem_cons_of_mem _ List.mem_cons_self)), ?_⟩
      exact key _ (k0_off2_inb c 5) _ o2_5 (by omega) (by omega)
    by_cases h14 : j.val < 7680
    · refine ⟨_, (List.mem_cons_of_mem _ List.mem_cons_self), ?_⟩
      exact key _ (k0_off2_inb c 6) _ o2_6 (by omega) (by omega)
    refine ⟨_, List.mem_cons_self, ?_⟩
    exact key _ (k0_off2_inb c 7) _ o2_7 (by omega) (by omega)
  · have hb1 : c.val / 16 = 1 := by omega
    rw [hb1] at o1_0 o2_0 o1_1 o2_1 o1_2 o2_2 o1_3 o2_3 o1_4 o2_4 o1_5 o2_5 o1_6 o2_6 o1_7 o2_7
    by_cases h0 : j.val < 512
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact key _ (k0_off2_inb c 0) _ o2_0 (by omega) (by omega)
    by_cases h1 : j.val < 1024
    · refine ⟨_, (List.mem_cons_of_mem _ (List.mem_cons_of_mem _ (List.mem_cons_of_mem _ (List.mem_cons_of_mem _ (List.mem_cons_of_mem _ (List.mem_cons_of_mem _ List.mem_cons_self)))))), ?_⟩
      exact key _ (k0_off2_inb c 1) _ o2_1 (by omega) (by omega)
    by_cases h2 : j.val < 1536
    · refine ⟨_, (List.mem_cons_of_mem _ (List.mem_cons_of_mem _ (List.mem_cons_of_mem _ (List.mem_cons_of_mem _ (List.mem_cons_of_mem _ List.mem_cons_self))))), ?_⟩
      exact key _ (k0_off2_inb c 2) _ o2_2 (by omega) (by omega)
    by_cases h3 : j.val < 2048
    · refine ⟨_, (List.mem_cons_of_mem _ (List.mem_cons_of_mem _ (List.mem_cons_of_mem _ (List.mem_cons_of_mem _ List.mem_cons_self)))), ?_⟩
      exact key _ (k0_off2_inb c 3) _ o2_3 (by omega) (by omega)
    by_cases h4 : j.val < 2560
    · refine ⟨_, (List.mem_cons_of_mem _ (List.mem_cons_of_mem _ (List.mem_cons_of_mem _ List.mem_cons_self))), ?_⟩
      exact key _ (k0_off2_inb c 4) _ o2_4 (by omega) (by omega)
    by_cases h5 : j.val < 3072
    · refine ⟨_, (List.mem_cons_of_mem _ (List.mem_cons_of_mem _ List.mem_cons_self)), ?_⟩
      exact key _ (k0_off2_inb c 5) _ o2_5 (by omega) (by omega)
    by_cases h6 : j.val < 3584
    · refine ⟨_, (List.mem_cons_of_mem _ List.mem_cons_self), ?_⟩
      exact key _ (k0_off2_inb c 6) _ o2_6 (by omega) (by omega)
    by_cases h7 : j.val < 4096
    · refine ⟨_, List.mem_cons_self, ?_⟩
      exact key _ (k0_off2_inb c 7) _ o2_7 (by omega) (by omega)
    by_cases h8 : j.val < 4608
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩
      exact key _ (k0_off1_inb c 0) _ o1_0 (by omega) (by omega)
    by_cases h9 : j.val < 5120
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩
      exact key _ (k0_off1_inb c 1) _ o1_1 (by omega) (by omega)
    by_cases h10 : j.val < 5632
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩
      exact key _ (k0_off1_inb c 2) _ o1_2 (by omega) (by omega)
    by_cases h11 : j.val < 6144
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩
      exact key _ (k0_off1_inb c 3) _ o1_3 (by omega) (by omega)
    by_cases h12 : j.val < 6656
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
      exact key _ (k0_off1_inb c 4) _ o1_4 (by omega) (by omega)
    by_cases h13 : j.val < 7168
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
      exact key _ (k0_off1_inb c 5) _ o1_5 (by omega) (by omega)
    by_cases h14 : j.val < 7680
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
      exact key _ (k0_off1_inb c 6) _ o1_6 (by omega) (by omega)
    refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
    exact key _ (k0_off1_inb c 7) _ o1_7 (by omega) (by omega)

/-- (FO) The result's staging buffer after the sixteen stores, over any prior contents. -/
theorem FO (f g : CO F) (c : Dev nD) (x : CX F) (w : CW F) (rb : CR F) (sr : CT F) :
    outAll f c x w rb sr = outAll g c x w rb sr := by
  unfold outAll
  exact writes_whole_congr cc0_stg2_0 f g _ (out_cover c x w rb sr)

end Cert.Kernel.Dist

end
-- ==== Proof.Bits.HeldOf.lean ====
/-
  What the exchanged buffers of every device hold, as functions of the launch memory: each device's send
  buffers from its own copy of the activations and its own block of the weights, its receive buffers from
  its partner's, and the result's staging buffer from all of them — each over one fixed filler contents,
  which the covering stores overwrite.
-/
import proofs.«900347_g7700000000000348_dist_arsfmx_v7x_xyz2x4x4_x_t256_d512_v4096_bf16_1_alg».proof.Proof.Bits.ViewCover

noncomputable section

namespace Cert.Kernel.Dist

open Cert.Kernel Cert.Kernel.Gen
open Idealize.ShloMosaic
open Idealize.ShloMosaic.TcCoe

variable {F : FTy → Type} [FloatOps F]

/-- Filler contents of the chunk buffers, the row-sum buffers and the result's staging buffer (the zero word
    everywhere). -/
def fillB : CB F := fun _ => (FloatOps.ofBits .bf16 0#16 : F .bf16)
def fillS : CS F := fun _ => (FloatOps.ofBits .bf16 0#16 : F .bf16)
def fillO : CO F := fun _ => (FloatOps.ofBits .bf16 0#16 : F .bf16)

variable (m : (ℓ : Loc nD τ sig) → Buf (Elt F) ℓ)

/-- What device c's send buffers hold: its eight chunks, and its row sums as sent. -/
def sbOf (c : Dev nD) : CB F := sbAll fillB (xs m c) (ws m c)
def ssOf (c : Dev nD) : CS F := ssAll fillS (xs m c) (ws m c)
/-- What its receive buffers hold once everything has landed: its partner's send buffers' contents. -/
def rbOf (c : Dev nD) : CR F := sbOf m (peer c)
def srOf (c : Dev nD) : CT F := ssOf m (peer c)
/-- What the result's staging buffer holds when the body ends. -/
def outOf (c : Dev nD) : CO F := outAll fillO c (xs m c) (ws m c) (rbOf m c) (srOf m c)

/-- What the four exchanged buffers and the result's staging buffer of each device hold. -/
def heldOf : Held F where
  SB := sbOf m
  RB := rbOf m
  SS := ssOf m
  SR := srOf m
  OUT := outOf m

theorem heldOf_SB (c : Dev nD) : (heldOf m).SB c = sbOf m c := rfl
theorem heldOf_RB (c : Dev nD) : (heldOf m).RB c = rbOf m c := rfl
theorem heldOf_SS (c : Dev nD) : (heldOf m).SS c = ssOf m c := rfl
theorem heldOf_SR (c : Dev nD) : (heldOf m).SR c = srOf m c := rfl
theorem heldOf_OUT (c : Dev nD) : (heldOf m).OUT c = outOf m c := by
  first
    | (dsimp only [heldOf]; done)
    | (show (Held.mk (sbOf m) (rbOf m) (ssOf m) (srOf m) (outOf m)).OUT c = outOf m c; exact Eq.refl (outOf m c))
theorem sbOf_eq (c : Dev nD) : sbOf m c = sbAll fillB (xs m c) (ws m c) := rfl
theorem ssOf_eq (c : Dev nD) : ssOf m c = ssAll fillS (xs m c) (ws m c) := rfl
theorem rbOf_eq (c : Dev nD) : rbOf m c = sbOf m (peer c) := rfl
theorem srOf_eq (c : Dev nD) : srOf m c = ssOf m (peer c) := rfl
theorem outOf_eq (c : Dev nD) : outOf m c = outAll fillO c (xs m c) (ws m c) (rbOf m c) (srOf m c) := rfl

end Cert.Kernel.Dist

end
-- ==== Proof.Bits.Chunks.lean ====
/-
  The send buffer and the receive buffer of a device are each eight chunks: the chunks' element sets are pairwise
  disjoint and cover the buffer, so a buffer held whole is held chunk by chunk, and eight chunks held each at contents
  of its own join to the buffer held whole. Also: a buffer held through its whole view is the buffer held.
-/
import proofs.«900347_g7700000000000348_dist_arsfmx_v7x_xyz2x4x4_x_t256_d512_v4096_bf16_1_alg».proof.Proof.Bits.Data
import Idealize.ShloMosaic.Lib.Ring

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The chunks tile the buffers -/

/-- Where chunk `b` starts. -/
abbrev coff (b : Fin 8) : Fin 3 → ℕ := ![b.val, 0, 0]

/-- A chunk's elements are those of its rectangle. -/
theorem chunk_set_sb (b : Fin 8) : (chunk sbM b).view.set = (Rect.unit (s := S8x256x512) (coff b) S1x256x512.size (inbC b)).set := by
  show (((View.whole cc0_scratch0).slice _).reshape _ _).set = _
  rw [View.set_reshape, View.set_slice_whole]
theorem chunk_set_rb (b : Fin 8) : (chunk rbM b).view.set = (Rect.unit (s := S8x256x512) (coff b) S1x256x512.size (inbC b)).set := by
  show (((View.whole cc0_scratch1).slice _).reshape _ _).set = _
  rw [View.set_reshape, View.set_slice_whole]

theorem rect_disj (b b' : Fin 8) (h : b ≠ b') :
    Disjoint (Rect.unit (s := S8x256x512) (coff b) S1x256x512.size (inbC b)).set (Rect.unit (s := S8x256x512) (coff b') S1x256x512.size (inbC b')).set :=
  Ring.lead_disjoint (s := S8x256x512) (NB := 8) (0 : Fin 3) 1 coff S1x256x512.size inbC (fun b => by simp [coff]) (by decide) b b' h

theorem rect_cover : Finset.univ.biUnion (fun b : Fin 8 => (Rect.unit (s := S8x256x512) (coff b) S1x256x512.size (inbC b)).set) = Finset.univ :=
  Ring.lead_cover (s := S8x256x512) (NB := 8) (0 : Fin 3) 1 coff S1x256x512.size inbC (fun b => by simp [coff]) (by decide) (by decide) (by decide) (by decide)

theorem chunk_disj_sb : ∀ b b' : Fin 8, b ≠ b' → Disjoint (chunk sbM b).view.set (chunk sbM b').view.set := fun b b' h => by
  rw [chunk_set_sb, chunk_set_sb]; exact rect_disj b b' h
theorem chunk_disj_rb : ∀ b b' : Fin 8, b ≠ b' → Disjoint (chunk rbM b).view.set (chunk rbM b').view.set := fun b b' h => by
  rw [chunk_set_rb, chunk_set_rb]; exact rect_disj b b' h
theorem chunk_cover_sb : Finset.biUnion (β := (cc0_scratch0 : Ref sig .tc).ty.Idx) Finset.univ (fun b : Fin 8 => (chunk sbM b).view.set) = Finset.univ := by
  have e : (fun b : Fin 8 => ((chunk sbM b).view.set : Finset (cc0_scratch0 : Ref sig .tc).ty.Idx)) = fun b : Fin 8 => (Rect.unit (s := S8x256x512) (coff b) S1x256x512.size (inbC b)).set := funext chunk_set_sb
  exact (congrArg (Finset.biUnion Finset.univ) e).trans rect_cover
theorem chunk_cover_rb : Finset.biUnion (β := (cc0_scratch1 : Ref sig .tc).ty.Idx) Finset.univ (fun b : Fin 8 => (chunk rbM b).view.set) = Finset.univ := by
  have e : (fun b : Fin 8 => ((chunk rbM b).view.set : Finset (cc0_scratch1 : Ref sig .tc).ty.Idx)) = fun b : Fin 8 => (Rect.unit (s := S8x256x512) (coff b) S1x256x512.size (inbC b)).set := funext chunk_set_rb
  exact (congrArg (Finset.biUnion Finset.univ) e).trans rect_cover

/-! ## Whole and chunk by chunk -/

/-- The chunks' element sets, as sets of the buffer's elements. -/
abbrev Isb (c : Dev nD) : Fin 8 → Finset (Idx ((c : Thread nD τ).loc cc0_scratch0)) := fun b => (chunk sbM b).view.set

/-- The buffer held whole is its eight chunks held. -/
theorem split_sb (c : Dev nD) (q : PosShare TreeShare) (f : (cc0_scratch0 : Ref sig .tc).ty.Contents (Elt F)) :
    ((((c : Thread nD τ).loc cc0_scratch0) ↦{q} f) : sProp 𝕄) = iprop(((chunkN sbM 0 (inbC 0)).view.loc (c : Thread nD τ) ↦[(chunkN sbM 0 (inbC 0)).view.set]{q} f) ∗ ((chunkN sbM 1 (inbC 1)).view.loc (c : Thread nD τ) ↦[(chunkN sbM 1 (inbC 1)).view.set]{q} f) ∗ ((chunkN sbM 2 (inbC 2)).view.loc (c : Thread nD τ) ↦[(chunkN sbM 2 (inbC 2)).view.set]{q} f) ∗ ((chunkN sbM 3 (inbC 3)).view.loc (c : Thread nD τ) ↦[(chunkN sbM 3 (inbC 3)).view.set]{q} f) ∗ ((chunkN sbM 4 (inbC 4)).view.loc (c : Thread nD τ) ↦[(chunkN sbM 4 (inbC 4)).view.set]{q} f) ∗ ((chunkN sbM 5 (inbC 5)).view.loc (c : Thread nD τ) ↦[(chunkN sbM 5 (inbC 5)).view.set]{q} f) ∗ ((chunkN sbM 6 (inbC 6)).view.loc (c : Thread nD τ) ↦[(chunkN sbM 6 (inbC 6)).view.set]{q} f) ∗ ((chunkN sbM 7 (inbC 7)).view.loc (c : Thread nD τ) ↦[(chunkN sbM 7 (inbC 7)).view.set]{q} f)) := by
  rw [Ring.pointsTo_blocks (Isb c) chunk_disj_sb chunk_cover_sb f,
    bigSep_univ_eq_bigSepL [(0 : Fin 8), 1, 2, 3, 4, 5, 6, 7] (by decide) (by decide)]
  rfl

/-- Eight chunks held, each at contents of its own, are the buffer held whole at some contents. -/
theorem join_sb (c : Dev nD) (q : PosShare TreeShare) :
    (iprop((∃ f, ((chunkN sbM 0 (inbC 0)).view.loc (c : Thread nD τ) ↦[(chunkN sbM 0 (inbC 0)).view.set]{q} f)) ∗ (∃ f, ((chunkN sbM 1 (inbC 1)).view.loc (c : Thread nD τ) ↦[(chunkN sbM 1 (inbC 1)).view.set]{q} f)) ∗ (∃ f, ((chunkN sbM 2 (inbC 2)).view.loc (c : Thread nD τ) ↦[(chunkN sbM 2 (inbC 2)).view.set]{q} f)) ∗ (∃ f, ((chunkN sbM 3 (inbC 3)).view.loc (c : Thread nD τ) ↦[(chunkN sbM 3 (inbC 3)).view.set]{q} f)) ∗ (∃ f, ((chunkN sbM 4 (inbC 4)).view.loc (c : Thread nD τ) ↦[(chunkN sbM 4 (inbC 4)).view.set]{q} f)) ∗ (∃ f, ((chunkN sbM 5 (inbC 5)).view.loc (c : Thread nD τ) ↦[(chunkN sbM 5 (inbC 5)).view.set]{q} f)) ∗ (∃ f, ((chunkN sbM 6 (inbC 6)).view.loc (c : Thread nD τ) ↦[(chunkN sbM 6 (inbC 6)).view.set]{q} f)) ∗ (∃ f, ((chunkN sbM 7 (inbC 7)).view.loc (c : Thread nD τ) ↦[(chunkN sbM 7 (inbC 7)).view.set]{q} f))) : sProp 𝕄)
      ⊢ iprop(∃ g : Buf (Elt F) ((c : Thread nD τ).loc cc0_scratch0), ((c : Thread nD τ).loc cc0_scratch0) ↦{q} g) := by
  have e : (bigSep Finset.univ (fun b : Fin 8 => iprop(∃ f, ((c : Thread nD τ).loc cc0_scratch0) ↦[Isb c b]{q} f)) : sProp 𝕄)
      = iprop((∃ f, ((chunkN sbM 0 (inbC 0)).view.loc (c : Thread nD τ) ↦[(chunkN sbM 0 (inbC 0)).view.set]{q} f)) ∗ (∃ f, ((chunkN sbM 1 (inbC 1)).view.loc (c : Thread nD τ) ↦[(chunkN sbM 1 (inbC 1)).view.set]{q} f)) ∗ (∃ f, ((chunkN sbM 2 (inbC 2)).view.loc (c : Thread nD τ) ↦[(chunkN sbM 2 (inbC 2)).view.set]{q} f)) ∗ (∃ f, ((chunkN sbM 3 (inbC 3)).view.loc (c : Thread nD τ) ↦[(chunkN sbM 3 (inbC 3)).view.set]{q} f)) ∗ (∃ f, ((chunkN sbM 4 (inbC 4)).view.loc (c : Thread nD τ) ↦[(chunkN sbM 4 (inbC 4)).view.set]{q} f)) ∗ (∃ f, ((chunkN sbM 5 (inbC 5)).view.loc (c : Thread nD τ) ↦[(chunkN sbM 5 (inbC 5)).view.set]{q} f)) ∗ (∃ f, ((chunkN sbM 6 (inbC 6)).view.loc (c : Thread nD τ) ↦[(chunkN sbM 6 (inbC 6)).view.set]{q} f)) ∗ (∃ f, ((chunkN sbM 7 (inbC 7)).view.loc (c : Thread nD τ) ↦[(chunkN sbM 7 (inbC 7)).view.set]{q} f))) := by
    rw [bigSep_univ_eq_bigSepL [(0 : Fin 8), 1, 2, 3, 4, 5, 6, 7] (by decide) (by decide)]
    rfl
  iintro ⟨⟨%f0, H0⟩, Hrest⟩
  iapply (Ring.pointsTo_blocks_join_exists (Isb c) chunk_disj_sb chunk_cover_sb f0)
  iapply (Entails.of_eq e.symm)
  isplitl [H0]
  · iexists f0; iexact H0
  · iexact Hrest

/-- The chunks' element sets, as sets of the buffer's elements. -/
abbrev Irb (c : Dev nD) : Fin 8 → Finset (Idx ((c : Thread nD τ).loc cc0_scratch1)) := fun b => (chunk rbM b).view.set

/-- The buffer held whole is its eight chunks held. -/
theorem split_rb (c : Dev nD) (q : PosShare TreeShare) (f : (cc0_scratch1 : Ref sig .tc).ty.Contents (Elt F)) :
    ((((c : Thread nD τ).loc cc0_scratch1) ↦{q} f) : sProp 𝕄) = iprop(((chunkN rbM 0 (inbC 0)).view.loc (c : Thread nD τ) ↦[(chunkN rbM 0 (inbC 0)).view.set]{q} f) ∗ ((chunkN rbM 1 (inbC 1)).view.loc (c : Thread nD τ) ↦[(chunkN rbM 1 (inbC 1)).view.set]{q} f) ∗ ((chunkN rbM 2 (inbC 2)).view.loc (c : Thread nD τ) ↦[(chunkN rbM 2 (inbC 2)).view.set]{q} f) ∗ ((chunkN rbM 3 (inbC 3)).view.loc (c : Thread nD τ) ↦[(chunkN rbM 3 (inbC 3)).view.set]{q} f) ∗ ((chunkN rbM 4 (inbC 4)).view.loc (c : Thread nD τ) ↦[(chunkN rbM 4 (inbC 4)).view.set]{q} f) ∗ ((chunkN rbM 5 (inbC 5)).view.loc (c : Thread nD τ) ↦[(chunkN rbM 5 (inbC 5)).view.set]{q} f) ∗ ((chunkN rbM 6 (inbC 6)).view.loc (c : Thread nD τ) ↦[(chunkN rbM 6 (inbC 6)).view.set]{q} f) ∗ ((chunkN rbM 7 (inbC 7)).view.loc (c : Thread nD τ) ↦[(chunkN rbM 7 (inbC 7)).view.set]{q} f)) := by
  rw [Ring.pointsTo_blocks (Irb c) chunk_disj_rb chunk_cover_rb f,
    bigSep_univ_eq_bigSepL [(0 : Fin 8), 1, 2, 3, 4, 5, 6, 7] (by decide) (by decide)]
  rfl

/-- Eight chunks held, each at contents of its own, are the buffer held whole at some contents. -/
theorem join_rb (c : Dev nD) (q : PosShare TreeShare) :
    (iprop((∃ f, ((chunkN rbM 0 (inbC 0)).view.loc (c : Thread nD τ) ↦[(chunkN rbM 0 (inbC 0)).view.set]{q} f)) ∗ (∃ f, ((chunkN rbM 1 (inbC 1)).view.loc (c : Thread nD τ) ↦[(chunkN rbM 1 (inbC 1)).view.set]{q} f)) ∗ (∃ f, ((chunkN rbM 2 (inbC 2)).view.loc (c : Thread nD τ) ↦[(chunkN rbM 2 (inbC 2)).view.set]{q} f)) ∗ (∃ f, ((chunkN rbM 3 (inbC 3)).view.loc (c : Thread nD τ) ↦[(chunkN rbM 3 (inbC 3)).view.set]{q} f)) ∗ (∃ f, ((chunkN rbM 4 (inbC 4)).view.loc (c : Thread nD τ) ↦[(chunkN rbM 4 (inbC 4)).view.set]{q} f)) ∗ (∃ f, ((chunkN rbM 5 (inbC 5)).view.loc (c : Thread nD τ) ↦[(chunkN rbM 5 (inbC 5)).view.set]{q} f)) ∗ (∃ f, ((chunkN rbM 6 (inbC 6)).view.loc (c : Thread nD τ) ↦[(chunkN rbM 6 (inbC 6)).view.set]{q} f)) ∗ (∃ f, ((chunkN rbM 7 (inbC 7)).view.loc (c : Thread nD τ) ↦[(chunkN rbM 7 (inbC 7)).view.set]{q} f))) : sProp 𝕄)
      ⊢ iprop(∃ g : Buf (Elt F) ((c : Thread nD τ).loc cc0_scratch1), ((c : Thread nD τ).loc cc0_scratch1) ↦{q} g) := by
  have e : (bigSep Finset.univ (fun b : Fin 8 => iprop(∃ f, ((c : Thread nD τ).loc cc0_scratch1) ↦[Irb c b]{q} f)) : sProp 𝕄)
      = iprop((∃ f, ((chunkN rbM 0 (inbC 0)).view.loc (c : Thread nD τ) ↦[(chunkN rbM 0 (inbC 0)).view.set]{q} f)) ∗ (∃ f, ((chunkN rbM 1 (inbC 1)).view.loc (c : Thread nD τ) ↦[(chunkN rbM 1 (inbC 1)).view.set]{q} f)) ∗ (∃ f, ((chunkN rbM 2 (inbC 2)).view.loc (c : Thread nD τ) ↦[(chunkN rbM 2 (inbC 2)).view.set]{q} f)) ∗ (∃ f, ((chunkN rbM 3 (inbC 3)).view.loc (c : Thread nD τ) ↦[(chunkN rbM 3 (inbC 3)).view.set]{q} f)) ∗ (∃ f, ((chunkN rbM 4 (inbC 4)).view.loc (c : Thread nD τ) ↦[(chunkN rbM 4 (inbC 4)).view.set]{q} f)) ∗ (∃ f, ((chunkN rbM 5 (inbC 5)).view.loc (c : Thread nD τ) ↦[(chunkN rbM 5 (inbC 5)).view.set]{q} f)) ∗ (∃ f, ((chunkN rbM 6 (inbC 6)).view.loc (c : Thread nD τ) ↦[(chunkN rbM 6 (inbC 6)).view.set]{q} f)) ∗ (∃ f, ((chunkN rbM 7 (inbC 7)).view.loc (c : Thread nD τ) ↦[(chunkN rbM 7 (inbC 7)).view.set]{q} f))) := by
    rw [bigSep_univ_eq_bigSepL [(0 : Fin 8), 1, 2, 3, 4, 5, 6, 7] (by decide) (by decide)]
    rfl
  iintro ⟨⟨%f0, H0⟩, Hrest⟩
  iapply (Ring.pointsTo_blocks_join_exists (Irb c) chunk_disj_rb chunk_cover_rb f0)
  iapply (Entails.of_eq e.symm)
  isplitl [H0]
  · iexists f0; iexact H0
  · iexact Hrest

/-! ## A buffer held through its whole view -/

theorem whole_scratch2 (c : Dev nD) (q : PosShare TreeShare) (f : (cc0_scratch2 : Ref sig .tc).ty.Contents (Elt F)) :
    (((Memref.whole cc0_scratch2 : Memref sig .tc .vmem S256x1 .bf16).view.loc (c : Thread nD τ) ↦[(Memref.whole cc0_scratch2 : Memref sig .tc .vmem S256x1 .bf16).view.set]{q} f) : sProp 𝕄)
      = (((c : Thread nD τ).loc cc0_scratch2) ↦{q} f) := by
  rw [show (Memref.whole cc0_scratch2 : Memref sig .tc .vmem S256x1 .bf16).view.set = Finset.univ from View.set_whole _]
theorem whole_scratch3 (c : Dev nD) (q : PosShare TreeShare) (f : (cc0_scratch3 : Ref sig .tc).ty.Contents (Elt F)) :
    (((Memref.whole cc0_scratch3 : Memref sig .tc .vmem S256x1 .bf16).view.loc (c : Thread nD τ) ↦[(Memref.whole cc0_scratch3 : Memref sig .tc .vmem S256x1 .bf16).view.set]{q} f) : sProp 𝕄)
      = (((c : Thread nD τ).loc cc0_scratch3) ↦{q} f) := by
  rw [show (Memref.whole cc0_scratch3 : Memref sig .tc .vmem S256x1 .bf16).view.set = Finset.univ from View.set_whole _]

theorem whole_stg0 (c : Dev nD) (q : PosShare TreeShare) (f : (cc0_stg0_0 : Ref sig .tc).ty.Contents (Elt F)) :
    (((Memref.whole cc0_stg0_0 : Memref sig .tc .vmem S256x512 .f32).view.loc (c : Thread nD τ) ↦{q} f) : sProp 𝕄) = (((c : Thread nD τ).loc cc0_stg0_0) ↦{q} f) := rfl
theorem whole_stg1 (c : Dev nD) (q : PosShare TreeShare) (f : (cc0_stg1_0 : Ref sig .tc).ty.Contents (Elt F)) :
    (((Memref.whole cc0_stg1_0 : Memref sig .tc .vmem S512x4096 .f32).view.loc (c : Thread nD τ) ↦{q} f) : sProp 𝕄) = (((c : Thread nD τ).loc cc0_stg1_0) ↦{q} f) := rfl
theorem whole_stg2 (c : Dev nD) (q : PosShare TreeShare) (f : (cc0_stg2_0 : Ref sig .tc).ty.Contents (Elt F)) :
    (((Memref.whole cc0_stg2_0 : Memref sig .tc .vmem S256x8192 .bf16).view.loc (c : Thread nD τ) ↦{q} f) : sProp 𝕄) = (((c : Thread nD τ).loc cc0_stg2_0) ↦{q} f) := rfl

end Cert.Kernel.Dist

end
-- ==== Proof.Bits.Body.lean ====
/-
  One device's body, stepped from what the pipeline hands it to what it hands back.

  The order of events on device `c`, partner `p = peer c`: it signals `p`'s handshake cell, handing over its own
  nine landing buffers, and waits on its own handshake cell, which brings `p`'s; for each chunk `q` it loads a
  block of columns of its weights, stores `exp (x · w_q)` into chunk `q` of its send buffer and copies that chunk
  into chunk `q` of `p`'s receive buffer — the copy reads the chunk at a half share while the device keeps the
  other half to read the chunk again —; it stores and copies the row sums of all eight chunks; it waits for `p`'s
  row sums, forms the reciprocal of the total, writes its own eight chunks scaled into its own half of the result's
  columns, then, as each of `p`'s chunks lands, that chunk scaled into the other half; last it waits for its own
  nine copies to have left. What the copies carry is stated through the facts `hSB… hOUT` about the contents
  `H`; they are proved where `H` is chosen.
-/
import proofs.«900347_g7700000000000348_dist_arsfmx_v7x_xyz2x4x4_x_t256_d512_v4096_bf16_1_alg».proof.Proof.Bits.Terms
import proofs.«900347_g7700000000000348_dist_arsfmx_v7x_xyz2x4x4_x_t256_d512_v4096_bf16_1_alg».proof.Proof.Bits.Chunks

noncomputable section

namespace Cert.Kernel.Dist

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (H : Held F)

variable (m : (ℓ : Loc nD τ sig) → Buf (Elt F) ℓ)

/-- A conjunction over the nineteen kinds of cell, written out; -/
theorem kinds_chain (Φ : Kind → sProp 𝕄) : bigSep Finset.univ Φ = iprop(Φ (Kind.bar) ∗ Φ (Kind.send 0) ∗ Φ (Kind.send 1) ∗ Φ (Kind.send 2) ∗ Φ (Kind.send 3) ∗ Φ (Kind.send 4) ∗ Φ (Kind.send 5) ∗ Φ (Kind.send 6) ∗ Φ (Kind.send 7) ∗ Φ (Kind.recv 0) ∗ Φ (Kind.recv 1) ∗ Φ (Kind.recv 2) ∗ Φ (Kind.recv 3) ∗ Φ (Kind.recv 4) ∗ Φ (Kind.recv 5) ∗ Φ (Kind.recv 6) ∗ Φ (Kind.recv 7) ∗ Φ (Kind.ssend) ∗ Φ (Kind.srecv)) :=
  bigSep_univ_eq_bigSepL [Kind.bar, Kind.send 0, Kind.send 1, Kind.send 2, Kind.send 3, Kind.send 4, Kind.send 5, Kind.send 6, Kind.send 7, Kind.recv 0, Kind.recv 1, Kind.recv 2, Kind.recv 3, Kind.recv 4, Kind.recv 5, Kind.recv 6, Kind.recv 7, Kind.ssend, Kind.srecv] (by decide) (by decide) Φ
/-- over the eighteen that are a device's own semaphores. -/
theorem kinds18_chain (Φ : Kind → sProp 𝕄) : bigSep (Finset.univ.erase Kind.bar) Φ = iprop(Φ (Kind.send 0) ∗ Φ (Kind.send 1) ∗ Φ (Kind.send 2) ∗ Φ (Kind.send 3) ∗ Φ (Kind.send 4) ∗ Φ (Kind.send 5) ∗ Φ (Kind.send 6) ∗ Φ (Kind.send 7) ∗ Φ (Kind.recv 0) ∗ Φ (Kind.recv 1) ∗ Φ (Kind.recv 2) ∗ Φ (Kind.recv 3) ∗ Φ (Kind.recv 4) ∗ Φ (Kind.recv 5) ∗ Φ (Kind.recv 6) ∗ Φ (Kind.recv 7) ∗ Φ (Kind.ssend) ∗ Φ (Kind.srecv)) :=
  bigSep_eq_bigSepL_of_eq [Kind.send 0, Kind.send 1, Kind.send 2, Kind.send 3, Kind.send 4, Kind.send 5, Kind.send 6, Kind.send 7, Kind.recv 0, Kind.recv 1, Kind.recv 2, Kind.recv 3, Kind.recv 4, Kind.recv 5, Kind.recv 6, Kind.recv 7, Kind.ssend, Kind.srecv] (by decide) (by decide) Φ

/-- What a device starts from, cell by cell. -/
def ghostX (K : Dev nD × Kind → ℕ) (c : Dev nD) : sProp 𝕄 :=
  iprop((iprop(cellInv ER (sched H) (K (c, Kind.bar)) (((c : Dev nD) : Thread nD τ), SemLoc.reg barS) ∗ cellInv ER (sched H) (K (c, Kind.send 0)) (((c : Dev nD) : Thread nD τ), SemLoc.dma (sendS 0)) ∗ cellInv ER (sched H) (K (c, Kind.send 1)) (((c : Dev nD) : Thread nD τ), SemLoc.dma (sendS 1)) ∗ cellInv ER (sched H) (K (c, Kind.send 2)) (((c : Dev nD) : Thread nD τ), SemLoc.dma (sendS 2)) ∗ cellInv ER (sched H) (K (c, Kind.send 3)) (((c : Dev nD) : Thread nD τ), SemLoc.dma (sendS 3)) ∗ cellInv ER (sched H) (K (c, Kind.send 4)) (((c : Dev nD) : Thread nD τ), SemLoc.dma (sendS 4)) ∗ cellInv ER (sched H) (K (c, Kind.send 5)) (((c : Dev nD) : Thread nD τ), SemLoc.dma (sendS 5)) ∗ cellInv ER (sched H) (K (c, Kind.send 6)) (((c : Dev nD) : Thread nD τ), SemLoc.dma (sendS 6)) ∗ cellInv ER (sched H) (K (c, Kind.send 7)) (((c : Dev nD) : Thread nD τ), SemLoc.dma (sendS 7)) ∗ cellInv ER (sched H) (K (c, Kind.recv 0)) (((c : Dev nD) : Thread nD τ), SemLoc.dma (recvS 0)) ∗ cellInv ER (sched H) (K (c, Kind.recv 1)) (((c : Dev nD) : Thread nD τ), SemLoc.dma (recvS 1)) ∗ cellInv ER (sched H) (K (c, Kind.recv 2)) (((c : Dev nD) : Thread nD τ), SemLoc.dma (recvS 2)) ∗ cellInv ER (sched H) (K (c, Kind.recv 3)) (((c : Dev nD) : Thread nD τ), SemLoc.dma (recvS 3)) ∗ cellInv ER (sched H) (K (c, Kind.recv 4)) (((c : Dev nD) : Thread nD τ), SemLoc.dma (recvS 4)) ∗ cellInv ER (sched H) (K (c, Kind.recv 5)) (((c : Dev nD) : Thread nD τ), SemLoc.dma (recvS 5)) ∗ cellInv ER (sched H) (K (c, Kind.recv 6)) (((c : Dev nD) : Thread nD τ), SemLoc.dma (recvS 6)) ∗ cellInv ER (sched H) (K (c, Kind.recv 7)) (((c : Dev nD) : Thread nD τ), SemLoc.dma (recvS 7)) ∗ cellInv ER (sched H) (K (c, Kind.ssend)) (((c : Dev nD) : Thread nD τ), SemLoc.dma ssendS) ∗ cellInv ER (sched H) (K (c, Kind.srecv)) (((c : Dev nD) : Thread nD τ), SemLoc.dma srecvS)) ∗ iprop(cellInv ER (sched H) (K (peer c, Kind.bar)) (((peer c : Dev nD) : Thread nD τ), SemLoc.reg barS) ∗ cellInv ER (sched H) (K (peer c, Kind.send 0)) (((peer c : Dev nD) : Thread nD τ), SemLoc.dma (sendS 0)) ∗ cellInv ER (sched H) (K (peer c, Kind.send 1)) (((peer c : Dev nD) : Thread nD τ), SemLoc.dma (sendS 1)) ∗ cellInv ER (sched H) (K (peer c, Kind.send 2)) (((peer c : Dev nD) : Thread nD τ), SemLoc.dma (sendS 2)) ∗ cellInv ER (sched H) (K (peer c, Kind.send 3)) (((peer c : Dev nD) : Thread nD τ), SemLoc.dma (sendS 3)) ∗ cellInv ER (sched H) (K (peer c, Kind.send 4)) (((peer c : Dev nD) : Thread nD τ), SemLoc.dma (sendS 4)) ∗ cellInv ER (sched H) (K (peer c, Kind.send 5)) (((peer c : Dev nD) : Thread nD τ), SemLoc.dma (sendS 5)) ∗ cellInv ER (sched H) (K (peer c, Kind.send 6)) (((peer c : Dev nD) : Thread nD τ), SemLoc.dma (sendS 6)) ∗ cellInv ER (sched H) (K (peer c, Kind.send 7)) (((peer c : Dev nD) : Thread nD τ), SemLoc.dma (sendS 7)) ∗ cellInv ER (sched H) (K (peer c, Kind.recv 0)) (((peer c : Dev nD) : Thread nD τ), SemLoc.dma (recvS 0)) ∗ cellInv ER (sched H) (K (peer c, Kind.recv 1)) (((peer c : Dev nD) : Thread nD τ), SemLoc.dma (recvS 1)) ∗ cellInv ER (sched H) (K (peer c, Kind.recv 2)) (((peer c : Dev nD) : Thread nD τ), SemLoc.dma (recvS 2)) ∗ cellInv ER (sched H) (K (peer c, Kind.recv 3)) (((peer c : Dev nD) : Thread nD τ), SemLoc.dma (recvS 3)) ∗ cellInv ER (sched H) (K (peer c, Kind.recv 4)) (((peer c : Dev nD) : Thread nD τ), SemLoc.dma (recvS 4)) ∗ cellInv ER (sched H) (K (peer c, Kind.recv 5)) (((peer c : Dev nD) : Thread nD τ), SemLoc.dma (recvS 5)) ∗ cellInv ER (sched H) (K (peer c, Kind.recv 6)) (((peer c : Dev nD) : Thread nD τ), SemLoc.dma (recvS 6)) ∗ cellInv ER (sched H) (K (peer c, Kind.recv 7)) (((peer c : Dev nD) : Thread nD τ), SemLoc.dma (recvS 7)) ∗ cellInv ER (sched H) (K (peer c, Kind.ssend)) (((peer c : Dev nD) : Thread nD τ), SemLoc.dma ssendS) ∗ cellInv ER (sched H) (K (peer c, Kind.srecv)) (((peer c : Dev nD) : Thread nD τ), SemLoc.dma srecvS)))
    ∗ iprop(atPos ER (((c : Dev nD) : Thread nD τ), SemLoc.reg barS) 0 ∅ 0 ∗ atPos ER (((c : Dev nD) : Thread nD τ), SemLoc.dma (sendS 0)) 0 ∅ 0 ∗ atPos ER (((c : Dev nD) : Thread nD τ), SemLoc.dma (sendS 1)) 0 ∅ 0 ∗ atPos ER (((c : Dev nD) : Thread nD τ), SemLoc.dma (sendS 2)) 0 ∅ 0 ∗ atPos ER (((c : Dev nD) : Thread nD τ), SemLoc.dma (sendS 3)) 0 ∅ 0 ∗ atPos ER (((c : Dev nD) : Thread nD τ), SemLoc.dma (sendS 4)) 0 ∅ 0 ∗ atPos ER (((c : Dev nD) : Thread nD τ), SemLoc.dma (sendS 5)) 0 ∅ 0 ∗ atPos ER (((c : Dev nD) : Thread nD τ), SemLoc.dma (sendS 6)) 0 ∅ 0 ∗ atPos ER (((c : Dev nD) : Thread nD τ), SemLoc.dma (sendS 7)) 0 ∅ 0 ∗ atPos ER (((c : Dev nD) : Thread nD τ), SemLoc.dma (recvS 0)) 0 ∅ 0 ∗ atPos ER (((c : Dev nD) : Thread nD τ), SemLoc.dma (recvS 1)) 0 ∅ 0 ∗ atPos ER (((c : Dev nD) : Thread nD τ), SemLoc.dma (recvS 2)) 0 ∅ 0 ∗ atPos ER (((c : Dev nD) : Thread nD τ), SemLoc.dma (recvS 3)) 0 ∅ 0 ∗ atPos ER (((c : Dev nD) : Thread nD τ), SemLoc.dma (recvS 4)) 0 ∅ 0 ∗ atPos ER (((c : Dev nD) : Thread nD τ), SemLoc.dma (recvS 5)) 0 ∅ 0 ∗ atPos ER (((c : Dev nD) : Thread nD τ), SemLoc.dma (recvS 6)) 0 ∅ 0 ∗ atPos ER (((c : Dev nD) : Thread nD τ), SemLoc.dma (recvS 7)) 0 ∅ 0 ∗ atPos ER (((c : Dev nD) : Thread nD τ), SemLoc.dma ssendS) 0 ∅ 0 ∗ atPos ER (((c : Dev nD) : Thread nD τ), SemLoc.dma srecvS) 0 ∅ 0)
    ∗ iprop(reached ER (((c : Dev nD) : Thread nD τ), SemLoc.reg barS) 0 ∗ reached ER (((c : Dev nD) : Thread nD τ), SemLoc.dma (sendS 0)) 0 ∗ reached ER (((c : Dev nD) : Thread nD τ), SemLoc.dma (sendS 1)) 0 ∗ reached ER (((c : Dev nD) : Thread nD τ), SemLoc.dma (sendS 2)) 0 ∗ reached ER (((c : Dev nD) : Thread nD τ), SemLoc.dma (sendS 3)) 0 ∗ reached ER (((c : Dev nD) : Thread nD τ), SemLoc.dma (sendS 4)) 0 ∗ reached ER (((c : Dev nD) : Thread nD τ), SemLoc.dma (sendS 5)) 0 ∗ reached ER (((c : Dev nD) : Thread nD τ), SemLoc.dma (sendS 6)) 0 ∗ reached ER (((c : Dev nD) : Thread nD τ), SemLoc.dma (sendS 7)) 0 ∗ reached ER (((c : Dev nD) : Thread nD τ), SemLoc.dma (recvS 0)) 0 ∗ reached ER (((c : Dev nD) : Thread nD τ), SemLoc.dma (recvS 1)) 0 ∗ reached ER (((c : Dev nD) : Thread nD τ), SemLoc.dma (recvS 2)) 0 ∗ reached ER (((c : Dev nD) : Thread nD τ), SemLoc.dma (recvS 3)) 0 ∗ reached ER (((c : Dev nD) : Thread nD τ), SemLoc.dma (recvS 4)) 0 ∗ reached ER (((c : Dev nD) : Thread nD τ), SemLoc.dma (recvS 5)) 0 ∗ reached ER (((c : Dev nD) : Thread nD τ), SemLoc.dma (recvS 6)) 0 ∗ reached ER (((c : Dev nD) : Thread nD τ), SemLoc.dma (recvS 7)) 0 ∗ reached ER (((c : Dev nD) : Thread nD τ), SemLoc.dma ssendS) 0 ∗ reached ER (((c : Dev nD) : Thread nD τ), SemLoc.dma srecvS) 0)
    ∗ iprop(reached ER (((peer c : Dev nD) : Thread nD τ), SemLoc.reg barS) 0 ∗ reached ER (((peer c : Dev nD) : Thread nD τ), SemLoc.dma (sendS 0)) 0 ∗ reached ER (((peer c : Dev nD) : Thread nD τ), SemLoc.dma (sendS 1)) 0 ∗ reached ER (((peer c : Dev nD) : Thread nD τ), SemLoc.dma (sendS 2)) 0 ∗ reached ER (((peer c : Dev nD) : Thread nD τ), SemLoc.dma (sendS 3)) 0 ∗ reached ER (((peer c : Dev nD) : Thread nD τ), SemLoc.dma (sendS 4)) 0 ∗ reached ER (((peer c : Dev nD) : Thread nD τ), SemLoc.dma (sendS 5)) 0 ∗ reached ER (((peer c : Dev nD) : Thread nD τ), SemLoc.dma (sendS 6)) 0 ∗ reached ER (((peer c : Dev nD) : Thread nD τ), SemLoc.dma (sendS 7)) 0 ∗ reached ER (((peer c : Dev nD) : Thread nD τ), SemLoc.dma (recvS 0)) 0 ∗ reached ER (((peer c : Dev nD) : Thread nD τ), SemLoc.dma (recvS 1)) 0 ∗ reached ER (((peer c : Dev nD) : Thread nD τ), SemLoc.dma (recvS 2)) 0 ∗ reached ER (((peer c : Dev nD) : Thread nD τ), SemLoc.dma (recvS 3)) 0 ∗ reached ER (((peer c : Dev nD) : Thread nD τ), SemLoc.dma (recvS 4)) 0 ∗ reached ER (((peer c : Dev nD) : Thread nD τ), SemLoc.dma (recvS 5)) 0 ∗ reached ER (((peer c : Dev nD) : Thread nD τ), SemLoc.dma (recvS 6)) 0 ∗ reached ER (((peer c : Dev nD) : Thread nD τ), SemLoc.dma (recvS 7)) 0 ∗ reached ER (((peer c : Dev nD) : Thread nD τ), SemLoc.dma ssendS) 0 ∗ reached ER (((peer c : Dev nD) : Thread nD τ), SemLoc.dma srecvS) 0)
    ∗ iprop(dutyTok ER (((peer c : Dev nD) : Thread nD τ), SemLoc.reg barS) 0 () ∗ dutyTok ER (((c : Dev nD) : Thread nD τ), SemLoc.dma (sendS 0)) 0 () ∗ dutyTok ER (((c : Dev nD) : Thread nD τ), SemLoc.dma (sendS 1)) 0 () ∗ dutyTok ER (((c : Dev nD) : Thread nD τ), SemLoc.dma (sendS 2)) 0 () ∗ dutyTok ER (((c : Dev nD) : Thread nD τ), SemLoc.dma (sendS 3)) 0 () ∗ dutyTok ER (((c : Dev nD) : Thread nD τ), SemLoc.dma (sendS 4)) 0 () ∗ dutyTok ER (((c : Dev nD) : Thread nD τ), SemLoc.dma (sendS 5)) 0 () ∗ dutyTok ER (((c : Dev nD) : Thread nD τ), SemLoc.dma (sendS 6)) 0 () ∗ dutyTok ER (((c : Dev nD) : Thread nD τ), SemLoc.dma (sendS 7)) 0 () ∗ dutyTok ER (((peer c : Dev nD) : Thread nD τ), SemLoc.dma (recvS 0)) 0 () ∗ dutyTok ER (((peer c : Dev nD) : Thread nD τ), SemLoc.dma (recvS 1)) 0 () ∗ dutyTok ER (((peer c : Dev nD) : Thread nD τ), SemLoc.dma (recvS 2)) 0 () ∗ dutyTok ER (((peer c : Dev nD) : Thread nD τ), SemLoc.dma (recvS 3)) 0 () ∗ dutyTok ER (((peer c : Dev nD) : Thread nD τ), SemLoc.dma (recvS 4)) 0 () ∗ dutyTok ER (((peer c : Dev nD) : Thread nD τ), SemLoc.dma (recvS 5)) 0 () ∗ dutyTok ER (((peer c : Dev nD) : Thread nD τ), SemLoc.dma (recvS 6)) 0 () ∗ dutyTok ER (((peer c : Dev nD) : Thread nD τ), SemLoc.dma (recvS 7)) 0 () ∗ dutyTok ER (((c : Dev nD) : Thread nD τ), SemLoc.dma ssendS) 0 () ∗ dutyTok ER (((peer c : Dev nD) : Thread nD τ), SemLoc.dma srecvS) 0 ()))

set_option maxHeartbeats 1000000 in
theorem ghost_explicit (K : Dev nD × Kind → ℕ) (c : Dev nD) : ghost H K c ⊢ ghostX H K c := by
  unfold ghost invs ghostX
  rw [kinds_chain, kinds_chain, kinds_chain, kinds_chain, kinds_chain, kinds_chain]
  exact BI.Entails.refl _

theorem creds_explicit (c : Dev nD) : creds (F := F) c ⊢ iprop(cred (tallyAt (((c : Dev nD) : Thread nD τ), SemLoc.reg barS) () 1) ∗ cred (tallyAt (((c : Dev nD) : Thread nD τ), SemLoc.dma (recvS 0)) () NC) ∗ cred (tallyAt (((c : Dev nD) : Thread nD τ), SemLoc.dma (recvS 1)) () NC) ∗ cred (tallyAt (((c : Dev nD) : Thread nD τ), SemLoc.dma (recvS 2)) () NC) ∗ cred (tallyAt (((c : Dev nD) : Thread nD τ), SemLoc.dma (recvS 3)) () NC) ∗ cred (tallyAt (((c : Dev nD) : Thread nD τ), SemLoc.dma (recvS 4)) () NC) ∗ cred (tallyAt (((c : Dev nD) : Thread nD τ), SemLoc.dma (recvS 5)) () NC) ∗ cred (tallyAt (((c : Dev nD) : Thread nD τ), SemLoc.dma (recvS 6)) () NC) ∗ cred (tallyAt (((c : Dev nD) : Thread nD τ), SemLoc.dma (recvS 7)) () NC) ∗ cred (tallyAt (((c : Dev nD) : Thread nD τ), SemLoc.dma srecvS) () NR)) := by
  unfold creds; exact BI.Entails.refl _

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands a device's body: the start of the exchange, what it owes, and the three staging buffers. -/
def bodyPre' (c : Dev nD) : sProp 𝕄 :=
  iprop(Φ₀ H c ∗ (dats H m 0 c).owesAt () t0_0.castSucc
    ∗ (∃ d, stg c cc0_stg0_0 ((dats H m 0 c).before (0 : Fin 3) t0_0 d))
    ∗ (∃ d, stg c cc0_stg1_0 ((dats H m 0 c).before (1 : Fin 3) t0_0 d))
    ∗ (∃ d, stg c cc0_stg2_0 ((dats H m 0 c).before (2 : Fin 3) t0_0 d)))

/-- What the body hands back. -/
def bodyPost (c : Dev nD) : sProp 𝕄 :=
  iprop(Φ₁ (F := F) c ∗ (dats H m 0 c).owesAt () t0_0.succ
    ∗ stg c cc0_stg0_0 (xs m c) ∗ stg c cc0_stg1_0 (ws m c) ∗ stg c cc0_stg2_0 (H.OUT c))

attribute [local sl_rounds] duties_bar duties_send duties_recv duties_ssend duties_srecv amount_bar amount_send amount_recv amount_ssend amount_srecv
  expect_bar expect_send expect_recv expect_ssend expect_srecv payload_bar payload_send0 payload_recv0 payload_send1 payload_recv1 payload_send2 payload_recv2 payload_send3 payload_recv3 payload_send4 payload_recv4 payload_send5 payload_recv5 payload_send6 payload_recv6 payload_send7 payload_recv7 payload_ssend payload_srecv peer_peer
attribute [local sl_rounds high] payload_bar_peer

set_option maxHeartbeats 2000000 in
/-- One device's body, from what the pipeline hands it to what it hands back: the handshake, eight chunks computed,
    stored and copied to the partner while the next is computed, the row sums copied, the result's own half written
    from the send buffer and its other half from what the partner's copies landed, every wait below what is still owed. -/
theorem sound_body (c : Dev nD)
    (hSB0 : ∀ f : CB F, ∀ i ∈ (chunkN sbM 0 (inbC 0)).view.set, (View.write (Elt F) (accB 0 (inbC 0)) f (E0 (xs m c) (ws m c)) Finset.univ) i = H.SB c i)
    (hSB1 : ∀ f : CB F, ∀ i ∈ (chunkN sbM 1 (inbC 1)).view.set, (View.write (Elt F) (accB 1 (inbC 1)) f (E1 (xs m c) (ws m c)) Finset.univ) i = H.SB c i)
    (hSB2 : ∀ f : CB F, ∀ i ∈ (chunkN sbM 2 (inbC 2)).view.set, (View.write (Elt F) (accB 2 (inbC 2)) f (E2 (xs m c) (ws m c)) Finset.univ) i = H.SB c i)
    (hSB3 : ∀ f : CB F, ∀ i ∈ (chunkN sbM 3 (inbC 3)).view.set, (View.write (Elt F) (accB 3 (inbC 3)) f (E3 (xs m c) (ws m c)) Finset.univ) i = H.SB c i)
    (hSB4 : ∀ f : CB F, ∀ i ∈ (chunkN sbM 4 (inbC 4)).view.set, (View.write (Elt F) (accB 4 (inbC 4)) f (E4 (xs m c) (ws m c)) Finset.univ) i = H.SB c i)
    (hSB5 : ∀ f : CB F, ∀ i ∈ (chunkN sbM 5 (inbC 5)).view.set, (View.write (Elt F) (accB 5 (inbC 5)) f (E5 (xs m c) (ws m c)) Finset.univ) i = H.SB c i)
    (hSB6 : ∀ f : CB F, ∀ i ∈ (chunkN sbM 6 (inbC 6)).view.set, (View.write (Elt F) (accB 6 (inbC 6)) f (E6 (xs m c) (ws m c)) Finset.univ) i = H.SB c i)
    (hSB7 : ∀ f : CB F, ∀ i ∈ (chunkN sbM 7 (inbC 7)).view.set, (View.write (Elt F) (accB 7 (inbC 7)) f (E7 (xs m c) (ws m c)) Finset.univ) i = H.SB c i)
    (hRB0 : ∀ (fd : CR F) (f : CB F), ∀ i ∈ (chunkN rbM 0 (inbC 0)).view.set, ((chunkN rbM 0 (inbC 0)).view.write (Elt F) fd ((chunkN sbM 0 (inbC 0)).view.read (Elt F) (View.write (Elt F) (accB 0 (inbC 0)) f (E0 (xs m c) (ws m c)) Finset.univ)) Finset.univ) i = H.RB (peer c) i)
    (hRB1 : ∀ (fd : CR F) (f : CB F), ∀ i ∈ (chunkN rbM 1 (inbC 1)).view.set, ((chunkN rbM 1 (inbC 1)).view.write (Elt F) fd ((chunkN sbM 1 (inbC 1)).view.read (Elt F) (View.write (Elt F) (accB 1 (inbC 1)) f (E1 (xs m c) (ws m c)) Finset.univ)) Finset.univ) i = H.RB (peer c) i)
    (hRB2 : ∀ (fd : CR F) (f : CB F), ∀ i ∈ (chunkN rbM 2 (inbC 2)).view.set, ((chunkN rbM 2 (inbC 2)).view.write (Elt F) fd ((chunkN sbM 2 (inbC 2)).view.read (Elt F) (View.write (Elt F) (accB 2 (inbC 2)) f (E2 (xs m c) (ws m c)) Finset.univ)) Finset.univ) i = H.RB (peer c) i)
    (hRB3 : ∀ (fd : CR F) (f : CB F), ∀ i ∈ (chunkN rbM 3 (inbC 3)).view.set, ((chunkN rbM 3 (inbC 3)).view.write (Elt F) fd ((chunkN sbM 3 (inbC 3)).view.read (Elt F) (View.write (Elt F) (accB 3 (inbC 3)) f (E3 (xs m c) (ws m c)) Finset.univ)) Finset.univ) i = H.RB (peer c) i)
    (hRB4 : ∀ (fd : CR F) (f : CB F), ∀ i ∈ (chunkN rbM 4 (inbC 4)).view.set, ((chunkN rbM 4 (inbC 4)).view.write (Elt F) fd ((chunkN sbM 4 (inbC 4)).view.read (Elt F) (View.write (Elt F) (accB 4 (inbC 4)) f (E4 (xs m c) (ws m c)) Finset.univ)) Finset.univ) i = H.RB (peer c) i)
    (hRB5 : ∀ (fd : CR F) (f : CB F), ∀ i ∈ (chunkN rbM 5 (inbC 5)).view.set, ((chunkN rbM 5 (inbC 5)).view.write (Elt F) fd ((chunkN sbM 5 (inbC 5)).view.read (Elt F) (View.write (Elt F) (accB 5 (inbC 5)) f (E5 (xs m c) (ws m c)) Finset.univ)) Finset.univ) i = H.RB (peer c) i)
    (hRB6 : ∀ (fd : CR F) (f : CB F), ∀ i ∈ (chunkN rbM 6 (inbC 6)).view.set, ((chunkN rbM 6 (inbC 6)).view.write (Elt F) fd ((chunkN sbM 6 (inbC 6)).view.read (Elt F) (View.write (Elt F) (accB 6 (inbC 6)) f (E6 (xs m c) (ws m c)) Finset.univ)) Finset.univ) i = H.RB (peer c) i)
    (hRB7 : ∀ (fd : CR F) (f : CB F), ∀ i ∈ (chunkN rbM 7 (inbC 7)).view.set, ((chunkN rbM 7 (inbC 7)).view.write (Elt F) fd ((chunkN sbM 7 (inbC 7)).view.read (Elt F) (View.write (Elt F) (accB 7 (inbC 7)) f (E7 (xs m c) (ws m c)) Finset.univ)) Finset.univ) i = H.RB (peer c) i)
    (hSS : ∀ f : CS F, ∀ i ∈ (Memref.whole cc0_scratch2 : Memref sig .tc .vmem S256x1 .bf16).view.set, ssAll f (xs m c) (ws m c) i = H.SS c i)
    (hSR : ∀ (fd : CT F) (f : CS F), ∀ i ∈ (Memref.whole cc0_scratch3 : Memref sig .tc .vmem S256x1 .bf16).view.set, ((Memref.whole cc0_scratch3 : Memref sig .tc .vmem S256x1 .bf16).view.write (Elt F) fd ((Memref.whole cc0_scratch2 : Memref sig .tc .vmem S256x1 .bf16).view.read (Elt F) (ssAll f (xs m c) (ws m c))) Finset.univ) i = H.SR (peer c) i)
    (hOUT : ∀ f : CO F, outAll f c (xs m c) (ws m c) (H.RB c) (H.SR c) = H.OUT c) :
    bodyPre' H m c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost H m c) := by
  unfold bodyPre' Φ₀ start scr
  iintro ⟨⟨⟨⟨%K, Hg⟩, Hcr, #Hlev⟩, ⟨%f0, Hs0⟩, ⟨%f1, Hs1⟩, ⟨%f2, Hs2⟩, ⟨%f3, Hs3⟩⟩, Ho, ⟨%d0, %g0, %hg0, Hx0⟩, ⟨%d1, %g1, %hg1, Hw0⟩, ⟨%d2, %g2, %hg2, Hout0⟩⟩
  have hx : g0 = xs m c := by rw [hg0]; unfold Dat.before; rw [if_pos (fetch0_0 t0_0)]; rfl
  have hw : g1 = ws m c := by rw [hg1]; unfold Dat.before; rw [if_pos (fetch0_1 t0_0)]; rfl
  subst hx hw
  -- the ghost state and the credit, cell by cell
  ihave Hg' := (ghost_explicit H K c) $$ Hg
  unfold ghostX
  icases Hg' with ⟨⟨⟨#HIb, #HIs0, #HIs1, #HIs2, #HIs3, #HIs4, #HIs5, #HIs6, #HIs7, #HIr0, #HIr1, #HIr2, #HIr3, #HIr4, #HIr5, #HIr6, #HIr7, #HIss, #HIsr⟩, ⟨#HIbP, #HIs0P, #HIs1P, #HIs2P, #HIs3P, #HIs4P, #HIs5P, #HIs6P, #HIs7P, #HIr0P, #HIr1P, #HIr2P, #HIr3P, #HIr4P, #HIr5P, #HIr6P, #HIr7P, #HIssP, #HIsrP⟩⟩, ⟨Hab, Has0, Has1, Has2, Has3, Has4, Has5, Has6, Has7, Har0, Har1, Har2, Har3, Har4, Har5, Har6, Har7, Hass, Hasr⟩, ⟨#Hrb, #Hrs0, #Hrs1, #Hrs2, #Hrs3, #Hrs4, #Hrs5, #Hrs6, #Hrs7, #Hrr0, #Hrr1, #Hrr2, #Hrr3, #Hrr4, #Hrr5, #Hrr6, #Hrr7, #Hrss, #Hrsr⟩, ⟨#HrbP, #Hrs0P, #Hrs1P, #Hrs2P, #Hrs3P, #Hrs4P, #Hrs5P, #Hrs6P, #Hrs7P, #Hrr0P, #Hrr1P, #Hrr2P, #Hrr3P, #Hrr4P, #Hrr5P, #Hrr6P, #Hrr7P, #HrssP, #HrsrP⟩, ⟨HtbP, Hts0, Hts1, Hts2, Hts3, Hts4, Hts5, Hts6, Hts7, Htr0P, Htr1P, Htr2P, Htr3P, Htr4P, Htr5P, Htr6P, Htr7P, Htss, HtsrP⟩⟩
  ihave Hcr' := (creds_explicit (F := F) c) $$ Hcr
  icases Hcr' with ⟨Hcb, Hcr0, Hcr1, Hcr2, Hcr3, Hcr4, Hcr5, Hcr6, Hcr7, Hcsr⟩
  unfold Dat.owesAt Pipeline.owesWithin
  icases Ho with ⟨%W, %hW, HO⟩
  rw [show (dats H m 0 c).owed t0_0.castSucc = O₀ c from rfl]
  unfold O₀
  -- the buffers, in the spelling the body's steps read; the two chunked scratch buffers chunk by chunk
  ihave Hx := (Entails.of_eq (whole_stg0 c fullShare (xs m c)).symm) $$ Hx0
  ihave Hw := (Entails.of_eq (whole_stg1 c fullShare (ws m c)).symm) $$ Hw0
  ihave Hout := (Entails.of_eq (whole_stg2 c fullShare g2).symm) $$ Hout0
  ihave Hss := (Entails.of_eq (whole_scratch2 c fullShare f2).symm) $$ Hs2
  ihave Hsr := (Entails.of_eq (whole_scratch3 c fullShare f3).symm) $$ Hs3
  ihave Hs0' := (Entails.of_eq (split_sb c fullShare f0)) $$ Hs0
  icases Hs0' with ⟨Hsb0, Hsb1, Hsb2, Hsb3, Hsb4, Hsb5, Hsb6, Hsb7⟩
  ihave Hs1' := (Entails.of_eq (split_rb c fullShare f1)) $$ Hs1
  icases Hs1' with ⟨Hrb0, Hrb1, Hrb2, Hrb3, Hrb4, Hrb5, Hrb6, Hrb7⟩
  have hmw := mayWait_bar (F := F) c
  have hd1 := dev1_eq; have hd2 := dev2_eq; have hd3 := dev3_eq; have hd4 := dev4_eq; have hd5 := dev5_eq
  have hd6 := dev6_eq; have hd7 := dev7_eq; have hd8 := dev8_eq; have hd9 := dev9_eq; have hd10 := dev10_eq
  -- the handshake, the first chunk, up to its copy
  sl_exec
  clear hmw
  -- copy 0: the chunk's left half goes with the copy, the right half stays for the loads
  ihave Hh0 := (pointsTo_share (PosShare.mem_left_op_right fullShare)).1 $$ Hsb0
  icases Hh0 with ⟨Hsb0L, Hsb0R⟩
  iapply (Rounds.wp_send_pointsTo 𝒱₀ ER (sched H) (c : Thread nD τ) none (c' := ((peer c : Dev nD) : Thread nD τ)) (src := chunkN sbM 0 (inbC 0)) (dst := chunkN rbM 0 (inbC 0))
      (sS := SemLoc.dma (sendS 0)) (sem := SemLoc.dma (recvS 0)) (q := fullShare.left) (κ₁ := K (c, .send 0)) (κ₂ := K (peer c, .recv 0))
      (r₁ := 0) (r₂ := 0) (d₁ := ()) (d₂ := ())
      (by rw [duties_send]; exact Finset.mem_singleton_self _) (by rw [duties_recv]; exact Finset.mem_singleton_self _)
      () () NC rfl (amount_send H c 0 ()) (amount_recv H (peer c) 0 ()) _ rfl
      ((Entails.of_eq (pointsTo_congr (hSB0 _))).trans (Entails.of_eq (payload_send0 H c ()).symm))
      ((Entails.of_eq (pointsTo_congr (hRB0 _ _))).trans (Entails.of_eq (payload_recv0 H (peer c) ()).symm))) $$ [Hsb0L Hab_pay1 HO Hts0 Htr0P Hab_pay10]
  · isplitr; · iexact HIs0
    isplitr; · iexact HIr0P
    isplitl [Hsb0L]; · iexact Hsb0L
    isplitl [Hab_pay1]; · iexact Hab_pay1
    isplitl [HO]; · iexact HO
    isplitl [Hts0]; · iexact Hts0
    isplitr; · iexact Hrs0
    isplitl [Htr0P]; · iexact Htr0P
    iexact Hab_pay10
  iintro ⟨Hcs0, HO⟩
  sl_exec
  -- copy 1: the chunk's left half goes with the copy, the right half stays for the loads
  ihave Hh1 := (pointsTo_share (PosShare.mem_left_op_right fullShare)).1 $$ Hsb1
  icases Hh1 with ⟨Hsb1L, Hsb1R⟩
  iapply (Rounds.wp_send_pointsTo 𝒱₀ ER (sched H) (c : Thread nD τ) none (c' := ((peer c : Dev nD) : Thread nD τ)) (src := chunkN sbM 1 (inbC 1)) (dst := chunkN rbM 1 (inbC 1))
      (sS := SemLoc.dma (sendS 1)) (sem := SemLoc.dma (recvS 1)) (q := fullShare.left) (κ₁ := K (c, .send 1)) (κ₂ := K (peer c, .recv 1))
      (r₁ := 0) (r₂ := 0) (d₁ := ()) (d₂ := ())
      (by rw [duties_send]; exact Finset.mem_singleton_self _) (by rw [duties_recv]; exact Finset.mem_singleton_self _)
      () () NC rfl (amount_send H c 1 ()) (amount_recv H (peer c) 1 ()) _ rfl
      ((Entails.of_eq (pointsTo_congr (hSB1 _))).trans (Entails.of_eq (payload_send1 H c ()).symm))
      ((Entails.of_eq (pointsTo_congr (hRB1 _ _))).trans (Entails.of_eq (payload_recv1 H (peer c) ()).symm))) $$ [Hsb1L Hab_pay2 HO Hts1 Htr1P Hab_pay11]
  · isplitr; · iexact HIs1
    isplitr; · iexact HIr1P
    isplitl [Hsb1L]; · iexact Hsb1L
    isplitl [Hab_pay2]; · iexact Hab_pay2
    isplitl [HO]; · iexact HO
    isplitl [Hts1]; · iexact Hts1
    isplitr; · iexact Hrs1
    isplitl [Htr1P]; · iexact Htr1P
    iexact Hab_pay11
  iintro ⟨Hcs1, HO⟩
  sl_exec
  -- copy 2: the chunk's left half goes with the copy, the right half stays for the loads
  ihave Hh2 := (pointsTo_share (PosShare.mem_left_op_right fullShare)).1 $$ Hsb2
  icases Hh2 with ⟨Hsb2L, Hsb2R⟩
  iapply (Rounds.wp_send_pointsTo 𝒱₀ ER (sched H) (c : Thread nD τ) none (c' := ((peer c : Dev nD) : Thread nD τ)) (src := chunkN sbM 2 (inbC 2)) (dst := chunkN rbM 2 (inbC 2))
      (sS := SemLoc.dma (sendS 2)) (sem := SemLoc.dma (recvS 2)) (q := fullShare.left) (κ₁ := K (c, .send 2)) (κ₂ := K (peer c, .recv 2))
      (r₁ := 0) (r₂ := 0) (d₁ := ()) (d₂ := ())
      (by rw [duties_send]; exact Finset.mem_singleton_self _) (by rw [duties_recv]; exact Finset.mem_singleton_self _)
      () () NC rfl (amount_send H c 2 ()) (amount_recv H (peer c) 2 ()) _ rfl
      ((Entails.of_eq (pointsTo_congr (hSB2 _))).trans (Entails.of_eq (payload_send2 H c ()).symm))
      ((Entails.of_eq (pointsTo_congr (hRB2 _ _))).trans (Entails.of_eq (payload_recv2 H (peer c) ()).symm))) $$ [Hsb2L Hab_pay3 HO Hts2 Htr2P Hab_pay12]
  · isplitr; · iexact HIs2
    isplitr; · iexact HIr2P
    isplitl [Hsb2L]; · iexact Hsb2L
    isplitl [Hab_pay3]; · iexact Hab_pay3
    isplitl [HO]; · iexact HO
    isplitl [Hts2]; · iexact Hts2
    isplitr; · iexact Hrs2
    isplitl [Htr2P]; · iexact Htr2P
    iexact Hab_pay12
  iintro ⟨Hcs2, HO⟩
  sl_exec
  -- copy 3: the chunk's left half goes with the copy, the right half stays for the loads
  ihave Hh3 := (pointsTo_share (PosShare.mem_left_op_right fullShare)).1 $$ Hsb3
  icases Hh3 with ⟨Hsb3L, Hsb3R⟩
  iapply (Rounds.wp_send_pointsTo 𝒱₀ ER (sched H) (c : Thread nD τ) none (c' := ((peer c : Dev nD) : Thread nD τ)) (src := chunkN sbM 3 (inbC 3)) (dst := chunkN rbM 3 (inbC 3))
      (sS := SemLoc.dma (sendS 3)) (sem := SemLoc.dma (recvS 3)) (q := fullShare.left) (κ₁ := K (c, .send 3)) (κ₂ := K (peer c, .recv 3))
      (r₁ := 0) (r₂ := 0) (d₁ := ()) (d₂ := ())
      (by rw [duties_send]; exact Finset.mem_singleton_self _) (by rw [duties_recv]; exact Finset.mem_singleton_self _)
      () () NC rfl (amount_send H c 3 ()) (amount_recv H (peer c) 3 ()) _ rfl
      ((Entails.of_eq (pointsTo_congr (hSB3 _))).trans (Entails.of_eq (payload_send3 H c ()).symm))
      ((Entails.of_eq (pointsTo_congr (hRB3 _ _))).trans (Entails.of_eq (payload_recv3 H (peer c) ()).symm))) $$ [Hsb3L Hab_pay4 HO Hts3 Htr3P Hab_pay13]
  · isplitr; · iexact HIs3
    isplitr; · iexact HIr3P
    isplitl [Hsb3L]; · iexact Hsb3L
    isplitl [Hab_pay4]; · iexact Hab_pay4
    isplitl [HO]; · iexact HO
    isplitl [Hts3]; · iexact Hts3
    isplitr; · iexact Hrs3
    isplitl [Htr3P]; · iexact Htr3P
    iexact Hab_pay13
  iintro ⟨Hcs3, HO⟩
  sl_exec
  -- copy 4: the chunk's left half goes with the copy, the right half stays for the loads
  ihave Hh4 := (pointsTo_share (PosShare.mem_left_op_right fullShare)).1 $$ Hsb4
  icases Hh4 with ⟨Hsb4L, Hsb4R⟩
  iapply (Rounds.wp_send_pointsTo 𝒱₀ ER (sched H) (c : Thread nD τ) none (c' := ((peer c : Dev nD) : Thread nD τ)) (src := chunkN sbM 4 (inbC 4)) (dst := chunkN rbM 4 (inbC 4))
      (sS := SemLoc.dma (sendS 4)) (sem := SemLoc.dma (recvS 4)) (q := fullShare.left) (κ₁ := K (c, .send 4)) (κ₂ := K (peer c, .recv 4))
      (r₁ := 0) (r₂ := 0) (d₁ := ()) (d₂ := ())
      (by rw [duties_send]; exact Finset.mem_singleton_self _) (by rw [duties_recv]; exact Finset.mem_singleton_self _)
      () () NC rfl (amount_send H c 4 ()) (amount_recv H (peer c) 4 ()) _ rfl
      ((Entails.of_eq (pointsTo_congr (hSB4 _))).trans (Entails.of_eq (payload_send4 H c ()).symm))
      ((Entails.of_eq (pointsTo_congr (hRB4 _ _))).trans (Entails.of_eq (payload_recv4 H (peer c) ()).symm))) $$ [Hsb4L Hab_pay5 HO Hts4 Htr4P Hab_pay14]
  · isplitr; · iexact HIs4
    isplitr; · iexact HIr4P
    isplitl [Hsb4L]; · iexact Hsb4L
    isplitl [Hab_pay5]; · iexact Hab_pay5
    isplitl [HO]; · iexact HO
    isplitl [Hts4]; · iexact Hts4
    isplitr; · iexact Hrs4
    isplitl [Htr4P]; · iexact Htr4P
    iexact Hab_pay14
  iintro ⟨Hcs4, HO⟩
  sl_exec
  -- copy 5: the chunk's left half goes with the copy, the right half stays for the loads
  ihave Hh5 := (pointsTo_share (PosShare.mem_left_op_right fullShare)).1 $$ Hsb5
  icases Hh5 with ⟨Hsb5L, Hsb5R⟩
  iapply (Rounds.wp_send_pointsTo 𝒱₀ ER (sched H) (c : Thread nD τ) none (c' := ((peer c : Dev nD) : Thread nD τ)) (src := chunkN sbM 5 (inbC 5)) (dst := chunkN rbM 5 (inbC 5))
      (sS := SemLoc.dma (sendS 5)) (sem := SemLoc.dma (recvS 5)) (q := fullShare.left) (κ₁ := K (c, .send 5)) (κ₂ := K (peer c, .recv 5))
      (r₁ := 0) (r₂ := 0) (d₁ := ()) (d₂ := ())
      (by rw [duties_send]; exact Finset.mem_singleton_self _) (by rw [duties_recv]; exact Finset.mem_singleton_self _)
      () () NC rfl (amount_send H c 5 ()) (amount_recv H (peer c) 5 ()) _ rfl
      ((Entails.of_eq (pointsTo_congr (hSB5 _))).trans (Entails.of_eq (payload_send5 H c ()).symm))
      ((Entails.of_eq (pointsTo_congr (hRB5 _ _))).trans (Entails.of_eq (payload_recv5 H (peer c) ()).symm))) $$ [Hsb5L Hab_pay6 HO Hts5 Htr5P Hab_pay15]
  · isplitr; · iexact HIs5
    isplitr; · iexact HIr5P
    isplitl [Hsb5L]; · iexact Hsb5L
    isplitl [Hab_pay6]; · iexact Hab_pay6
    isplitl [HO]; · iexact HO
    isplitl [Hts5]; · iexact Hts5
    isplitr; · iexact Hrs5
    isplitl [Htr5P]; · iexact Htr5P
    iexact Hab_pay15
  iintro ⟨Hcs5, HO⟩
  sl_exec
  -- the row sums' copy, likewise
  ihave Hhs := (pointsTo_share (PosShare.mem_left_op_right fullShare)).1 $$ Hss
  icases Hhs with ⟨HssL, HssR⟩
  iapply (Rounds.wp_send_pointsTo 𝒱₀ ER (sched H) (c : Thread nD τ) none (c' := ((peer c : Dev nD) : Thread nD τ)) (src := (Memref.whole cc0_scratch2 : Memref sig .tc .vmem S256x1 .bf16)) (dst := (Memref.whole cc0_scratch3 : Memref sig .tc .vmem S256x1 .bf16))
      (sS := SemLoc.dma ssendS) (sem := SemLoc.dma srecvS) (q := fullShare.left) (κ₁ := K (c, .ssend)) (κ₂ := K (peer c, .srecv))
      (r₁ := 0) (r₂ := 0) (d₁ := ()) (d₂ := ())
      (by rw [duties_ssend]; exact Finset.mem_singleton_self _) (by rw [duties_srecv]; exact Finset.mem_singleton_self _)
      () () NR rfl (amount_ssend H c ()) (amount_srecv H (peer c) ()) _ rfl
      ((Entails.of_eq (pointsTo_congr (hSS _))).trans (Entails.of_eq (payload_ssend H c ()).symm))
      ((Entails.of_eq (pointsTo_congr (hSR _ _))).trans (Entails.of_eq (payload_srecv H (peer c) ()).symm))) $$ [HssL Hab_pay9 HO Htss HtsrP Hab_pay18]
  · isplitr; · iexact HIss
    isplitr; · iexact HIsrP
    isplitl [HssL]; · iexact HssL
    isplitl [Hab_pay9]; · iexact Hab_pay9
    isplitl [HO]; · iexact HO
    isplitl [Htss]; · iexact Htss
    isplitr; · iexact Hrss
    isplitl [HtsrP]; · iexact HtsrP
    iexact Hab_pay18
  iintro ⟨Hcss, HO⟩
  sl_exec
  -- copy 6: the chunk's left half goes with the copy, the right half stays for the loads
  ihave Hh6 := (pointsTo_share (PosShare.mem_left_op_right fullShare)).1 $$ Hsb6
  icases Hh6 with ⟨Hsb6L, Hsb6R⟩
  iapply (Rounds.wp_send_pointsTo 𝒱₀ ER (sched H) (c : Thread nD τ) none (c' := ((peer c : Dev nD) : Thread nD τ)) (src := chunkN sbM 6 (inbC 6)) (dst := chunkN rbM 6 (inbC 6))
      (sS := SemLoc.dma (sendS 6)) (sem := SemLoc.dma (recvS 6)) (q := fullShare.left) (κ₁ := K (c, .send 6)) (κ₂ := K (peer c, .recv 6))
      (r₁ := 0) (r₂ := 0) (d₁ := ()) (d₂ := ())
      (by rw [duties_send]; exact Finset.mem_singleton_self _) (by rw [duties_recv]; exact Finset.mem_singleton_self _)
      () () NC rfl (amount_send H c 6 ()) (amount_recv H (peer c) 6 ()) _ rfl
      ((Entails.of_eq (pointsTo_congr (hSB6 _))).trans (Entails.of_eq (payload_send6 H c ()).symm))
      ((Entails.of_eq (pointsTo_congr (hRB6 _ _))).trans (Entails.of_eq (payload_recv6 H (peer c) ()).symm))) $$ [Hsb6L Hab_pay7 HO Hts6 Htr6P Hab_pay16]
  · isplitr; · iexact HIs6
    isplitr; · iexact HIr6P
    isplitl [Hsb6L]; · iexact Hsb6L
    isplitl [Hab_pay7]; · iexact Hab_pay7
    isplitl [HO]; · iexact HO
    isplitl [Hts6]; · iexact Hts6
    isplitr; · iexact Hrs6
    isplitl [Htr6P]; · iexact Htr6P
    iexact Hab_pay16
  iintro ⟨Hcs6, HO⟩
  sl_exec
  -- copy 7: the chunk's left half goes with the copy, the right half stays for the loads
  ihave Hh7 := (pointsTo_share (PosShare.mem_left_op_right fullShare)).1 $$ Hsb7
  icases Hh7 with ⟨Hsb7L, Hsb7R⟩
  iapply (Rounds.wp_send_pointsTo 𝒱₀ ER (sched H) (c : Thread nD τ) none (c' := ((peer c : Dev nD) : Thread nD τ)) (src := chunkN sbM 7 (inbC 7)) (dst := chunkN rbM 7 (inbC 7))
      (sS := SemLoc.dma (sendS 7)) (sem := SemLoc.dma (recvS 7)) (q := fullShare.left) (κ₁ := K (c, .send 7)) (κ₂ := K (peer c, .recv 7))
      (r₁ := 0) (r₂ := 0) (d₁ := ()) (d₂ := ())
      (by rw [duties_send]; exact Finset.mem_singleton_self _) (by rw [duties_recv]; exact Finset.mem_singleton_self _)
      () () NC rfl (amount_send H c 7 ()) (amount_recv H (peer c) 7 ()) 0 (by rw [zero_add])
      ((Entails.of_eq (pointsTo_congr (hSB7 _))).trans (Entails.of_eq (payload_send7 H c ()).symm))
      ((Entails.of_eq (pointsTo_congr (hRB7 _ _))).trans (Entails.of_eq (payload_recv7 H (peer c) ()).symm))) $$ [Hsb7L Hab_pay8 HO Hts7 Htr7P Hab_pay17]
  · isplitr; · iexact HIs7
    isplitr; · iexact HIr7P
    isplitl [Hsb7L]; · iexact Hsb7L
    isplitl [Hab_pay8]; · iexact Hab_pay8
    isplitl [HO]; · iexact HO
    isplitl [Hts7]; · iexact Hts7
    isplitr; · iexact Hrs7
    isplitl [Htr7P]; · iexact Htr7P
    iexact Hab_pay17
  iintro ⟨Hcs7, HO⟩
  sl_exec
  -- the eighteen own cells close: their semaphores are the device's again, at zero
  imod (Rounds.cell_close ER (sched H) (Set.mem_univ (K (c, Kind.send 0))) (fun h => h) (R := 1) (duties_later H _)) $$ [Has0] with Hzs0
  · isplitr; · iexact HIs0
    iexact Has0
  imod (Rounds.cell_close ER (sched H) (Set.mem_univ (K (c, Kind.send 1))) (fun h => h) (R := 1) (duties_later H _)) $$ [Has1] with Hzs1
  · isplitr; · iexact HIs1
    iexact Has1
  imod (Rounds.cell_close ER (sched H) (Set.mem_univ (K (c, Kind.send 2))) (fun h => h) (R := 1) (duties_later H _)) $$ [Has2] with Hzs2
  · isplitr; · iexact HIs2
    iexact Has2
  imod (Rounds.cell_close ER (sched H) (Set.mem_univ (K (c, Kind.send 3))) (fun h => h) (R := 1) (duties_later H _)) $$ [Has3] with Hzs3
  · isplitr; · iexact HIs3
    iexact Has3
  imod (Rounds.cell_close ER (sched H) (Set.mem_univ (K (c, Kind.send 4))) (fun h => h) (R := 1) (duties_later H _)) $$ [Has4] with Hzs4
  · isplitr; · iexact HIs4
    iexact Has4
  imod (Rounds.cell_close ER (sched H) (Set.mem_univ (K (c, Kind.send 5))) (fun h => h) (R := 1) (duties_later H _)) $$ [Has5] with Hzs5
  · isplitr; · iexact HIs5
    iexact Has5
  imod (Rounds.cell_close ER (sched H) (Set.mem_univ (K (c, Kind.send 6))) (fun h => h) (R := 1) (duties_later H _)) $$ [Has6] with Hzs6
  · isplitr; · iexact HIs6
    iexact Has6
  imod (Rounds.cell_close ER (sched H) (Set.mem_univ (K (c, Kind.send 7))) (fun h => h) (R := 1) (duties_later H _)) $$ [Has7] with Hzs7
  · isplitr; · iexact HIs7
    iexact Has7
  imod (Rounds.cell_close ER (sched H) (Set.mem_univ (K (c, Kind.recv 0))) (fun h => h) (R := 1) (duties_later H _)) $$ [Har0] with Hzr0
  · isplitr; · iexact HIr0
    iexact Har0
  imod (Rounds.cell_close ER (sched H) (Set.mem_univ (K (c, Kind.recv 1))) (fun h => h) (R := 1) (duties_later H _)) $$ [Har1] with Hzr1
  · isplitr; · iexact HIr1
    iexact Har1
  imod (Rounds.cell_close ER (sched H) (Set.mem_univ (K (c, Kind.recv 2))) (fun h => h) (R := 1) (duties_later H _)) $$ [Har2] with Hzr2
  · isplitr; · iexact HIr2
    iexact Har2
  imod (Rounds.cell_close ER (sched H) (Set.mem_univ (K (c, Kind.recv 3))) (fun h => h) (R := 1) (duties_later H _)) $$ [Har3] with Hzr3
  · isplitr; · iexact HIr3
    iexact Har3
  imod (Rounds.cell_close ER (sched H) (Set.mem_univ (K (c, Kind.recv 4))) (fun h => h) (R := 1) (duties_later H _)) $$ [Har4] with Hzr4
  · isplitr; · iexact HIr4
    iexact Har4
  imod (Rounds.cell_close ER (sched H) (Set.mem_univ (K (c, Kind.recv 5))) (fun h => h) (R := 1) (duties_later H _)) $$ [Har5] with Hzr5
  · isplitr; · iexact HIr5
    iexact Har5
  imod (Rounds.cell_close ER (sched H) (Set.mem_univ (K (c, Kind.recv 6))) (fun h => h) (R := 1) (duties_later H _)) $$ [Har6] with Hzr6
  · isplitr; · iexact HIr6
    iexact Har6
  imod (Rounds.cell_close ER (sched H) (Set.mem_univ (K (c, Kind.recv 7))) (fun h => h) (R := 1) (duties_later H _)) $$ [Har7] with Hzr7
  · isplitr; · iexact HIr7
    iexact Har7
  imod (Rounds.cell_close ER (sched H) (Set.mem_univ (K (c, Kind.ssend))) (fun h => h) (R := 1) (duties_later H _)) $$ [Hass] with Hzss
  · isplitr; · iexact HIss
    iexact Hass
  imod (Rounds.cell_close ER (sched H) (Set.mem_univ (K (c, Kind.srecv))) (fun h => h) (R := 1) (duties_later H _)) $$ [Hasr] with Hzsr
  · isplitr; · iexact HIsr
    iexact Hasr
  rw [wp_ret]; imodintro
  unfold bodyPost Φ₁ scr Dat.owesAt Pipeline.owesWithin
  rw [show (dats H m 0 c).owed t0_0.succ = 0 from rfl, kinds18_chain]
  -- the send buffers' halves rejoin; the four scratch buffers are whole again
  ihave HR0 : ((chunkN sbM 0 (inbC 0)).view.loc ((c : Dev nD) : Thread nD τ) ↦[(chunkN sbM 0 (inbC 0)).view.set]{fullShare.right} H.SB c) $$ [Hsb0R]
  · iapply (Entails.of_eq (pointsTo_congr (hSB0 f0)))
    iexact Hsb0R
  ihave HF0 := (pointsTo_share (PosShare.mem_left_op_right fullShare)).2 $$ [Has0_pay1 HR0]
  · isplitl [Has0_pay1] <;> iassumption
  ihave HR1 : ((chunkN sbM 1 (inbC 1)).view.loc ((c : Dev nD) : Thread nD τ) ↦[(chunkN sbM 1 (inbC 1)).view.set]{fullShare.right} H.SB c) $$ [Hsb1R]
  · iapply (Entails.of_eq (pointsTo_congr (hSB1 f0)))
    iexact Hsb1R
  ihave HF1 := (pointsTo_share (PosShare.mem_left_op_right fullShare)).2 $$ [Has1_pay1 HR1]
  · isplitl [Has1_pay1] <;> iassumption
  ihave HR2 : ((chunkN sbM 2 (inbC 2)).view.loc ((c : Dev nD) : Thread nD τ) ↦[(chunkN sbM 2 (inbC 2)).view.set]{fullShare.right} H.SB c) $$ [Hsb2R]
  · iapply (Entails.of_eq (pointsTo_congr (hSB2 f0)))
    iexact Hsb2R
  ihave HF2 := (pointsTo_share (PosShare.mem_left_op_right fullShare)).2 $$ [Has2_pay1 HR2]
  · isplitl [Has2_pay1] <;> iassumption
  ihave HR3 : ((chunkN sbM 3 (inbC 3)).view.loc ((c : Dev nD) : Thread nD τ) ↦[(chunkN sbM 3 (inbC 3)).view.set]{fullShare.right} H.SB c) $$ [Hsb3R]
  · iapply (Entails.of_eq (pointsTo_congr (hSB3 f0)))
    iexact Hsb3R
  ihave HF3 := (pointsTo_share (PosShare.mem_left_op_right fullShare)).2 $$ [Has3_pay1 HR3]
  · isplitl [Has3_pay1] <;> iassumption
  ihave HR4 : ((chunkN sbM 4 (inbC 4)).view.loc ((c : Dev nD) : Thread nD τ) ↦[(chunkN sbM 4 (inbC 4)).view.set]{fullShare.right} H.SB c) $$ [Hsb4R]
  · iapply (Entails.of_eq (pointsTo_congr (hSB4 f0)))
    iexact Hsb4R
  ihave HF4 := (pointsTo_share (PosShare.mem_left_op_right fullShare)).2 $$ [Has4_pay1 HR4]
  · isplitl [Has4_pay1] <;> iassumption
  ihave HR5 : ((chunkN sbM 5 (inbC 5)).view.loc ((c : Dev nD) : Thread nD τ) ↦[(chunkN sbM 5 (inbC 5)).view.set]{fullShare.right} H.SB c) $$ [Hsb5R]
  · iapply (Entails.of_eq (pointsTo_congr (hSB5 f0)))
    iexact Hsb5R
  ihave HF5 := (pointsTo_share (PosShare.mem_left_op_right fullShare)).2 $$ [Has5_pay1 HR5]
  · isplitl [Has5_pay1] <;> iassumption
  ihave HR6 : ((chunkN sbM 6 (inbC 6)).view.loc ((c : Dev nD) : Thread nD τ) ↦[(chunkN sbM 6 (inbC 6)).view.set]{fullShare.right} H.SB c) $$ [Hsb6R]
  · iapply (Entails.of_eq (pointsTo_congr (hSB6 f0)))
    iexact Hsb6R
  ihave HF6 := (pointsTo_share (PosShare.mem_left_op_right fullShare)).2 $$ [Has6_pay1 HR6]
  · isplitl [Has6_pay1] <;> iassumption
  ihave HR7 : ((chunkN sbM 7 (inbC 7)).view.loc ((c : Dev nD) : Thread nD τ) ↦[(chunkN sbM 7 (inbC 7)).view.set]{fullShare.right} H.SB c) $$ [Hsb7R]
  · iapply (Entails.of_eq (pointsTo_congr (hSB7 f0)))
    iexact Hsb7R
  ihave HF7 := (pointsTo_share (PosShare.mem_left_op_right fullShare)).2 $$ [Has7_pay1 HR7]
  · isplitl [Has7_pay1] <;> iassumption
  ihave HJ0 := (join_sb (F := F) c fullShare) $$ [HF0 HF1 HF2 HF3 HF4 HF5 HF6 HF7]
  · isplitl [HF0]; · (iexists _; iexact HF0)
    isplitl [HF1]; · (iexists _; iexact HF1)
    isplitl [HF2]; · (iexists _; iexact HF2)
    isplitl [HF3]; · (iexists _; iexact HF3)
    isplitl [HF4]; · (iexists _; iexact HF4)
    isplitl [HF5]; · (iexists _; iexact HF5)
    isplitl [HF6]; · (iexists _; iexact HF6)
    iexists _; iexact HF7
  ihave HJ1 := (join_rb (F := F) c fullShare) $$ [Har0_pay1 Har1_pay1 Har2_pay1 Har3_pay1 Har4_pay1 Har5_pay1 Har6_pay1 Har7_pay1]
  · isplitl [Har0_pay1]; · (iexists _; iexact Har0_pay1)
    isplitl [Har1_pay1]; · (iexists _; iexact Har1_pay1)
    isplitl [Har2_pay1]; · (iexists _; iexact Har2_pay1)
    isplitl [Har3_pay1]; · (iexists _; iexact Har3_pay1)
    isplitl [Har4_pay1]; · (iexists _; iexact Har4_pay1)
    isplitl [Har5_pay1]; · (iexists _; iexact Har5_pay1)
    isplitl [Har6_pay1]; · (iexists _; iexact Har6_pay1)
    iexists _; iexact Har7_pay1
  ihave HRs : ((Memref.whole cc0_scratch2 : Memref sig .tc .vmem S256x1 .bf16).view.loc ((c : Dev nD) : Thread nD τ) ↦[(Memref.whole cc0_scratch2 : Memref sig .tc .vmem S256x1 .bf16).view.set]{fullShare.right} H.SS c) $$ [HssR]
  · iapply (Entails.of_eq (pointsTo_congr (hSS f2)))
    iexact HssR
  ihave HFs := (pointsTo_share (PosShare.mem_left_op_right fullShare)).2 $$ [Hass_pay1 HRs]
  · isplitl [Hass_pay1] <;> iassumption
  ihave HFs' := (Entails.of_eq (whole_scratch2 c fullShare (H.SS c))) $$ HFs
  ihave HFr' := (Entails.of_eq (whole_scratch3 c fullShare (H.SR c))) $$ Hasr_pay1
  isplitl [HJ0 HJ1 HFs' HFr' Hzs0 Hzs1 Hzs2 Hzs3 Hzs4 Hzs5 Hzs6 Hzs7 Hzr0 Hzr1 Hzr2 Hzr3 Hzr4 Hzr5 Hzr6 Hzr7 Hzss Hzsr]
  · isplitl [HJ0 HJ1 HFs' HFr']
    · isplitl [HJ0]; · iexact HJ0
      isplitl [HJ1]; · iexact HJ1
      isplitl [HFs']; · (iexists _; iexact HFs')
      iexists _; iexact HFr'
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzs6]; · iexact Hzs6
      isplitl [Hzs7]; · iexact Hzs7
      isplitl [Hzr0]; · iexact Hzr0
      isplitl [Hzr1]; · iexact Hzr1
      isplitl [Hzr2]; · iexact Hzr2
      isplitl [Hzr3]; · iexact Hzr3
      isplitl [Hzr4]; · iexact Hzr4
      isplitl [Hzr5]; · iexact Hzr5
      isplitl [Hzr6]; · iexact Hzr6
      isplitl [Hzr7]; · iexact Hzr7
      isplitl [Hzss]; · iexact Hzss
      iexact Hzsr
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; exact hOUT g2)
  iexact Hout

end Cert.Kernel.Dist

end
-- ==== Proof.Bits.BodyOb.lean ====
import proofs.«900347_g7700000000000348_dist_arsfmx_v7x_xyz2x4x4_x_t256_d512_v4096_bf16_1_alg».proof.Proof.Bits.Body
import proofs.«900347_g7700000000000348_dist_arsfmx_v7x_xyz2x4x4_x_t256_d512_v4096_bf16_1_alg».proof.Proof.Bits.HeldOf

noncomputable section

namespace Cert.Kernel.Dist

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What lands in the partner's receive buffers is what this device sent: the partner's partner is the device. -/
theorem rbOf_peer (c : Dev nD) : rbOf m (peer c) = (sbAll fillB (xs m c) (ws m c) : CR F) := by
  unfold rbOf sbOf; rw [peer_peer]
theorem srOf_peer (c : Dev nD) : srOf m (peer c) = (ssAll fillS (xs m c) (ws m c) : CT F) := by
  unfold srOf ssOf; rw [peer_peer]

set_option maxRecDepth 8000 in
set_option maxHeartbeats 2000000 in
/-- The body obligation of the pipeline, at the contents `heldOf m`: the body as stepped in `sound_body`, its facts
    about what the copies carry discharged by the chunk-by-chunk reading of the buffers. -/
theorem body_obligation (c : Dev nD) : BodyObligation (dats (F := F) (heldOf m) m 0 c) (defs₀ (F := F)) 𝒱₀ () Set.univ := fun t => by
  have ht : t = t0_0 := fin_N0 t
  subst ht
  rw [bigSep_W0, bigSep_W0]
  simp only [owns_whole_eq]
  show bodyPre' (heldOf m) m c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost (heldOf m) m c)
  exact sound_body (heldOf m) m c
    (fun f => FA0 f fillB (xs m c) (ws m c))
    (fun f => FA1 f fillB (xs m c) (ws m c))
    (fun f => FA2 f fillB (xs m c) (ws m c))
    (fun f => FA3 f fillB (xs m c) (ws m c))
    (fun f => FA4 f fillB (xs m c) (ws m c))
    (fun f => FA5 f fillB (xs m c) (ws m c))
    (fun f => FA6 f fillB (xs m c) (ws m c))
    (fun f => FA7 f fillB (xs m c) (ws m c))
    (fun fd f i hi => (FB 0 (inbC 0) fd _ fillB (xs m c) (ws m c) (FA0 f fillB (xs m c) (ws m c)) i hi).trans (congrFun (rbOf_peer m c).symm i))
    (fun fd f i hi => (FB 1 (inbC 1) fd _ fillB (xs m c) (ws m c) (FA1 f fillB (xs m c) (ws m c)) i hi).trans (congrFun (rbOf_peer m c).symm i))
    (fun fd f i hi => (FB 2 (inbC 2) fd _ fillB (xs m c) (ws m c) (FA2 f fillB (xs m c) (ws m c)) i hi).trans (congrFun (rbOf_peer m c).symm i))
    (fun fd f i hi => (FB 3 (inbC 3) fd _ fillB (xs m c) (ws m c) (FA3 f fillB (xs m c) (ws m c)) i hi).trans (congrFun (rbOf_peer m c).symm i))
    (fun fd f i hi => (FB 4 (inbC 4) fd _ fillB (xs m c) (ws m c) (FA4 f fillB (xs m c) (ws m c)) i hi).trans (congrFun (rbOf_peer m c).symm i))
    (fun fd f i hi => (FB 5 (inbC 5) fd _ fillB (xs m c) (ws m c) (FA5 f fillB (xs m c) (ws m c)) i hi).trans (congrFun (rbOf_peer m c).symm i))
    (fun fd f i hi => (FB 6 (inbC 6) fd _ fillB (xs m c) (ws m c) (FA6 f fillB (xs m c) (ws m c)) i hi).trans (congrFun (rbOf_peer m c).symm i))
    (fun fd f i hi => (FB 7 (inbC 7) fd _ fillB (xs m c) (ws m c) (FA7 f fillB (xs m c) (ws m c)) i hi).trans (congrFun (rbOf_peer m c).symm i))
    (fun f i _ => congrFun (FS f fillS (xs m c) (ws m c)) i)
    (fun fd f i hi => (FT fd _ fillS (xs m c) (ws m c) (fun j => congrFun (FS f fillS (xs m c) (ws m c)) j) i hi).trans (congrFun (srOf_peer m c).symm i))
    (fun f => FO f fillO c (xs m c) (ws m c) (rbOf m c) (srOf m c))

end Cert.Kernel.Dist

end
-- ==== Proof.Arrays.lean ====
/-
  The two argument arrays as the pipeline stages them: each window has one block, the whole array, so what a device's
  staging buffer holds of `x` and of its block of `W` is the argument array itself.
-/
import proofs.«900347_g7700000000000348_dist_arsfmx_v7x_xyz2x4x4_x_t256_d512_v4096_bf16_1_alg».proof.Proof.Data

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The staged copy of `x` is the argument array. -/
theorem xs_eq (c : Dev nD) : xs m c = m ((c : Thread nD τ).loc main_arg0) :=
  Memref.read_access_unit_zero (Elt F) main_arg0 (by funext a; fin_cases a <;> rfl) _ _

/-- The staged block of `W` is the argument array. -/
theorem ws_eq (c : Dev nD) : ws m c = m ((c : Thread nD τ).loc main_arg1) :=
  Memref.read_access_unit_zero (Elt F) main_arg1 (by funext a; fin_cases a <;> rfl) _ _

end Cert.KernelIdeal.Dist

end
-- ==== Proof.Bits.Launch.lean ====
/-
  The launch of the exchange: from "each device's body is proved" to a run of the whole program on the mesh.

  The launch element is split between the pipeline's own cells and the exchange's: every device is dealt the round
  state, its position and the duty token of its nineteen cells. One global step then allocates every cell's invariant
  (the eighteen scoped semaphores and the one unscoped handshake semaphore all stand at zero), records the persistent
  facts of all cells of all devices, and deals the tokens across the pairs: the token of a device's handshake cell and
  of its nine receive cells goes to its partner, who pays them; the tokens of its send cells stay. What a device owes
  its partner at launch comes back to the partner as the credit of those ten cells. The pipeline's staging semaphores
  carry no cell of the exchange and lie at level 0, below everything a device owes.

  Then the three consequences the claims read: the argument arrays end as they began, and the result array ends
  holding what the body left in its staging buffer.
-/
import proofs.«900347_g7700000000000348_dist_arsfmx_v7x_xyz2x4x4_x_t256_d512_v4096_bf16_1_alg».proof.Proof.Bits.Data

noncomputable section

namespace Cert.Kernel.Dist

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (H : Held F) (m : (ℓ : Loc nD τ sig) → Buf (Elt F) ℓ) (ρ : Dev nD → PrngReg)

/-! ## The launch -/

/-- The eighteen cells of a device that complete on scoped semaphores, in the order of the semaphores. -/
def okind : Fin 18 → Kind
  | 0 => .send 0 | 1 => .send 1 | 2 => .send 2 | 3 => .send 3 | 4 => .send 4 | 5 => .send 5 | 6 => .send 6 | 7 => .send 7
  | 8 => .recv 0 | 9 => .recv 1 | 10 => .recv 2 | 11 => .recv 3 | 12 => .recv 4 | 13 => .recv 5 | 14 => .recv 6 | 15 => .recv 7
  | 16 => .ssend | 17 => .srecv
  | ⟨_ + 18, h⟩ => absurd h (Nat.not_lt.2 (Nat.le_add_left _ _))

abbrev osem : Fin 18 → SemLoc sig := fun k => (okind k).sem

theorem ownSemFacts : Pipeline.OwnSemFacts cfg0.spec osem := by decide

theorem share_eq (c : Dev nD) (w : Fin cfg0.W) : (dats H m 0 c).share w = fullShare := by unfold Dat.share; split <;> rfl

abbrev kcell (ck : Dev nD × Kind) : GSem nD τ sig := cell ck.1 ck.2

theorem sem_injective : Function.Injective Kind.sem := fun κ κ' h => by
  have h1 := kindOf_sem κ (mem_all κ)
  rw [h, kindOf_sem κ' (mem_all κ')] at h1
  exact (Option.some.inj h1).symm

theorem kcell_injective : Function.Injective (kcell : Dev nD × Kind → GSem nD τ sig) := by
  rintro ⟨c, k⟩ ⟨c', k'⟩ h
  have h1 : c = c' := by have := congrArg (fun g : GSem nD τ sig => g.1.1) h; exact this
  subst h1
  have h2 : k.sem = k'.sem := congrArg Prod.snd h
  rw [sem_injective h2]

def ringCells : Finset (GSem nD τ sig) := Finset.univ.map ⟨kcell, kcell_injective⟩

abbrev tokOf (ck : Dev nD × Kind) : GSem nD τ sig × ℕ × Unit := (kcell ck, 0, ())
theorem tokOf_injective : Function.Injective (tokOf : Dev nD × Kind → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- What the launch element deals device `c`: the round state of its nineteen cells at counter zero, its position at
    round 0 of each and that the round is reached, and the one duty token of each. -/
def G (c : Dev nD) : sProp 𝕄 :=
  iprop((bigSep Finset.univ fun κ : Kind => roundState ER (sched H) (cell c κ) 0)
    ∗ (bigSep Finset.univ fun κ : Kind => iprop(atPos ER (cell c κ) 0 ∅ 0 ∗ reached ER (cell c κ) 0))
    ∗ (bigSep Finset.univ fun κ : Kind => dutyTok ER (cell c κ) 0 ()))

/-- What the global step makes of it. -/
def G' (c : Dev nD) : sProp 𝕄 := iprop(∃ K, ghost H K c)

omit [FloatOps F] in
theorem bigSep_cells (Φ : GSem nD τ sig → sProp 𝕄) :
    bigSep ringCells Φ = bigSep Finset.univ fun c : Dev nD => bigSep Finset.univ fun κ : Kind => Φ (cell c κ) := by
  unfold ringCells; rw [bigSep_map, bigSep_univ_prod]; rfl

theorem fund_ring : BI.own (ER (initOf ringCells ringToks)) ⊢ (|==> bigSep Finset.univ (G H) : sProp 𝕄) := by
  have hT : bigSep ringToks (fun x => (dutyTok ER x.1 x.2.1 x.2.2 : sProp 𝕄))
      = bigSep Finset.univ fun c : Dev nD => bigSep Finset.univ fun κ : Kind => dutyTok ER (cell c κ) 0 () := by
    unfold ringToks; rw [bigSep_map, bigSep_univ_prod]; rfl
  iintro HX
  imod (Rounds.fund ER (sched H) ringCells ringToks) $$ HX with ⟨Hst, Hr, Hat, Htok⟩
  imodintro
  ihave Hst' := (Entails.of_eq (bigSep_cells (F := F) fun g => roundState ER (sched H) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The eighteen scoped semaphores are the cells other than the handshake cell; -/
theorem ownSems0_eq (c : Dev nD) : (Pipeline.ownSems0 (Ix := Unit) (Name := ℕ) (U := UU) (Lvl := ℕ) (Val := Elt F) (τ := τ) osem c : sProp 𝕄)
    = bigSep (Finset.univ.erase Kind.bar) fun κ : Kind => semVal (cell c κ) 0 := by
  rw [Pipeline.ownSems0_eq_of_list c osem [0, 1, 2, 3, 4, 5, 6, 7, 8, 9, 10, 11, 12, 13, 14, 15, 16, 17] (by decide) (by decide),
    bigSep_eq_bigSepL_of_eq [Kind.send 0, .send 1, .send 2, .send 3, .send 4, .send 5, .send 6, .send 7,
      .recv 0, .recv 1, .recv 2, .recv 3, .recv 4, .recv 5, .recv 6, .recv 7, .ssend, .srecv] (by decide) (by decide)]
  rfl
omit [FloatOps F] in
/-- the handshake semaphore is the one unscoped semaphore. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun κ : Kind => semVal (cell c κ) 0 : sProp 𝕄) := by
  rw [ownSems0_eq, unscopedSems0_eq, bigSep_univ_at (fun κ : Kind => (semVal (cell c κ) 0 : sProp 𝕄)) Kind.bar]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G H c)
      ⊢ |={Set.univ}=> iprop((bigSep Finset.univ fun κ : Kind => iprop(∃ n : ℕ, cellInv ER (sched H) n (cell c κ)))
          ∗ (bigSep Finset.univ fun κ : Kind => iprop(atPos ER (cell c κ) 0 ∅ 0 ∗ reached ER (cell c κ) 0))
          ∗ (bigSep Finset.univ fun κ : Kind => dutyTok ER (cell c κ) 0 ())) := by
  unfold G
  iintro ⟨Hos, Hus, Hst, Hat, Htok⟩
  ihave Hv := (sems0_eq (F := F) c) $$ [Hos Hus]
  · isplitl [Hos] <;> iassumption
  imod (show iprop((bigSep Finset.univ fun κ : Kind => semVal (cell c κ) 0) ∗ bigSep Finset.univ fun κ : Kind => roundState ER (sched H) (cell c κ) 0)
      ⊢ (|={Set.univ}=> bigSep Finset.univ fun κ : Kind => iprop(∃ n : ℕ, cellInv ER (sched H) n (cell c κ)) : sProp 𝕄) from by
        rw [← bigSep_sep']
        exact (bigSep_mono fun κ _ => (Rounds.body_intro ER (sched H) (cell c κ)).trans inv_alloc).trans (bigSep_fupd _ _)) $$ [Hv Hst] with Hinv
  · isplitl [Hv] <;> iassumption
  imodintro
  isplitl [Hinv]; · iexact Hinv
  isplitl [Hat]; · iexact Hat
  iexact Htok

/-- The persistent part, of all devices at once: every cell's invariant and that round 0 of every cell is reached. -/
def records (K : Dev nD × Kind → ℕ) : sProp 𝕄 :=
  iprop((bigSep Finset.univ fun ck : Dev nD × Kind => cellInv ER (sched H) (K ck) (cell ck.1 ck.2))
    ∗ bigSep Finset.univ fun ck : Dev nD × Kind => reached ER (cell ck.1 ck.2) 0)

instance records_persistent (K : Dev nD × Kind → ℕ) : BI.Persistent (records H K) := by unfold records; infer_instance

theorem inv_at (K : Dev nD × Kind → ℕ) (c : Dev nD) (κ : Kind) :
    (bigSep Finset.univ fun ck : Dev nD × Kind => (cellInv ER (sched H) (K ck) (cell ck.1 ck.2) : sProp 𝕄)) ⊢ cellInv ER (sched H) (K (c, κ)) (cell c κ) :=
  bigSep_elim (Finset.mem_univ (c, κ))
omit [FloatOps F] in
theorem reached_at (c : Dev nD) (κ : Kind) :
    (bigSep Finset.univ fun ck : Dev nD × Kind => (reached ER (cell ck.1 ck.2) 0 : sProp 𝕄)) ⊢ reached ER (cell c κ) 0 :=
  bigSep_elim (Finset.mem_univ (c, κ))

/-- What stays with device `c`: its positions, and the tokens of the duties it pays. -/
def linear (c : Dev nD) : sProp 𝕄 :=
  iprop((bigSep Finset.univ fun κ : Kind => atPos ER (cell c κ) 0 ∅ 0) ∗ bigSep Finset.univ fun κ : Kind => dutyTok ER (cell (payer c κ) κ) 0 ())

theorem ghost_intro (K : Dev nD × Kind → ℕ) (c : Dev nD) : iprop(records H K ∗ linear (F := F) c) ⊢ G' H c := by
  unfold records linear G' ghost invs
  iintro ⟨⟨#HI, #HR⟩, Hat, Htok⟩
  iexists K
  isplitr
  · isplitr
    · iapply (BI.bigSep_intro_persistent (S := Finset.univ) (Φ := fun κ : Kind => cellInv ER (sched H) (K (c, κ)) (cell c κ)) fun κ _ => inv_at H K c κ); iexact HI
    · iapply (BI.bigSep_intro_persistent (S := Finset.univ) (Φ := fun κ : Kind => cellInv ER (sched H) (K (peer c, κ)) (cell (peer c) κ)) fun κ _ => inv_at H K (peer c) κ); iexact HI
  isplitl [Hat]; · iexact Hat
  isplitr
  · iapply (BI.bigSep_intro_persistent (S := Finset.univ) (Φ := fun κ : Kind => (reached ER (cell c κ) 0 : sProp 𝕄)) fun κ _ => reached_at (F := F) c κ); iexact HR
  isplitr
  · iapply (BI.bigSep_intro_persistent (S := Finset.univ) (Φ := fun κ : Kind => (reached ER (cell (peer c) κ) 0 : sProp 𝕄)) fun κ _ => reached_at (F := F) (peer c) κ); iexact HR
  iexact Htok

/-- Each cell's duty is paid by one device of the cell's pair: swapping, within every pair, the handshake and the
    receive cells is a bijection of the cells. -/
def payE : Dev nD × Kind ≃ Dev nD × Kind where
  toFun p := (payer p.1 p.2, p.2)
  invFun p := (payer p.1 p.2, p.2)
  left_inv := by rintro ⟨c, κ⟩; cases κ <;> simp only [payer, peer_peer]
  right_inv := by rintro ⟨c, κ⟩; cases κ <;> simp only [payer, peer_peer]

omit [FloatOps F] in
/-- The tokens dealt across the pairs: those of a device's handshake and receive cells go to its partner. -/
theorem toks_around : (bigSep Finset.univ fun c : Dev nD => bigSep Finset.univ fun κ : Kind => (dutyTok ER (cell c κ) 0 () : sProp 𝕄))
    ⊢ bigSep Finset.univ fun c : Dev nD => bigSep Finset.univ fun κ : Kind => dutyTok ER (cell (payer c κ) κ) 0 () := by
  have h1 := bigSep_univ_prod (fun p : Dev nD × Kind => (dutyTok ER (cell p.1 p.2) 0 () : sProp 𝕄))
  have h2 := bigSep_univ_prod (fun p : Dev nD × Kind => (dutyTok ER (cell (payer p.1 p.2) p.2) 0 () : sProp 𝕄))
  have h3 := bigSep_univ_equiv payE (fun p : Dev nD × Kind => (dutyTok ER (cell p.1 p.2) 0 () : sProp 𝕄))
  exact Entails.of_eq (h1.symm.trans (h3.trans h2))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun κ : Kind => iprop(∃ n : ℕ, cellInv ER (sched H) n (cell c κ)))
          ∗ (bigSep Finset.univ fun κ : Kind => iprop(atPos ER (cell c κ) 0 ∅ 0 ∗ reached ER (cell c κ) 0))
          ∗ (bigSep Finset.univ fun κ : Kind => dutyTok ER (cell c κ) 0 ())) : sProp 𝕄)
      ⊢ bigSep Finset.univ (G' H) := by
  rw [bigSep_sep', bigSep_sep', ← bigSep_univ_prod (fun ck : Dev nD × Kind => iprop(∃ n : ℕ, cellInv ER (sched H) n (cell ck.1 ck.2))),
    bigSep_congr (s := Finset.univ) (fun (c : Dev nD) _ => bigSep_sep' Finset.univ (fun κ : Kind => (atPos ER (cell c κ) 0 ∅ 0 : sProp 𝕄)) (fun κ => reached ER (cell c κ) 0)),
    bigSep_sep', ← bigSep_univ_prod (fun ck : Dev nD × Kind => (reached ER (cell ck.1 ck.2) 0 : sProp 𝕄))]
  iintro ⟨HI, ⟨Hat, #HR⟩, Htok⟩
  ihave HK := (BI.bigSep_exists_pi Finset.univ (fun (ck : Dev nD × Kind) (n : ℕ) => (cellInv ER (sched H) n (cell ck.1 ck.2) : sProp 𝕄))) $$ HI
  icases HK with ⟨%K, #HI⟩
  ihave Htk := (toks_around (F := F)) $$ Htok
  iapply (bigSep_with_persistent (R := records H K) fun c _ => ghost_intro H K c)
  isplitr
  · unfold records; isplitl; · iexact HI
    iexact HR
  · iapply ((Entails.of_eq (bigSep_sep' Finset.univ (fun c : Dev nD => bigSep Finset.univ fun κ : Kind => (atPos ER (cell c κ) 0 ∅ 0 : sProp 𝕄))
        (fun c : Dev nD => bigSep Finset.univ fun κ : Kind => dutyTok ER (cell (payer c κ) κ) 0 ())).symm).trans
      (bigSep_mono fun c _ => show _ ⊢ linear (F := F) c from Entails.of_eq rfl))
    isplitl [Hat]; · iexact Hat
    iexact Htk

/-- The global step: the eighteen own and the one unscoped semaphore of every device at once. -/
theorem glob : (bigSep Finset.univ fun c => iprop(Pipeline.ownSems0 (Ix := Unit) (Name := ℕ) (U := UU) (Lvl := ℕ) (Val := Elt F) (τ := τ) osem c ∗ unscopedSems0 c ∗ G H c) : sProp 𝕄)
    ⊢ |={Set.univ}=> bigSep Finset.univ (G' H) :=
  ((bigSep_mono fun c _ => core_alloc H c).trans (bigSep_fupd _ _)).trans (BI.fupd_mono (regroup H))

/-! ### The launch credit -/

omit [FloatOps F] in
/-- What the partner owes a device's handshake and receive cells is dealt to the device as their credit. -/
theorem creds_intro (c : Dev nD) : (Pipeline.launchCred O₀ c : sProp 𝕄) ⊢ creds c := by
  unfold O₀ creds
  rw [Pipeline.launchCred_add, Pipeline.launchCred_add, Pipeline.launchCred_add, Pipeline.launchCred_add, Pipeline.launchCred_add,
    Pipeline.launchCred_add, Pipeline.launchCred_add, Pipeline.launchCred_add, Pipeline.launchCred_add]
  iintro ⟨⟨⟨⟨⟨⟨⟨⟨⟨H7, H6⟩, HS⟩, H5⟩, H4⟩, H3⟩, H2⟩, H1⟩, H0⟩, HB⟩
  isplitl [HB]; · iapply (Pipeline.launchCred_tallyAt (SemLoc.reg barS) peer peer peer_peer peer_peer () 1 c); iexact HB
  isplitl [H0]; · iapply (Pipeline.launchCred_tallyAt (SemLoc.dma (recvS 0)) peer peer peer_peer peer_peer () NC c); iexact H0
  isplitl [H1]; · iapply (Pipeline.launchCred_tallyAt (SemLoc.dma (recvS 1)) peer peer peer_peer peer_peer () NC c); iexact H1
  isplitl [H2]; · iapply (Pipeline.launchCred_tallyAt (SemLoc.dma (recvS 2)) peer peer peer_peer peer_peer () NC c); iexact H2
  isplitl [H3]; · iapply (Pipeline.launchCred_tallyAt (SemLoc.dma (recvS 3)) peer peer peer_peer peer_peer () NC c); iexact H3
  isplitl [H4]; · iapply (Pipeline.launchCred_tallyAt (SemLoc.dma (recvS 4)) peer peer peer_peer peer_peer () NC c); iexact H4
  isplitl [H5]; · iapply (Pipeline.launchCred_tallyAt (SemLoc.dma (recvS 5)) peer peer peer_peer peer_peer () NC c); iexact H5
  isplitl [H6]; · iapply (Pipeline.launchCred_tallyAt (SemLoc.dma (recvS 6)) peer peer peer_peer peer_peer () NC c); iexact H6
  isplitl [H7]; · iapply (Pipeline.launchCred_tallyAt (SemLoc.dma (recvS 7)) peer peer peer_peer peer_peer () NC c); iexact H7
  iapply (Pipeline.launchCred_tallyAt (SemLoc.dma srecvS) peer peer peer_peer peer_peer () NR c); iexact HS

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' H c)
      ⊢ |={Set.univ}=> iprop(start H c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start H c ∗ Pipeline.prefHeld Pipeline.Prefetch.none c (fun _ => fullShare.right) (fun k => k.elim0) ∗ Pipeline.scopedRest cfg0.spec c)
      ⊢ (dats H m 0 c).Φ 0 := by
  rw [show (dats H m 0 c).Φ 0 = Φ₀ H c from rfl, scopedRest0_eq]
  unfold Φ₀ scr
  iintro ⟨Hs, -, Hr⟩
  isplitl [Hs]; · iexact Hs
  iexact Hr

theorem phi1_exit (c : Dev nD) :
    (dats H m 0 c).Φ (Fin.last cfg0.N) ⊢ iprop(emp ∗ Pipeline.ownSems0 osem c ∗ Pipeline.scopedRest cfg0.spec c) := by
  rw [show (dats H m 0 c).Φ (Fin.last cfg0.N) = Φ₁ (F := F) c from rfl, scopedRest0_eq, ownSems0_eq]
  unfold Φ₁ scr
  iintro ⟨Hr, Hz⟩
  isplitr; · iempintro
  isplitl [Hz]; · iexact Hz
  iexact Hr

/-- The pipeline's own staging semaphores carry no cell of the exchange. -/
theorem stage_kind : ∀ (w : Fin cfg0.W) (s : Fin (cfg0.win w).nbuf), kindOf (SemLoc.dma ((cfg0.win w).sem s)) = none := by
  intro w s; fin_cases w <;> fin_cases s <;> decide

theorem lv_stage (c : Dev nD) (w : Fin cfg0.W) (s : Fin (cfg0.win w).nbuf) : lv ((c : Thread nD τ), SemLoc.dma ((cfg0.win w).sem s)) () = 0 := by
  show (match kindOf (SemLoc.dma ((cfg0.win w).sem s)) with | some κ => lvK κ | none => 0) = 0
  rw [stage_kind]

theorem waits (c : Dev nD) : (levAts L lv : sProp 𝕄) ⊢ Pipeline.cellsWaits cfgs (dats H m) () 0 c :=
  Pipeline.cellsWaits_intro cfgs (dats H m) () 0 c fun w s t =>
    mayWait_low c _ (lv_stage c w s) _ (by
      rcases t with ⟨_ | _, ht⟩
      · exact Or.inl rfl
      · exact Or.inr rfl)

/-! ### The run -/

set_option maxRecDepth 8000 in
/-- At the compiled mesh of thirty-two devices, for any float values, from any memory with zero counters: every weakly
    fair execution of the sixteen pairwise exchanges terminates, and every final state has each device's windowed arrays
    at the contents the proof data computes. -/
theorem run_main (hbody : ∀ c : Dev nD, BodyObligation (dats (F := F) H m 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats H m 0 c).arrAt w cfg0.N) :=
  Pipeline.θ_run_region_owing_glob_pf (fun p => (cfgs p).toPCfg) (fun p => (cfgs p).toPCfg_adm) (dats H m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq H m)
    (hdistinct := winFacts0.arr_inj)
    (O₀ := O₀) (howed₀ := fun _ => rfl) (howedN := fun _ => rfl)
    (L := L) (lv := lv) (hL := L_of_ne) (hwaits := waits H m)
    (G := G H) (G' := G' H) (u₀ := u₀)
    (hu₀ := by
      unfold u₀
      iintro Hu
      ihave Hp := (ownU_pair _ _) $$ Hu
      icases Hp with ⟨HP, HX⟩
      imod (fund_ring H) $$ HX with HG
      imodintro
      isplitl [HP] <;> iassumption)
    (hglob := glob H)
    (hA := fun _ _ => rfl) (hpf := fun _ k => k.elim0)
    (X := start H) (Y := fun _ => iprop(emp)) (Z := fun _ => iprop(emp))
    (hX := start_intro H m ρ) (hin := phi0_intro H m) (hout := phi1_exit H m)
    (QY := fun _ _ => True)
    (hY := fun c s' => by
      iintro ⟨-, -, HSI⟩
      imodintro
      isplitr; · ipureintro; trivial
      iexact HSI)
    (hQ := fun _ h c w => (h c).1 w)

/-! ### What the run leaves in the arrays -/

/-- The argument arrays end as they began. -/
theorem frame_main (hbody : ∀ c : Dev nD, BodyObligation (dats (F := F) H m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c) 0).trans ((dats H m 0 c).arrAt_in 0 rfl _), ((h c) 1).trans ((dats H m 0 c).arrAt_in 1 rfl _)⟩) (run_main H m ρ hbody)

/-- The result's window is written back at the one point and its block is the whole array: the array ends holding
    what the body left in the staging buffer. -/
theorem out_final (c : Dev nD) : (dats H m 0 c).arrAt 2 cfg0.N = H.OUT c := by
  have h := (dats H m 0 c).arrAt_succ 2 t0_0
  rw [flush0_2, if_pos rfl] at h
  refine (show (dats H m 0 c).arrAt 2 cfg0.N = _ from h).trans ?_
  exact Memref.write_access_unit_zero_univ (Elt F) main_v1 (by funext a; fin_cases a <;> rfl) _ _ _

/-- The run with everything the claims read: the argument arrays unchanged, the result array at `H.OUT`. -/
theorem run_full (hbody : ∀ c : Dev nD, BodyObligation (dats (F := F) H m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = H.OUT c) :=
  (θ_run defs _ _).mono (fun _ h c => ⟨((h c) 0).trans ((dats H m 0 c).arrAt_in 0 rfl _), ((h c) 1).trans ((dats H m 0 c).arrAt_in 1 rfl _),
    ((h c) 2).trans (out_final H m c)⟩) (run_main H m ρ hbody)

/-- The result array alone. -/
theorem result_main (hbody : ∀ c : Dev nD, BodyObligation (dats (F := F) H m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = H.OUT c) :=
  (θ_run defs _ _).mono (fun _ h c => (h c).2.2) (run_full H m ρ hbody)

end Cert.Kernel.Dist

end
-- ==== Proof.Law.lean ====
/-
  The one law of extended reals that joins the two arrangements of the normalised exponential.

  For real numbers l j (j over a finite nonempty index type) and a real shift m,
    exp (l i - m) / (0 + ∑ j, exp (l j - m)) = exp (l i) * (1 / ∑ j, exp (l j)),
  the left side being "subtract the shift, exponentiate, divide by the row's sum" and the right side
  "exponentiate, multiply by the reciprocal of the row's sum".  Both sums are positive reals, so both
  quotients are products with a real reciprocal, and the identity is exp (a - m) = exp a / exp m in ℝ.
  Also: a finite sum of (coerced) reals is the coerced real sum, and the fold of max from −∞ over a
  nonempty finite set is attained at one of its members.
-/
import proofs.«900347_g7700000000000348_dist_arsfmx_v7x_xyz2x4x4_x_t256_d512_v4096_bf16_1_alg».proof.Proof.Spec

noncomputable section

open scoped BigOperators

namespace Cert.RowSoftmax

open Idealize.ShloMosaic

/-- A finite sum of coerced reals is the coerced real sum. -/
theorem coe_sum {ι : Type*} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- If every term is a real, so is the finite sum. -/
theorem sum_real {ι : Type*} (s : Finset ι) (f : ι → EReal) (hf : ∀ j, ∃ a : ℝ, f j = (a : EReal)) :
    ∃ a : ℝ, ∑ j ∈ s, f j = (a : EReal) := by
  choose g hg using hf
  exact ⟨∑ j ∈ s, g j, by rw [← coe_sum]; exact Finset.sum_congr rfl fun j _ => hg j⟩

/-- The product of two reals is a real. -/
theorem mul_real {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- The fold of max from −∞ over a nonempty finite set is the value at one of its members. -/
theorem fold_max_bot_attained {ι : Type*} (f : ι → EReal) {s : Finset ι} (hs : s.Nonempty) :
    ∃ k ∈ s, s.fold max ⊥ f = f k := by
  induction hs using Finset.Nonempty.cons_induction with
  | singleton a =>
    exact ⟨a, Finset.mem_singleton_self a, by rw [Finset.fold_singleton]; exact max_bot_right _⟩
  | cons a s ha hs ih =>
    obtain ⟨k, hk, e⟩ := ih
    rw [Finset.fold_cons, e]
    rcases max_choice (f a) (f k) with h | h
    · exact ⟨a, Finset.mem_cons_self a s, h⟩
    · exact ⟨k, Finset.mem_cons.2 (Or.inr hk), h⟩

/-- The shift law: subtracting a real shift before exponentiating and dividing by the sum (started from 0)
    gives the exponential times the reciprocal of the unshifted sum. -/
theorem shift_law {ι : Type*} [Fintype ι] [Nonempty ι] (l : ι → ℝ) (m : ℝ) (i : ι) :
    Ideal.div (Ideal.exp ((l i : EReal) - (m : EReal))) (0 + ∑ j, Ideal.exp ((l j : EReal) - (m : EReal)))
      = Ideal.exp (l i : EReal) * Ideal.div one (∑ j, Ideal.exp (l j : EReal)) := by
  have hpos1 : 0 < ∑ j, Real.exp (l j - m) := Finset.sum_pos (fun j _ => Real.exp_pos _) Finset.univ_nonempty
  have hpos2 : 0 < ∑ j, Real.exp (l j) := Finset.sum_pos (fun j _ => Real.exp_pos _) Finset.univ_nonempty
  simp only [← EReal.coe_sub, Ideal.exp_coe, coe_sum, zero_add]
  rw [Ideal.div_coe hpos1.ne', one_eq, Ideal.div_coe hpos2.ne', one_mul, ← EReal.coe_mul, ← EReal.coe_mul]
  congr 1
  have hs : ∑ j, Real.exp (l j - m) = (∑ j, Real.exp (l j)) / Real.exp m := by
    rw [Finset.sum_div]; exact Finset.sum_congr rfl fun j _ => Real.exp_sub _ _
  rw [hs, Real.exp_sub]
  have := Real.exp_pos m
  field_simp

end Cert.RowSoftmax

end
-- ==== Proof.RefValue.lean ====
/-
  The reference computes the specification.

  The reference forms the product x @ W, each row's maximum m, exp (logit - m), each row's sum of
  those (started from 0), and the quotient.  When every entry of x and W is a real number each
  logit is a real number, the row's maximum is one of the row's logits (the fold of max from −∞
  over the 8192 columns is attained), hence real, and the shift law turns the quotient into
  exp (logit) times the reciprocal of the row's sum of exp (logit): the specification's entry.
-/
import proofs.«900347_g7700000000000348_dist_arsfmx_v7x_xyz2x4x4_x_t256_d512_v4096_bf16_1_alg».proof.Proof.Law
import proofs.«900347_g7700000000000348_dist_arsfmx_v7x_xyz2x4x4_x_t256_d512_v4096_bf16_1_alg».proof.Proof.Gen.ReferenceIdeal.Read
import Idealize.ShloMosaic.PureOps.Ideal.Laws
import Idealize.ShloMosaic.PureOps.Reduce

noncomputable section

open scoped BigOperators

namespace Cert.RowSoftmax.Ref

open Cert.ReferenceIdeal Cert.ReferenceIdeal.Gen Cert.ReferenceIdeal.Read Cert.RowSoftmax
open Idealize.ShloMosaic Idealize.ShloMosaic.ValueIdx

variable (x0 : (⟨S256x512, .f32⟩ : BufTy).Contents (Elt Ideal)) (x1 : (⟨S512x8192, .f32⟩ : BufTy).Contents (Elt Ideal))

/-- The product stage at (r, j) is the specification's logit there. -/
theorem product_eq_logit (r : Fin 256) (j : Fin 8192) :
    val_main_v0 (F := Ideal) x0 x1 (ix2 r j) = logit x0 x1 r j := by
  rw [val_main_v0_apply]
  unfold logit
  refine Finset.sum_congr rfl fun k _ => ?_
  have el : lidx_main_v0 (ix2 r j) k = ix2 r k := funext fun a => by
    match a with | ⟨0, _⟩ => rfl | ⟨1, _⟩ => rfl
  have er : ridx_main_v0 (ix2 r j) k = ix2 k j := funext fun a => by
    match a with | ⟨0, _⟩ => rfl | ⟨1, _⟩ => rfl
  rw [el, er]

/-- For any array y of the product's shape: row r's maximum of y (the fold of max from −∞ over the
    8192 columns) is y at some index. -/
theorem rowMax_attained_of (y : S256x8192.Idx → Ideal .f32) (r : Fin 256) :
    ∃ (r' : Fin 256) (j' : Fin 8192),
      Host.reduce (FloatOps.maximumf (F := Ideal) (φ := .f32)) y (val_main_cst (F := Ideal))
          reducesTo_S256x8192_S256_d1 h_S_ (ix1 r)
        = y (ix2 r' j') := by
  have h : S256x8192.Reduces [1] S256 := by decide
  have hb : val_main_cst (F := Ideal) (Shape.Idx.first h_S_) = ⊥ := by
    rw [val_main_cst_apply]; simp [Ideal.ofBits, Ideal.ieee]
  have hne : (Finset.univ : Finset (Fin (S256x8192.size 1))).Nonempty := ⟨⟨0, by decide⟩, Finset.mem_univ _⟩
  obtain ⟨k, _, e⟩ := fold_max_bot_attained (y ∘ h.lift (ix1 r)) hne
  obtain ⟨a, b, hab⟩ : ∃ (a : Fin 256) (b : Fin 8192), h.lift (ix1 r) k = ix2 a b := ⟨_, _, eq_ix2 _⟩
  refine ⟨a, b, ?_⟩
  rw [Host.reduce_eq_fold_single (FloatOps.maximumf (F := Ideal) (φ := .f32)) y _ reducesTo_S256x8192_S256_d1 h h_S_ (ix1 r), hb, ← hab]
  exact e

/-- Row r's maximum is the product stage at some index. -/
theorem rowMax_attained (r : Fin 256) :
    ∃ (r' : Fin 256) (j' : Fin 8192),
      val_main_v1 (F := Ideal) x0 x1 (ix1 r) = val_main_v0 (F := Ideal) x0 x1 (ix2 r' j') :=
  rowMax_attained_of (val_main_v0 (F := Ideal) x0 x1) r

/-- The broadcast maximum at (r, j) is row r's maximum. -/
theorem rowMax_bcast (r : Fin 256) (j : Fin 8192) :
    val_main_v3 (F := Ideal) x0 x1 (ix2 r j) = val_main_v1 (F := Ideal) x0 x1 (ix1 r) := by
  rw [val_main_v3_apply, val_main_v2_apply]
  exact congrArg _ (funext fun a => by match a with | ⟨0, _⟩ => rfl)

/-- The exponential stage at (r, j): exp (logit − row r's maximum). -/
theorem exp_stage (r : Fin 256) (j : Fin 8192) :
    val_main_v5 (F := Ideal) x0 x1 (ix2 r j)
      = Ideal.exp (logit x0 x1 r j - val_main_v1 (F := Ideal) x0 x1 (ix1 r)) := by
  rw [val_main_v5_apply, val_main_v4_apply, rowMax_bcast, product_eq_logit]
  rfl

/-- The broadcast row sum at (r, j): 0 plus the sum over row r's 8192 columns of the exponential stage. -/
theorem sum_stage (r : Fin 256) (j : Fin 8192) :
    val_main_v8 (F := Ideal) x0 x1 (ix2 r j)
      = 0 + ∑ k : Fin 8192, Ideal.exp (logit x0 x1 r k - val_main_v1 (F := Ideal) x0 x1 (ix1 r)) := by
  rw [val_main_v8_apply, val_main_v7_apply, val_main_v6_apply, val_main_cst_0_apply]
  show Ideal.ofBits .f32 0x00000000#32 + _ = _
  rw [Ideal.ofBits_zero_f32]
  refine congrArg (0 + ·) (Finset.sum_congr rfl fun k _ => ?_)
  have ei : idx_main_v6 (idx_main_v7 (idx_main_v8 (ix2 r j))) k = ix2 r k := funext fun a => by
    match a with | ⟨0, _⟩ => rfl | ⟨1, _⟩ => rfl
  rw [ei, exp_stage]

/-- THE REFERENCE IS THE SPECIFICATION: with every entry of x and W a real number, the reference's last
    stage is G of the two arrays. -/
theorem ref_eq_G (hx : ∀ i, ∃ a : ℝ, x0 i = (a : EReal)) (hW : ∀ i, ∃ a : ℝ, x1 i = (a : EReal)) :
    val_main_v10 (F := Ideal) x0 x1 = G x0 x1 := by
  have hl : ∀ r j, ∃ a : ℝ, logit x0 x1 r j = (a : EReal) := fun r j =>
    sum_real _ _ fun k => mul_real (hx _) (hW _)
  choose L hL using hl
  funext (i : S256x8192.Idx)
  obtain ⟨r, j, rfl⟩ : ∃ (r : Fin 256) (j : Fin 8192), i = ix2 r j := ⟨i 0, i 1, eq_ix2 i⟩
  obtain ⟨M, hM⟩ : ∃ M : ℝ, val_main_v1 (F := Ideal) x0 x1 (ix1 r) = (M : EReal) := by
    obtain ⟨r', j', e⟩ := rowMax_attained x0 x1 r
    exact ⟨L r' j', by rw [e, product_eq_logit, hL]⟩
  haveI : Nonempty (Fin 8192) := ⟨0⟩
  rw [G_ix2, val_main_v10_apply, val_main_v9_apply, exp_stage, sum_stage, hM]
  unfold rowSum
  simp only [hL]
  exact shift_law (L r) M j

end Cert.RowSoftmax.Ref

end
-- ==== Proof.Finite.lean ====
/-
  Finiteness: from the precondition to "every entry is a real number".

  The precondition's function answers one bit: the conjunction over both argument arrays of
  "|entry| < +∞" at every index.  If that bit is 1 then every entry of both arrays is a real
  number (neither −∞ nor +∞).  When the second array is, on each of the 32 devices, the device's
  block of a whole [512, 8192] array cut along its columns into 2 blocks of 4096 (the block the
  device's first mesh coordinate names), every column of the whole array lies in the block of
  device 0 (columns below 4096) or of device 16 (the others), so every entry of the whole array
  is a real number too.
-/
import proofs.«900347_g7700000000000348_dist_arsfmx_v7x_xyz2x4x4_x_t256_d512_v4096_bf16_1_alg».proof.Pre_finite_inputs_Kernel
import proofs.«900347_g7700000000000348_dist_arsfmx_v7x_xyz2x4x4_x_t256_d512_v4096_bf16_1_alg».proof.Proof.Spec
import Idealize.ShloMosaic.Lib.ReduceAll
import Idealize.ShloMosaic.Lib.ValueIdx
import Idealize.ShloMosaic.Lib.Layout
import Idealize.ShloMosaic.PureOps.Ideal.Laws

noncomputable section

namespace Cert.RowSoftmax.Finite

open Idealize.ShloMosaic Idealize.ShloMosaic.ValueIdx Cert.RowSoftmax
open Cert.Pre_finite_inputs_Kernel (fn S_ S256x512 S512x4096)

variable [Cert.Pre_finite_inputs_Kernel.Facts]

/-- The scalar shape has one index. -/
local instance : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- If the precondition's function is all ones on two arrays, every entry of both is a real number. -/
theorem real_of_fn (a0 : FVec Ideal S256x512 .f32) (a1 : FVec Ideal S512x4096 .f32)
    (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨h1, h2⟩ := IntOp.andi_eq_one.1 h0
  exact ⟨fun i => real_of_abs_lt_top _ (Host.reduce_andi_all _ _ _ _ _ h1 i),
    fun i => real_of_abs_lt_top _ (Host.reduce_andi_all _ _ _ _ _ h2 i)⟩

/-- Device 0 holds block 0 of the columns, device 16 block 1; neither cuts the rows. -/
theorem blk_dev0 : ((Layout.meshBlock [2, 4, 4] ![[], [0]] (0 : Fin 32)) 0).val = 0
    ∧ ((Layout.meshBlock [2, 4, 4] ![[], [0]] (0 : Fin 32)) 1).val = 0 := by decide
theorem blk_dev16 : ((Layout.meshBlock [2, 4, 4] ![[], [0]] (16 : Fin 32)) 0).val = 0
    ∧ ((Layout.meshBlock [2, 4, 4] ![[], [0]] (16 : Fin 32)) 1).val = 1 := by decide

/-- WHOLE ARRAYS ARE REAL: if on every device the precondition's function is all ones on the whole first
    array and the device's column block of the whole second array, every entry of both whole arrays is a
    real number. -/
theorem whole_real (X : SX.Idx → EReal) (Wh : SW.Idx → EReal)
    (h : ∀ c : Fin 32, fn (F := Ideal) X
      (Layout.blockN ⟨2, ![512, 4096]⟩ ⟨2, ![512, 8192]⟩ (Layout.meshBlock [2, 4, 4] ![[], [0]] c) Wh) = fun _ => 1#1) :
    (∀ i, ∃ r : ℝ, X i = (r : EReal)) ∧ (∀ i, ∃ r : ℝ, Wh i = (r : EReal)) := by
  refine ⟨(real_of_fn _ _ (h 0)).1, fun i => ?_⟩
  obtain ⟨k, j, rfl⟩ : ∃ (k : Fin 512) (j : Fin 8192), i = ix2 k j := ⟨i 0, i 1, eq_ix2 i⟩
  by_cases hj : j.val < 4096
  · obtain ⟨r, hr⟩ := (real_of_fn _ _ (h 0)).2 (ix2 k (⟨j.val, hj⟩ : Fin 4096))
    refine ⟨r, hr.symm.trans ?_ |>.symm⟩
    rw [Layout.blockN_apply]
    refine congrArg Wh (funext fun b => Fin.ext ?_)
    rw [Layout.TilesN.idx_val]
    match b with
    | ⟨0, _⟩ =>
      have e := blk_dev0.1
      show ((Layout.meshBlock [2, 4, 4] ![[], [0]] (0 : Fin 32)) 0).val * 512 + k.val = k.val
      omega
    | ⟨1, _⟩ =>
      have e := blk_dev0.2
      show ((Layout.meshBlock [2, 4, 4] ![[], [0]] (0 : Fin 32)) 1).val * 4096 + j.val = j.val
      omega
  · obtain ⟨r, hr⟩ := (real_of_fn _ _ (h 16)).2 (ix2 k (⟨j.val - 4096, by omega⟩ : Fin 4096))
    refine ⟨r, hr.symm.trans ?_ |>.symm⟩
    rw [Layout.blockN_apply]
    refine congrArg Wh (funext fun b => Fin.ext ?_)
    rw [Layout.TilesN.idx_val]
    match b with
    | ⟨0, _⟩ =>
      have e := blk_dev16.1
      show ((Layout.meshBlock [2, 4, 4] ![[], [0]] (16 : Fin 32)) 0).val * 512 + k.val = k.val
      omega
    | ⟨1, _⟩ =>
      have e := blk_dev16.2
      show ((Layout.meshBlock [2, 4, 4] ![[], [0]] (16 : Fin 32)) 1).val * 4096 + (j.val - 4096) = j.val
      omega

end Cert.RowSoftmax.Finite

end
-- ==== Proof.lean ====
/-
  The certificate of a softmax over the columns of `x · W` computed by sixteen pairs of devices, each device holding
  all of `x` and one half of `W`'s columns, against one device computing `exp (l - max l) / Σ exp (l - max l)` over
  the whole arrays.

  Each device computes `exp` of its own half of the logits, chunk by chunk, and the row sums of that half; the two
  devices of a pair exchange their chunks and their row sums; each then divides both halves by the sum of the two
  row-sum vectors. Over the extended reals that is the reference's value wherever every input is a real number:
  the logits are then real, so is their row maximum, and `exp (l - m) / Σ_j exp (l_j - m) = exp l · (1 / Σ_j exp l_j)`;
  the sum over all columns is the sum of the two halves' sums in either order.

  The frames are the run of the exchange (every wait of a device lies below what it still owes, so every fair
  interleaving of the thirty-two devices terminates) read at the argument arrays; the value conjunct is that run
  at the extended reals read at the result, beside the reference's own run.
-/
import proofs.«900347_g7700000000000348_dist_arsfmx_v7x_xyz2x4x4_x_t256_d512_v4096_bf16_1_alg».proof.Defs
import proofs.«900347_g7700000000000348_dist_arsfmx_v7x_xyz2x4x4_x_t256_d512_v4096_bf16_1_alg».proof.Proof.Gen.Kernel
import proofs.«900347_g7700000000000348_dist_arsfmx_v7x_xyz2x4x4_x_t256_d512_v4096_bf16_1_alg».proof.Proof.Gen.Kernel.Skeleton
import proofs.«900347_g7700000000000348_dist_arsfmx_v7x_xyz2x4x4_x_t256_d512_v4096_bf16_1_alg».proof.Proof.Gen.Kernel.Launch
import proofs.«900347_g7700000000000348_dist_arsfmx_v7x_xyz2x4x4_x_t256_d512_v4096_bf16_1_alg».proof.Proof.Gen.Kernel.Points
import proofs.«900347_g7700000000000348_dist_arsfmx_v7x_xyz2x4x4_x_t256_d512_v4096_bf16_1_alg».proof.Proof.Gen.Kernel.Frame
import proofs.«900347_g7700000000000348_dist_arsfmx_v7x_xyz2x4x4_x_t256_d512_v4096_bf16_1_alg».proof.Proof.Gen.KernelIdeal
import proofs.«900347_g7700000000000348_dist_arsfmx_v7x_xyz2x4x4_x_t256_d512_v4096_bf16_1_alg».proof.Proof.Gen.KernelIdeal.Skeleton
import proofs.«900347_g7700000000000348_dist_arsfmx_v7x_xyz2x4x4_x_t256_d512_v4096_bf16_1_alg».proof.Proof.Gen.KernelIdeal.Launch
import proofs.«900347_g7700000000000348_dist_arsfmx_v7x_xyz2x4x4_x_t256_d512_v4096_bf16_1_alg».proof.Proof.Gen.KernelIdeal.Points
import proofs.«900347_g7700000000000348_dist_arsfmx_v7x_xyz2x4x4_x_t256_d512_v4096_bf16_1_alg».proof.Proof.Gen.KernelIdeal.Frame
import proofs.«900347_g7700000000000348_dist_arsfmx_v7x_xyz2x4x4_x_t256_d512_v4096_bf16_1_alg».proof.Proof.Gen.ReferenceIdeal
import proofs.«900347_g7700000000000348_dist_arsfmx_v7x_xyz2x4x4_x_t256_d512_v4096_bf16_1_alg».proof.Proof.Gen.Pre_finite_inputs_Kernel
import proofs.«900347_g7700000000000348_dist_arsfmx_v7x_xyz2x4x4_x_t256_d512_v4096_bf16_1_alg».proof.Proof.Gen.Pre_finite_inputs_ReferenceIdeal
import proofs.«900347_g7700000000000348_dist_arsfmx_v7x_xyz2x4x4_x_t256_d512_v4096_bf16_1_alg».proof.Proof.Gen.ReferenceIdeal.Run
import proofs.«900347_g7700000000000348_dist_arsfmx_v7x_xyz2x4x4_x_t256_d512_v4096_bf16_1_alg».proof.Proof.Gen.ReferenceIdeal.Read
import proofs.«900347_g7700000000000348_dist_arsfmx_v7x_xyz2x4x4_x_t256_d512_v4096_bf16_1_alg».proof.Proof.Launch
import proofs.«900347_g7700000000000348_dist_arsfmx_v7x_xyz2x4x4_x_t256_d512_v4096_bf16_1_alg».proof.Proof.HeldOf
import proofs.«900347_g7700000000000348_dist_arsfmx_v7x_xyz2x4x4_x_t256_d512_v4096_bf16_1_alg».proof.Proof.BodyOb
import proofs.«900347_g7700000000000348_dist_arsfmx_v7x_xyz2x4x4_x_t256_d512_v4096_bf16_1_alg».proof.Proof.OutValue
import proofs.«900347_g7700000000000348_dist_arsfmx_v7x_xyz2x4x4_x_t256_d512_v4096_bf16_1_alg».proof.Proof.Bits.HeldOf
import proofs.«900347_g7700000000000348_dist_arsfmx_v7x_xyz2x4x4_x_t256_d512_v4096_bf16_1_alg».proof.Proof.Bits.BodyOb
import proofs.«900347_g7700000000000348_dist_arsfmx_v7x_xyz2x4x4_x_t256_d512_v4096_bf16_1_alg».proof.Proof.Arrays
import proofs.«900347_g7700000000000348_dist_arsfmx_v7x_xyz2x4x4_x_t256_d512_v4096_bf16_1_alg».proof.Proof.Terms
import proofs.«900347_g7700000000000348_dist_arsfmx_v7x_xyz2x4x4_x_t256_d512_v4096_bf16_1_alg».proof.Proof.Bits.Launch
import proofs.«900347_g7700000000000348_dist_arsfmx_v7x_xyz2x4x4_x_t256_d512_v4096_bf16_1_alg».proof.Proof.RefValue
import proofs.«900347_g7700000000000348_dist_arsfmx_v7x_xyz2x4x4_x_t256_d512_v4096_bf16_1_alg».proof.Proof.Finite
import proofs.«900347_g7700000000000348_dist_arsfmx_v7x_xyz2x4x4_x_t256_d512_v4096_bf16_1_alg».proof.Proof.Blocks
import Idealize.ShloMosaic.Adequacy
import Idealize.ShloMosaic.Init

noncomputable section

namespace Cert.Proof

open Idealize.ShloMosaic Idealize.SL.Sem
open Idealize.ShloMosaic.Pipeline (BodyObligation)
open Cert.RowSoftmax

/-! ## The three frames -/

/-- The word-level kernel's frame, from its run. -/
theorem frame_Kernel_of
    (heldOf : ((ℓ : Loc Cert.Kernel.nD Cert.Kernel.τ Cert.Kernel.sig) → Buf (Elt Bits) ℓ) → Cert.Kernel.Dist.Held Bits)
    (body : ∀ (m : (ℓ : Loc Cert.Kernel.nD Cert.Kernel.τ Cert.Kernel.sig) → Buf (Elt Bits) ℓ) (c : Dev Cert.Kernel.nD),
      BodyObligation (Cert.Kernel.Dist.dats (F := Bits) (heldOf m) m 0 c) (Cert.Kernel.defs₀ (F := Bits)) Cert.Kernel.Dist.𝒱₀ () Set.univ) :
    Cert.frame_Kernel (hKernel := Cert.Kernel.Gen.facts) (hPre_finite_inputs_Kernel := Cert.Pre_finite_inputs_Kernel.Gen.facts) :=
  fun m g _ => Cert.Kernel.Dist.frame_main (heldOf m) m g (body m)

/-- The idealized kernel's frame, from its run. -/
theorem frame_KernelIdeal_of
    (heldOf : ((ℓ : Loc Cert.KernelIdeal.nD Cert.KernelIdeal.τ Cert.KernelIdeal.sig) → Buf (Elt Ideal) ℓ) → Cert.KernelIdeal.Dist.Held Ideal)
    (body : ∀ (m : (ℓ : Loc Cert.KernelIdeal.nD Cert.KernelIdeal.τ Cert.KernelIdeal.sig) → Buf (Elt Ideal) ℓ) (c : Dev Cert.KernelIdeal.nD),
      BodyObligation (Cert.KernelIdeal.Dist.dats (F := Ideal) (heldOf m) m 0 c) (Cert.KernelIdeal.defs₀ (F := Ideal)) Cert.KernelIdeal.Dist.𝒱₀ () Set.univ) :
    Cert.frame_KernelIdeal (hKernelIdeal := Cert.KernelIdeal.Gen.facts) (hPre_finite_inputs_Kernel := Cert.Pre_finite_inputs_Kernel.Gen.facts) :=
  fun m g _ => Cert.KernelIdeal.Dist.frame_main (heldOf m) m g (body m)

/-- The reference's frame, from its generated run. -/
theorem frame_ReferenceIdeal :
    Cert.frame_ReferenceIdeal (hReferenceIdeal := Cert.ReferenceIdeal.Gen.facts) (hPre_finite_inputs_ReferenceIdeal := Cert.Pre_finite_inputs_ReferenceIdeal.Gen.facts) :=
  fun m g _ => (θ_run _ _ _).mono (fun _ h c => ⟨(h c).2.1, (h c).2.2⟩) (Cert.ReferenceIdeal.Value.run (F := Ideal) m g)

/-! ## The value -/

/-- The kernel against the reference at the ideal instance: every device's result is the specification `G` of the
    whole arrays, and so is the reference's. -/
theorem algebraic_of
    (heldOf : ((ℓ : Loc Cert.KernelIdeal.nD Cert.KernelIdeal.τ Cert.KernelIdeal.sig) → Buf (Elt Ideal) ℓ) → Cert.KernelIdeal.Dist.Held Ideal)
    (body : ∀ (m : (ℓ : Loc Cert.KernelIdeal.nD Cert.KernelIdeal.τ Cert.KernelIdeal.sig) → Buf (Elt Ideal) ℓ) (c : Dev Cert.KernelIdeal.nD),
      BodyObligation (Cert.KernelIdeal.Dist.dats (F := Ideal) (heldOf m) m 0 c) (Cert.KernelIdeal.defs₀ (F := Ideal)) Cert.KernelIdeal.Dist.𝒱₀ () Set.univ)
    (hOUT : ∀ (m : (ℓ : Loc Cert.KernelIdeal.nD Cert.KernelIdeal.τ Cert.KernelIdeal.sig) → Buf (Elt Ideal) ℓ) (X : SX.Idx → EReal) (W : SW.Idx → EReal),
      (∀ i, ∃ a : ℝ, X i = (a : EReal)) → (∀ i, ∃ a : ℝ, W i = (a : EReal)) →
      (∀ c : Dev Cert.KernelIdeal.nD, Cert.KernelIdeal.Dist.xs m c = X ∧ Cert.KernelIdeal.Dist.ws m c = devBlock c W) →
      ∀ c : Dev Cert.KernelIdeal.nD, (heldOf m).OUT c = G X W) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m g m' g' hPre hagree
  -- the whole arrays, and that they are real
  let X : SX.Idx → EReal := m' (((0 : Dev Cert.ReferenceIdeal.nD).tc : Thread Cert.ReferenceIdeal.nD Cert.ReferenceIdeal.τ).loc Cert.ReferenceIdeal.main_arg0)
  let W : SW.Idx → EReal := m' (((0 : Dev Cert.ReferenceIdeal.nD).tc : Thread Cert.ReferenceIdeal.nD Cert.ReferenceIdeal.τ).loc Cert.ReferenceIdeal.main_arg1)
  have hreal := Cert.RowSoftmax.Finite.whole_real X W (fun c => by
    have := hPre c; rw [(hagree c).1, (hagree c).2] at this; exact this)
  have hxw : ∀ c : Dev Cert.KernelIdeal.nD, Cert.KernelIdeal.Dist.xs m c = X ∧ Cert.KernelIdeal.Dist.ws m c = devBlock c W := fun c =>
    ⟨(Cert.KernelIdeal.Dist.xs_eq m c).trans (hagree c).1, (Cert.KernelIdeal.Dist.ws_eq m c).trans (hagree c).2⟩
  refine ⟨G X W, ?_, ?_⟩
  · exact (θ_run _ _ _).mono (fun _ h c => ⟨(h c).2.2.trans (hOUT m X W hreal.1 hreal.2 hxw c), (h c).1, (h c).2.1⟩)
      (Cert.KernelIdeal.Dist.run_full (heldOf m) m g (body m))
  · exact (θ_run _ _ _).mono (fun _ h => ⟨((h 0).1.trans (Cert.ReferenceIdeal.Read.val_main_v10_eq _ _)).trans (Cert.RowSoftmax.Ref.ref_eq_G X W hreal.1 hreal.2),
        (h 0).2.1, (h 0).2.2⟩)
      (Cert.ReferenceIdeal.Value.run (F := Ideal) m' g')

/-- The result's value for held contents of the form the exchange computes: the device's own eight chunks and row sums
    from its own arrays, the received ones from its partner's, all over fixed filler contents; from the value of that
    term on the whole arrays' blocks (`outValue`). -/
theorem hOUT_of
    (heldOf : ((ℓ : Loc Cert.KernelIdeal.nD Cert.KernelIdeal.τ Cert.KernelIdeal.sig) → Buf (Elt Ideal) ℓ) → Cert.KernelIdeal.Dist.Held Ideal)
    (fB : Cert.KernelIdeal.Dist.CB Ideal) (fS : Cert.KernelIdeal.Dist.CS Ideal) (fO : Cert.KernelIdeal.Dist.CO Ideal)
    (hdef : ∀ (m : (ℓ : Loc Cert.KernelIdeal.nD Cert.KernelIdeal.τ Cert.KernelIdeal.sig) → Buf (Elt Ideal) ℓ) (c : Dev Cert.KernelIdeal.nD),
      (heldOf m).OUT c = Cert.KernelIdeal.Dist.outAll fO c (Cert.KernelIdeal.Dist.xs m c) (Cert.KernelIdeal.Dist.ws m c)
        (Cert.KernelIdeal.Dist.sbAll fB (Cert.KernelIdeal.Dist.xs m (Cert.KernelIdeal.Dist.peer c)) (Cert.KernelIdeal.Dist.ws m (Cert.KernelIdeal.Dist.peer c)))
        (Cert.KernelIdeal.Dist.ssAll fS (Cert.KernelIdeal.Dist.xs m (Cert.KernelIdeal.Dist.peer c)) (Cert.KernelIdeal.Dist.ws m (Cert.KernelIdeal.Dist.peer c))))
    (outValue : ∀ (X : SX.Idx → EReal) (W : SW.Idx → EReal), (∀ i, ∃ a : ℝ, X i = (a : EReal)) → (∀ i, ∃ a : ℝ, W i = (a : EReal)) →
      ∀ c : Dev Cert.KernelIdeal.nD,
        Cert.KernelIdeal.Dist.outAll (F := Ideal) fO c X (devBlock c W)
          (Cert.KernelIdeal.Dist.sbAll (F := Ideal) fB X (devBlock (Cert.KernelIdeal.Dist.peer c) W))
          (Cert.KernelIdeal.Dist.ssAll (F := Ideal) fS X (devBlock (Cert.KernelIdeal.Dist.peer c) W)) = G X W) :
    ∀ (m : (ℓ : Loc Cert.KernelIdeal.nD Cert.KernelIdeal.τ Cert.KernelIdeal.sig) → Buf (Elt Ideal) ℓ) (X : SX.Idx → EReal) (W : SW.Idx → EReal),
      (∀ i, ∃ a : ℝ, X i = (a : EReal)) → (∀ i, ∃ a : ℝ, W i = (a : EReal)) →
      (∀ c : Dev Cert.KernelIdeal.nD, Cert.KernelIdeal.Dist.xs m c = X ∧ Cert.KernelIdeal.Dist.ws m c = devBlock c W) →
      ∀ c : Dev Cert.KernelIdeal.nD, (heldOf m).OUT c = G X W := fun m X W hX hW h c => by
  rw [hdef, (h c).1, (h c).2, (h (Cert.KernelIdeal.Dist.peer c)).1, (h (Cert.KernelIdeal.Dist.peer c)).2]
  exact outValue X W hX hW c

/-! ## The claim -/

theorem claim_of
    (heldOfK : ((ℓ : Loc Cert.Kernel.nD Cert.Kernel.τ Cert.Kernel.sig) → Buf (Elt Bits) ℓ) → Cert.Kernel.Dist.Held Bits)
    (bodyK : ∀ (m : (ℓ : Loc Cert.Kernel.nD Cert.Kernel.τ Cert.Kernel.sig) → Buf (Elt Bits) ℓ) (c : Dev Cert.Kernel.nD),
      BodyObligation (Cert.Kernel.Dist.dats (F := Bits) (heldOfK m) m 0 c) (Cert.Kernel.defs₀ (F := Bits)) Cert.Kernel.Dist.𝒱₀ () Set.univ)
    (heldOfI : ((ℓ : Loc Cert.KernelIdeal.nD Cert.KernelIdeal.τ Cert.KernelIdeal.sig) → Buf (Elt Ideal) ℓ) → Cert.KernelIdeal.Dist.Held Ideal)
    (bodyI : ∀ (m : (ℓ : Loc Cert.KernelIdeal.nD Cert.KernelIdeal.τ Cert.KernelIdeal.sig) → Buf (Elt Ideal) ℓ) (c : Dev Cert.KernelIdeal.nD),
      BodyObligation (Cert.KernelIdeal.Dist.dats (F := Ideal) (heldOfI m) m 0 c) (Cert.KernelIdeal.defs₀ (F := Ideal)) Cert.KernelIdeal.Dist.𝒱₀ () Set.univ)
    (hOUT : ∀ (m : (ℓ : Loc Cert.KernelIdeal.nD Cert.KernelIdeal.τ Cert.KernelIdeal.sig) → Buf (Elt Ideal) ℓ) (X : SX.Idx → EReal) (W : SW.Idx → EReal),
      (∀ i, ∃ a : ℝ, X i = (a : EReal)) → (∀ i, ∃ a : ℝ, W i = (a : EReal)) →
      (∀ c : Dev Cert.KernelIdeal.nD, Cert.KernelIdeal.Dist.xs m c = X ∧ Cert.KernelIdeal.Dist.ws m c = devBlock c W) →
      ∀ c : Dev Cert.KernelIdeal.nD, (heldOfI m).OUT c = G X W) :
    Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_Kernel_of heldOfK bodyK, frame_KernelIdeal_of heldOfI bodyI, frame_ReferenceIdeal, trivial, algebraic_of heldOfI bodyI hOUT⟩

/-- Everything the certificate claims. -/
theorem claim : Cert.Claim :=
  claim_of (fun m => Cert.Kernel.Dist.heldOf m) Cert.Kernel.Dist.body_obligation (fun m => Cert.KernelIdeal.Dist.heldOf m) Cert.KernelIdeal.Dist.body_obligation
    (hOUT_of (fun m => Cert.KernelIdeal.Dist.heldOf m) Cert.KernelIdeal.Dist.fillB Cert.KernelIdeal.Dist.fillS Cert.KernelIdeal.Dist.fillO
      (fun m c => by
        rw [Cert.KernelIdeal.Dist.heldOf_OUT, Cert.KernelIdeal.Dist.outOf_eq, Cert.KernelIdeal.Dist.rbOf_eq, Cert.KernelIdeal.Dist.srOf_eq,
          Cert.KernelIdeal.Dist.sbOf_eq, Cert.KernelIdeal.Dist.ssOf_eq])
      Cert.KernelIdeal.Dist.outValue)

end Cert.Proof

end
